-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v235)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v235) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v334) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x3200000 : Shape := ⟨2, ![2, 3200000]⟩
abbrev S100000 : Shape := ⟨1, ![100000]⟩
abbrev S1024x5 : Shape := ⟨2, ![1024, 5]⟩
abbrev S6x64 : Shape := ⟨2, ![6, 64]⟩
abbrev S64 : Shape := ⟨1, ![64]⟩
abbrev S64x64 : Shape := ⟨2, ![64, 64]⟩
abbrev S138x128 : Shape := ⟨2, ![138, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S1024x5 : S_.BroadcastsInDim S1024x5 (![] : Fin 0 → Fin S1024x5.rank)
  reducesTo_S1024x5_S_d0_1 : S1024x5.ReducesTo [0, 1] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S138x128 : S_.BroadcastsInDim S138x128 (![] : Fin 0 → Fin S138x128.rank)
  reducesTo_S138x128_S_d0_1 : S138x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg25 : FVec F S1 .f32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg25
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg22 : FVec F S128x64 .f32) (main_arg23 : FVec F S64 .f32) (main_arg24 : FVec F S64x1 .f32) (main_arg25 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x64 .f32 := Host.absf main_arg22
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg23
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x1 .f32 := Host.absf main_arg24
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg25 main_v98 main_v101 main_c_39

def fn_part4 {F : FTy → Type} [FloatOps F] (main_arg18 : FVec F S64 .f32) (main_arg19 : FVec F S64 .f32) (main_arg20 : FVec F S138x128 .f32) (main_arg21 : FVec F S128 .f32) (main_arg22 : FVec F S128x64 .f32) (main_arg23 : FVec F S64 .f32) (main_arg24 : FVec F S64x1 .f32) (main_arg25 : FVec F S1 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S138x128 .f32 := Host.absf main_arg20
  let main_cst_30 : FVec F S_ .f32 := constant S_ .f32 0x7F800000#32
  let main_v80 : FVec F S138x128 .f32 := broadcastInDim S138x128 ![] bcast_S_S138x128 main_cst_30
  let main_v81 : IVec S138x128 1 := cmpf .olt main_v79 main_v80
  let main_c_31 : IVec S_ 1 := constantI S_ 1 1#1
  let main_v82 : IVec S_ 1 := (fun x v => Host.reduce IntOp.andi x v reducesTo_S138x128_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg22 main_arg23 main_arg24 main_arg25 main_v83 main_v84 main_cst_32

def fn_part3 {F : FTy → Type} [FloatOps F] (main_arg15 : FVec F S64 .f32) (main_arg16 : FVec F S64x64 .f32) (main_arg17 : FVec F S64 .f32) (main_arg18 : FVec F S64 .f32) (main_arg19 : FVec F S64 .f32) (main_arg20 : FVec F S138x128 .f32) (main_arg21 : FVec F S128 .f32) (main_arg22 : FVec F S128x64 .f32) (main_arg23 : FVec F S64 .f32) (main_arg24 : FVec F S64x1 .f32) (main_arg25 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg16
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg18 main_arg19 main_arg20 main_arg21 main_arg22 main_arg23 main_arg24 main_arg25 main_v63 main_v67

def fn_part2 {F : FTy → Type} [FloatOps F] (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S138x128 .f32) (main_arg21 : FVec F S128 .f32) (main_arg22 : FVec F S128x64 .f32) (main_arg23 : FVec F S64 .f32) (main_arg24 : FVec F S64x1 .f32) (main_arg25 : FVec F S1 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_arg18 main_arg19 main_arg20 main_arg21 main_arg22 main_arg23 main_arg24 main_arg25 main_v48 main_v49 main_v50

def fn_part1 {F : FTy → Type} [FloatOps F] (main_arg8 : FVec F S6x64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S138x128 .f32) (main_arg21 : FVec F S128 .f32) (main_arg22 : FVec F S128x64 .f32) (main_arg23 : FVec F S64 .f32) (main_arg24 : FVec F S64x1 .f32) (main_arg25 : FVec F S1 .f32) (main_v13 : IVec S_ 1) (main_v16 : IVec S1024x5 1) : IVec S_ 1 :=
  let main_c_5 : IVec S_ 1 := constantI S_ 1 1#1
  let main_v17 : IVec S_ 1 := (fun x v => Host.reduce IntOp.andi x v reducesTo_S1024x5_S_d0_1 h_S_) main_v16 main_c_5
  let main_v18 : IVec S_ 1 := andi main_v13 main_v17
  let main_v19 : FVec F S6x64 .f32 := Host.absf main_arg8
  let main_cst_6 : FVec F S_ .f32 := constant S_ .f32 0x7F800000#32
  let main_v20 : FVec F S6x64 .f32 := broadcastInDim S6x64 ![] bcast_S_S6x64 main_cst_6
  let main_v21 : IVec S6x64 1 := cmpf .olt main_v19 main_v20
  let main_c_7 : IVec S_ 1 := constantI S_ 1 1#1
  let main_v22 : IVec S_ 1 := (fun x v => Host.reduce IntOp.andi x v reducesTo_S6x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x6 .f32) (main_arg1 : IVec S2x3200000 32) (main_arg2 : IVec S100000 32) (main_arg3 : FVec F S100000x6 .f32) (main_arg4 : IVec S2x3200000 32) (main_arg5 : IVec S100000 32) (main_arg6 : FVec F S1024x5 .f32) (main_arg7 : FVec F S1024x5 .f32) (main_arg8 : FVec F S6x64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S138x128 .f32) (main_arg21 : FVec F S128 .f32) (main_arg22 : FVec F S128x64 .f32) (main_arg23 : FVec F S64 .f32) (main_arg24 : FVec F S64x1 .f32) (main_arg25 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S100000x6 .f32 := Host.absf main_arg3
  let main_cst_0 : FVec F S_ .f32 := constant S_ .f32 0x7F800000#32
  let main_v5 : FVec F S100000x6 .f32 := broadcastInDim S100000x6 ![] bcast_S_S100000x6 main_cst_0
  let main_v6 : IVec S100000x6 1 := cmpf .olt main_v4 main_v5
  let main_c_1 : IVec S_ 1 := constantI S_ 1 1#1
  let main_v7 : IVec S_ 1 := (fun x v => Host.reduce IntOp.andi x v reducesTo_S100000x6_S_d0_1 h_S_) main_v6 main_c_1
  let main_v8 : IVec S_ 1 := andi main_v3 main_v7
  let main_v9 : FVec F S1024x5 .f32 := Host.absf main_arg6
  let main_cst_2 : FVec F S_ .f32 := constant S_ .f32 0x7F800000#32
  let main_v10 : FVec F S1024x5 .f32 := broadcastInDim S1024x5 ![] bcast_S_S1024x5 main_cst_2
  let main_v11 : IVec S1024x5 1 := cmpf .olt main_v9 main_v10
  let main_c_3 : IVec S_ 1 := constantI S_ 1 1#1
  let main_v12 : IVec S_ 1 := (fun x v => Host.reduce IntOp.andi x v reducesTo_S1024x5_S_d0_1 h_S_) main_v11 main_c_3
  let main_v13 : IVec S_ 1 := andi main_v8 main_v12
  let main_v14 : FVec F S1024x5 .f32 := Host.absf main_arg7
  let main_cst_4 : FVec F S_ .f32 := constant S_ .f32 0x7F800000#32
  let main_v15 : FVec F S1024x5 .f32 := broadcastInDim S1024x5 ![] bcast_S_S1024x5 main_cst_4
  let main_v16 : IVec S1024x5 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x6 : Shape := ⟨2, ![100000, 6]⟩
abbrev S2x3200000 : Shape := ⟨2, ![2, 3200000]⟩
abbrev S100000 : Shape := ⟨1, ![100000]⟩
abbrev S1024x5 : Shape := ⟨2, ![1024, 5]⟩
abbrev S6x64 : Shape := ⟨2, ![6, 64]⟩
abbrev S64 : Shape := ⟨1, ![64]⟩
abbrev S64x64 : Shape := ⟨2, ![64, 64]⟩
abbrev S138x128 : Shape := ⟨2, ![138, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x6 : Shape := ⟨2, ![3200000, 6]⟩
abbrev S100000x64 : Shape := ⟨2, ![100000, 64]⟩
abbrev S2000x6 : Shape := ⟨2, ![2000, 6]⟩
abbrev S2000x64 : Shape := ⟨2, ![2000, 64]⟩
abbrev S1x64 : Shape := ⟨2, ![1, 64]⟩
abbrev S1024 : Shape := ⟨1, ![1024]⟩
abbrev S100000x1 : Shape := ⟨2, ![100000, 1]⟩
abbrev S1024x64 : Shape := ⟨2, ![1024, 64]⟩
abbrev S2000x1 : Shape := ⟨2, ![2000, 1]⟩
abbrev S3200000x64 : Shape := ⟨2, ![3200000, 64]⟩
abbrev S1024x1 : Shape := ⟨2, ![1024, 1]⟩
abbrev S1024x138 : Shape := ⟨2, ![1024, 138]⟩
abbrev S1024x128 : Shape := ⟨2, ![1024, 128]⟩
abbrev S1x128 : Shape := ⟨2, ![1, 128]⟩
abbrev S1x1 : Shape := ⟨2, ![1, 1]⟩

abbrev nBuf : Space → Nat
  | .hbm => 330
  | .vmem => 88
  | .smem => 0
  | _ => 0

abbrev hbmTy0_0 (i : Nat) : BufTy := match i % 128 with
  | 0 => ⟨S100000x6, .f32⟩
  | 1 => ⟨S2x3200000, .i32⟩
  | 2 => ⟨S100000, .i32⟩
  | 3 => ⟨S100000x6, .f32⟩
  | 4 => ⟨S2x3200000, .i32⟩
  | 5 => ⟨S100000, .i32⟩
  | 6 => ⟨S1024x5, .f32⟩
  | 7 => ⟨S1024x5, .f32⟩
  | 8 => ⟨S6x64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64, .f32⟩
  | 19 => ⟨S64, .f32⟩
  | 20 => ⟨S138x128, .f32⟩
  | 21 => ⟨S128, .f32⟩
  | 22 => ⟨S128x64, .f32⟩
  | 23 => ⟨S64, .f32⟩
  | 24 => ⟨S64x1, .f32⟩
  | 25 => ⟨S1, .f32⟩
  | 26 => ⟨S1x3200000, .i32⟩
  | 27 => ⟨S3200000, .i32⟩
  | 28 => ⟨S1x3200000, .i32⟩
  | 29 => ⟨S3200000, .i32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000x6, .f32⟩
  | 39 => ⟨S_, .f32⟩
  | 40 => ⟨S100000x6, .f32⟩
  | 41 => ⟨S3200000x1, .i32⟩
  | 42 => ⟨S100000x6, .f32⟩
  | 43 => ⟨S100000x64, .f32⟩
  | 44 => ⟨S_, .f32⟩
  | 45 => ⟨S100000, .f32⟩
  | 46 => ⟨S_, .f32⟩
  | 47 => ⟨S1024, .f32⟩
  | 48 => ⟨S100000x1, .i32⟩
  | 49 => ⟨S1024, .f32⟩
  | 50 => ⟨S_, .f32⟩
  | 51 => ⟨S1024, .f32⟩
  | 52 => ⟨S1024, .f32⟩
  | 53 => ⟨S_, .f32⟩
  | 54 => ⟨S1024, .f32⟩
  | 55 => ⟨S1024, .f32⟩
  | 56 => ⟨S_, .f32⟩
  | 57 => ⟨S1024x64, .f32⟩
  | 58 => ⟨S100000x1, .i32⟩
  | 59 => ⟨S1024x64, .f32⟩
  | 60 => ⟨S_, .f32⟩
  | 61 => ⟨S1024, .f32⟩
  | 62 => ⟨S1024, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000, .f32⟩
  | 72 => ⟨S100000x1, .f32⟩
  | 73 => ⟨S100000x64, .f32⟩
  | 74 => ⟨S100000x64, .f32⟩
  | 75 => ⟨S100000x64, .f32⟩
  | 76 => ⟨S_, .f32⟩
  | 77 => ⟨S1024x64, .f32⟩
  | 78 => ⟨S100000x1, .i32⟩
  | 79 => ⟨S1024x64, .f32⟩
  | 80 => ⟨S_, .f32⟩
  | 81 => ⟨S1024, .f32⟩
  | 82 => ⟨S1024, .f32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000, .f32⟩
  | 92 => ⟨S100000x1, .f32⟩
  | 93 => ⟨S100000x1, .f32⟩
  | 94 => ⟨S100000x64, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000x64, .f32⟩
  | 104 => ⟨S_, .f32⟩
  | 105 => ⟨S100000x64, .f32⟩
  | 106 => ⟨S3200000x1, .i32⟩
  | 107 => ⟨S100000x64, .f32⟩
  | 108 => ⟨S100000x64, .f32⟩
  | 109 => ⟨S_, .f32⟩
  | 110 => ⟨S100000, .f32⟩
  | 111 => ⟨S_, .f32⟩
  | 112 => ⟨S1024, .f32⟩
  | 113 => ⟨S100000x1, .i32⟩
  | 114 => ⟨S1024, .f32⟩
  | 115 => ⟨S_, .f32⟩
  | 116 => ⟨S1024, .f32⟩
  | 117 => ⟨S1024, .f32⟩
  | 118 => ⟨S_, .f32⟩
  | 119 => ⟨S1024, .f32⟩
  | 120 => ⟨S1024, .f32⟩
  | 121 => ⟨S_, .f32⟩
  | 122 => ⟨S1024x64, .f32⟩
  | 123 => ⟨S100000x1, .i32⟩
  | 124 => ⟨S1024x64, .f32⟩
  | 125 => ⟨S_, .f32⟩
  | 126 => ⟨S1024, .f32⟩
  | 127 => ⟨S1024, .f32⟩
  | _ => ⟨S100000x6, .f32⟩

abbrev hbmTy0_1 (i : Nat) : BufTy := match i % 128 with
  | 0 => ⟨S_, .i32⟩
  | 1 => ⟨S100000, .i32⟩
  | 2 => ⟨S100000, .i1⟩
  | 3 => ⟨S_, .i32⟩
  | 4 => ⟨S100000, .i32⟩
  | 5 => ⟨S100000, .i32⟩
  | 6 => ⟨S100000, .i32⟩
  | 7 => ⟨S100000x1, .i32⟩
  | 8 => ⟨S100000, .f32⟩
  | 9 => ⟨S100000x1, .f32⟩
  | 10 => ⟨S100000x64, .f32⟩
  | 11 => ⟨S100000x64, .f32⟩
  | 12 => ⟨S100000x64, .f32⟩
  | 13 => ⟨S_, .f32⟩
  | 14 => ⟨S1024x64, .f32⟩
  | 15 => ⟨S100000x1, .i32⟩
  | 16 => ⟨S1024x64, .f32⟩
  | 17 => ⟨S_, .f32⟩
  | 18 => ⟨S1024, .f32⟩
  | 19 => ⟨S1024, .f32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000, .f32⟩
  | 29 => ⟨S100000x1, .f32⟩
  | 30 => ⟨S100000x1, .f32⟩
  | 31 => ⟨S100000x64, .f32⟩
  | 32 => ⟨S_, .f32⟩
  | 33 => ⟨S1024x64, .f32⟩
  | 34 => ⟨S100000x1, .i32⟩
  | 35 => ⟨S1024x64, .f32⟩
  | 36 => ⟨S_, .f32⟩
  | 37 => ⟨S100000, .f32⟩
  | 38 => ⟨S_, .f32⟩
  | 39 => ⟨S1024, .f32⟩
  | 40 => ⟨S100000x1, .i32⟩
  | 41 => ⟨S1024, .f32⟩
  | 42 => ⟨S_, .f32⟩
  | 43 => ⟨S1024, .f32⟩
  | 44 => ⟨S1024, .f32⟩
  | 45 => ⟨S1024x1, .f32⟩
  | 46 => ⟨S1024x64, .f32⟩
  | 47 => ⟨S1024x64, .f32⟩
  | 48 => ⟨S1024x64, .f32⟩
  | 49 => ⟨S1x3200000, .i32⟩
  | 50 => ⟨S3200000, .i32⟩
  | 51 => ⟨S1x3200000, .i32⟩
  | 52 => ⟨S3200000, .i32⟩
  | 53 => ⟨S_, .i32⟩
  | 54 => ⟨S3200000, .i32⟩
  | 55 => ⟨S3200000, .i1⟩
  | 56 => ⟨S_, .i32⟩
  | 57 => ⟨S3200000, .i32⟩
  | 58 => ⟨S3200000, .i32⟩
  | 59 => ⟨S3200000, .i32⟩
  | 60 => ⟨S3200000x1, .i32⟩
  | 61 => ⟨S3200000x6, .f32⟩
  | 62 => ⟨S_, .f32⟩
  | 63 => ⟨S100000x6, .f32⟩
  | 64 => ⟨S3200000x1, .i32⟩
  | 65 => ⟨S100000x6, .f32⟩
  | 66 => ⟨S100000x64, .f32⟩
  | 67 => ⟨S_, .f32⟩
  | 68 => ⟨S100000, .f32⟩
  | 69 => ⟨S_, .f32⟩
  | 70 => ⟨S1024, .f32⟩
  | 71 => ⟨S100000x1, .i32⟩
  | 72 => ⟨S1024, .f32⟩
  | 73 => ⟨S_, .f32⟩
  | 74 => ⟨S1024, .f32⟩
  | 75 => ⟨S1024, .f32⟩
  | 76 => ⟨S_, .f32⟩
  | 77 => ⟨S1024, .f32⟩
  | 78 => ⟨S1024, .f32⟩
  | 79 => ⟨S_, .f32⟩
  | 80 => ⟨S1024x64, .f32⟩
  | 81 => ⟨S100000x1, .i32⟩
  | 82 => ⟨S1024x64, .f32⟩
  | 83 => ⟨S_, .f32⟩
  | 84 => ⟨S1024, .f32⟩
  | 85 => ⟨S1024, .f32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000, .f32⟩
  | 95 => ⟨S100000x1, .f32⟩
  | 96 => ⟨S100000x64, .f32⟩
  | 97 => ⟨S100000x64, .f32⟩
  | 98 => ⟨S100000x64, .f32⟩
  | 99 => ⟨S_, .f32⟩
  | 100 => ⟨S1024x64, .f32⟩
  | 101 => ⟨S100000x1, .i32⟩
  | 102 => ⟨S1024x64, .f32⟩
  | 103 => ⟨S_, .f32⟩
  | 104 => ⟨S1024, .f32⟩
  | 105 => ⟨S1024, .f32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000, .f32⟩
  | 115 => ⟨S100000x1, .f32⟩
  | 116 => ⟨S100000x1, .f32⟩
  | 117 => ⟨S100000x64, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S3200000x64, .f32⟩
  | 127 => ⟨S_, .f32⟩
  | _ => ⟨S100000x6, .f32⟩

abbrev hbmTy0_2 (i : Nat) : BufTy := match i % 128 with
  | 0 => ⟨S100000x64, .f32⟩
  | 1 => ⟨S3200000x1, .i32⟩
  | 2 => ⟨S100000x64, .f32⟩
  | 3 => ⟨S100000x64, .f32⟩
  | 4 => ⟨S_, .f32⟩
  | 5 => ⟨S100000, .f32⟩
  | 6 => ⟨S_, .f32⟩
  | 7 => ⟨S1024, .f32⟩
  | 8 => ⟨S100000x1, .i32⟩
  | 9 => ⟨S1024, .f32⟩
  | 10 => ⟨S_, .f32⟩
  | 11 => ⟨S1024, .f32⟩
  | 12 => ⟨S1024, .f32⟩
  | 13 => ⟨S_, .f32⟩
  | 14 => ⟨S1024, .f32⟩
  | 15 => ⟨S1024, .f32⟩
  | 16 => ⟨S_, .f32⟩
  | 17 => ⟨S1024x64, .f32⟩
  | 18 => ⟨S100000x1, .i32⟩
  | 19 => ⟨S1024x64, .f32⟩
  | 20 => ⟨S_, .f32⟩
  | 21 => ⟨S1024, .f32⟩
  | 22 => ⟨S1024, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000, .f32⟩
  | 32 => ⟨S100000x1, .f32⟩
  | 33 => ⟨S100000x64, .f32⟩
  | 34 => ⟨S100000x64, .f32⟩
  | 35 => ⟨S100000x64, .f32⟩
  | 36 => ⟨S_, .f32⟩
  | 37 => ⟨S1024x64, .f32⟩
  | 38 => ⟨S100000x1, .i32⟩
  | 39 => ⟨S1024x64, .f32⟩
  | 40 => ⟨S_, .f32⟩
  | 41 => ⟨S1024, .f32⟩
  | 42 => ⟨S1024, .f32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000, .f32⟩
  | 52 => ⟨S100000x1, .f32⟩
  | 53 => ⟨S100000x1, .f32⟩
  | 54 => ⟨S100000x64, .f32⟩
  | 55 => ⟨S_, .f32⟩
  | 56 => ⟨S1024x64, .f32⟩
  | 57 => ⟨S100000x1, .i32⟩
  | 58 => ⟨S1024x64, .f32⟩
  | 59 => ⟨S_, .f32⟩
  | 60 => ⟨S100000, .f32⟩
  | 61 => ⟨S_, .f32⟩
  | 62 => ⟨S1024, .f32⟩
  | 63 => ⟨S100000x1, .i32⟩
  | 64 => ⟨S1024, .f32⟩
  | 65 => ⟨S_, .f32⟩
  | 66 => ⟨S1024, .f32⟩
  | 67 => ⟨S1024, .f32⟩
  | 68 => ⟨S1024x1, .f32⟩
  | 69 => ⟨S1024x64, .f32⟩
  | 70 => ⟨S1024x64, .f32⟩
  | 71 => ⟨S1024x64, .f32⟩
  | 72 => ⟨S1024x138, .f32⟩
  | 73 => ⟨S1024x1, .f32⟩
  | _ => ⟨S100000x6, .f32⟩

abbrev hbmTy (i : Nat) : BufTy := match i / 128 with
  | 0 => hbmTy0_0 i
  | 1 => hbmTy0_1 i
  | 2 => hbmTy0_2 i
  | _ => ⟨S100000x6, .f32⟩

abbrev bufTy : (tb : Table) → Fin (tcTables nBuf tb) → BufTy
  | .hbm, ⟨i, _⟩ => hbmTy i
  | .local _ .vmem, ⟨0, _⟩ => ⟨S2000x6, .f32⟩
  | .local _ .vmem, ⟨1, _⟩ => ⟨S2000x6, .f32⟩
  | .local _ .vmem, ⟨2, _⟩ => ⟨S2000x6, .f32⟩
  | .local _ .vmem, ⟨3, _⟩ => ⟨S2000x6, .f32⟩
  | .local _ .vmem, ⟨4, _⟩ => ⟨S6x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S64, .f32⟩
  | .local _ .vmem, ⟨17, _⟩ => ⟨S64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S64x64, .f32⟩
  | .local _ .vmem, ⟨25, _⟩ => ⟨S64, .f32⟩
  | .local _ .vmem, ⟨26, _⟩ => ⟨S64x64, .f32⟩
  | .local _ .vmem, ⟨27, _⟩ => ⟨S64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x1, .f32⟩
  | .local _ .vmem, ⟨33, _⟩ => ⟨S2000x1, .f32⟩
  | .local _ .vmem, ⟨34, _⟩ => ⟨S2000x1, .f32⟩
  | .local _ .vmem, ⟨35, _⟩ => ⟨S2000x1, .f32⟩
  | .local _ .vmem, ⟨36, _⟩ => ⟨S64, .f32⟩
  | .local _ .vmem, ⟨37, _⟩ => ⟨S64, .f32⟩
  | .local _ .vmem, ⟨38, _⟩ => ⟨S2000x64, .f32⟩
  | .local _ .vmem, ⟨39, _⟩ => ⟨S2000x64, .f32⟩
  | .local _ .vmem, ⟨40, _⟩ => ⟨S2000x6, .f32⟩
  | .local _ .vmem, ⟨41, _⟩ => ⟨S2000x6, .f32⟩
  | .local _ .vmem, ⟨42, _⟩ => ⟨S2000x6, .f32⟩
  | .local _ .vmem, ⟨43, _⟩ => ⟨S2000x6, .f32⟩
  | .local _ .vmem, ⟨44, _⟩ => ⟨S6x64, .f32⟩
  | .local _ .vmem, ⟨45, _⟩ => ⟨S64, .f32⟩
  | .local _ .vmem, ⟨46, _⟩ => ⟨S64x64, .f32⟩
  | .local _ .vmem, ⟨47, _⟩ => ⟨S64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x1, .f32⟩
  | .local _ .vmem, ⟨53, _⟩ => ⟨S2000x1, .f32⟩
  | .local _ .vmem, ⟨54, _⟩ => ⟨S2000x1, .f32⟩
  | .local _ .vmem, ⟨55, _⟩ => ⟨S2000x1, .f32⟩
  | .local _ .vmem, ⟨56, _⟩ => ⟨S64, .f32⟩
  | .local _ .vmem, ⟨57, _⟩ => ⟨S64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S2000x64, .f32⟩
  | .local _ .vmem, ⟨63, _⟩ => ⟨S2000x64, .f32⟩
  | .local _ .vmem, ⟨64, _⟩ => ⟨S64x64, .f32⟩
  | .local _ .vmem, ⟨65, _⟩ => ⟨S64, .f32⟩
  | .local _ .vmem, ⟨66, _⟩ => ⟨S64x64, .f32⟩
  | .local _ .vmem, ⟨67, _⟩ => ⟨S64, .f32⟩
  | .local _ .vmem, ⟨68, _⟩ => ⟨S2000x64, .f32⟩
  | .local _ .vmem, ⟨69, _⟩ => ⟨S2000x64, .f32⟩
  | .local _ .vmem, ⟨70, _⟩ => ⟨S2000x64, .f32⟩
  | .local _ .vmem, ⟨71, _⟩ => ⟨S2000x64, .f32⟩
  | .local _ .vmem, ⟨72, _⟩ => ⟨S2000x1, .f32⟩
  | .local _ .vmem, ⟨73, _⟩ => ⟨S2000x1, .f32⟩
  | .local _ .vmem, ⟨74, _⟩ => ⟨S2000x1, .f32⟩
  | .local _ .vmem, ⟨75, _⟩ => ⟨S2000x1, .f32⟩
  | .local _ .vmem, ⟨76, _⟩ => ⟨S64, .f32⟩
  | .local _ .vmem, ⟨77, _⟩ => ⟨S64, .f32⟩
  | .local _ .vmem, ⟨78, _⟩ => ⟨S2000x64, .f32⟩
  | .local _ .vmem, ⟨79, _⟩ => ⟨S2000x64, .f32⟩
  | .local _ .vmem, ⟨80, _⟩ => ⟨S1024x138, .f32⟩
  | .local _ .vmem, ⟨81, _⟩ => ⟨S138x128, .f32⟩
  | .local _ .vmem, ⟨82, _⟩ => ⟨S128, .f32⟩
  | .local _ .vmem, ⟨83, _⟩ => ⟨S128x64, .f32⟩
  | .local _ .vmem, ⟨84, _⟩ => ⟨S64, .f32⟩
  | .local _ .vmem, ⟨85, _⟩ => ⟨S64x1, .f32⟩
  | .local _ .vmem, ⟨86, _⟩ => ⟨S1, .f32⟩
  | .local _ .vmem, ⟨87, _⟩ => ⟨S1024x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_v20 : Ref sig .tc := ⟨.hbm, 52, rfl⟩
abbrev main_cst_4 : Ref sig .tc := ⟨.hbm, 53, rfl⟩
abbrev main_v21 : Ref sig .tc := ⟨.hbm, 54, rfl⟩
abbrev main_v22 : Ref sig .tc := ⟨.hbm, 55, rfl⟩
abbrev main_cst_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_6 : Ref sig .tc := ⟨.hbm, 60, rfl⟩
abbrev main_v26 : Ref sig .tc := ⟨.hbm, 61, rfl⟩
abbrev main_v27 : Ref sig .tc := ⟨.hbm, 62, rfl⟩
abbrev main_c_7 : Ref sig .tc := ⟨.hbm, 63, rfl⟩
abbrev main_v28 : Ref sig .tc := ⟨.hbm, 64, rfl⟩
abbrev main_v29 : Ref sig .tc := ⟨.hbm, 65, rfl⟩
abbrev main_c_8 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_9 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_10 : Ref sig .tc := ⟨.hbm, 80, rfl⟩
abbrev main_v42 : Ref sig .tc := ⟨.hbm, 81, rfl⟩
abbrev main_v43 : Ref sig .tc := ⟨.hbm, 82, rfl⟩
abbrev main_c_11 : Ref sig .tc := ⟨.hbm, 83, rfl⟩
abbrev main_v44 : Ref sig .tc := ⟨.hbm, 84, rfl⟩
abbrev main_v45 : Ref sig .tc := ⟨.hbm, 85, rfl⟩
abbrev main_c_12 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_13 : Ref sig .tc := ⟨.hbm, 95, rfl⟩
abbrev main_v54 : Ref sig .tc := ⟨.hbm, 96, rfl⟩
abbrev main_v55 : Ref sig .tc := ⟨.hbm, 97, rfl⟩
abbrev main_c_14 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_15 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_16 : Ref sig .tc := ⟨.hbm, 109, rfl⟩
abbrev main_v65 : Ref sig .tc := ⟨.hbm, 110, rfl⟩
abbrev main_cst_17 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_18 : Ref sig .tc := ⟨.hbm, 115, rfl⟩
abbrev main_v69 : Ref sig .tc := ⟨.hbm, 116, rfl⟩
abbrev main_v70 : Ref sig .tc := ⟨.hbm, 117, rfl⟩
abbrev main_cst_19 : Ref sig .tc := ⟨.hbm, 118, rfl⟩
abbrev main_v71 : Ref sig .tc := ⟨.hbm, 119, rfl⟩
abbrev main_v72 : Ref sig .tc := ⟨.hbm, 120, rfl⟩
abbrev main_cst_20 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_21 : Ref sig .tc := ⟨.hbm, 125, rfl⟩
abbrev main_v76 : Ref sig .tc := ⟨.hbm, 126, rfl⟩
abbrev main_v77 : Ref sig .tc := ⟨.hbm, 127, rfl⟩
abbrev main_c_22 : Ref sig .tc := ⟨.hbm, 128, rfl⟩
abbrev main_v78 : Ref sig .tc := ⟨.hbm, 129, rfl⟩
abbrev main_v79 : Ref sig .tc := ⟨.hbm, 130, rfl⟩
abbrev main_c_23 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_24 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_25 : Ref sig .tc := ⟨.hbm, 145, rfl⟩
abbrev main_v92 : Ref sig .tc := ⟨.hbm, 146, rfl⟩
abbrev main_v93 : Ref sig .tc := ⟨.hbm, 147, rfl⟩
abbrev main_c_26 : Ref sig .tc := ⟨.hbm, 148, rfl⟩
abbrev main_v94 : Ref sig .tc := ⟨.hbm, 149, rfl⟩
abbrev main_v95 : Ref sig .tc := ⟨.hbm, 150, rfl⟩
abbrev main_c_27 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_28 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_cst_29 : Ref sig .tc := ⟨.hbm, 164, rfl⟩
abbrev main_v107 : Ref sig .tc := ⟨.hbm, 165, rfl⟩
abbrev main_cst_30 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_31 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_c_32 : Ref sig .tc := ⟨.hbm, 181, rfl⟩
abbrev main_v121 : Ref sig .tc := ⟨.hbm, 182, rfl⟩
abbrev main_v122 : Ref sig .tc := ⟨.hbm, 183, rfl⟩
abbrev main_c_33 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_cst_34 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_35 : Ref sig .tc := ⟨.hbm, 195, rfl⟩
abbrev main_v132 : Ref sig .tc := ⟨.hbm, 196, rfl⟩
abbrev main_cst_36 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_cst_37 : Ref sig .tc := ⟨.hbm, 201, rfl⟩
abbrev main_v136 : Ref sig .tc := ⟨.hbm, 202, rfl⟩
abbrev main_v137 : Ref sig .tc := ⟨.hbm, 203, rfl⟩
abbrev main_cst_38 : Ref sig .tc := ⟨.hbm, 204, rfl⟩
abbrev main_v138 : Ref sig .tc := ⟨.hbm, 205, rfl⟩
abbrev main_v139 : Ref sig .tc := ⟨.hbm, 206, rfl⟩
abbrev main_cst_39 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_cst_40 : Ref sig .tc := ⟨.hbm, 211, rfl⟩
abbrev main_v143 : Ref sig .tc := ⟨.hbm, 212, rfl⟩
abbrev main_v144 : Ref sig .tc := ⟨.hbm, 213, rfl⟩
abbrev main_c_41 : Ref sig .tc := ⟨.hbm, 214, rfl⟩
abbrev main_v145 : Ref sig .tc := ⟨.hbm, 215, rfl⟩
abbrev main_v146 : Ref sig .tc := ⟨.hbm, 216, rfl⟩
abbrev main_c_42 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_cst_43 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_cst_44 : Ref sig .tc := ⟨.hbm, 231, rfl⟩
abbrev main_v159 : Ref sig .tc := ⟨.hbm, 232, rfl⟩
abbrev main_v160 : Ref sig .tc := ⟨.hbm, 233, rfl⟩
abbrev main_c_45 : Ref sig .tc := ⟨.hbm, 234, rfl⟩
abbrev main_v161 : Ref sig .tc := ⟨.hbm, 235, rfl⟩
abbrev main_v162 : Ref sig .tc := ⟨.hbm, 236, rfl⟩
abbrev main_c_46 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_c_47 : Ref sig .tc := ⟨.hbm, 246, rfl⟩
abbrev main_v171 : Ref sig .tc := ⟨.hbm, 247, rfl⟩
abbrev main_v172 : Ref sig .tc := ⟨.hbm, 248, rfl⟩
abbrev main_c_48 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_cst_49 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_cst_50 : Ref sig .tc := ⟨.hbm, 260, rfl⟩
abbrev main_v182 : Ref sig .tc := ⟨.hbm, 261, rfl⟩
abbrev main_cst_51 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_cst_52 : Ref sig .tc := ⟨.hbm, 266, rfl⟩
abbrev main_v186 : Ref sig .tc := ⟨.hbm, 267, rfl⟩
abbrev main_v187 : Ref sig .tc := ⟨.hbm, 268, rfl⟩
abbrev main_cst_53 : Ref sig .tc := ⟨.hbm, 269, rfl⟩
abbrev main_v188 : Ref sig .tc := ⟨.hbm, 270, rfl⟩
abbrev main_v189 : Ref sig .tc := ⟨.hbm, 271, rfl⟩
abbrev main_cst_54 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_cst_55 : Ref sig .tc := ⟨.hbm, 276, rfl⟩
abbrev main_v193 : Ref sig .tc := ⟨.hbm, 277, rfl⟩
abbrev main_v194 : Ref sig .tc := ⟨.hbm, 278, rfl⟩
abbrev main_c_56 : Ref sig .tc := ⟨.hbm, 279, rfl⟩
abbrev main_v195 : Ref sig .tc := ⟨.hbm, 280, rfl⟩
abbrev main_v196 : Ref sig .tc := ⟨.hbm, 281, rfl⟩
abbrev main_c_57 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_cst_58 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_cst_59 : Ref sig .tc := ⟨.hbm, 296, rfl⟩
abbrev main_v209 : Ref sig .tc := ⟨.hbm, 297, rfl⟩
abbrev main_v210 : Ref sig .tc := ⟨.hbm, 298, rfl⟩
abbrev main_c_60 : Ref sig .tc := ⟨.hbm, 299, rfl⟩
abbrev main_v211 : Ref sig .tc := ⟨.hbm, 300, rfl⟩
abbrev main_v212 : Ref sig .tc := ⟨.hbm, 301, rfl⟩
abbrev main_c_61 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_cst_62 : Ref sig .tc := ⟨.hbm, 311, rfl⟩
abbrev main_v221 : Ref sig .tc := ⟨.hbm, 312, rfl⟩
abbrev main_v222 : Ref sig .tc := ⟨.hbm, 313, rfl⟩
abbrev main_v223 : Ref sig .tc := ⟨.hbm, 314, rfl⟩
abbrev main_cst_63 : Ref sig .tc := ⟨.hbm, 315, rfl⟩
abbrev main_v224 : Ref sig .tc := ⟨.hbm, 316, rfl⟩
abbrev main_cst_64 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_cst_65 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_v235 : Ref sig .tc := ⟨.hbm, 329, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg6_0 : Ref sig .tc := ⟨.vmem, 68, rfl⟩
abbrev cc6_stg6_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg2_1 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc8_stg0_0 : Ref sig .tc := ⟨.vmem, 80, rfl⟩
abbrev cc8_stg1_0 : Ref sig .tc := ⟨.vmem, 81, rfl⟩
abbrev cc8_stg2_0 : Ref sig .tc := ⟨.vmem, 82, rfl⟩
abbrev cc8_stg3_0 : Ref sig .tc := ⟨.vmem, 83, rfl⟩
abbrev cc8_stg4_0 : Ref sig .tc := ⟨.vmem, 84, rfl⟩
abbrev cc8_stg5_0 : Ref sig .tc := ⟨.vmem, 85, rfl⟩
abbrev cc8_stg6_0 : Ref sig .tc := ⟨.vmem, 86, rfl⟩
abbrev cc8_stg7_0 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem2_1 : DmaSem sig := 75
abbrev cc7_sem3_0 : DmaSem sig := 76
abbrev cc7_sem4_0 : DmaSem sig := 77
abbrev cc7_sem5_0 : DmaSem sig := 78
abbrev cc7_sem5_1 : DmaSem sig := 79
abbrev cc8_sem0_0 : DmaSem sig := 80
abbrev cc8_sem1_0 : DmaSem sig := 81
abbrev cc8_sem2_0 : DmaSem sig := 82
abbrev cc8_sem3_0 : DmaSem sig := 83
abbrev cc8_sem4_0 : DmaSem sig := 84
abbrev cc8_sem5_0 : DmaSem sig := 85
abbrev cc8_sem6_0 : DmaSem sig := 86
abbrev cc8_sem7_0 : DmaSem sig := 87

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x6 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x6 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S6x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S1024x138 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S138x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1024x1 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x6 : S_.BroadcastsInDim S100000x6 (![] : Fin 0 → Fin S100000x6.rank)
  inb_S2000x6_S2000x6_0_0 : ∀ a, (![0, 0] : Fin 2 → Nat) a + S2000x6.size a ≤ S2000x6.size a
  h_S2000x6 : 0 < S2000x6.numel
  shapeCasts_S2000x6_S2000x6 : S2000x6.ShapeCasts S2000x6
  inb_S6x64_S6x64_0_0 : ∀ a, (![0, 0] : Fin 2 → Nat) a + S6x64.size a ≤ S6x64.size a
  h_S6x64 : 0 < S6x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  bcast_S_S100000 : S_.BroadcastsInDim S100000 (![] : Fin 0 → Fin S100000.rank)
  bcast_S_S1024 : S_.BroadcastsInDim S1024 (![] : Fin 0 → Fin S1024.rank)
  bcast_S100000_S100000x1_0 : S100000.BroadcastsInDim S100000x1 (![0] : Fin 1 → Fin S100000x1.rank)
  bcast_S_S1024x64 : S_.BroadcastsInDim S1024x64 (![] : Fin 0 → Fin S1024x64.rank)
  reducesTo_S1024x64_S1024_d1 : S1024x64.ReducesTo [1] S1024
  h_S_ : 0 < S_.numel
  bcast_S100000x1_S100000x64_0_1 : S100000x1.BroadcastsInDim S100000x64 (![0, 1] : Fin 2 → Fin S100000x64.rank)
  shapeCasts_S100000_S100000x1 : S100000.ShapeCasts S100000x1
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bcast_S_S100000x64 : S_.BroadcastsInDim S100000x64 (![] : Fin 0 → Fin S100000x64.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  concatenates_S1024x64_S1024x64_S1024x5_S1024x5_S1024x138_d1 : Shape.Concatenates [S1024x64, S1024x64, S1024x5, S1024x5] S1024x138 1
  inb_S1024x138_S1024x138_0_0 : ∀ a, (![0, 0] : Fin 2 → Nat) a + S1024x138.size a ≤ S1024x138.size a
  h_S1024x138 : 0 < S1024x138.numel
  shapeCasts_S1024x138_S1024x138 : S1024x138.ShapeCasts S1024x138
  inb_S138x128_S138x128_0_0 : ∀ a, (![0, 0] : Fin 2 → Nat) a + S138x128.size a ≤ S138x128.size a
  h_S138x128 : 0 < S138x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S2000x6_S6x64_S2000x64_1_0_0_1_n_n_wf : DotDims.WF S2000x6 S6x64 S2000x64 [1] [0] [0] [1] [] []
  dot_S2000x64_S64x64_S2000x64_1_0_0_1_n_n_wf : DotDims.WF S2000x64 S64x64 S2000x64 [1] [0] [0] [1] [] []
  scatter_S1024_S100000x1_S100000_n_0_0_1_wf : ScatterDims.WF S1024 S100000x1 S100000 [] [0] [0] 1
  scatter_S1024x64_S100000x1_S100000x64_1_0_0_1_wf : ScatterDims.WF S1024x64 S100000x1 S100000x64 [1] [0] [0] 1
  gather_S1024_S100000x1_S100000_n_0_n_n_0_1_1_wf : GatherDims.WF S1024 S100000x1 S100000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S1024x138_S138x128_S1024x128_1_0_0_1_n_n_wf : DotDims.WF S1024x138 S138x128 S1024x128 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x6.size a ≤ S100000x6.size a
  hwx0_0 : ∀ i : grid0.Coords, EltTy.bits .f32 = 32 ∨ (Rect.block (s := S100000x6) S2000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x6.size a ≤ S100000x6.size a
  hwx0_1 : ∀ i : grid0.Coords, EltTy.bits .f32 = 32 ∨ (Rect.block (s := S100000x6) S2000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x64.size a ≤ S6x64.size a
  hwx0_2 : ∀ i : grid0.Coords, EltTy.bits .f32 = 32 ∨ (Rect.block (s := S6x64) S6x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x6.size a ≤ S100000x6.size a
  hwx4_0 : ∀ i : grid4.Coords, EltTy.bits .f32 = 32 ∨ (Rect.block (s := S100000x6) S2000x6.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x6.size a ≤ S100000x6.size a
  hwx4_1 : ∀ i : grid4.Coords, EltTy.bits .f32 = 32 ∨ (Rect.block (s := S100000x6) S2000x6.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S6x64.size a ≤ S6x64.size a
  hwx4_2 : ∀ i : grid4.Coords, EltTy.bits .f32 = 32 ∨ (Rect.block (s := S6x64) S6x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64.size a ≤ S64.size a
  hwx4_5 : ∀ i : grid4.Coords, EltTy.bits .f32 = 32 ∨ (Rect.block (s := S64) S64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S100000x64.size a
  hwx4_6 : ∀ i : grid4.Coords, EltTy.bits .f32 = 32 ∨ (Rect.block (s := S100000x64) S2000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S100000x64.size a
  hwx5_5 : ∀ i : grid5.Coords, EltTy.bits .f32 = 32 ∨ (Rect.block (s := S100000x64) S2000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S100000x64.size a
  hwx6_1 : ∀ i : grid6.Coords, EltTy.bits .f32 = 32 ∨ (Rect.block (s := S100000x64) S2000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64.size a ≤ S64.size a
  hwx6_3 : ∀ i : grid6.Coords, EltTy.bits .f32 = 32 ∨ (Rect.block (s := S64) S64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64.size a ≤ S64.size a
  hwx6_5 : ∀ i : grid6.Coords, EltTy.bits .f32 = 32 ∨ (Rect.block (s := S64) S64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x64.size a ≤ S100000x64.size a
  hwx6_6 : ∀ i : grid6.Coords, EltTy.bits .f32 = 32 ∨ (Rect.block (s := S100000x64) S2000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S100000x64.size a
  hwx7_0 : ∀ i : grid7.Coords, EltTy.bits .f32 = 32 ∨ (Rect.block (s := S100000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S100000x1.size a
  hwx7_1 : ∀ i : grid7.Coords, EltTy.bits .f32 = 32 ∨ (Rect.block (s := S100000x1) S2000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S100000x1.size a
  hwx7_2 : ∀ i : grid7.Coords, EltTy.bits .f32 = 32 ∨ (Rect.block (s := S100000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64.size a ≤ S64.size a
  hwx7_3 : ∀ i : grid7.Coords, EltTy.bits .f32 = 32 ∨ (Rect.block (s := S64) S64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64.size a ≤ S64.size a
  hwx7_4 : ∀ i : grid7.Coords, EltTy.bits .f32 = 32 ∨ (Rect.block (s := S64) S64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x64.size a ≤ S100000x64.size a
  hwx7_5 : ∀ i : grid7.Coords, EltTy.bits .f32 = 32 ∨ (Rect.block (s := S100000x64) S2000x64.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S1024x138.size a ≤ S1024x138.size a
  hwx8_0 : ∀ i : grid8.Coords, EltTy.bits .f32 = 32 ∨ (Rect.block (s := S1024x138) S1024x138.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S138x128.size a ≤ S138x128.size a
  hwx8_1 : ∀ i : grid8.Coords, EltTy.bits .f32 = 32 ∨ (Rect.block (s := S138x128) S138x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x64.size a ≤ S128x64.size a
  hwx8_3 : ∀ i : grid8.Coords, EltTy.bits .f32 = 32 ∨ (Rect.block (s := S128x64) S128x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64.size a ≤ S64.size a
  hwx8_4 : ∀ i : grid8.Coords, EltTy.bits .f32 = 32 ∨ (Rect.block (s := S64) S64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x1.size a ≤ S64x1.size a
  hwx8_5 : ∀ i : grid8.Coords, EltTy.bits .f32 = 32 ∨ (Rect.block (s := S64x1) S64x1.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1.size a ≤ S1.size a
  hwx8_6 : ∀ i : grid8.Coords, EltTy.bits .f32 = 32 ∨ (Rect.block (s := S1) S1.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1024x1.size a ≤ S1024x1.size a
  hwx8_7 : ∀ i : grid8.Coords, EltTy.bits .f32 = 32 ∨ (Rect.block (s := S1024x1) S1024x1.size (cc8_transform_7 i) (hinb8_7 i)).WholeWords (EltTy.packing .f32)

variable [Facts₀]

def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S2000x6_S6x64_S2000x64_1_0_0_1_n_n : DotDims S2000x6 S6x64 S2000x64 where
  lhsContracting := [1]
  rhsContracting := [0]
  lhsNonContracting := [0]
  rhsNonContracting := [1]
  lhsBatch := []
  rhsBatch := []
  wf := dot_S2000x6_S6x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def gather_S1024_S100000x1_S100000_n_0_n_n_0_1_1 : GatherDims S1024 S100000x1 S100000 where
  offsetDims := []
  collapsedSliceDims := [0]
  operandBatchingDims := []
  startIndicesBatchingDims := []
  startIndexMap := [0]
  indexVectorDim := 1
  sliceSizes := ![1]
  wf := gather_S1024_S100000x1_S100000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S1024x138_S138x128_S1024x128_1_0_0_1_n_n : DotDims S1024x138 S138x128 S1024x128 where
  lhsContracting := [1]
  rhsContracting := [0]
  lhsNonContracting := [0]
  rhsNonContracting := [1]
  lhsBatch := []
  rhsBatch := []
  wf := dot_S1024x138_S138x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S2000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S6x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v64) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v101) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v102) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg19) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg3) S2000x6.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v130) S2000x6.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S6x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg11) S64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v131) S2000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v131) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v168) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v169) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg13) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v170) S2000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v170) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v180) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg14) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg15) S64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg16) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg17) S64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v181) S2000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v181) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v218) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v219) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg18) S64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg19) S64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v220) S2000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v234) S1024x138.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg20) S138x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg21) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg22) S128x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg23) S64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg24) S64x1.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg25) S1.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v235) S1024x1.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S100000x6 : Shape := ⟨2, ![100000, 6]⟩
abbrev S2x3200000 : Shape := ⟨2, ![2, 3200000]⟩
abbrev S100000 : Shape := ⟨1, ![100000]⟩
abbrev S1024x5 : Shape := ⟨2, ![1024, 5]⟩
abbrev S6x64 : Shape := ⟨2, ![6, 64]⟩
abbrev S64 : Shape := ⟨1, ![64]⟩
abbrev S64x64 : Shape := ⟨2, ![64, 64]⟩
abbrev S138x128 : Shape := ⟨2, ![138, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x6 : Shape := ⟨2, ![3200000, 6]⟩
abbrev S100000x64 : Shape := ⟨2, ![100000, 64]⟩
abbrev S1x64 : Shape := ⟨2, ![1, 64]⟩
abbrev S1024 : Shape := ⟨1, ![1024]⟩
abbrev S100000x1 : Shape := ⟨2, ![100000, 1]⟩
abbrev S1024x64 : Shape := ⟨2, ![1024, 64]⟩
abbrev S3200000x64 : Shape := ⟨2, ![3200000, 64]⟩
abbrev S1024x1 : Shape := ⟨2, ![1024, 1]⟩
abbrev S1024x138 : Shape := ⟨2, ![1024, 138]⟩
abbrev S1024x128 : Shape := ⟨2, ![1024, 128]⟩
abbrev S1x128 : Shape := ⟨2, ![1, 128]⟩
abbrev S1x1 : Shape := ⟨2, ![1, 1]⟩

abbrev nBuf : Space → Nat
  | .hbm => 443
  | .vmem => 0
  | .smem => 0
  | _ => 0

abbrev hbmTy0_0 (i : Nat) : BufTy := match i % 128 with
  | 0 => ⟨S100000x6, .f32⟩
  | 1 => ⟨S2x3200000, .i32⟩
  | 2 => ⟨S100000, .i32⟩
  | 3 => ⟨S100000x6, .f32⟩
  | 4 => ⟨S2x3200000, .i32⟩
  | 5 => ⟨S100000, .i32⟩
  | 6 => ⟨S1024x5, .f32⟩
  | 7 => ⟨S1024x5, .f32⟩
  | 8 => ⟨S6x64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64, .f32⟩
  | 19 => ⟨S64, .f32⟩
  | 20 => ⟨S138x128, .f32⟩
  | 21 => ⟨S128, .f32⟩
  | 22 => ⟨S128x64, .f32⟩
  | 23 => ⟨S64, .f32⟩
  | 24 => ⟨S64x1, .f32⟩
  | 25 => ⟨S1, .f32⟩
  | 26 => ⟨S1x3200000, .i32⟩
  | 27 => ⟨S3200000, .i32⟩
  | 28 => ⟨S1x3200000, .i32⟩
  | 29 => ⟨S3200000, .i32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000x6, .f32⟩
  | 39 => ⟨S_, .f32⟩
  | 40 => ⟨S100000x6, .f32⟩
  | 41 => ⟨S3200000x1, .i32⟩
  | 42 => ⟨S100000x6, .f32⟩
  | 43 => ⟨S100000x6, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000, .f32⟩
  | 57 => ⟨S_, .f32⟩
  | 58 => ⟨S1024, .f32⟩
  | 59 => ⟨S100000x1, .i32⟩
  | 60 => ⟨S1024, .f32⟩
  | 61 => ⟨S_, .f32⟩
  | 62 => ⟨S1024, .f32⟩
  | 63 => ⟨S1024, .f32⟩
  | 64 => ⟨S_, .f32⟩
  | 65 => ⟨S1024, .f32⟩
  | 66 => ⟨S1024, .f32⟩
  | 67 => ⟨S_, .f32⟩
  | 68 => ⟨S1024x64, .f32⟩
  | 69 => ⟨S100000x1, .i32⟩
  | 70 => ⟨S1024x64, .f32⟩
  | 71 => ⟨S_, .f32⟩
  | 72 => ⟨S1024, .f32⟩
  | 73 => ⟨S1024, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000, .f32⟩
  | 83 => ⟨S100000x1, .f32⟩
  | 84 => ⟨S100000x64, .f32⟩
  | 85 => ⟨S100000x64, .f32⟩
  | 86 => ⟨S100000x64, .f32⟩
  | 87 => ⟨S_, .f32⟩
  | 88 => ⟨S1024x64, .f32⟩
  | 89 => ⟨S100000x1, .i32⟩
  | 90 => ⟨S1024x64, .f32⟩
  | 91 => ⟨S_, .f32⟩
  | 92 => ⟨S1024, .f32⟩
  | 93 => ⟨S1024, .f32⟩
  | 94 => ⟨S_, .f32⟩
  | 95 => ⟨S1024, .f32⟩
  | 96 => ⟨S1024, .f32⟩
  | 97 => ⟨S1024, .f32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000, .f32⟩
  | 107 => ⟨S100000x1, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .i32⟩
  | 120 => ⟨S3200000, .i32⟩
  | 121 => ⟨S3200000, .i1⟩
  | 122 => ⟨S_, .i32⟩
  | 123 => ⟨S3200000, .i32⟩
  | 124 => ⟨S3200000, .i32⟩
  | 125 => ⟨S3200000, .i32⟩
  | 126 => ⟨S3200000x1, .i32⟩
  | 127 => ⟨S3200000x64, .f32⟩
  | _ => ⟨S100000x6, .f32⟩

abbrev hbmTy0_1 (i : Nat) : BufTy := match i % 128 with
  | 0 => ⟨S_, .f32⟩
  | 1 => ⟨S100000x64, .f32⟩
  | 2 => ⟨S3200000x1, .i32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000, .f32⟩
  | 18 => ⟨S_, .f32⟩
  | 19 => ⟨S1024, .f32⟩
  | 20 => ⟨S100000x1, .i32⟩
  | 21 => ⟨S1024, .f32⟩
  | 22 => ⟨S_, .f32⟩
  | 23 => ⟨S1024, .f32⟩
  | 24 => ⟨S1024, .f32⟩
  | 25 => ⟨S_, .f32⟩
  | 26 => ⟨S1024, .f32⟩
  | 27 => ⟨S1024, .f32⟩
  | 28 => ⟨S_, .f32⟩
  | 29 => ⟨S1024x64, .f32⟩
  | 30 => ⟨S100000x1, .i32⟩
  | 31 => ⟨S1024x64, .f32⟩
  | 32 => ⟨S_, .f32⟩
  | 33 => ⟨S1024, .f32⟩
  | 34 => ⟨S1024, .f32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000, .f32⟩
  | 44 => ⟨S100000x1, .f32⟩
  | 45 => ⟨S100000x64, .f32⟩
  | 46 => ⟨S100000x64, .f32⟩
  | 47 => ⟨S100000x64, .f32⟩
  | 48 => ⟨S_, .f32⟩
  | 49 => ⟨S1024x64, .f32⟩
  | 50 => ⟨S100000x1, .i32⟩
  | 51 => ⟨S1024x64, .f32⟩
  | 52 => ⟨S_, .f32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000, .f32⟩
  | 68 => ⟨S100000x1, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .f32⟩
  | 81 => ⟨S1024x64, .f32⟩
  | 82 => ⟨S100000x1, .i32⟩
  | 83 => ⟨S1024x64, .f32⟩
  | 84 => ⟨S_, .f32⟩
  | 85 => ⟨S100000, .f32⟩
  | 86 => ⟨S_, .f32⟩
  | 87 => ⟨S1024, .f32⟩
  | 88 => ⟨S100000x1, .i32⟩
  | 89 => ⟨S1024, .f32⟩
  | 90 => ⟨S_, .f32⟩
  | 91 => ⟨S1024, .f32⟩
  | 92 => ⟨S1024, .f32⟩
  | 93 => ⟨S1024x1, .f32⟩
  | 94 => ⟨S1024x64, .f32⟩
  | 95 => ⟨S1024x64, .f32⟩
  | 96 => ⟨S1024x64, .f32⟩
  | 97 => ⟨S1x3200000, .i32⟩
  | 98 => ⟨S3200000, .i32⟩
  | 99 => ⟨S1x3200000, .i32⟩
  | 100 => ⟨S3200000, .i32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x6, .f32⟩
  | 110 => ⟨S_, .f32⟩
  | 111 => ⟨S100000x6, .f32⟩
  | 112 => ⟨S3200000x1, .i32⟩
  | 113 => ⟨S100000x6, .f32⟩
  | 114 => ⟨S100000x6, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S100000, .f32⟩
  | _ => ⟨S100000x6, .f32⟩

abbrev hbmTy0_2 (i : Nat) : BufTy := match i % 128 with
  | 0 => ⟨S_, .f32⟩
  | 1 => ⟨S1024, .f32⟩
  | 2 => ⟨S100000x1, .i32⟩
  | 3 => ⟨S1024, .f32⟩
  | 4 => ⟨S_, .f32⟩
  | 5 => ⟨S1024, .f32⟩
  | 6 => ⟨S1024, .f32⟩
  | 7 => ⟨S_, .f32⟩
  | 8 => ⟨S1024, .f32⟩
  | 9 => ⟨S1024, .f32⟩
  | 10 => ⟨S_, .f32⟩
  | 11 => ⟨S1024x64, .f32⟩
  | 12 => ⟨S100000x1, .i32⟩
  | 13 => ⟨S1024x64, .f32⟩
  | 14 => ⟨S_, .f32⟩
  | 15 => ⟨S1024, .f32⟩
  | 16 => ⟨S1024, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000, .f32⟩
  | 26 => ⟨S100000x1, .f32⟩
  | 27 => ⟨S100000x64, .f32⟩
  | 28 => ⟨S100000x64, .f32⟩
  | 29 => ⟨S100000x64, .f32⟩
  | 30 => ⟨S_, .f32⟩
  | 31 => ⟨S1024x64, .f32⟩
  | 32 => ⟨S100000x1, .i32⟩
  | 33 => ⟨S1024x64, .f32⟩
  | 34 => ⟨S_, .f32⟩
  | 35 => ⟨S1024, .f32⟩
  | 36 => ⟨S1024, .f32⟩
  | 37 => ⟨S_, .f32⟩
  | 38 => ⟨S1024, .f32⟩
  | 39 => ⟨S1024, .f32⟩
  | 40 => ⟨S1024, .f32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000, .f32⟩
  | 50 => ⟨S100000x1, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S3200000x64, .f32⟩
  | 71 => ⟨S_, .f32⟩
  | 72 => ⟨S100000x64, .f32⟩
  | 73 => ⟨S3200000x1, .i32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000, .f32⟩
  | 89 => ⟨S_, .f32⟩
  | 90 => ⟨S1024, .f32⟩
  | 91 => ⟨S100000x1, .i32⟩
  | 92 => ⟨S1024, .f32⟩
  | 93 => ⟨S_, .f32⟩
  | 94 => ⟨S1024, .f32⟩
  | 95 => ⟨S1024, .f32⟩
  | 96 => ⟨S_, .f32⟩
  | 97 => ⟨S1024, .f32⟩
  | 98 => ⟨S1024, .f32⟩
  | 99 => ⟨S_, .f32⟩
  | 100 => ⟨S1024x64, .f32⟩
  | 101 => ⟨S100000x1, .i32⟩
  | 102 => ⟨S1024x64, .f32⟩
  | 103 => ⟨S_, .f32⟩
  | 104 => ⟨S1024, .f32⟩
  | 105 => ⟨S1024, .f32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000, .f32⟩
  | 115 => ⟨S100000x1, .f32⟩
  | 116 => ⟨S100000x64, .f32⟩
  | 117 => ⟨S100000x64, .f32⟩
  | 118 => ⟨S100000x64, .f32⟩
  | 119 => ⟨S_, .f32⟩
  | 120 => ⟨S1024x64, .f32⟩
  | 121 => ⟨S100000x1, .i32⟩
  | 122 => ⟨S1024x64, .f32⟩
  | 123 => ⟨S_, .f32⟩
  | 124 => ⟨S1024, .f32⟩
  | 125 => ⟨S1024, .f32⟩
  | 126 => ⟨S_, .f32⟩
  | 127 => ⟨S1024, .f32⟩
  | _ => ⟨S100000x6, .f32⟩

abbrev hbmTy0_3 (i : Nat) : BufTy := match i % 128 with
  | 0 => ⟨S1024, .f32⟩
  | 1 => ⟨S1024, .f32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000, .f32⟩
  | 11 => ⟨S100000x1, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S_, .f32⟩
  | 24 => ⟨S1024x64, .f32⟩
  | 25 => ⟨S100000x1, .i32⟩
  | 26 => ⟨S1024x64, .f32⟩
  | 27 => ⟨S_, .f32⟩
  | 28 => ⟨S100000, .f32⟩
  | 29 => ⟨S_, .f32⟩
  | 30 => ⟨S1024, .f32⟩
  | 31 => ⟨S100000x1, .i32⟩
  | 32 => ⟨S1024, .f32⟩
  | 33 => ⟨S_, .f32⟩
  | 34 => ⟨S1024, .f32⟩
  | 35 => ⟨S1024, .f32⟩
  | 36 => ⟨S1024x1, .f32⟩
  | 37 => ⟨S1024x64, .f32⟩
  | 38 => ⟨S1024x64, .f32⟩
  | 39 => ⟨S1024x64, .f32⟩
  | 40 => ⟨S1024x138, .f32⟩
  | 41 => ⟨S1024x128, .f32⟩
  | 42 => ⟨S1x128, .f32⟩
  | 43 => ⟨S1024x128, .f32⟩
  | 44 => ⟨S1024x128, .f32⟩
  | 45 => ⟨S_, .f32⟩
  | 46 => ⟨S1024x128, .f32⟩
  | 47 => ⟨S1024x128, .f32⟩
  | 48 => ⟨S1024x64, .f32⟩
  | 49 => ⟨S1x64, .f32⟩
  | 50 => ⟨S1024x64, .f32⟩
  | 51 => ⟨S1024x64, .f32⟩
  | 52 => ⟨S_, .f32⟩
  | 53 => ⟨S1024x64, .f32⟩
  | 54 => ⟨S1024x64, .f32⟩
  | 55 => ⟨S1024x1, .f32⟩
  | 56 => ⟨S1x1, .f32⟩
  | 57 => ⟨S1024x1, .f32⟩
  | 58 => ⟨S1024x1, .f32⟩
  | _ => ⟨S100000x6, .f32⟩

abbrev hbmTy (i : Nat) : BufTy := match i / 128 with
  | 0 => hbmTy0_0 i
  | 1 => hbmTy0_1 i
  | 2 => hbmTy0_2 i
  | 3 => hbmTy0_3 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_2 : Ref sig .tc := ⟨.hbm, 55, rfl⟩
abbrev main_v25 : Ref sig .tc := ⟨.hbm, 56, rfl⟩
abbrev main_cst_3 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_4 : Ref sig .tc := ⟨.hbm, 61, rfl⟩
abbrev main_v29 : Ref sig .tc := ⟨.hbm, 62, rfl⟩
abbrev main_v30 : Ref sig .tc := ⟨.hbm, 63, rfl⟩
abbrev main_cst_5 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_7 : Ref sig .tc := ⟨.hbm, 71, rfl⟩
abbrev main_v36 : Ref sig .tc := ⟨.hbm, 72, rfl⟩
abbrev main_v37 : Ref sig .tc := ⟨.hbm, 73, rfl⟩
abbrev main_c_8 : Ref sig .tc := ⟨.hbm, 74, rfl⟩
abbrev main_v38 : Ref sig .tc := ⟨.hbm, 75, rfl⟩
abbrev main_v39 : Ref sig .tc := ⟨.hbm, 76, rfl⟩
abbrev main_c_9 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_10 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_11 : Ref sig .tc := ⟨.hbm, 91, rfl⟩
abbrev main_v52 : Ref sig .tc := ⟨.hbm, 92, rfl⟩
abbrev main_v53 : Ref sig .tc := ⟨.hbm, 93, rfl⟩
abbrev main_cst_12 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_c_13 : Ref sig .tc := ⟨.hbm, 98, rfl⟩
abbrev main_v57 : Ref sig .tc := ⟨.hbm, 99, rfl⟩
abbrev main_v58 : Ref sig .tc := ⟨.hbm, 100, rfl⟩
abbrev main_c_14 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_15 : Ref sig .tc := ⟨.hbm, 116, rfl⟩
abbrev main_v73 : Ref sig .tc := ⟨.hbm, 117, rfl⟩
abbrev main_v74 : Ref sig .tc := ⟨.hbm, 118, rfl⟩
abbrev main_c_16 : Ref sig .tc := ⟨.hbm, 119, rfl⟩
abbrev main_v75 : Ref sig .tc := ⟨.hbm, 120, rfl⟩
abbrev main_v76 : Ref sig .tc := ⟨.hbm, 121, rfl⟩
abbrev main_c_17 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_18 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_19 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_20 : Ref sig .tc := ⟨.hbm, 144, rfl⟩
abbrev main_v96 : Ref sig .tc := ⟨.hbm, 145, rfl⟩
abbrev main_cst_21 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_22 : Ref sig .tc := ⟨.hbm, 150, rfl⟩
abbrev main_v100 : Ref sig .tc := ⟨.hbm, 151, rfl⟩
abbrev main_v101 : Ref sig .tc := ⟨.hbm, 152, rfl⟩
abbrev main_cst_23 : Ref sig .tc := ⟨.hbm, 153, rfl⟩
abbrev main_v102 : Ref sig .tc := ⟨.hbm, 154, rfl⟩
abbrev main_v103 : Ref sig .tc := ⟨.hbm, 155, rfl⟩
abbrev main_cst_24 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_cst_25 : Ref sig .tc := ⟨.hbm, 160, rfl⟩
abbrev main_v107 : Ref sig .tc := ⟨.hbm, 161, rfl⟩
abbrev main_v108 : Ref sig .tc := ⟨.hbm, 162, rfl⟩
abbrev main_c_26 : Ref sig .tc := ⟨.hbm, 163, rfl⟩
abbrev main_v109 : Ref sig .tc := ⟨.hbm, 164, rfl⟩
abbrev main_v110 : Ref sig .tc := ⟨.hbm, 165, rfl⟩
abbrev main_c_27 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_28 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_29 : Ref sig .tc := ⟨.hbm, 180, rfl⟩
abbrev main_v123 : Ref sig .tc := ⟨.hbm, 181, rfl⟩
abbrev main_v124 : Ref sig .tc := ⟨.hbm, 182, rfl⟩
abbrev main_cst_30 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_c_31 : Ref sig .tc := ⟨.hbm, 187, rfl⟩
abbrev main_v128 : Ref sig .tc := ⟨.hbm, 188, rfl⟩
abbrev main_v129 : Ref sig .tc := ⟨.hbm, 189, rfl⟩
abbrev main_c_32 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_cst_33 : Ref sig .tc := ⟨.hbm, 205, rfl⟩
abbrev main_v144 : Ref sig .tc := ⟨.hbm, 206, rfl⟩
abbrev main_v145 : Ref sig .tc := ⟨.hbm, 207, rfl⟩
abbrev main_cst_34 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_35 : Ref sig .tc := ⟨.hbm, 212, rfl⟩
abbrev main_v149 : Ref sig .tc := ⟨.hbm, 213, rfl⟩
abbrev main_cst_36 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_cst_37 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_c_38 : Ref sig .tc := ⟨.hbm, 229, rfl⟩
abbrev main_v163 : Ref sig .tc := ⟨.hbm, 230, rfl⟩
abbrev main_v164 : Ref sig .tc := ⟨.hbm, 231, rfl⟩
abbrev main_c_39 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_cst_40 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_cst_41 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_cst_42 : Ref sig .tc := ⟨.hbm, 254, rfl⟩
abbrev main_v184 : Ref sig .tc := ⟨.hbm, 255, rfl⟩
abbrev main_cst_43 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_cst_44 : Ref sig .tc := ⟨.hbm, 260, rfl⟩
abbrev main_v188 : Ref sig .tc := ⟨.hbm, 261, rfl⟩
abbrev main_v189 : Ref sig .tc := ⟨.hbm, 262, rfl⟩
abbrev main_cst_45 : Ref sig .tc := ⟨.hbm, 263, rfl⟩
abbrev main_v190 : Ref sig .tc := ⟨.hbm, 264, rfl⟩
abbrev main_v191 : Ref sig .tc := ⟨.hbm, 265, rfl⟩
abbrev main_cst_46 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_cst_47 : Ref sig .tc := ⟨.hbm, 270, rfl⟩
abbrev main_v195 : Ref sig .tc := ⟨.hbm, 271, rfl⟩
abbrev main_v196 : Ref sig .tc := ⟨.hbm, 272, rfl⟩
abbrev main_c_48 : Ref sig .tc := ⟨.hbm, 273, rfl⟩
abbrev main_v197 : Ref sig .tc := ⟨.hbm, 274, rfl⟩
abbrev main_v198 : Ref sig .tc := ⟨.hbm, 275, rfl⟩
abbrev main_c_49 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_cst_50 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_cst_51 : Ref sig .tc := ⟨.hbm, 290, rfl⟩
abbrev main_v211 : Ref sig .tc := ⟨.hbm, 291, rfl⟩
abbrev main_v212 : Ref sig .tc := ⟨.hbm, 292, rfl⟩
abbrev main_cst_52 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_c_53 : Ref sig .tc := ⟨.hbm, 297, rfl⟩
abbrev main_v216 : Ref sig .tc := ⟨.hbm, 298, rfl⟩
abbrev main_v217 : Ref sig .tc := ⟨.hbm, 299, rfl⟩
abbrev main_c_54 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_cst_55 : Ref sig .tc := ⟨.hbm, 315, rfl⟩
abbrev main_v232 : Ref sig .tc := ⟨.hbm, 316, rfl⟩
abbrev main_v233 : Ref sig .tc := ⟨.hbm, 317, rfl⟩
abbrev main_c_56 : Ref sig .tc := ⟨.hbm, 318, rfl⟩
abbrev main_v234 : Ref sig .tc := ⟨.hbm, 319, rfl⟩
abbrev main_v235 : Ref sig .tc := ⟨.hbm, 320, rfl⟩
abbrev main_c_57 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_cst_58 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_cst_59 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_cst_60 : Ref sig .tc := ⟨.hbm, 343, rfl⟩
abbrev main_v255 : Ref sig .tc := ⟨.hbm, 344, rfl⟩
abbrev main_cst_61 : Ref sig .tc := ⟨.hbm, 345, rfl⟩
abbrev main_v256 : Ref sig .tc := ⟨.hbm, 346, rfl⟩
abbrev main_v257 : Ref sig .tc := ⟨.hbm, 347, rfl⟩
abbrev main_v258 : Ref sig .tc := ⟨.hbm, 348, rfl⟩
abbrev main_cst_62 : Ref sig .tc := ⟨.hbm, 349, rfl⟩
abbrev main_v259 : Ref sig .tc := ⟨.hbm, 350, rfl⟩
abbrev main_v260 : Ref sig .tc := ⟨.hbm, 351, rfl⟩
abbrev main_cst_63 : Ref sig .tc := ⟨.hbm, 352, rfl⟩
abbrev main_v261 : Ref sig .tc := ⟨.hbm, 353, rfl⟩
abbrev main_v262 : Ref sig .tc := ⟨.hbm, 354, rfl⟩
abbrev main_cst_64 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_cst_65 : Ref sig .tc := ⟨.hbm, 359, rfl⟩
abbrev main_v266 : Ref sig .tc := ⟨.hbm, 360, rfl⟩
abbrev main_v267 : Ref sig .tc := ⟨.hbm, 361, rfl⟩
abbrev main_c_66 : Ref sig .tc := ⟨.hbm, 362, rfl⟩
abbrev main_v268 : Ref sig .tc := ⟨.hbm, 363, rfl⟩
abbrev main_v269 : Ref sig .tc := ⟨.hbm, 364, rfl⟩
abbrev main_c_67 : Ref sig .tc := ⟨.hbm, 365, rfl⟩
abbrev main_v270 : Ref sig .tc := ⟨.hbm, 366, rfl⟩
abbrev main_v271 : Ref sig .tc := ⟨.hbm, 367, rfl⟩
abbrev main_v272 : Ref sig .tc := ⟨.hbm, 368, rfl⟩
abbrev main_v273 : Ref sig .tc := ⟨.hbm, 369, rfl⟩
abbrev main_v274 : Ref sig .tc := ⟨.hbm, 370, rfl⟩
abbrev main_v275 : Ref sig .tc := ⟨.hbm, 371, rfl⟩
abbrev main_v276 : Ref sig .tc := ⟨.hbm, 372, rfl⟩
abbrev main_v277 : Ref sig .tc := ⟨.hbm, 373, rfl⟩
abbrev main_v278 : Ref sig .tc := ⟨.hbm, 374, rfl⟩
abbrev main_cst_68 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_cst_69 : Ref sig .tc := ⟨.hbm, 379, rfl⟩
abbrev main_v282 : Ref sig .tc := ⟨.hbm, 380, rfl⟩
abbrev main_v283 : Ref sig .tc := ⟨.hbm, 381, rfl⟩
abbrev main_cst_70 : Ref sig .tc := ⟨.hbm, 382, rfl⟩
abbrev main_v284 : Ref sig .tc := ⟨.hbm, 383, rfl⟩
abbrev main_v285 : Ref sig .tc := ⟨.hbm, 384, rfl⟩
abbrev main_v286 : Ref sig .tc := ⟨.hbm, 385, rfl⟩
abbrev main_c_71 : Ref sig .tc := ⟨.hbm, 386, rfl⟩
abbrev main_v287 : Ref sig .tc := ⟨.hbm, 387, rfl⟩
abbrev main_v288 : Ref sig .tc := ⟨.hbm, 388, rfl⟩
abbrev main_c_72 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_v294 : Ref sig .tc := ⟨.hbm, 395, rfl⟩
abbrev main_v295 : Ref sig .tc := ⟨.hbm, 396, rfl⟩
abbrev main_v296 : Ref sig .tc := ⟨.hbm, 397, rfl⟩
abbrev main_v297 : Ref sig .tc := ⟨.hbm, 398, rfl⟩
abbrev main_v298 : Ref sig .tc := ⟨.hbm, 399, rfl⟩
abbrev main_v299 : Ref sig .tc := ⟨.hbm, 400, rfl⟩
abbrev main_v300 : Ref sig .tc := ⟨.hbm, 401, rfl⟩
abbrev main_v301 : Ref sig .tc := ⟨.hbm, 402, rfl⟩
abbrev main_v302 : Ref sig .tc := ⟨.hbm, 403, rfl⟩
abbrev main_cst_73 : Ref sig .tc := ⟨.hbm, 404, rfl⟩
abbrev main_v303 : Ref sig .tc := ⟨.hbm, 405, rfl⟩
abbrev main_v304 : Ref sig .tc := ⟨.hbm, 406, rfl⟩
abbrev main_cst_74 : Ref sig .tc := ⟨.hbm, 407, rfl⟩
abbrev main_v305 : Ref sig .tc := ⟨.hbm, 408, rfl⟩
abbrev main_v306 : Ref sig .tc := ⟨.hbm, 409, rfl⟩
abbrev main_v307 : Ref sig .tc := ⟨.hbm, 410, rfl⟩
abbrev main_cst_75 : Ref sig .tc := ⟨.hbm, 411, rfl⟩
abbrev main_v308 : Ref sig .tc := ⟨.hbm, 412, rfl⟩
abbrev main_cst_76 : Ref sig .tc := ⟨.hbm, 413, rfl⟩
abbrev main_v309 : Ref sig .tc := ⟨.hbm, 414, rfl⟩
abbrev main_v310 : Ref sig .tc := ⟨.hbm, 415, rfl⟩
abbrev main_v311 : Ref sig .tc := ⟨.hbm, 416, rfl⟩
abbrev main_cst_77 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_v320 : Ref sig .tc := ⟨.hbm, 426, rfl⟩
abbrev main_v321 : Ref sig .tc := ⟨.hbm, 427, rfl⟩
abbrev main_v322 : Ref sig .tc := ⟨.hbm, 428, rfl⟩
abbrev main_cst_78 : Ref sig .tc := ⟨.hbm, 429, rfl⟩
abbrev main_v323 : Ref sig .tc := ⟨.hbm, 430, rfl⟩
abbrev main_v324 : Ref sig .tc := ⟨.hbm, 431, rfl⟩
abbrev main_v325 : Ref sig .tc := ⟨.hbm, 432, rfl⟩
abbrev main_v326 : Ref sig .tc := ⟨.hbm, 433, rfl⟩
abbrev main_v327 : Ref sig .tc := ⟨.hbm, 434, rfl⟩
abbrev main_v328 : Ref sig .tc := ⟨.hbm, 435, rfl⟩
abbrev main_cst_79 : Ref sig .tc := ⟨.hbm, 436, rfl⟩
abbrev main_v329 : Ref sig .tc := ⟨.hbm, 437, rfl⟩
abbrev main_v330 : Ref sig .tc := ⟨.hbm, 438, rfl⟩
abbrev main_v331 : Ref sig .tc := ⟨.hbm, 439, rfl⟩
abbrev main_v332 : Ref sig .tc := ⟨.hbm, 440, rfl⟩
abbrev main_v333 : Ref sig .tc := ⟨.hbm, 441, rfl⟩
abbrev main_v334 : Ref sig .tc := ⟨.hbm, 442, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x6 : S_.BroadcastsInDim S100000x6 (![] : Fin 0 → Fin S100000x6.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S100000 : S_.BroadcastsInDim S100000 (![] : Fin 0 → Fin S100000.rank)
  bcast_S_S1024 : S_.BroadcastsInDim S1024 (![] : Fin 0 → Fin S1024.rank)
  bcast_S100000_S100000x1_0 : S100000.BroadcastsInDim S100000x1 (![0] : Fin 1 → Fin S100000x1.rank)
  bcast_S_S1024x64 : S_.BroadcastsInDim S1024x64 (![] : Fin 0 → Fin S1024x64.rank)
  reducesTo_S1024x64_S1024_d1 : S1024x64.ReducesTo [1] S1024
  h_S_ : 0 < S_.numel
  bcast_S100000x1_S100000x64_0_1 : S100000x1.BroadcastsInDim S100000x64 (![0, 1] : Fin 2 → Fin S100000x64.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  concatenates_S1024x64_S1024x64_S1024x5_S1024x5_S1024x138_d1 : Shape.Concatenates [S1024x64, S1024x64, S1024x5, S1024x5] S1024x138 1
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1x64_S1024x64_0_1 : S1x64.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S100000x6_S6x64_S100000x64_1_0_0_1_n_n_wf : DotDims.WF S100000x6 S6x64 S100000x64 [1] [0] [0] [1] [] []
  dot_S100000x64_S64x64_S100000x64_1_0_0_1_n_n_wf : DotDims.WF S100000x64 S64x64 S100000x64 [1] [0] [0] [1] [] []
  scatter_S1024_S100000x1_S100000_n_0_0_1_wf : ScatterDims.WF S1024 S100000x1 S100000 [] [0] [0] 1
  scatter_S1024x64_S100000x1_S100000x64_1_0_0_1_wf : ScatterDims.WF S1024x64 S100000x1 S100000x64 [1] [0] [0] 1
  gather_S1024_S100000x1_S100000_n_0_n_n_0_1_1_wf : GatherDims.WF S1024 S100000x1 S100000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S1024x138_S138x128_S1024x128_1_0_0_1_n_n_wf : DotDims.WF S1024x138 S138x128 S1024x128 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []

variable [Facts₀]

def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def gather_S1024_S100000x1_S100000_n_0_n_n_0_1_1 : GatherDims S1024 S100000x1 S100000 where
  offsetDims := []
  collapsedSliceDims := [0]
  operandBatchingDims := []
  startIndicesBatchingDims := []
  startIndexMap := [0]
  indexVectorDim := 1
  sliceSizes := ![1]
  wf := gather_S1024_S100000x1_S100000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S1024x138_S138x128_S1024x128_1_0_0_1_n_n : DotDims S1024x138 S138x128 S1024x128 where
  lhsContracting := [1]
  rhsContracting := [0]
  lhsNonContracting := [0]
  rhsNonContracting := [1]
  lhsBatch := []
  rhsBatch := []
  wf := dot_S1024x138_S138x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.K.Conv1A.lean ====
/-
  Graph A, first convolution layer (the first pallas_call): one grid point takes a block of 2000 node rows of the
  node features x and of the neighbour sums agg (both 2000 x 6), the whole weights (6 x 64, 64, 64 x 64, 64), and
  writes the 2000 x 64 block  relu((x + agg) W_a + b_a) W_b + b_b  of the layer's output. Here: what one grid point
  leaves in the output's staging buffer as a function of the six input blocks, the body's run, and the pipeline's
  proof data at arbitrary entry contents V of the core's buffers (inputs stay as fetched, nothing is owed).
-/
import proofs.«167438_j18270790877246_1_alg».proof.Proof.Gen.Kernel.Launch
import proofs.«167438_j18270790877246_1_alg».proof.Proof.Gen.Kernel.Skeleton
import proofs.«167438_j18270790877246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose
    index does not move is fetched once and still holds the same block). One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole staging buffer -/

abbrev rX0 : Rect S2000x6 := Rect.unit (s := S2000x6) ![0, 0] S2000x6.size inb_S2000x6_S2000x6_0_0
abbrev rWa0 : Rect S6x64 := Rect.unit (s := S6x64) ![0, 0] S6x64.size inb_S6x64_S6x64_0_0
abbrev rB0 : Rect S64 := Rect.unit (s := S64) ![0] S64.size inb_S64_S64_0
abbrev rWb0 : Rect S64x64 := Rect.unit (s := S64x64) ![0, 0] S64x64.size inb_S64x64_S64x64_0_0
abbrev rO0 : Rect S2000x64 := Rect.unit (s := S2000x64) ![0, 0] S2000x64.size inb_S2000x64_S2000x64_0_0

/-! ## What the body leaves in the output's staging buffer -/

/-- The output's staging buffer after the body: its one store, of the layer's formula on the six loaded blocks. -/
def out0_6 (x0 x1 : Vec F S2000x6 .f32) (x2 : Vec F S6x64 .f32) (x3 : Vec F S64 .f32) (x4 : Vec F S64x64 .f32) (x5 : Vec F S64 .f32) :
    Vec F S2000x64 .f32 :=
  View.canon [⟨rO0, k0_pay1 (View.ld x0 rX0) (View.ld x1 rX0) (View.ld x2 rWa0) (View.ld x3 rB0) (View.ld x4 rWb0) (View.ld x5 rB0)⟩]

/-- The one store covers the buffer. -/
theorem cover0_6 (p0 : Vec F S2000x64 .f32) (y : S2000x64.Idx) :
    ∃ pc ∈ ([⟨rO0, p0⟩] : List (View.Piece (Elt F) S2000x64 .f32)), y ∈ pc.1.set :=
  View.cover_of_tiled [⟨rO0, p0⟩] S2000x64.size (by rfl) y

/-! ## The body's run -/

set_option maxHeartbeats 1000000 in
/-- The body on whole staging memrefs, the inputs' at contents `x0 … x5` and the output's at anything, runs to the
    continuation holding the inputs' as they were and the output's at `out0_6` of them. -/
theorem sound_kernel0 (c : Dev nD) (E : Set ℕ) (i : grid0.Coords)
    (arg1 : Memref sig .tc .vmem S2000x6 .f32) (harg1 : arg1.IsWhole) (arg2 : Memref sig .tc .vmem S2000x6 .f32) (harg2 : arg2.IsWhole)
    (arg3 : Memref sig .tc .vmem S6x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S2000x64 .f32) (harg7 : arg7.IsWhole)
    (x0 x1 : Vec F S2000x6 .f32) (x2 : Vec F S6x64 .f32) (x3 : Vec F S64 .f32) (x4 : Vec F S64x64 .f32) (x5 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data on core `c`: the arrays as the region finds them; after the body at point `t` each input's buffer
    still at its block and the output's at `out0_6` of the input blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Norm1A.lean ====
/-
  Graph A, first normalization layer (the second pallas_call): one grid point takes a block of 2000 node rows of the
  convolution's output h (2000 x 64), the per-node graph mean and graph variance as columns (2000 x 1 each), the
  scale and shift (64 each), and writes the 2000 x 64 block  max(((h - mean) * rsqrt(var + eps)) * scale + shift, 0).
  Here: what one grid point leaves in the output's staging buffer as a function of the five input blocks, the body's
  run, and the pipeline's proof data at arbitrary entry contents V of the core's buffers.
-/
import proofs.«167438_j18270790877246_1_alg».proof.Proof.Gen.Kernel.Launch
import proofs.«167438_j18270790877246_1_alg».proof.Proof.Gen.Kernel.Skeleton
import proofs.«167438_j18270790877246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev rH1 : Rect S2000x64 := Rect.unit (s := S2000x64) ![0, 0] S2000x64.size inb_S2000x64_S2000x64_0_0
abbrev rC1 : Rect S2000x1 := Rect.unit (s := S2000x1) ![0, 0] S2000x1.size inb_S2000x1_S2000x1_0_0
abbrev rS1 : Rect S64 := Rect.unit (s := S64) ![0] S64.size inb_S64_S64_0

/-! ## What the body leaves in the output's staging buffer -/

/-- The output's staging buffer after the body: its one store, of the layer's formula on the five loaded blocks. -/
def out1_5 (x0 : Vec F S2000x64 .f32) (x1 x2 : Vec F S2000x1 .f32) (x3 x4 : Vec F S64 .f32) : Vec F S2000x64 .f32 :=
  View.canon [⟨rH1, k1_pay1 (View.ld x0 rH1) (View.ld x1 rC1) (View.ld x2 rC1) (View.ld x3 rS1) (View.ld x4 rS1)⟩]

/-- The one store covers the buffer. -/
theorem cover1_5 (p0 : Vec F S2000x64 .f32) (y : S2000x64.Idx) :
    ∃ pc ∈ ([⟨rH1, p0⟩] : List (View.Piece (Elt F) S2000x64 .f32)), y ∈ pc.1.set :=
  View.cover_of_tiled [⟨rH1, p0⟩] S2000x64.size (by rfl) y

/-! ## The body's run -/

set_option maxHeartbeats 1000000 in
/-- The body on whole staging memrefs, the inputs' at contents `x0 … x4` and the output's at anything, runs to the
    continuation holding the inputs' as they were and the output's at `out1_5` of them. -/
theorem sound_kernel1 (c : Dev nD) (E : Set ℕ) (i : grid1.Coords)
    (arg1 : Memref sig .tc .vmem S2000x64 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S64 .f32) (harg5 : arg5.IsWhole) (arg6 : Memref sig .tc .vmem S2000x64 .f32) (harg6 : arg6.IsWhole)
    (x0 : Vec F S2000x64 .f32) (x1 x2 : Vec F S2000x1 .f32) (x3 x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__layernorm_relu_kernel i arg1 harg1 arg2 harg2 arg3 harg3 arg4 harg4 arg5 harg5 arg6 harg6) K := by
  simp only [cc1__layernorm_relu_kernel_eq_skeleton]; unfold cc1__layernorm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data on core `c`: the arrays as the region finds them; after the body at point `t` each input's buffer
    still at its block and the output's at `out1_5` of the input blocks; the class's invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Conv2A.lean ====
/-
  Graph A, second convolution layer (the third pallas_call): one grid point takes a block of 2000 node rows of the
  normalized features x and of the neighbour sums agg (both 2000 x 64), the whole weights (64 x 64, 64, 64 x 64, 64),
  and writes the 2000 x 64 block  relu((x + agg) W_a + b_a) W_b + b_b  of the layer's output. Here: what one grid
  point leaves in the output's staging buffer as a function of the six input blocks, the body's run, and the
  pipeline's proof data at arbitrary entry contents V of the core's buffers.
-/
import proofs.«167438_j18270790877246_1_alg».proof.Proof.Gen.Kernel.Launch
import proofs.«167438_j18270790877246_1_alg».proof.Proof.Gen.Kernel.Skeleton
import proofs.«167438_j18270790877246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole staging buffer -/

abbrev rX2 : Rect S2000x64 := Rect.unit (s := S2000x64) ![0, 0] S2000x64.size inb_S2000x64_S2000x64_0_0
abbrev rW2 : Rect S64x64 := Rect.unit (s := S64x64) ![0, 0] S64x64.size inb_S64x64_S64x64_0_0
abbrev rB2 : Rect S64 := Rect.unit (s := S64) ![0] S64.size inb_S64_S64_0

/-! ## What the body leaves in the output's staging buffer -/

/-- The output's staging buffer after the body: its one store, of the layer's formula on the six loaded blocks. -/
def out2_6 (x0 x1 : Vec F S2000x64 .f32) (x2 : Vec F S64x64 .f32) (x3 : Vec F S64 .f32) (x4 : Vec F S64x64 .f32) (x5 : Vec F S64 .f32) :
    Vec F S2000x64 .f32 :=
  View.canon [⟨rX2, k2_pay1 (View.ld x0 rX2) (View.ld x1 rX2) (View.ld x2 rW2) (View.ld x3 rB2) (View.ld x4 rW2) (View.ld x5 rB2)⟩]

/-- The one store covers the buffer. -/
theorem cover2_6 (p0 : Vec F S2000x64 .f32) (y : S2000x64.Idx) :
    ∃ pc ∈ ([⟨rX2, p0⟩] : List (View.Piece (Elt F) S2000x64 .f32)), y ∈ pc.1.set :=
  View.cover_of_tiled [⟨rX2, p0⟩] S2000x64.size (by rfl) y

/-! ## The body's run -/

set_option maxHeartbeats 1000000 in
/-- The body on whole staging memrefs, the inputs' at contents `x0 … x5` and the output's at anything, runs to the
    continuation holding the inputs' as they were and the output's at `out2_6` of them. -/
theorem sound_kernel2 (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S2000x64 .f32) (harg7 : arg7.IsWhole)
    (x0 x1 : Vec F S2000x64 .f32) (x2 : Vec F S64x64 .f32) (x3 : Vec F S64 .f32) (x4 : Vec F S64x64 .f32) (x5 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data on core `c`: the arrays as the region finds them; after the body at point `t` each input's buffer
    still at its block and the output's at `out2_6` of the input blocks; the class's invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Norm2A.lean ====
/-
  Graph A, second normalization layer (the fourth pallas_call): one grid point takes a block of 2000 node rows of the
  second convolution's output h (2000 x 64), the per-node graph mean and graph variance as columns (2000 x 1 each),
  the scale and shift (64 each), and writes the 2000 x 64 block  max(((h - mean) * rsqrt(var + eps)) * scale + shift, 0).
  Here: what one grid point leaves in the output's staging buffer as a function of the five input blocks, the body's
  run, and the pipeline's proof data at arbitrary entry contents V of the core's buffers.
-/
import proofs.«167438_j18270790877246_1_alg».proof.Proof.Gen.Kernel.Launch
import proofs.«167438_j18270790877246_1_alg».proof.Proof.Gen.Kernel.Skeleton
import proofs.«167438_j18270790877246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole staging buffer -/

abbrev rH3 : Rect S2000x64 := Rect.unit (s := S2000x64) ![0, 0] S2000x64.size inb_S2000x64_S2000x64_0_0
abbrev rC3 : Rect S2000x1 := Rect.unit (s := S2000x1) ![0, 0] S2000x1.size inb_S2000x1_S2000x1_0_0
abbrev rS3 : Rect S64 := Rect.unit (s := S64) ![0] S64.size inb_S64_S64_0

/-! ## What the body leaves in the output's staging buffer -/

/-- The output's staging buffer after the body: its one store, of the layer's formula on the five loaded blocks. -/
def out3_5 (x0 : Vec F S2000x64 .f32) (x1 x2 : Vec F S2000x1 .f32) (x3 x4 : Vec F S64 .f32) : Vec F S2000x64 .f32 :=
  View.canon [⟨rH3, k3_pay1 (View.ld x0 rH3) (View.ld x1 rC3) (View.ld x2 rC3) (View.ld x3 rS3) (View.ld x4 rS3)⟩]

/-- The one store covers the buffer. -/
theorem cover3_5 (p0 : Vec F S2000x64 .f32) (y : S2000x64.Idx) :
    ∃ pc ∈ ([⟨rH3, p0⟩] : List (View.Piece (Elt F) S2000x64 .f32)), y ∈ pc.1.set :=
  View.cover_of_tiled [⟨rH3, p0⟩] S2000x64.size (by rfl) y

/-! ## The body's run -/

set_option maxHeartbeats 1000000 in
/-- The body on whole staging memrefs, the inputs' at contents `x0 … x4` and the output's at anything, runs to the
    continuation holding the inputs' as they were and the output's at `out3_5` of them. -/
theorem sound_kernel3 (c : Dev nD) (E : Set ℕ) (i : grid3.Coords)
    (arg1 : Memref sig .tc .vmem S2000x64 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S64 .f32) (harg5 : arg5.IsWhole) (arg6 : Memref sig .tc .vmem S2000x64 .f32) (harg6 : arg6.IsWhole)
    (x0 : Vec F S2000x64 .f32) (x1 x2 : Vec F S2000x1 .f32) (x3 x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__layernorm_relu_kernel i arg1 harg1 arg2 harg2 arg3 harg3 arg4 harg4 arg5 harg5 arg6 harg6) K := by
  simp only [cc3__layernorm_relu_kernel_eq_skeleton]; unfold cc3__layernorm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data on core `c`: the arrays as the region finds them; after the body at point `t` each input's buffer
    still at its block and the output's at `out3_5` of the input blocks; the class's invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Conv1B.lean ====
/-
  Graph B, first convolution layer (the fifth pallas_call): one grid point takes a block of 2000 node rows of the
  second graph's node features x and of its neighbour sums agg (both 2000 x 6), the whole weights (6 x 64, 64,
  64 x 64, 64), and writes the 2000 x 64 block  relu((x + agg) W_a + b_a) W_b + b_b  of the layer's output. Here: what
  one grid point leaves in the output's staging buffer as a function of the six input blocks, the body's run, and the
  pipeline's proof data at arbitrary entry contents V of the core's buffers.
-/
import proofs.«167438_j18270790877246_1_alg».proof.Proof.Gen.Kernel.Launch
import proofs.«167438_j18270790877246_1_alg».proof.Proof.Gen.Kernel.Skeleton
import proofs.«167438_j18270790877246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store take a whole staging buffer -/

abbrev rX4 : Rect S2000x6 := Rect.unit (s := S2000x6) ![0, 0] S2000x6.size inb_S2000x6_S2000x6_0_0
abbrev rWa4 : Rect S6x64 := Rect.unit (s := S6x64) ![0, 0] S6x64.size inb_S6x64_S6x64_0_0
abbrev rB4 : Rect S64 := Rect.unit (s := S64) ![0] S64.size inb_S64_S64_0
abbrev rWb4 : Rect S64x64 := Rect.unit (s := S64x64) ![0, 0] S64x64.size inb_S64x64_S64x64_0_0
abbrev rO4 : Rect S2000x64 := Rect.unit (s := S2000x64) ![0, 0] S2000x64.size inb_S2000x64_S2000x64_0_0

/-! ## What the body leaves in the output's staging buffer -/

/-- The output's staging buffer after the body: its one store, of the layer's formula on the six loaded blocks. -/
def out4_6 (x0 x1 : Vec F S2000x6 .f32) (x2 : Vec F S6x64 .f32) (x3 : Vec F S64 .f32) (x4 : Vec F S64x64 .f32) (x5 : Vec F S64 .f32) :
    Vec F S2000x64 .f32 :=
  View.canon [⟨rO4, k4_pay1 (View.ld x0 rX4) (View.ld x1 rX4) (View.ld x2 rWa4) (View.ld x3 rB4) (View.ld x4 rWb4) (View.ld x5 rB4)⟩]

/-- The one store covers the buffer. -/
theorem cover4_6 (p0 : Vec F S2000x64 .f32) (y : S2000x64.Idx) :
    ∃ pc ∈ ([⟨rO4, p0⟩] : List (View.Piece (Elt F) S2000x64 .f32)), y ∈ pc.1.set :=
  View.cover_of_tiled [⟨rO4, p0⟩] S2000x64.size (by rfl) y

/-! ## The body's run -/

set_option maxHeartbeats 1000000 in
/-- The body on whole staging memrefs, the inputs' at contents `x0 … x5` and the output's at anything, runs to the
    continuation holding the inputs' as they were and the output's at `out4_6` of them. -/
theorem sound_kernel4 (c : Dev nD) (E : Set ℕ) (i : grid4.Coords)
    (arg1 : Memref sig .tc .vmem S2000x6 .f32) (harg1 : arg1.IsWhole) (arg2 : Memref sig .tc .vmem S2000x6 .f32) (harg2 : arg2.IsWhole)
    (arg3 : Memref sig .tc .vmem S6x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S2000x64 .f32) (harg7 : arg7.IsWhole)
    (x0 x1 : Vec F S2000x6 .f32) (x2 : Vec F S6x64 .f32) (x3 : Vec F S64 .f32) (x4 : Vec F S64x64 .f32) (x5 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__gin_mlp_kernel i arg1 harg1 arg2 harg2 arg3 harg3 arg4 harg4 arg5 harg5 arg6 harg6 arg7 harg7) K := by
  simp only [cc4__gin_mlp_kernel_eq_skeleton]; unfold cc4__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data on core `c`: the arrays as the region finds them; after the body at point `t` each input's buffer
    still at its block and the output's at `out4_6` of the input blocks; the class's invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t
    = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Norm1B.lean ====
/-
  Graph B, first normalization layer (the sixth pallas_call): one grid point takes a block of 2000 node rows of the
  second graph's first convolution output h (2000 x 64), the per-node graph mean and graph variance as columns
  (2000 x 1 each), the scale and shift (64 each), and writes the 2000 x 64 block
  max(((h - mean) * rsqrt(var + eps)) * scale + shift, 0). Here: what one grid point leaves in the output's staging
  buffer as a function of the five input blocks, the body's run, and the pipeline's proof data at arbitrary entry
  contents V of the core's buffers.
-/
import proofs.«167438_j18270790877246_1_alg».proof.Proof.Gen.Kernel.Launch
import proofs.«167438_j18270790877246_1_alg».proof.Proof.Gen.Kernel.Skeleton
import proofs.«167438_j18270790877246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store take a whole staging buffer -/

abbrev rH5 : Rect S2000x64 := Rect.unit (s := S2000x64) ![0, 0] S2000x64.size inb_S2000x64_S2000x64_0_0
abbrev rC5 : Rect S2000x1 := Rect.unit (s := S2000x1) ![0, 0] S2000x1.size inb_S2000x1_S2000x1_0_0
abbrev rS5 : Rect S64 := Rect.unit (s := S64) ![0] S64.size inb_S64_S64_0

/-! ## What the body leaves in the output's staging buffer -/

/-- The output's staging buffer after the body: its one store, of the layer's formula on the five loaded blocks. -/
def out5_5 (x0 : Vec F S2000x64 .f32) (x1 x2 : Vec F S2000x1 .f32) (x3 x4 : Vec F S64 .f32) : Vec F S2000x64 .f32 :=
  View.canon [⟨rH5, k5_pay1 (View.ld x0 rH5) (View.ld x1 rC5) (View.ld x2 rC5) (View.ld x3 rS5) (View.ld x4 rS5)⟩]

/-- The one store covers the buffer. -/
theorem cover5_5 (p0 : Vec F S2000x64 .f32) (y : S2000x64.Idx) :
    ∃ pc ∈ ([⟨rH5, p0⟩] : List (View.Piece (Elt F) S2000x64 .f32)), y ∈ pc.1.set :=
  View.cover_of_tiled [⟨rH5, p0⟩] S2000x64.size (by rfl) y

/-! ## The body's run -/

set_option maxHeartbeats 1000000 in
/-- The body on whole staging memrefs, the inputs' at contents `x0 … x4` and the output's at anything, runs to the
    continuation holding the inputs' as they were and the output's at `out5_5` of them. -/
theorem sound_kernel5 (c : Dev nD) (E : Set ℕ) (i : grid5.Coords)
    (arg1 : Memref sig .tc .vmem S2000x64 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S64 .f32) (harg5 : arg5.IsWhole) (arg6 : Memref sig .tc .vmem S2000x64 .f32) (harg6 : arg6.IsWhole)
    (x0 : Vec F S2000x64 .f32) (x1 x2 : Vec F S2000x1 .f32) (x3 x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__layernorm_relu_kernel i arg1 harg1 arg2 harg2 arg3 harg3 arg4 harg4 arg5 harg5 arg6 harg6) K := by
  simp only [cc5__layernorm_relu_kernel_eq_skeleton]; unfold cc5__layernorm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data on core `c`: the arrays as the region finds them; after the body at point `t` each input's buffer
    still at its block and the output's at `out5_5` of the input blocks; the class's invariant; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Conv2B.lean ====
/-
  Graph B, second convolution layer (the seventh pallas_call): one grid point takes a block of 2000 node rows of the
  second graph's normalized features x and of its neighbour sums agg (both 2000 x 64), the whole weights (64 x 64, 64,
  64 x 64, 64), and writes the 2000 x 64 block  relu((x + agg) W_a + b_a) W_b + b_b  of the layer's output. Here: what
  one grid point leaves in the output's staging buffer as a function of the six input blocks, the body's run, and the
  pipeline's proof data at arbitrary entry contents V of the core's buffers.
-/
import proofs.«167438_j18270790877246_1_alg».proof.Proof.Gen.Kernel.Launch
import proofs.«167438_j18270790877246_1_alg».proof.Proof.Gen.Kernel.Skeleton
import proofs.«167438_j18270790877246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take a whole staging buffer -/

abbrev rX6 : Rect S2000x64 := Rect.unit (s := S2000x64) ![0, 0] S2000x64.size inb_S2000x64_S2000x64_0_0
abbrev rW6 : Rect S64x64 := Rect.unit (s := S64x64) ![0, 0] S64x64.size inb_S64x64_S64x64_0_0
abbrev rB6 : Rect S64 := Rect.unit (s := S64) ![0] S64.size inb_S64_S64_0

/-! ## What the body leaves in the output's staging buffer -/

/-- The output's staging buffer after the body: its one store, of the layer's formula on the six loaded blocks. -/
def out6_6 (x0 x1 : Vec F S2000x64 .f32) (x2 : Vec F S64x64 .f32) (x3 : Vec F S64 .f32) (x4 : Vec F S64x64 .f32) (x5 : Vec F S64 .f32) :
    Vec F S2000x64 .f32 :=
  View.canon [⟨rX6, k6_pay1 (View.ld x0 rX6) (View.ld x1 rX6) (View.ld x2 rW6) (View.ld x3 rB6) (View.ld x4 rW6) (View.ld x5 rB6)⟩]

/-- The one store covers the buffer. -/
theorem cover6_6 (p0 : Vec F S2000x64 .f32) (y : S2000x64.Idx) :
    ∃ pc ∈ ([⟨rX6, p0⟩] : List (View.Piece (Elt F) S2000x64 .f32)), y ∈ pc.1.set :=
  View.cover_of_tiled [⟨rX6, p0⟩] S2000x64.size (by rfl) y

/-! ## The body's run -/

set_option maxHeartbeats 1000000 in
/-- The body on whole staging memrefs, the inputs' at contents `x0 … x5` and the output's at anything, runs to the
    continuation holding the inputs' as they were and the output's at `out6_6` of them. -/
theorem sound_kernel6 (c : Dev nD) (E : Set ℕ) (i : grid6.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S2000x64 .f32) (harg7 : arg7.IsWhole)
    (x0 x1 : Vec F S2000x64 .f32) (x2 : Vec F S64x64 .f32) (x3 : Vec F S64 .f32) (x4 : Vec F S64x64 .f32) (x5 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E
          (cc6__gin_mlp_kernel i arg1 harg1 arg2 harg2 arg3 harg3 arg4 harg4 arg5 harg5 arg6 harg6 arg7 harg7) K := by
  simp only [cc6__gin_mlp_kernel_eq_skeleton]; unfold cc6__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data on core `c`: the arrays as the region finds them; after the body at point `t` each input's buffer
    still at its block and the output's at `out6_6` of the input blocks; the class's invariant; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t
    = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _
    (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Norm2B.lean ====
/-
  Graph B, second normalization layer (the eighth pallas_call): one grid point takes a block of 2000 node rows of the
  second graph's second convolution output h (2000 x 64), the per-node graph mean and graph variance as columns
  (2000 x 1 each), the scale and shift (64 each), and writes the 2000 x 64 block
  max(((h - mean) * rsqrt(var + eps)) * scale + shift, 0). Here: what one grid point leaves in the output's staging
  buffer as a function of the five input blocks, the body's run, and the pipeline's proof data at arbitrary entry
  contents V of the core's buffers.
-/
import proofs.«167438_j18270790877246_1_alg».proof.Proof.Gen.Kernel.Launch
import proofs.«167438_j18270790877246_1_alg».proof.Proof.Gen.Kernel.Skeleton
import proofs.«167438_j18270790877246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the store take a whole staging buffer -/

abbrev rH7 : Rect S2000x64 := Rect.unit (s := S2000x64) ![0, 0] S2000x64.size inb_S2000x64_S2000x64_0_0
abbrev rC7 : Rect S2000x1 := Rect.unit (s := S2000x1) ![0, 0] S2000x1.size inb_S2000x1_S2000x1_0_0
abbrev rS7 : Rect S64 := Rect.unit (s := S64) ![0] S64.size inb_S64_S64_0

/-! ## What the body leaves in the output's staging buffer -/

/-- The output's staging buffer after the body: its one store, of the layer's formula on the five loaded blocks. -/
def out7_5 (x0 : Vec F S2000x64 .f32) (x1 x2 : Vec F S2000x1 .f32) (x3 x4 : Vec F S64 .f32) : Vec F S2000x64 .f32 :=
  View.canon [⟨rH7, k7_pay1 (View.ld x0 rH7) (View.ld x1 rC7) (View.ld x2 rC7) (View.ld x3 rS7) (View.ld x4 rS7)⟩]

/-- The one store covers the buffer. -/
theorem cover7_5 (p0 : Vec F S2000x64 .f32) (y : S2000x64.Idx) :
    ∃ pc ∈ ([⟨rH7, p0⟩] : List (View.Piece (Elt F) S2000x64 .f32)), y ∈ pc.1.set :=
  View.cover_of_tiled [⟨rH7, p0⟩] S2000x64.size (by rfl) y

/-! ## The body's run -/

set_option maxHeartbeats 1000000 in
/-- The body on whole staging memrefs, the inputs' at contents `x0 … x4` and the output's at anything, runs to the
    continuation holding the inputs' as they were and the output's at `out7_5` of them. -/
theorem sound_kernel7 (c : Dev nD) (E : Set ℕ) (i : grid7.Coords)
    (arg1 : Memref sig .tc .vmem S2000x64 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S64 .f32) (harg5 : arg5.IsWhole) (arg6 : Memref sig .tc .vmem S2000x64 .f32) (harg6 : arg6.IsWhole)
    (x0 : Vec F S2000x64 .f32) (x1 x2 : Vec F S2000x1 .f32) (x3 x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E
          (cc7__layernorm_relu_kernel i arg1 harg1 arg2 harg2 arg3 harg3 arg4 harg4 arg5 harg5 arg6 harg6) K := by
  simp only [cc7__layernorm_relu_kernel_eq_skeleton]; unfold cc7__layernorm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data on core `c`: the arrays as the region finds them; after the body at point `t` each input's buffer
    still at its block and the output's at `out7_5` of the input blocks; the class's invariant; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t
    = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Head.lean ====
/-
  The head (the ninth pallas_call, one grid point): it takes the whole 1024 x 138 matrix of the per-graph features (the
  two graphs' pooled embeddings and the two descriptor blocks side by side) and the three dense layers' weights
  (138 x 128, 128; 128 x 64, 64; 64 x 1, 1), and writes the 1024 x 1 result
  relu(relu(c W_1 + b_1) W_2 + b_2) W_3 + b_3. Here: what the one grid point leaves in the output's staging buffer as a
  function of the seven input blocks, the body's run, and the pipeline's proof data at arbitrary entry contents V.
-/
import proofs.«167438_j18270790877246_1_alg».proof.Proof.Gen.Kernel.Launch
import proofs.«167438_j18270790877246_1_alg».proof.Proof.Gen.Kernel.Skeleton
import proofs.«167438_j18270790877246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the store take a whole staging buffer -/

abbrev rC8 : Rect S1024x138 := Rect.unit (s := S1024x138) ![0, 0] S1024x138.size inb_S1024x138_S1024x138_0_0
abbrev rW18 : Rect S138x128 := Rect.unit (s := S138x128) ![0, 0] S138x128.size inb_S138x128_S138x128_0_0
abbrev rB18 : Rect S128 := Rect.unit (s := S128) ![0] S128.size inb_S128_S128_0
abbrev rW28 : Rect S128x64 := Rect.unit (s := S128x64) ![0, 0] S128x64.size inb_S128x64_S128x64_0_0
abbrev rB28 : Rect S64 := Rect.unit (s := S64) ![0] S64.size inb_S64_S64_0
abbrev rW38 : Rect S64x1 := Rect.unit (s := S64x1) ![0, 0] S64x1.size inb_S64x1_S64x1_0_0
abbrev rB38 : Rect S1 := Rect.unit (s := S1) ![0] S1.size inb_S1_S1_0
abbrev rO8 : Rect S1024x1 := Rect.unit (s := S1024x1) ![0, 0] S1024x1.size inb_S1024x1_S1024x1_0_0

/-! ## What the body leaves in the output's staging buffer -/

/-- The output's staging buffer after the body: its one store, of the three dense layers on the seven loaded blocks. -/
def out8_7 (x0 : Vec F S1024x138 .f32) (x1 : Vec F S138x128 .f32) (x2 : Vec F S128 .f32) (x3 : Vec F S128x64 .f32) (x4 : Vec F S64 .f32)
    (x5 : Vec F S64x1 .f32) (x6 : Vec F S1 .f32) : Vec F S1024x1 .f32 :=
  View.canon [⟨rO8, k8_pay1 (View.ld x0 rC8) (View.ld x1 rW18) (View.ld x2 rB18) (View.ld x3 rW28) (View.ld x4 rB28) (View.ld x5 rW38) (View.ld x6 rB38)⟩]

/-- The one store covers the buffer. -/
theorem cover8_7 (p0 : Vec F S1024x1 .f32) (y : S1024x1.Idx) :
    ∃ pc ∈ ([⟨rO8, p0⟩] : List (View.Piece (Elt F) S1024x1 .f32)), y ∈ pc.1.set :=
  View.cover_of_tiled [⟨rO8, p0⟩] S1024x1.size (by rfl) y

/-! ## The body's run -/

set_option maxHeartbeats 1000000 in
/-- The body on whole staging memrefs, the inputs' at contents `x0 … x6` and the output's at anything, runs to the
    continuation holding the inputs' as they were and the output's at `out8_7` of them. -/
theorem sound_kernel8 (c : Dev nD) (E : Set ℕ) (i : grid8.Coords)
    (arg1 : Memref sig .tc .vmem S1024x138 .f32) (harg1 : arg1.IsWhole) (arg2 : Memref sig .tc .vmem S138x128 .f32) (harg2 : arg2.IsWhole)
    (arg3 : Memref sig .tc .vmem S128 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S64x1 .f32) (harg6 : arg6.IsWhole)
    (arg7 : Memref sig .tc .vmem S1 .f32) (harg7 : arg7.IsWhole) (arg8 : Memref sig .tc .vmem S1024x1 .f32) (harg8 : arg8.IsWhole)
    (x0 : Vec F S1024x138 .f32) (x1 : Vec F S138x128 .f32) (x2 : Vec F S128 .f32) (x3 : Vec F S128x64 .f32) (x4 : Vec F S64 .f32)
    (x5 : Vec F S64x1 .f32) (x6 : Vec F S1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out8_7 x0 x1 x2 x3 x4 x5 x6)) -∗ K ⟨⟩))
      ⊢ wp frame (wpE (defs₀ (F := F)) Variants.none c none) E
          (cc8__final_mlp_kernel i arg1 harg1 arg2 harg2 arg3 harg3 arg4 harg4 arg5 harg5 arg6 harg6 arg7 harg7 arg8 harg8) K := by
  simp only [cc8__final_mlp_kernel_eq_skeleton]; unfold cc8__final_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover8_7 _)

/-! ## The pipeline's proof data -/

/-- The proof data on core `c`: the arrays as the region finds them; after the body each input's buffer still at its
    block and the output's at `out8_7` of the input blocks; the class's invariant; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t
    = out8_7 (iblk8 V c 0 t) (iblk8 V c 1 t) (iblk8 V c 2 t) (iblk8 V c 3 t) (iblk8 V c 4 t) (iblk8 V c 5 t) (iblk8 V c 6 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

/-- The body at the one point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ (grid8.coords t) _ _ _ _ _ _ _ _ _ _ _ _ _ _ _ _
    (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at the one point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Bounds.lean ====
/-
  The contents of a core's buffers at the nineteen boundaries of the program: at launch (0); after each of the nine
  stretches of host operations (1, 3, ..., 17: the operations applied to the contents before); after each of the nine
  pallas_calls (2, 4, ..., 18: the call's arrays at what its pipeline leaves in them — its inputs as they were, its
  one output at the write-backs of all grid points — and every other buffer as it was). Per call: the four facts the
  launch needs (its arrays at exit, the rest unchanged) and that every buffer other than its output is kept. Then:
  every pipeline's proof data at its call's entry contents, and a buffer no stretch and no call writes still holds
  at the end what it held at launch.
-/
import proofs.«167438_j18270790877246_1_alg».proof.Proof.K.Conv1A
import proofs.«167438_j18270790877246_1_alg».proof.Proof.K.Norm1A
import proofs.«167438_j18270790877246_1_alg».proof.Proof.K.Conv2A
import proofs.«167438_j18270790877246_1_alg».proof.Proof.K.Norm2A
import proofs.«167438_j18270790877246_1_alg».proof.Proof.K.Conv1B
import proofs.«167438_j18270790877246_1_alg».proof.Proof.K.Norm1B
import proofs.«167438_j18270790877246_1_alg».proof.Proof.K.Conv2B
import proofs.«167438_j18270790877246_1_alg».proof.Proof.K.Norm2B
import proofs.«167438_j18270790877246_1_alg».proof.Proof.K.Head
import proofs.«167438_j18270790877246_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Launch, first stretch, first call (graph A, convolution 1; output `main_v14`) -/

abbrev bnd0 : Dev nD → Valuation τ sig (Elt F) := fun c b => m (c, b)
abbrev bnd1 : Dev nD → Valuation τ sig (Elt F) := fun c => StableHlo.after hostOps0 (bnd0 m c)
abbrev ent0 : (c : Dev nD) → (b : Ref sig .tc) → Buf (Elt F) ((c : Thread nD τ).loc b) := fun c b => bnd1 m c b
def bnd2 (c : Dev nD) : Valuation τ sig (Elt F) :=
  Pipeline.withArrays spec0 c (bnd1 m c) fun w => (dat0 (ent0 m) c).arrAt w cfg0.N
theorem bnd2_arr (c : Dev nD) (w : Fin cfg0.W) :
    bnd2 m c (Proc.devRef .tc (Pipeline.arrRef spec0 w)) = (dat0 (ent0 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
abbrev ext0 : (c : Dev nD) → (b : Ref sig .tc) → Buf (Elt F) ((c : Thread nD τ).loc b) := fun c b => bnd2 m c b
theorem hF0 (c : Dev nD) (w : Fin cfg0.W) : (dat0 (ent0 m) c).arrAt w cfg0.N = ext0 m c (Pipeline.arrRef spec0 w) :=
  (bnd2_arr m c w).symm
theorem hrest0 (c : Dev nD) : ∀ b, b ∉ Finset.univ.image (Pipeline.arrRef spec0) → ext0 m c b = ent0 m c b :=
  fun b hb => bnd2_of_ne m c b fun w e => hb (Finset.mem_image.mpr ⟨w, Finset.mem_univ _, e⟩)
/-- The call changes no buffer but its output: an input array ends as it was, any other buffer is not touched. -/
theorem bnd2_keep (c : Dev nD) (b : Ref sig .tc) (hb : b ≠ main_v14) :
    bnd2 m c (Proc.devRef .tc b) = bnd1 m c (Proc.devRef .tc b) := by
  by_cases h : ∃ w, Pipeline.arrRef spec0 w = b
  · obtain ⟨w, rfl⟩ := h
    rw [bnd2_arr]
    match w, hb with
    | ⟨0, _⟩, _ => exact ((dat0 (ent0 m) c).arrAt_in 0 rfl _).trans (A_eq0 (ent0 m) c 0)
    | ⟨1, _⟩, _ => exact ((dat0 (ent0 m) c).arrAt_in 1 rfl _).trans (A_eq0 (ent0 m) c 1)
    | ⟨2, _⟩, _ => exact ((dat0 (ent0 m) c).arrAt_in 2 rfl _).trans (A_eq0 (ent0 m) c 2)
    | ⟨3, _⟩, _ => exact ((dat0 (ent0 m) c).arrAt_in 3 rfl _).trans (A_eq0 (ent0 m) c 3)
    | ⟨4, _⟩, _ => exact ((dat0 (ent0 m) c).arrAt_in 4 rfl _).trans (A_eq0 (ent0 m) c 4)
    | ⟨5, _⟩, _ => exact ((dat0 (ent0 m) c).arrAt_in 5 rfl _).trans (A_eq0 (ent0 m) c 5)
    | ⟨6, _⟩, hb => exact absurd rfl hb
  · exact bnd2_of_ne m c b fun w e => h ⟨w, e⟩

/-! ## Second stretch, second call (graph A, normalization 1; output `main_v53`) -/

abbrev bnd3 : Dev nD → Valuation τ sig (Elt F) := fun c => StableHlo.after hostOps1 (bnd2 m c)
abbrev ent1 : (c : Dev nD) → (b : Ref sig .tc) → Buf (Elt F) ((c : Thread nD τ).loc b) := fun c b => bnd3 m c b
def bnd4 (c : Dev nD) : Valuation τ sig (Elt F) :=
  Pipeline.withArrays spec1 c (bnd3 m c) fun w => (dat1 (ent1 m) c).arrAt w cfg1.N
theorem bnd4_arr (c : Dev nD) (w : Fin cfg1.W) :
    bnd4 m c (Proc.devRef .tc (Pipeline.arrRef spec1 w)) = (dat1 (ent1 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb
abbrev ext1 : (c : Dev nD) → (b : Ref sig .tc) → Buf (Elt F) ((c : Thread nD τ).loc b) := fun c b => bnd4 m c b
theorem hF1 (c : Dev nD) (w : Fin cfg1.W) : (dat1 (ent1 m) c).arrAt w cfg1.N = ext1 m c (Pipeline.arrRef spec1 w) :=
  (bnd4_arr m c w).symm
theorem hrest1 (c : Dev nD) : ∀ b, b ∉ Finset.univ.image (Pipeline.arrRef spec1) → ext1 m c b = ent1 m c b :=
  fun b hb => bnd4_of_ne m c b fun w e => hb (Finset.mem_image.mpr ⟨w, Finset.mem_univ _, e⟩)
theorem bnd4_keep (c : Dev nD) (b : Ref sig .tc) (hb : b ≠ main_v53) :
    bnd4 m c (Proc.devRef .tc b) = bnd3 m c (Proc.devRef .tc b) := by
  by_cases h : ∃ w, Pipeline.arrRef spec1 w = b
  · obtain ⟨w, rfl⟩ := h
    rw [bnd4_arr]
    match w, hb with
    | ⟨0, _⟩, _ => exact ((dat1 (ent1 m) c).arrAt_in 0 rfl _).trans (A_eq1 (ent1 m) c 0)
    | ⟨1, _⟩, _ => exact ((dat1 (ent1 m) c).arrAt_in 1 rfl _).trans (A_eq1 (ent1 m) c 1)
    | ⟨2, _⟩, _ => exact ((dat1 (ent1 m) c).arrAt_in 2 rfl _).trans (A_eq1 (ent1 m) c 2)
    | ⟨3, _⟩, _ => exact ((dat1 (ent1 m) c).arrAt_in 3 rfl _).trans (A_eq1 (ent1 m) c 3)
    | ⟨4, _⟩, _ => exact ((dat1 (ent1 m) c).arrAt_in 4 rfl _).trans (A_eq1 (ent1 m) c 4)
    | ⟨5, _⟩, hb => exact absurd rfl hb
  · exact bnd4_of_ne m c b fun w e => h ⟨w, e⟩

/-! ## Third stretch, third call (graph A, convolution 2; output `main_v64`) -/

abbrev bnd5 : Dev nD → Valuation τ sig (Elt F) := fun c => StableHlo.after hostOps2 (bnd4 m c)
abbrev ent2 : (c : Dev nD) → (b : Ref sig .tc) → Buf (Elt F) ((c : Thread nD τ).loc b) := fun c b => bnd5 m c b
def bnd6 (c : Dev nD) : Valuation τ sig (Elt F) :=
  Pipeline.withArrays spec2 c (bnd5 m c) fun w => (dat2 (ent2 m) c).arrAt w cfg2.N
theorem bnd6_arr (c : Dev nD) (w : Fin cfg2.W) :
    bnd6 m c (Proc.devRef .tc (Pipeline.arrRef spec2 w)) = (dat2 (ent2 m) c).arrAt w cfg2.N := by
  unfold bnd6; exact Pipeline.withArrays_arr spec2 launch2.win.arr_inj c _ _ w
theorem bnd6_of_ne (c : Dev nD) (b : Ref sig .tc) (hb : ∀ w, Pipeline.arrRef spec2 w ≠ b) :
    bnd6 m c (Proc.devRef .tc b) = bnd5 m c (Proc.devRef .tc b) := by
  unfold bnd6; exact Pipeline.withArrays_of_ne spec2 c _ _ b hb
abbrev ext2 : (c : Dev nD) → (b : Ref sig .tc) → Buf (Elt F) ((c : Thread nD τ).loc b) := fun c b => bnd6 m c b
theorem hF2 (c : Dev nD) (w : Fin cfg2.W) : (dat2 (ent2 m) c).arrAt w cfg2.N = ext2 m c (Pipeline.arrRef spec2 w) :=
  (bnd6_arr m c w).symm
theorem hrest2 (c : Dev nD) : ∀ b, b ∉ Finset.univ.image (Pipeline.arrRef spec2) → ext2 m c b = ent2 m c b :=
  fun b hb => bnd6_of_ne m c b fun w e => hb (Finset.mem_image.mpr ⟨w, Finset.mem_univ _, e⟩)
theorem bnd6_keep (c : Dev nD) (b : Ref sig .tc) (hb : b ≠ main_v64) :
    bnd6 m c (Proc.devRef .tc b) = bnd5 m c (Proc.devRef .tc b) := by
  by_cases h : ∃ w, Pipeline.arrRef spec2 w = b
  · obtain ⟨w, rfl⟩ := h
    rw [bnd6_arr]
    match w, hb with
    | ⟨0, _⟩, _ => exact ((dat2 (ent2 m) c).arrAt_in 0 rfl _).trans (A_eq2 (ent2 m) c 0)
    | ⟨1, _⟩, _ => exact ((dat2 (ent2 m) c).arrAt_in 1 rfl _).trans (A_eq2 (ent2 m) c 1)
    | ⟨2, _⟩, _ => exact ((dat2 (ent2 m) c).arrAt_in 2 rfl _).trans (A_eq2 (ent2 m) c 2)
    | ⟨3, _⟩, _ => exact ((dat2 (ent2 m) c).arrAt_in 3 rfl _).trans (A_eq2 (ent2 m) c 3)
    | ⟨4, _⟩, _ => exact ((dat2 (ent2 m) c).arrAt_in 4 rfl _).trans (A_eq2 (ent2 m) c 4)
    | ⟨5, _⟩, _ => exact ((dat2 (ent2 m) c).arrAt_in 5 rfl _).trans (A_eq2 (ent2 m) c 5)
    | ⟨6, _⟩, hb => exact absurd rfl hb
  · exact bnd6_of_ne m c b fun w e => h ⟨w, e⟩

/-! ## Fourth stretch, fourth call (graph A, normalization 2; output `main_v103`) -/

abbrev bnd7 : Dev nD → Valuation τ sig (Elt F) := fun c => StableHlo.after hostOps3 (bnd6 m c)
abbrev ent3 : (c : Dev nD) → (b : Ref sig .tc) → Buf (Elt F) ((c : Thread nD τ).loc b) := fun c b => bnd7 m c b
def bnd8 (c : Dev nD) : Valuation τ sig (Elt F) :=
  Pipeline.withArrays spec3 c (bnd7 m c) fun w => (dat3 (ent3 m) c).arrAt w cfg3.N
theorem bnd8_arr (c : Dev nD) (w : Fin cfg3.W) :
    bnd8 m c (Proc.devRef .tc (Pipeline.arrRef spec3 w)) = (dat3 (ent3 m) c).arrAt w cfg3.N := by
  unfold bnd8; exact Pipeline.withArrays_arr spec3 launch3.win.arr_inj c _ _ w
theorem bnd8_of_ne (c : Dev nD) (b : Ref sig .tc) (hb : ∀ w, Pipeline.arrRef spec3 w ≠ b) :
    bnd8 m c (Proc.devRef .tc b) = bnd7 m c (Proc.devRef .tc b) := by
  unfold bnd8; exact Pipeline.withArrays_of_ne spec3 c _ _ b hb
abbrev ext3 : (c : Dev nD) → (b : Ref sig .tc) → Buf (Elt F) ((c : Thread nD τ).loc b) := fun c b => bnd8 m c b
theorem hF3 (c : Dev nD) (w : Fin cfg3.W) : (dat3 (ent3 m) c).arrAt w cfg3.N = ext3 m c (Pipeline.arrRef spec3 w) :=
  (bnd8_arr m c w).symm
theorem hrest3 (c : Dev nD) : ∀ b, b ∉ Finset.univ.image (Pipeline.arrRef spec3) → ext3 m c b = ent3 m c b :=
  fun b hb => bnd8_of_ne m c b fun w e => hb (Finset.mem_image.mpr ⟨w, Finset.mem_univ _, e⟩)
theorem bnd8_keep (c : Dev nD) (b : Ref sig .tc) (hb : b ≠ main_v103) :
    bnd8 m c (Proc.devRef .tc b) = bnd7 m c (Proc.devRef .tc b) := by
  by_cases h : ∃ w, Pipeline.arrRef spec3 w = b
  · obtain ⟨w, rfl⟩ := h
    rw [bnd8_arr]
    match w, hb with
    | ⟨0, _⟩, _ => exact ((dat3 (ent3 m) c).arrAt_in 0 rfl _).trans (A_eq3 (ent3 m) c 0)
    | ⟨1, _⟩, _ => exact ((dat3 (ent3 m) c).arrAt_in 1 rfl _).trans (A_eq3 (ent3 m) c 1)
    | ⟨2, _⟩, _ => exact ((dat3 (ent3 m) c).arrAt_in 2 rfl _).trans (A_eq3 (ent3 m) c 2)
    | ⟨3, _⟩, _ => exact ((dat3 (ent3 m) c).arrAt_in 3 rfl _).trans (A_eq3 (ent3 m) c 3)
    | ⟨4, _⟩, _ => exact ((dat3 (ent3 m) c).arrAt_in 4 rfl _).trans (A_eq3 (ent3 m) c 4)
    | ⟨5, _⟩, hb => exact absurd rfl hb
  · exact bnd8_of_ne m c b fun w e => h ⟨w, e⟩

/-! ## Fifth stretch, fifth call (graph B, convolution 1; output `main_v131`) -/

abbrev bnd9 : Dev nD → Valuation τ sig (Elt F) := fun c => StableHlo.after hostOps4 (bnd8 m c)
abbrev ent4 : (c : Dev nD) → (b : Ref sig .tc) → Buf (Elt F) ((c : Thread nD τ).loc b) := fun c b => bnd9 m c b
def bnd10 (c : Dev nD) : Valuation τ sig (Elt F) :=
  Pipeline.withArrays spec4 c (bnd9 m c) fun w => (dat4 (ent4 m) c).arrAt w cfg4.N
theorem bnd10_arr (c : Dev nD) (w : Fin cfg4.W) :
    bnd10 m c (Proc.devRef .tc (Pipeline.arrRef spec4 w)) = (dat4 (ent4 m) c).arrAt w cfg4.N := by
  unfold bnd10; exact Pipeline.withArrays_arr spec4 launch4.win.arr_inj c _ _ w
theorem bnd10_of_ne (c : Dev nD) (b : Ref sig .tc) (hb : ∀ w, Pipeline.arrRef spec4 w ≠ b) :
    bnd10 m c (Proc.devRef .tc b) = bnd9 m c (Proc.devRef .tc b) := by
  unfold bnd10; exact Pipeline.withArrays_of_ne spec4 c _ _ b hb
abbrev ext4 : (c : Dev nD) → (b : Ref sig .tc) → Buf (Elt F) ((c : Thread nD τ).loc b) := fun c b => bnd10 m c b
theorem hF4 (c : Dev nD) (w : Fin cfg4.W) : (dat4 (ent4 m) c).arrAt w cfg4.N = ext4 m c (Pipeline.arrRef spec4 w) :=
  (bnd10_arr m c w).symm
theorem hrest4 (c : Dev nD) : ∀ b, b ∉ Finset.univ.image (Pipeline.arrRef spec4) → ext4 m c b = ent4 m c b :=
  fun b hb => bnd10_of_ne m c b fun w e => hb (Finset.mem_image.mpr ⟨w, Finset.mem_univ _, e⟩)
theorem bnd10_keep (c : Dev nD) (b : Ref sig .tc) (hb : b ≠ main_v131) :
    bnd10 m c (Proc.devRef .tc b) = bnd9 m c (Proc.devRef .tc b) := by
  by_cases h : ∃ w, Pipeline.arrRef spec4 w = b
  · obtain ⟨w, rfl⟩ := h
    rw [bnd10_arr]
    match w, hb with
    | ⟨0, _⟩, _ => exact ((dat4 (ent4 m) c).arrAt_in 0 rfl _).trans (A_eq4 (ent4 m) c 0)
    | ⟨1, _⟩, _ => exact ((dat4 (ent4 m) c).arrAt_in 1 rfl _).trans (A_eq4 (ent4 m) c 1)
    | ⟨2, _⟩, _ => exact ((dat4 (ent4 m) c).arrAt_in 2 rfl _).trans (A_eq4 (ent4 m) c 2)
    | ⟨3, _⟩, _ => exact ((dat4 (ent4 m) c).arrAt_in 3 rfl _).trans (A_eq4 (ent4 m) c 3)
    | ⟨4, _⟩, _ => exact ((dat4 (ent4 m) c).arrAt_in 4 rfl _).trans (A_eq4 (ent4 m) c 4)
    | ⟨5, _⟩, _ => exact ((dat4 (ent4 m) c).arrAt_in 5 rfl _).trans (A_eq4 (ent4 m) c 5)
    | ⟨6, _⟩, hb => exact absurd rfl hb
  · exact bnd10_of_ne m c b fun w e => h ⟨w, e⟩

/-! ## Sixth stretch, sixth call (graph B, normalization 1; output `main_v170`) -/

abbrev bnd11 : Dev nD → Valuation τ sig (Elt F) := fun c => StableHlo.after hostOps5 (bnd10 m c)
abbrev ent5 : (c : Dev nD) → (b : Ref sig .tc) → Buf (Elt F) ((c : Thread nD τ).loc b) := fun c b => bnd11 m c b
def bnd12 (c : Dev nD) : Valuation τ sig (Elt F) :=
  Pipeline.withArrays spec5 c (bnd11 m c) fun w => (dat5 (ent5 m) c).arrAt w cfg5.N
theorem bnd12_arr (c : Dev nD) (w : Fin cfg5.W) :
    bnd12 m c (Proc.devRef .tc (Pipeline.arrRef spec5 w)) = (dat5 (ent5 m) c).arrAt w cfg5.N := by
  unfold bnd12; exact Pipeline.withArrays_arr spec5 launch5.win.arr_inj c _ _ w
theorem bnd12_of_ne (c : Dev nD) (b : Ref sig .tc) (hb : ∀ w, Pipeline.arrRef spec5 w ≠ b) :
    bnd12 m c (Proc.devRef .tc b) = bnd11 m c (Proc.devRef .tc b) := by
  unfold bnd12; exact Pipeline.withArrays_of_ne spec5 c _ _ b hb
abbrev ext5 : (c : Dev nD) → (b : Ref sig .tc) → Buf (Elt F) ((c : Thread nD τ).loc b) := fun c b => bnd12 m c b
theorem hF5 (c : Dev nD) (w : Fin cfg5.W) : (dat5 (ent5 m) c).arrAt w cfg5.N = ext5 m c (Pipeline.arrRef spec5 w) :=
  (bnd12_arr m c w).symm
theorem hrest5 (c : Dev nD) : ∀ b, b ∉ Finset.univ.image (Pipeline.arrRef spec5) → ext5 m c b = ent5 m c b :=
  fun b hb => bnd12_of_ne m c b fun w e => hb (Finset.mem_image.mpr ⟨w, Finset.mem_univ _, e⟩)
theorem bnd12_keep (c : Dev nD) (b : Ref sig .tc) (hb : b ≠ main_v170) :
    bnd12 m c (Proc.devRef .tc b) = bnd11 m c (Proc.devRef .tc b) := by
  by_cases h : ∃ w, Pipeline.arrRef spec5 w = b
  · obtain ⟨w, rfl⟩ := h
    rw [bnd12_arr]
    match w, hb with
    | ⟨0, _⟩, _ => exact ((dat5 (ent5 m) c).arrAt_in 0 rfl _).trans (A_eq5 (ent5 m) c 0)
    | ⟨1, _⟩, _ => exact ((dat5 (ent5 m) c).arrAt_in 1 rfl _).trans (A_eq5 (ent5 m) c 1)
    | ⟨2, _⟩, _ => exact ((dat5 (ent5 m) c).arrAt_in 2 rfl _).trans (A_eq5 (ent5 m) c 2)
    | ⟨3, _⟩, _ => exact ((dat5 (ent5 m) c).arrAt_in 3 rfl _).trans (A_eq5 (ent5 m) c 3)
    | ⟨4, _⟩, _ => exact ((dat5 (ent5 m) c).arrAt_in 4 rfl _).trans (A_eq5 (ent5 m) c 4)
    | ⟨5, _⟩, hb => exact absurd rfl hb
  · exact bnd12_of_ne m c b fun w e => h ⟨w, e⟩

/-! ## Seventh stretch, seventh call (graph B, convolution 2; output `main_v181`) -/

abbrev bnd13 : Dev nD → Valuation τ sig (Elt F) := fun c => StableHlo.after hostOps6 (bnd12 m c)
abbrev ent6 : (c : Dev nD) → (b : Ref sig .tc) → Buf (Elt F) ((c : Thread nD τ).loc b) := fun c b => bnd13 m c b
def bnd14 (c : Dev nD) : Valuation τ sig (Elt F) :=
  Pipeline.withArrays spec6 c (bnd13 m c) fun w => (dat6 (ent6 m) c).arrAt w cfg6.N
theorem bnd14_arr (c : Dev nD) (w : Fin cfg6.W) :
    bnd14 m c (Proc.devRef .tc (Pipeline.arrRef spec6 w)) = (dat6 (ent6 m) c).arrAt w cfg6.N := by
  unfold bnd14; exact Pipeline.withArrays_arr spec6 launch6.win.arr_inj c _ _ w
theorem bnd14_of_ne (c : Dev nD) (b : Ref sig .tc) (hb : ∀ w, Pipeline.arrRef spec6 w ≠ b) :
    bnd14 m c (Proc.devRef .tc b) = bnd13 m c (Proc.devRef .tc b) := by
  unfold bnd14; exact Pipeline.withArrays_of_ne spec6 c _ _ b hb
abbrev ext6 : (c : Dev nD) → (b : Ref sig .tc) → Buf (Elt F) ((c : Thread nD τ).loc b) := fun c b => bnd14 m c b
theorem hF6 (c : Dev nD) (w : Fin cfg6.W) : (dat6 (ent6 m) c).arrAt w cfg6.N = ext6 m c (Pipeline.arrRef spec6 w) :=
  (bnd14_arr m c w).symm
theorem hrest6 (c : Dev nD) : ∀ b, b ∉ Finset.univ.image (Pipeline.arrRef spec6) → ext6 m c b = ent6 m c b :=
  fun b hb => bnd14_of_ne m c b fun w e => hb (Finset.mem_image.mpr ⟨w, Finset.mem_univ _, e⟩)
theorem bnd14_keep (c : Dev nD) (b : Ref sig .tc) (hb : b ≠ main_v181) :
    bnd14 m c (Proc.devRef .tc b) = bnd13 m c (Proc.devRef .tc b) := by
  by_cases h : ∃ w, Pipeline.arrRef spec6 w = b
  · obtain ⟨w, rfl⟩ := h
    rw [bnd14_arr]
    match w, hb with
    | ⟨0, _⟩, _ => exact ((dat6 (ent6 m) c).arrAt_in 0 rfl _).trans (A_eq6 (ent6 m) c 0)
    | ⟨1, _⟩, _ => exact ((dat6 (ent6 m) c).arrAt_in 1 rfl _).trans (A_eq6 (ent6 m) c 1)
    | ⟨2, _⟩, _ => exact ((dat6 (ent6 m) c).arrAt_in 2 rfl _).trans (A_eq6 (ent6 m) c 2)
    | ⟨3, _⟩, _ => exact ((dat6 (ent6 m) c).arrAt_in 3 rfl _).trans (A_eq6 (ent6 m) c 3)
    | ⟨4, _⟩, _ => exact ((dat6 (ent6 m) c).arrAt_in 4 rfl _).trans (A_eq6 (ent6 m) c 4)
    | ⟨5, _⟩, _ => exact ((dat6 (ent6 m) c).arrAt_in 5 rfl _).trans (A_eq6 (ent6 m) c 5)
    | ⟨6, _⟩, hb => exact absurd rfl hb
  · exact bnd14_of_ne m c b fun w e => h ⟨w, e⟩

/-! ## Eighth stretch, eighth call (graph B, normalization 2; output `main_v220`) -/

abbrev bnd15 : Dev nD → Valuation τ sig (Elt F) := fun c => StableHlo.after hostOps7 (bnd14 m c)
abbrev ent7 : (c : Dev nD) → (b : Ref sig .tc) → Buf (Elt F) ((c : Thread nD τ).loc b) := fun c b => bnd15 m c b
def bnd16 (c : Dev nD) : Valuation τ sig (Elt F) :=
  Pipeline.withArrays spec7 c (bnd15 m c) fun w => (dat7 (ent7 m) c).arrAt w cfg7.N
theorem bnd16_arr (c : Dev nD) (w : Fin cfg7.W) :
    bnd16 m c (Proc.devRef .tc (Pipeline.arrRef spec7 w)) = (dat7 (ent7 m) c).arrAt w cfg7.N := by
  unfold bnd16; exact Pipeline.withArrays_arr spec7 launch7.win.arr_inj c _ _ w
theorem bnd16_of_ne (c : Dev nD) (b : Ref sig .tc) (hb : ∀ w, Pipeline.arrRef spec7 w ≠ b) :
    bnd16 m c (Proc.devRef .tc b) = bnd15 m c (Proc.devRef .tc b) := by
  unfold bnd16; exact Pipeline.withArrays_of_ne spec7 c _ _ b hb
abbrev ext7 : (c : Dev nD) → (b : Ref sig .tc) → Buf (Elt F) ((c : Thread nD τ).loc b) := fun c b => bnd16 m c b
theorem hF7 (c : Dev nD) (w : Fin cfg7.W) : (dat7 (ent7 m) c).arrAt w cfg7.N = ext7 m c (Pipeline.arrRef spec7 w) :=
  (bnd16_arr m c w).symm
theorem hrest7 (c : Dev nD) : ∀ b, b ∉ Finset.univ.image (Pipeline.arrRef spec7) → ext7 m c b = ent7 m c b :=
  fun b hb => bnd16_of_ne m c b fun w e => hb (Finset.mem_image.mpr ⟨w, Finset.mem_univ _, e⟩)
theorem bnd16_keep (c : Dev nD) (b : Ref sig .tc) (hb : b ≠ main_v220) :
    bnd16 m c (Proc.devRef .tc b) = bnd15 m c (Proc.devRef .tc b) := by
  by_cases h : ∃ w, Pipeline.arrRef spec7 w = b
  · obtain ⟨w, rfl⟩ := h
    rw [bnd16_arr]
    match w, hb with
    | ⟨0, _⟩, _ => exact ((dat7 (ent7 m) c).arrAt_in 0 rfl _).trans (A_eq7 (ent7 m) c 0)
    | ⟨1, _⟩, _ => exact ((dat7 (ent7 m) c).arrAt_in 1 rfl _).trans (A_eq7 (ent7 m) c 1)
    | ⟨2, _⟩, _ => exact ((dat7 (ent7 m) c).arrAt_in 2 rfl _).trans (A_eq7 (ent7 m) c 2)
    | ⟨3, _⟩, _ => exact ((dat7 (ent7 m) c).arrAt_in 3 rfl _).trans (A_eq7 (ent7 m) c 3)
    | ⟨4, _⟩, _ => exact ((dat7 (ent7 m) c).arrAt_in 4 rfl _).trans (A_eq7 (ent7 m) c 4)
    | ⟨5, _⟩, hb => exact absurd rfl hb
  · exact bnd16_of_ne m c b fun w e => h ⟨w, e⟩

/-! ## Ninth stretch, ninth call (the head; output `main_v235`, the program's result) -/

abbrev bnd17 : Dev nD → Valuation τ sig (Elt F) := fun c => StableHlo.after hostOps8 (bnd16 m c)
abbrev ent8 : (c : Dev nD) → (b : Ref sig .tc) → Buf (Elt F) ((c : Thread nD τ).loc b) := fun c b => bnd17 m c b
def bnd18 (c : Dev nD) : Valuation τ sig (Elt F) :=
  Pipeline.withArrays spec8 c (bnd17 m c) fun w => (dat8 (ent8 m) c).arrAt w cfg8.N
theorem bnd18_arr (c : Dev nD) (w : Fin cfg8.W) :
    bnd18 m c (Proc.devRef .tc (Pipeline.arrRef spec8 w)) = (dat8 (ent8 m) c).arrAt w cfg8.N := by
  unfold bnd18; exact Pipeline.withArrays_arr spec8 launch8.win.arr_inj c _ _ w
theorem bnd18_of_ne (c : Dev nD) (b : Ref sig .tc) (hb : ∀ w, Pipeline.arrRef spec8 w ≠ b) :
    bnd18 m c (Proc.devRef .tc b) = bnd17 m c (Proc.devRef .tc b) := by
  unfold bnd18; exact Pipeline.withArrays_of_ne spec8 c _ _ b hb
abbrev ext8 : (c : Dev nD) → (b : Ref sig .tc) → Buf (Elt F) ((c : Thread nD τ).loc b) := fun c b => bnd18 m c b
theorem hF8 (c : Dev nD) (w : Fin cfg8.W) : (dat8 (ent8 m) c).arrAt w cfg8.N = ext8 m c (Pipeline.arrRef spec8 w) :=
  (bnd18_arr m c w).symm
theorem hrest8 (c : Dev nD) : ∀ b, b ∉ Finset.univ.image (Pipeline.arrRef spec8) → ext8 m c b = ent8 m c b :=
  fun b hb => bnd18_of_ne m c b fun w e => hb (Finset.mem_image.mpr ⟨w, Finset.mem_univ _, e⟩)
theorem bnd18_keep (c : Dev nD) (b : Ref sig .tc) (hb : b ≠ main_v235) :
    bnd18 m c (Proc.devRef .tc b) = bnd17 m c (Proc.devRef .tc b) := by
  by_cases h : ∃ w, Pipeline.arrRef spec8 w = b
  · obtain ⟨w, rfl⟩ := h
    rw [bnd18_arr]
    match w, hb with
    | ⟨0, _⟩, _ => exact ((dat8 (ent8 m) c).arrAt_in 0 rfl _).trans (A_eq8 (ent8 m) c 0)
    | ⟨1, _⟩, _ => exact ((dat8 (ent8 m) c).arrAt_in 1 rfl _).trans (A_eq8 (ent8 m) c 1)
    | ⟨2, _⟩, _ => exact ((dat8 (ent8 m) c).arrAt_in 2 rfl _).trans (A_eq8 (ent8 m) c 2)
    | ⟨3, _⟩, _ => exact ((dat8 (ent8 m) c).arrAt_in 3 rfl _).trans (A_eq8 (ent8 m) c 3)
    | ⟨4, _⟩, _ => exact ((dat8 (ent8 m) c).arrAt_in 4 rfl _).trans (A_eq8 (ent8 m) c 4)
    | ⟨5, _⟩, _ => exact ((dat8 (ent8 m) c).arrAt_in 5 rfl _).trans (A_eq8 (ent8 m) c 5)
    | ⟨6, _⟩, _ => exact ((dat8 (ent8 m) c).arrAt_in 6 rfl _).trans (A_eq8 (ent8 m) c 6)
    | ⟨7, _⟩, hb => exact absurd rfl hb
  · exact bnd18_of_ne m c b fun w e => h ⟨w, e⟩

/-! ## Every pipeline's proof data, each at its call's entry contents -/

def pdats : (p : Fin 9) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
  | ⟨7, _⟩ => fun c => dat7 (ent7 m) c
  | ⟨8, _⟩ => fun c => dat8 (ent8 m) c

/-! ## A buffer nothing writes -/

/-- A buffer that no stretch of host operations writes and that is no call's output holds at the end what it held at
    launch: eighteen steps back, a stretch by its list of written buffers, a call by `bndJ_keep`. -/
theorem bnd18_unwritten (c : Dev nD) (r : Ref sig .tc)
    (h0 : r ∉ hostOps0_W) (k0 : r ≠ main_v14) (h1 : r ∉ hostOps1_W) (k1 : r ≠ main_v53)
    (h2 : r ∉ hostOps2_W) (k2 : r ≠ main_v64) (h3 : r ∉ hostOps3_W) (k3 : r ≠ main_v103)
    (h4 : r ∉ hostOps4_W) (k4 : r ≠ main_v131) (h5 : r ∉ hostOps5_W) (k5 : r ≠ main_v170)
    (h6 : r ∉ hostOps6_W) (k6 : r ≠ main_v181) (h7 : r ∉ hostOps7_W) (k7 : r ≠ main_v220)
    (h8 : r ∉ hostOps8_W) (k8 : r ≠ main_v235) :
    bnd18 m c (Proc.devRef .tc r) = m ((c : Thread nD τ).loc r) :=
  (bnd18_keep m c r k8).trans <| (StableHlo.after_of_writes_sub hostOps8 _ hostOps8_writes h8).trans <|
  (bnd16_keep m c r k7).trans <| (StableHlo.after_of_writes_sub hostOps7 _ hostOps7_writes h7).trans <|
  (bnd14_keep m c r k6).trans <| (StableHlo.after_of_writes_sub hostOps6 _ hostOps6_writes h6).trans <|
  (bnd12_keep m c r k5).trans <| (StableHlo.after_of_writes_sub hostOps5 _ hostOps5_writes h5).trans <|
  (bnd10_keep m c r k4).trans <| (StableHlo.after_of_writes_sub hostOps4 _ hostOps4_writes h4).trans <|
  (bnd8_keep m c r k3).trans <| (StableHlo.after_of_writes_sub hostOps3 _ hostOps3_writes h3).trans <|
  (bnd6_keep m c r k2).trans <| (StableHlo.after_of_writes_sub hostOps2 _ hostOps2_writes h2).trans <|
  (bnd4_keep m c r k1).trans <| (StableHlo.after_of_writes_sub hostOps1 _ hostOps1_writes h1).trans <|
  (bnd2_keep m c r k0).trans <| (StableHlo.after_of_writes_sub hostOps0 _ hostOps0_writes h0).trans rfl

end Cert.Kernel.Hand

end
-- ==== Proof.K.Thread.lean ====
/-
  What rides beside a core's buffers from one item of the program to the next: its generator register at some state
  and the core owing nothing. A stretch of host operations as a segment from given buffer contents; the last thread
  state; membership of an unscoped buffer among those a thread state holds.
-/
import proofs.«167438_j18270790877246_1_alg».proof.Proof.K.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev vars0 : Variants := Variants.none
/-- No core owes another anything: no level is assigned. -/
abbrev pairs0 : GSem nD τ sig → Finset Unit := fun _ => ∅
abbrev lvl0 : GSem nD τ sig → Unit → ℕ := fun _ _ => 0

/-- The generator register at some state and nothing owed. -/
abbrev rest (c : Dev nD) : sProp 𝕄 :=
  iprop((∃ r, prngReg c r) ∗ ∃ W, owes (c : Thread nD τ) (0 : CellTallies nD τ sig Unit) W)

/-- A stretch of host operations as a segment: from every unscoped buffer at `W c` to every unscoped buffer at the
    operations' result over `W c`, `rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars0 pairs0 lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

omit [FloatOps F] in
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the dues: every unscoped buffer at the last boundary's contents, the generator
    register at some state. -/
abbrev lastState (c : Dev nD) : sProp 𝕄 :=
  iprop(StableHlo.held (c : Thread nD τ) (Pipeline.ucRefs τ sig) (bnd18 m c) ∗ ∃ r, prngReg c r)

end Cert.Kernel.Hand

end
-- ==== Proof.K.SegsA.lean ====
/-
  Graph A's four pallas_calls as segments of the program: each is entered from every unscoped buffer at the contents
  before it and left with every unscoped buffer at the contents after it. At entry the call's arrays are split out of
  the unscoped buffers (the rest bypasses the call); the generator register goes into the class's invariant and comes
  back; nothing is owed; the call has no semaphore of its own. At exit the arrays, at what the pipeline leaves, are
  put back beside the rest.
-/
import proofs.«167438_j18270790877246_1_alg».proof.Proof.K.Thread

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The first call (graph A, convolution 1): from `bnd1` to `bnd2`. -/
def reg0 : Pipeline.RegionSeg (pcfgs (F := F)) adm (pdats m) () defs₀ vars0 pairs0 lvl0 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ pairs0 lvl0 0 fun _ _ => rfl
  pre c := iprop(StableHlo.held (c : Thread nD τ) (Pipeline.ucRefs τ sig) (bnd1 m c) ∗ rest c)
  post c := iprop(StableHlo.held (c : Thread nD τ) (Pipeline.ucRefs τ sig) (bnd2 m c) ∗ rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call (graph A, normalization 1): from `bnd3` to `bnd4`. -/
def reg1 : Pipeline.RegionSeg (pcfgs (F := F)) adm (pdats m) () defs₀ vars0 pairs0 lvl0 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ pairs0 lvl0 1 fun _ _ => rfl
  pre c := iprop(StableHlo.held (c : Thread nD τ) (Pipeline.ucRefs τ sig) (bnd3 m c) ∗ rest c)
  post c := iprop(StableHlo.held (c : Thread nD τ) (Pipeline.ucRefs τ sig) (bnd4 m c) ∗ rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call (graph A, convolution 2): from `bnd5` to `bnd6`. -/
def reg2 : Pipeline.RegionSeg (pcfgs (F := F)) adm (pdats m) () defs₀ vars0 pairs0 lvl0 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ pairs0 lvl0 2 fun _ _ => rfl
  pre c := iprop(StableHlo.held (c : Thread nD τ) (Pipeline.ucRefs τ sig) (bnd5 m c) ∗ rest c)
  post c := iprop(StableHlo.held (c : Thread nD τ) (Pipeline.ucRefs τ sig) (bnd6 m c) ∗ rest c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (ext2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fourth call (graph A, normalization 2): from `bnd7` to `bnd8`. -/
def reg3 : Pipeline.RegionSeg (pcfgs (F := F)) adm (pdats m) () defs₀ vars0 pairs0 lvl0 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ pairs0 lvl0 3 fun _ _ => rfl
  pre c := iprop(StableHlo.held (c : Thread nD τ) (Pipeline.ucRefs τ sig) (bnd7 m c) ∗ rest c)
  post c := iprop(StableHlo.held (c : Thread nD τ) (Pipeline.ucRefs τ sig) (bnd8 m c) ∗ rest c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (ent3 m c) (ext3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.SegsB.lean ====
/-
  Graph B's four pallas_calls as segments of the program: each is entered from every unscoped buffer at the contents
  before it and left with every unscoped buffer at the contents after it. At entry the call's arrays are split out of
  the unscoped buffers (the rest bypasses the call); the generator register goes into the class's invariant and comes
  back; nothing is owed; the call has no semaphore of its own. At exit the arrays, at what the pipeline leaves, are
  put back beside the rest.
-/
import proofs.«167438_j18270790877246_1_alg».proof.Proof.K.Thread

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The fifth call (graph B, convolution 1): from `bnd9` to `bnd10`. -/
def reg4 : Pipeline.RegionSeg (pcfgs (F := F)) adm (pdats m) () defs₀ vars0 pairs0 lvl0 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ pairs0 lvl0 4 fun _ _ => rfl
  pre c := iprop(StableHlo.held (c : Thread nD τ) (Pipeline.ucRefs τ sig) (bnd9 m c) ∗ rest c)
  post c := iprop(StableHlo.held (c : Thread nD τ) (Pipeline.ucRefs τ sig) (bnd10 m c) ∗ rest c)
  X c := iprop(∃ r, prngReg c r)
  Y c := iprop(∃ r, prngReg c r)
  Z c := Pipeline.unscopedRest (Ix := Unit) (Name := ℕ) (U := UR sig nD τ) (Lvl := ℕ) spec4 c (ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (ent4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (ent4 m c) (ext4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The sixth call (graph B, normalization 1): from `bnd11` to `bnd12`. -/
def reg5 : Pipeline.RegionSeg (pcfgs (F := F)) adm (pdats m) () defs₀ vars0 pairs0 lvl0 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ pairs0 lvl0 5 fun _ _ => rfl
  pre c := iprop(StableHlo.held (c : Thread nD τ) (Pipeline.ucRefs τ sig) (bnd11 m c) ∗ rest c)
  post c := iprop(StableHlo.held (c : Thread nD τ) (Pipeline.ucRefs τ sig) (bnd12 m c) ∗ rest c)
  X c := iprop(∃ r, prngReg c r)
  Y c := iprop(∃ r, prngReg c r)
  Z c := Pipeline.unscopedRest (Ix := Unit) (Name := ℕ) (U := UR sig nD τ) (Lvl := ℕ) spec5 c (ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (ent5 m c) (ext5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The seventh call (graph B, convolution 2): from `bnd13` to `bnd14`. -/
def reg6 : Pipeline.RegionSeg (pcfgs (F := F)) adm (pdats m) () defs₀ vars0 pairs0 lvl0 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ pairs0 lvl0 6 fun _ _ => rfl
  pre c := iprop(StableHlo.held (c : Thread nD τ) (Pipeline.ucRefs τ sig) (bnd13 m c) ∗ rest c)
  post c := iprop(StableHlo.held (c : Thread nD τ) (Pipeline.ucRefs τ sig) (bnd14 m c) ∗ rest c)
  X c := iprop(∃ r, prngReg c r)
  Y c := iprop(∃ r, prngReg c r)
  Z c := Pipeline.unscopedRest (Ix := Unit) (Name := ℕ) (U := UR sig nD τ) (Lvl := ℕ) spec6 c (ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (ent6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (ent6 m c) (ext6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The eighth call (graph B, normalization 2): from `bnd15` to `bnd16`. -/
def reg7 : Pipeline.RegionSeg (pcfgs (F := F)) adm (pdats m) () defs₀ vars0 pairs0 lvl0 7 where
  win := launch7.win.to₀
  block_pos := launch7.block_pos
  stage_whole := launch7.stage_whole
  K := PEmpty
  osem k := k.elim
  ho := Pipeline.OwnSemFacts.none _
  hbody c := (body_obligation7 (ent7 m) c).loose
  hwaits := Pipeline.hwaits_of_owed_zero _ _ _ _ pairs0 lvl0 7 fun _ _ => rfl
  pre c := iprop(StableHlo.held (c : Thread nD τ) (Pipeline.ucRefs τ sig) (bnd15 m c) ∗ rest c)
  post c := iprop(StableHlo.held (c : Thread nD τ) (Pipeline.ucRefs τ sig) (bnd16 m c) ∗ rest c)
  X c := iprop(∃ r, prngReg c r)
  Y c := iprop(∃ r, prngReg c r)
  Z c := Pipeline.unscopedRest (Ix := Unit) (Name := ℕ) (U := UR sig nD τ) (Lvl := ℕ) spec7 c (ent7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (ent7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (ent7 m c) (ext7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.SegHead.lean ====
/-
  The head's pallas_call as the last segment of the program: entered from every unscoped buffer at the contents after
  the last stretch of host operations, left at the last thread state — every unscoped buffer at the final contents
  (the call's output holding the program's result), the generator register at some state — beside the core owing
  nothing.
-/
import proofs.«167438_j18270790877246_1_alg».proof.Proof.K.Thread

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The ninth call (the head): from `bnd17` to `bnd18`. -/
def reg8 : Pipeline.RegionSeg (pcfgs (F := F)) adm (pdats m) () defs₀ vars0 pairs0 lvl0 8 where
  win := launch8.win.to₀
  block_pos := launch8.block_pos
  stage_whole := launch8.stage_whole
  K := PEmpty
  osem k := k.elim
  ho := Pipeline.OwnSemFacts.none _
  hbody c := (body_obligation8 (ent8 m) c).loose
  hwaits := Pipeline.hwaits_of_owed_zero _ _ _ _ pairs0 lvl0 8 fun _ _ => rfl
  pre c := iprop(StableHlo.held (c : Thread nD τ) (Pipeline.ucRefs τ sig) (bnd17 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (ent8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (ent8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (ent8 m c) (ext8 m c) ((pdats m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
/-
  The program's run. @main is eighteen items in a row: nine stretches of host operations alternating with the nine
  pallas_calls. Launched on any memory with zero counters, every weakly fair execution terminates, and in every final
  state each unscoped buffer of a core holds the last boundary's contents `bnd18`: the launch makes the first thread
  state on every core, each item's exit state is the next item's entry state, and the last thread state is read
  against the final memory. A buffer nothing writes is then read back at its launch contents (`unwritten_end`): the frame.
-/
import proofs.«167438_j18270790877246_1_alg».proof.Proof.K.SegsA
import proofs.«167438_j18270790877246_1_alg».proof.Proof.K.SegsB
import proofs.«167438_j18270790877246_1_alg».proof.Proof.K.SegHead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- @main's eighteen items in order. -/
abbrev items : List (Pipeline.Seg (pcfgs (F := F)) adm (pdats m) () defs₀ vars0 pairs0 lvl0) :=
  [ .host (hseg hostOps0 hostOps0_sub hostOps0_fresh (bnd0 m)), .region (reg0 m),
    .host (hseg hostOps1 hostOps1_sub hostOps1_fresh (bnd2 m)), .region (reg1 m),
    .host (hseg hostOps2 hostOps2_sub hostOps2_fresh (bnd4 m)), .region (reg2 m),
    .host (hseg hostOps3 hostOps3_sub hostOps3_fresh (bnd6 m)), .region (reg3 m),
    .host (hseg hostOps4 hostOps4_sub hostOps4_fresh (bnd8 m)), .region (reg4 m),
    .host (hseg hostOps5 hostOps5_sub hostOps5_fresh (bnd10 m)), .region (reg5 m),
    .host (hseg hostOps6 hostOps6_sub hostOps6_fresh (bnd12 m)), .region (reg6 m),
    .host (hseg hostOps7 hostOps7_sub hostOps7_fresh (bnd14 m)), .region (reg7 m),
    .host (hseg hostOps8 hostOps8_sub hostOps8_fresh (bnd16 m)), .region (reg8 m) ]

set_option backward.isDefEq.respectTransparency.types false in
/-- Every weakly fair execution of @main from memory `m` with zero counters terminates, and every final memory holds,
    on every core, each unscoped buffer at `bnd18`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = bnd18 m c b) :=
  Pipeline.θ_run_regions_kit_dev (pcfgs (F := F)) adm (pdats m) () cellOf_inj emb₁ defs₀ vars0 pairs0 lvl0 m ρ main
    (fun _ => items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ rest c)) (Tₙ := lastState m)
    (hch := fun c => ⟨.rfl, .rfl, .rfl, .rfl, .rfl, .rfl, .rfl, .rfl, .rfl, .rfl, .rfl, .rfl, .rfl, .rfl, .rfl, .rfl, .rfl, .rfl, .rfl⟩)
    (hinit := by
      refine Pipeline.initEach pairs0 lvl0 fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd18 m c b)
    (hfin := fun c s' => by
      iintro ⟨⟨Hh, -⟩, HSI⟩
      unfold StableHlo.held
      imodintro
      iapply (pointsTo_read_all (Pipeline.ucRefs τ sig) (fun b => (((c : Thread nD τ)).1, b)) (bnd18 m c) s')
      isplitl [Hh] <;> iassumption)
    (hQ := fun s h c => h c)

/-- A final memory that holds every unscoped buffer at `bnd18` holds a never-written buffer at its launch contents. -/
theorem unwritten_end (c : Dev nD) (s : MemSt nD τ sig (Elt F))
    (h : ∀ b ∈ Pipeline.ucRefs τ sig, s.mem (((c : Thread nD τ)).1, b) = bnd18 m c b) (r : Ref sig .tc)
    (hu : ¬ (Proc.devRef .tc r : DevRef τ sig).isScoped)
    (h0 : r ∉ hostOps0_W) (k0 : r ≠ main_v14) (h1 : r ∉ hostOps1_W) (k1 : r ≠ main_v53)
    (h2 : r ∉ hostOps2_W) (k2 : r ≠ main_v64) (h3 : r ∉ hostOps3_W) (k3 : r ≠ main_v103)
    (h4 : r ∉ hostOps4_W) (k4 : r ≠ main_v131) (h5 : r ∉ hostOps5_W) (k5 : r ≠ main_v170)
    (h6 : r ∉ hostOps6_W) (k6 : r ≠ main_v181) (h7 : r ∉ hostOps7_W) (k7 : r ≠ main_v220)
    (h8 : r ∉ hostOps8_W) (k8 : r ≠ main_v235) :
    s.mem ((c.tc : Thread nD τ).loc r) = m ((c.tc : Thread nD τ).loc r) :=
  (h _ (mem_uc r hu)).trans (bnd18_unwritten m c r h0 k0 h1 k1 h2 k2 h3 k3 h4 k4 h5 k5 h6 k6 h7 k7 h8 k8)

end Cert.Kernel.Hand

end
-- ==== Proof.KI.Conv1A.lean ====
/-
  Graph A, first convolution layer (the first pallas_call): one grid point takes a block of 2000 node rows of the
  node features x and of the neighbour sums agg (both 2000 x 6), the whole weights (6 x 64, 64, 64 x 64, 64), and
  writes the 2000 x 64 block  relu((x + agg) W_a + b_a) W_b + b_b  of the layer's output. Here: what one grid point
  leaves in the output's staging buffer as a function of the six input blocks, the body's run, and the pipeline's
  proof data at arbitrary entry contents V of the core's buffers (inputs stay as fetched, nothing is owed).
-/
import proofs.«167438_j18270790877246_1_alg».proof.Proof.Gen.KernelIdeal.Launch
import proofs.«167438_j18270790877246_1_alg».proof.Proof.Gen.KernelIdeal.Skeleton
import proofs.«167438_j18270790877246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose
    index does not move is fetched once and still holds the same block). One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole staging buffer -/

abbrev rX0 : Rect S2000x6 := Rect.unit (s := S2000x6) ![0, 0] S2000x6.size inb_S2000x6_S2000x6_0_0
abbrev rWa0 : Rect S6x64 := Rect.unit (s := S6x64) ![0, 0] S6x64.size inb_S6x64_S6x64_0_0
abbrev rB0 : Rect S64 := Rect.unit (s := S64) ![0] S64.size inb_S64_S64_0
abbrev rWb0 : Rect S64x64 := Rect.unit (s := S64x64) ![0, 0] S64x64.size inb_S64x64_S64x64_0_0
abbrev rO0 : Rect S2000x64 := Rect.unit (s := S2000x64) ![0, 0] S2000x64.size inb_S2000x64_S2000x64_0_0

/-! ## What the body leaves in the output's staging buffer -/

/-- The output's staging buffer after the body: its one store, of the layer's formula on the six loaded blocks. -/
def out0_6 (x0 x1 : Vec F S2000x6 .f32) (x2 : Vec F S6x64 .f32) (x3 : Vec F S64 .f32) (x4 : Vec F S64x64 .f32) (x5 : Vec F S64 .f32) :
    Vec F S2000x64 .f32 :=
  View.canon [⟨rO0, k0_pay1 (View.ld x0 rX0) (View.ld x1 rX0) (View.ld x2 rWa0) (View.ld x3 rB0) (View.ld x4 rWb0) (View.ld x5 rB0)⟩]

/-- The one store covers the buffer. -/
theorem cover0_6 (p0 : Vec F S2000x64 .f32) (y : S2000x64.Idx) :
    ∃ pc ∈ ([⟨rO0, p0⟩] : List (View.Piece (Elt F) S2000x64 .f32)), y ∈ pc.1.set :=
  View.cover_of_tiled [⟨rO0, p0⟩] S2000x64.size (by rfl) y

/-! ## The body's run -/

set_option maxHeartbeats 1000000 in
/-- The body on whole staging memrefs, the inputs' at contents `x0 … x5` and the output's at anything, runs to the
    continuation holding the inputs' as they were and the output's at `out0_6` of them. -/
theorem sound_kernel0 (c : Dev nD) (E : Set ℕ) (i : grid0.Coords)
    (arg1 : Memref sig .tc .vmem S2000x6 .f32) (harg1 : arg1.IsWhole) (arg2 : Memref sig .tc .vmem S2000x6 .f32) (harg2 : arg2.IsWhole)
    (arg3 : Memref sig .tc .vmem S6x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S2000x64 .f32) (harg7 : arg7.IsWhole)
    (x0 x1 : Vec F S2000x6 .f32) (x2 : Vec F S6x64 .f32) (x3 : Vec F S64 .f32) (x4 : Vec F S64x64 .f32) (x5 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data on core `c`: the arrays as the region finds them; after the body at point `t` each input's buffer
    still at its block and the output's at `out0_6` of the input blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Norm1A.lean ====
/-
  Graph A, first normalization layer (the second pallas_call): one grid point takes a block of 2000 node rows of the
  convolution's output h (2000 x 64), the per-node graph mean and graph variance as columns (2000 x 1 each), the
  scale and shift (64 each), and writes the 2000 x 64 block  max(((h - mean) * rsqrt(var + eps)) * scale + shift, 0).
  Here: what one grid point leaves in the output's staging buffer as a function of the five input blocks, the body's
  run, and the pipeline's proof data at arbitrary entry contents V of the core's buffers.
-/
import proofs.«167438_j18270790877246_1_alg».proof.Proof.Gen.KernelIdeal.Launch
import proofs.«167438_j18270790877246_1_alg».proof.Proof.Gen.KernelIdeal.Skeleton
import proofs.«167438_j18270790877246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev rH1 : Rect S2000x64 := Rect.unit (s := S2000x64) ![0, 0] S2000x64.size inb_S2000x64_S2000x64_0_0
abbrev rC1 : Rect S2000x1 := Rect.unit (s := S2000x1) ![0, 0] S2000x1.size inb_S2000x1_S2000x1_0_0
abbrev rS1 : Rect S64 := Rect.unit (s := S64) ![0] S64.size inb_S64_S64_0

/-! ## What the body leaves in the output's staging buffer -/

/-- The output's staging buffer after the body: its one store, of the layer's formula on the five loaded blocks. -/
def out1_5 (x0 : Vec F S2000x64 .f32) (x1 x2 : Vec F S2000x1 .f32) (x3 x4 : Vec F S64 .f32) : Vec F S2000x64 .f32 :=
  View.canon [⟨rH1, k1_pay1 (View.ld x0 rH1) (View.ld x1 rC1) (View.ld x2 rC1) (View.ld x3 rS1) (View.ld x4 rS1)⟩]

/-- The one store covers the buffer. -/
theorem cover1_5 (p0 : Vec F S2000x64 .f32) (y : S2000x64.Idx) :
    ∃ pc ∈ ([⟨rH1, p0⟩] : List (View.Piece (Elt F) S2000x64 .f32)), y ∈ pc.1.set :=
  View.cover_of_tiled [⟨rH1, p0⟩] S2000x64.size (by rfl) y

/-! ## The body's run -/

set_option maxHeartbeats 1000000 in
/-- The body on whole staging memrefs, the inputs' at contents `x0 … x4` and the output's at anything, runs to the
    continuation holding the inputs' as they were and the output's at `out1_5` of them. -/
theorem sound_kernel1 (c : Dev nD) (E : Set ℕ) (i : grid1.Coords)
    (arg1 : Memref sig .tc .vmem S2000x64 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S64 .f32) (harg5 : arg5.IsWhole) (arg6 : Memref sig .tc .vmem S2000x64 .f32) (harg6 : arg6.IsWhole)
    (x0 : Vec F S2000x64 .f32) (x1 x2 : Vec F S2000x1 .f32) (x3 x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__layernorm_relu_kernel i arg1 harg1 arg2 harg2 arg3 harg3 arg4 harg4 arg5 harg5 arg6 harg6) K := by
  simp only [cc1__layernorm_relu_kernel_eq_skeleton]; unfold cc1__layernorm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data on core `c`: the arrays as the region finds them; after the body at point `t` each input's buffer
    still at its block and the output's at `out1_5` of the input blocks; the class's invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Conv2A.lean ====
/-
  Graph A, second convolution layer (the third pallas_call): one grid point takes a block of 2000 node rows of the
  normalized features x and of the neighbour sums agg (both 2000 x 64), the whole weights (64 x 64, 64, 64 x 64, 64),
  and writes the 2000 x 64 block  relu((x + agg) W_a + b_a) W_b + b_b  of the layer's output. Here: what one grid
  point leaves in the output's staging buffer as a function of the six input blocks, the body's run, and the
  pipeline's proof data at arbitrary entry contents V of the core's buffers.
-/
import proofs.«167438_j18270790877246_1_alg».proof.Proof.Gen.KernelIdeal.Launch
import proofs.«167438_j18270790877246_1_alg».proof.Proof.Gen.KernelIdeal.Skeleton
import proofs.«167438_j18270790877246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole staging buffer -/

abbrev rX2 : Rect S2000x64 := Rect.unit (s := S2000x64) ![0, 0] S2000x64.size inb_S2000x64_S2000x64_0_0
abbrev rW2 : Rect S64x64 := Rect.unit (s := S64x64) ![0, 0] S64x64.size inb_S64x64_S64x64_0_0
abbrev rB2 : Rect S64 := Rect.unit (s := S64) ![0] S64.size inb_S64_S64_0

/-! ## What the body leaves in the output's staging buffer -/

/-- The output's staging buffer after the body: its one store, of the layer's formula on the six loaded blocks. -/
def out2_6 (x0 x1 : Vec F S2000x64 .f32) (x2 : Vec F S64x64 .f32) (x3 : Vec F S64 .f32) (x4 : Vec F S64x64 .f32) (x5 : Vec F S64 .f32) :
    Vec F S2000x64 .f32 :=
  View.canon [⟨rX2, k2_pay1 (View.ld x0 rX2) (View.ld x1 rX2) (View.ld x2 rW2) (View.ld x3 rB2) (View.ld x4 rW2) (View.ld x5 rB2)⟩]

/-- The one store covers the buffer. -/
theorem cover2_6 (p0 : Vec F S2000x64 .f32) (y : S2000x64.Idx) :
    ∃ pc ∈ ([⟨rX2, p0⟩] : List (View.Piece (Elt F) S2000x64 .f32)), y ∈ pc.1.set :=
  View.cover_of_tiled [⟨rX2, p0⟩] S2000x64.size (by rfl) y

/-! ## The body's run -/

set_option maxHeartbeats 1000000 in
/-- The body on whole staging memrefs, the inputs' at contents `x0 … x5` and the output's at anything, runs to the
    continuation holding the inputs' as they were and the output's at `out2_6` of them. -/
theorem sound_kernel2 (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S2000x64 .f32) (harg7 : arg7.IsWhole)
    (x0 x1 : Vec F S2000x64 .f32) (x2 : Vec F S64x64 .f32) (x3 : Vec F S64 .f32) (x4 : Vec F S64x64 .f32) (x5 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data on core `c`: the arrays as the region finds them; after the body at point `t` each input's buffer
    still at its block and the output's at `out2_6` of the input blocks; the class's invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Norm2A.lean ====
/-
  Graph A, second normalization layer (the fourth pallas_call): one grid point takes a block of 2000 node rows of the
  second convolution's output h (2000 x 64), the per-node graph mean and graph variance as columns (2000 x 1 each),
  the scale and shift (64 each), and writes the 2000 x 64 block  max(((h - mean) * rsqrt(var + eps)) * scale + shift, 0).
  Here: what one grid point leaves in the output's staging buffer as a function of the five input blocks, the body's
  run, and the pipeline's proof data at arbitrary entry contents V of the core's buffers.
-/
import proofs.«167438_j18270790877246_1_alg».proof.Proof.Gen.KernelIdeal.Launch
import proofs.«167438_j18270790877246_1_alg».proof.Proof.Gen.KernelIdeal.Skeleton
import proofs.«167438_j18270790877246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole staging buffer -/

abbrev rH3 : Rect S2000x64 := Rect.unit (s := S2000x64) ![0, 0] S2000x64.size inb_S2000x64_S2000x64_0_0
abbrev rC3 : Rect S2000x1 := Rect.unit (s := S2000x1) ![0, 0] S2000x1.size inb_S2000x1_S2000x1_0_0
abbrev rS3 : Rect S64 := Rect.unit (s := S64) ![0] S64.size inb_S64_S64_0

/-! ## What the body leaves in the output's staging buffer -/

/-- The output's staging buffer after the body: its one store, of the layer's formula on the five loaded blocks. -/
def out3_5 (x0 : Vec F S2000x64 .f32) (x1 x2 : Vec F S2000x1 .f32) (x3 x4 : Vec F S64 .f32) : Vec F S2000x64 .f32 :=
  View.canon [⟨rH3, k3_pay1 (View.ld x0 rH3) (View.ld x1 rC3) (View.ld x2 rC3) (View.ld x3 rS3) (View.ld x4 rS3)⟩]

/-- The one store covers the buffer. -/
theorem cover3_5 (p0 : Vec F S2000x64 .f32) (y : S2000x64.Idx) :
    ∃ pc ∈ ([⟨rH3, p0⟩] : List (View.Piece (Elt F) S2000x64 .f32)), y ∈ pc.1.set :=
  View.cover_of_tiled [⟨rH3, p0⟩] S2000x64.size (by rfl) y

/-! ## The body's run -/

set_option maxHeartbeats 1000000 in
/-- The body on whole staging memrefs, the inputs' at contents `x0 … x4` and the output's at anything, runs to the
    continuation holding the inputs' as they were and the output's at `out3_5` of them. -/
theorem sound_kernel3 (c : Dev nD) (E : Set ℕ) (i : grid3.Coords)
    (arg1 : Memref sig .tc .vmem S2000x64 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S64 .f32) (harg5 : arg5.IsWhole) (arg6 : Memref sig .tc .vmem S2000x64 .f32) (harg6 : arg6.IsWhole)
    (x0 : Vec F S2000x64 .f32) (x1 x2 : Vec F S2000x1 .f32) (x3 x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__layernorm_relu_kernel i arg1 harg1 arg2 harg2 arg3 harg3 arg4 harg4 arg5 harg5 arg6 harg6) K := by
  simp only [cc3__layernorm_relu_kernel_eq_skeleton]; unfold cc3__layernorm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data on core `c`: the arrays as the region finds them; after the body at point `t` each input's buffer
    still at its block and the output's at `out3_5` of the input blocks; the class's invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Conv1B.lean ====
/-
  Graph B, first convolution layer (the fifth pallas_call): one grid point takes a block of 2000 node rows of the
  second graph's node features x and of its neighbour sums agg (both 2000 x 6), the whole weights (6 x 64, 64,
  64 x 64, 64), and writes the 2000 x 64 block  relu((x + agg) W_a + b_a) W_b + b_b  of the layer's output. Here: what
  one grid point leaves in the output's staging buffer as a function of the six input blocks, the body's run, and the
  pipeline's proof data at arbitrary entry contents V of the core's buffers.
-/
import proofs.«167438_j18270790877246_1_alg».proof.Proof.Gen.KernelIdeal.Launch
import proofs.«167438_j18270790877246_1_alg».proof.Proof.Gen.KernelIdeal.Skeleton
import proofs.«167438_j18270790877246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store take a whole staging buffer -/

abbrev rX4 : Rect S2000x6 := Rect.unit (s := S2000x6) ![0, 0] S2000x6.size inb_S2000x6_S2000x6_0_0
abbrev rWa4 : Rect S6x64 := Rect.unit (s := S6x64) ![0, 0] S6x64.size inb_S6x64_S6x64_0_0
abbrev rB4 : Rect S64 := Rect.unit (s := S64) ![0] S64.size inb_S64_S64_0
abbrev rWb4 : Rect S64x64 := Rect.unit (s := S64x64) ![0, 0] S64x64.size inb_S64x64_S64x64_0_0
abbrev rO4 : Rect S2000x64 := Rect.unit (s := S2000x64) ![0, 0] S2000x64.size inb_S2000x64_S2000x64_0_0

/-! ## What the body leaves in the output's staging buffer -/

/-- The output's staging buffer after the body: its one store, of the layer's formula on the six loaded blocks. -/
def out4_6 (x0 x1 : Vec F S2000x6 .f32) (x2 : Vec F S6x64 .f32) (x3 : Vec F S64 .f32) (x4 : Vec F S64x64 .f32) (x5 : Vec F S64 .f32) :
    Vec F S2000x64 .f32 :=
  View.canon [⟨rO4, k4_pay1 (View.ld x0 rX4) (View.ld x1 rX4) (View.ld x2 rWa4) (View.ld x3 rB4) (View.ld x4 rWb4) (View.ld x5 rB4)⟩]

/-- The one store covers the buffer. -/
theorem cover4_6 (p0 : Vec F S2000x64 .f32) (y : S2000x64.Idx) :
    ∃ pc ∈ ([⟨rO4, p0⟩] : List (View.Piece (Elt F) S2000x64 .f32)), y ∈ pc.1.set :=
  View.cover_of_tiled [⟨rO4, p0⟩] S2000x64.size (by rfl) y

/-! ## The body's run -/

set_option maxHeartbeats 1000000 in
/-- The body on whole staging memrefs, the inputs' at contents `x0 … x5` and the output's at anything, runs to the
    continuation holding the inputs' as they were and the output's at `out4_6` of them. -/
theorem sound_kernel4 (c : Dev nD) (E : Set ℕ) (i : grid4.Coords)
    (arg1 : Memref sig .tc .vmem S2000x6 .f32) (harg1 : arg1.IsWhole) (arg2 : Memref sig .tc .vmem S2000x6 .f32) (harg2 : arg2.IsWhole)
    (arg3 : Memref sig .tc .vmem S6x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S2000x64 .f32) (harg7 : arg7.IsWhole)
    (x0 x1 : Vec F S2000x6 .f32) (x2 : Vec F S6x64 .f32) (x3 : Vec F S64 .f32) (x4 : Vec F S64x64 .f32) (x5 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__gin_mlp_kernel i arg1 harg1 arg2 harg2 arg3 harg3 arg4 harg4 arg5 harg5 arg6 harg6 arg7 harg7) K := by
  simp only [cc4__gin_mlp_kernel_eq_skeleton]; unfold cc4__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data on core `c`: the arrays as the region finds them; after the body at point `t` each input's buffer
    still at its block and the output's at `out4_6` of the input blocks; the class's invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t
    = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Norm1B.lean ====
/-
  Graph B, first normalization layer (the sixth pallas_call): one grid point takes a block of 2000 node rows of the
  second graph's first convolution output h (2000 x 64), the per-node graph mean and graph variance as columns
  (2000 x 1 each), the scale and shift (64 each), and writes the 2000 x 64 block
  max(((h - mean) * rsqrt(var + eps)) * scale + shift, 0). Here: what one grid point leaves in the output's staging
  buffer as a function of the five input blocks, the body's run, and the pipeline's proof data at arbitrary entry
  contents V of the core's buffers.
-/
import proofs.«167438_j18270790877246_1_alg».proof.Proof.Gen.KernelIdeal.Launch
import proofs.«167438_j18270790877246_1_alg».proof.Proof.Gen.KernelIdeal.Skeleton
import proofs.«167438_j18270790877246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store take a whole staging buffer -/

abbrev rH5 : Rect S2000x64 := Rect.unit (s := S2000x64) ![0, 0] S2000x64.size inb_S2000x64_S2000x64_0_0
abbrev rC5 : Rect S2000x1 := Rect.unit (s := S2000x1) ![0, 0] S2000x1.size inb_S2000x1_S2000x1_0_0
abbrev rS5 : Rect S64 := Rect.unit (s := S64) ![0] S64.size inb_S64_S64_0

/-! ## What the body leaves in the output's staging buffer -/

/-- The output's staging buffer after the body: its one store, of the layer's formula on the five loaded blocks. -/
def out5_5 (x0 : Vec F S2000x64 .f32) (x1 x2 : Vec F S2000x1 .f32) (x3 x4 : Vec F S64 .f32) : Vec F S2000x64 .f32 :=
  View.canon [⟨rH5, k5_pay1 (View.ld x0 rH5) (View.ld x1 rC5) (View.ld x2 rC5) (View.ld x3 rS5) (View.ld x4 rS5)⟩]

/-- The one store covers the buffer. -/
theorem cover5_5 (p0 : Vec F S2000x64 .f32) (y : S2000x64.Idx) :
    ∃ pc ∈ ([⟨rH5, p0⟩] : List (View.Piece (Elt F) S2000x64 .f32)), y ∈ pc.1.set :=
  View.cover_of_tiled [⟨rH5, p0⟩] S2000x64.size (by rfl) y

/-! ## The body's run -/

set_option maxHeartbeats 1000000 in
/-- The body on whole staging memrefs, the inputs' at contents `x0 … x4` and the output's at anything, runs to the
    continuation holding the inputs' as they were and the output's at `out5_5` of them. -/
theorem sound_kernel5 (c : Dev nD) (E : Set ℕ) (i : grid5.Coords)
    (arg1 : Memref sig .tc .vmem S2000x64 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S64 .f32) (harg5 : arg5.IsWhole) (arg6 : Memref sig .tc .vmem S2000x64 .f32) (harg6 : arg6.IsWhole)
    (x0 : Vec F S2000x64 .f32) (x1 x2 : Vec F S2000x1 .f32) (x3 x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__layernorm_relu_kernel i arg1 harg1 arg2 harg2 arg3 harg3 arg4 harg4 arg5 harg5 arg6 harg6) K := by
  simp only [cc5__layernorm_relu_kernel_eq_skeleton]; unfold cc5__layernorm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data on core `c`: the arrays as the region finds them; after the body at point `t` each input's buffer
    still at its block and the output's at `out5_5` of the input blocks; the class's invariant; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Conv2B.lean ====
/-
  Graph B, second convolution layer (the seventh pallas_call): one grid point takes a block of 2000 node rows of the
  second graph's normalized features x and of its neighbour sums agg (both 2000 x 64), the whole weights (64 x 64, 64,
  64 x 64, 64), and writes the 2000 x 64 block  relu((x + agg) W_a + b_a) W_b + b_b  of the layer's output. Here: what
  one grid point leaves in the output's staging buffer as a function of the six input blocks, the body's run, and the
  pipeline's proof data at arbitrary entry contents V of the core's buffers.
-/
import proofs.«167438_j18270790877246_1_alg».proof.Proof.Gen.KernelIdeal.Launch
import proofs.«167438_j18270790877246_1_alg».proof.Proof.Gen.KernelIdeal.Skeleton
import proofs.«167438_j18270790877246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take a whole staging buffer -/

abbrev rX6 : Rect S2000x64 := Rect.unit (s := S2000x64) ![0, 0] S2000x64.size inb_S2000x64_S2000x64_0_0
abbrev rW6 : Rect S64x64 := Rect.unit (s := S64x64) ![0, 0] S64x64.size inb_S64x64_S64x64_0_0
abbrev rB6 : Rect S64 := Rect.unit (s := S64) ![0] S64.size inb_S64_S64_0

/-! ## What the body leaves in the output's staging buffer -/

/-- The output's staging buffer after the body: its one store, of the layer's formula on the six loaded blocks. -/
def out6_6 (x0 x1 : Vec F S2000x64 .f32) (x2 : Vec F S64x64 .f32) (x3 : Vec F S64 .f32) (x4 : Vec F S64x64 .f32) (x5 : Vec F S64 .f32) :
    Vec F S2000x64 .f32 :=
  View.canon [⟨rX6, k6_pay1 (View.ld x0 rX6) (View.ld x1 rX6) (View.ld x2 rW6) (View.ld x3 rB6) (View.ld x4 rW6) (View.ld x5 rB6)⟩]

/-- The one store covers the buffer. -/
theorem cover6_6 (p0 : Vec F S2000x64 .f32) (y : S2000x64.Idx) :
    ∃ pc ∈ ([⟨rX6, p0⟩] : List (View.Piece (Elt F) S2000x64 .f32)), y ∈ pc.1.set :=
  View.cover_of_tiled [⟨rX6, p0⟩] S2000x64.size (by rfl) y

/-! ## The body's run -/

set_option maxHeartbeats 1000000 in
/-- The body on whole staging memrefs, the inputs' at contents `x0 … x5` and the output's at anything, runs to the
    continuation holding the inputs' as they were and the output's at `out6_6` of them. -/
theorem sound_kernel6 (c : Dev nD) (E : Set ℕ) (i : grid6.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S2000x64 .f32) (harg7 : arg7.IsWhole)
    (x0 x1 : Vec F S2000x64 .f32) (x2 : Vec F S64x64 .f32) (x3 : Vec F S64 .f32) (x4 : Vec F S64x64 .f32) (x5 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E
          (cc6__gin_mlp_kernel i arg1 harg1 arg2 harg2 arg3 harg3 arg4 harg4 arg5 harg5 arg6 harg6 arg7 harg7) K := by
  simp only [cc6__gin_mlp_kernel_eq_skeleton]; unfold cc6__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data on core `c`: the arrays as the region finds them; after the body at point `t` each input's buffer
    still at its block and the output's at `out6_6` of the input blocks; the class's invariant; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t
    = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _
    (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Norm2B.lean ====
/-
  Graph B, second normalization layer (the eighth pallas_call): one grid point takes a block of 2000 node rows of the
  second graph's second convolution output h (2000 x 64), the per-node graph mean and graph variance as columns
  (2000 x 1 each), the scale and shift (64 each), and writes the 2000 x 64 block
  max(((h - mean) * rsqrt(var + eps)) * scale + shift, 0). Here: what one grid point leaves in the output's staging
  buffer as a function of the five input blocks, the body's run, and the pipeline's proof data at arbitrary entry
  contents V of the core's buffers.
-/
import proofs.«167438_j18270790877246_1_alg».proof.Proof.Gen.KernelIdeal.Launch
import proofs.«167438_j18270790877246_1_alg».proof.Proof.Gen.KernelIdeal.Skeleton
import proofs.«167438_j18270790877246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the store take a whole staging buffer -/

abbrev rH7 : Rect S2000x64 := Rect.unit (s := S2000x64) ![0, 0] S2000x64.size inb_S2000x64_S2000x64_0_0
abbrev rC7 : Rect S2000x1 := Rect.unit (s := S2000x1) ![0, 0] S2000x1.size inb_S2000x1_S2000x1_0_0
abbrev rS7 : Rect S64 := Rect.unit (s := S64) ![0] S64.size inb_S64_S64_0

/-! ## What the body leaves in the output's staging buffer -/

/-- The output's staging buffer after the body: its one store, of the layer's formula on the five loaded blocks. -/
def out7_5 (x0 : Vec F S2000x64 .f32) (x1 x2 : Vec F S2000x1 .f32) (x3 x4 : Vec F S64 .f32) : Vec F S2000x64 .f32 :=
  View.canon [⟨rH7, k7_pay1 (View.ld x0 rH7) (View.ld x1 rC7) (View.ld x2 rC7) (View.ld x3 rS7) (View.ld x4 rS7)⟩]

/-- The one store covers the buffer. -/
theorem cover7_5 (p0 : Vec F S2000x64 .f32) (y : S2000x64.Idx) :
    ∃ pc ∈ ([⟨rH7, p0⟩] : List (View.Piece (Elt F) S2000x64 .f32)), y ∈ pc.1.set :=
  View.cover_of_tiled [⟨rH7, p0⟩] S2000x64.size (by rfl) y

/-! ## The body's run -/

set_option maxHeartbeats 1000000 in
/-- The body on whole staging memrefs, the inputs' at contents `x0 … x4` and the output's at anything, runs to the
    continuation holding the inputs' as they were and the output's at `out7_5` of them. -/
theorem sound_kernel7 (c : Dev nD) (E : Set ℕ) (i : grid7.Coords)
    (arg1 : Memref sig .tc .vmem S2000x64 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S64 .f32) (harg4 : arg4.IsWhole)
    (arg5 : Memref sig .tc .vmem S64 .f32) (harg5 : arg5.IsWhole) (arg6 : Memref sig .tc .vmem S2000x64 .f32) (harg6 : arg6.IsWhole)
    (x0 : Vec F S2000x64 .f32) (x1 x2 : Vec F S2000x1 .f32) (x3 x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E
          (cc7__layernorm_relu_kernel i arg1 harg1 arg2 harg2 arg3 harg3 arg4 harg4 arg5 harg5 arg6 harg6) K := by
  simp only [cc7__layernorm_relu_kernel_eq_skeleton]; unfold cc7__layernorm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data on core `c`: the arrays as the region finds them; after the body at point `t` each input's buffer
    still at its block and the output's at `out7_5` of the input blocks; the class's invariant; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t
    = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Head.lean ====
/-
  The head (the ninth pallas_call, one grid point): it takes the whole 1024 x 138 matrix of the per-graph features (the
  two graphs' pooled embeddings and the two descriptor blocks side by side) and the three dense layers' weights
  (138 x 128, 128; 128 x 64, 64; 64 x 1, 1), and writes the 1024 x 1 result
  relu(relu(c W_1 + b_1) W_2 + b_2) W_3 + b_3. Here: what the one grid point leaves in the output's staging buffer as a
  function of the seven input blocks, the body's run, and the pipeline's proof data at arbitrary entry contents V.
-/
import proofs.«167438_j18270790877246_1_alg».proof.Proof.Gen.KernelIdeal.Launch
import proofs.«167438_j18270790877246_1_alg».proof.Proof.Gen.KernelIdeal.Skeleton
import proofs.«167438_j18270790877246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the store take a whole staging buffer -/

abbrev rC8 : Rect S1024x138 := Rect.unit (s := S1024x138) ![0, 0] S1024x138.size inb_S1024x138_S1024x138_0_0
abbrev rW18 : Rect S138x128 := Rect.unit (s := S138x128) ![0, 0] S138x128.size inb_S138x128_S138x128_0_0
abbrev rB18 : Rect S128 := Rect.unit (s := S128) ![0] S128.size inb_S128_S128_0
abbrev rW28 : Rect S128x64 := Rect.unit (s := S128x64) ![0, 0] S128x64.size inb_S128x64_S128x64_0_0
abbrev rB28 : Rect S64 := Rect.unit (s := S64) ![0] S64.size inb_S64_S64_0
abbrev rW38 : Rect S64x1 := Rect.unit (s := S64x1) ![0, 0] S64x1.size inb_S64x1_S64x1_0_0
abbrev rB38 : Rect S1 := Rect.unit (s := S1) ![0] S1.size inb_S1_S1_0
abbrev rO8 : Rect S1024x1 := Rect.unit (s := S1024x1) ![0, 0] S1024x1.size inb_S1024x1_S1024x1_0_0

/-! ## What the body leaves in the output's staging buffer -/

/-- The output's staging buffer after the body: its one store, of the three dense layers on the seven loaded blocks. -/
def out8_7 (x0 : Vec F S1024x138 .f32) (x1 : Vec F S138x128 .f32) (x2 : Vec F S128 .f32) (x3 : Vec F S128x64 .f32) (x4 : Vec F S64 .f32)
    (x5 : Vec F S64x1 .f32) (x6 : Vec F S1 .f32) : Vec F S1024x1 .f32 :=
  View.canon [⟨rO8, k8_pay1 (View.ld x0 rC8) (View.ld x1 rW18) (View.ld x2 rB18) (View.ld x3 rW28) (View.ld x4 rB28) (View.ld x5 rW38) (View.ld x6 rB38)⟩]

/-- The one store covers the buffer. -/
theorem cover8_7 (p0 : Vec F S1024x1 .f32) (y : S1024x1.Idx) :
    ∃ pc ∈ ([⟨rO8, p0⟩] : List (View.Piece (Elt F) S1024x1 .f32)), y ∈ pc.1.set :=
  View.cover_of_tiled [⟨rO8, p0⟩] S1024x1.size (by rfl) y

/-! ## The body's run -/

set_option maxHeartbeats 1000000 in
/-- The body on whole staging memrefs, the inputs' at contents `x0 … x6` and the output's at anything, runs to the
    continuation holding the inputs' as they were and the output's at `out8_7` of them. -/
theorem sound_kernel8 (c : Dev nD) (E : Set ℕ) (i : grid8.Coords)
    (arg1 : Memref sig .tc .vmem S1024x138 .f32) (harg1 : arg1.IsWhole) (arg2 : Memref sig .tc .vmem S138x128 .f32) (harg2 : arg2.IsWhole)
    (arg3 : Memref sig .tc .vmem S128 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S64x1 .f32) (harg6 : arg6.IsWhole)
    (arg7 : Memref sig .tc .vmem S1 .f32) (harg7 : arg7.IsWhole) (arg8 : Memref sig .tc .vmem S1024x1 .f32) (harg8 : arg8.IsWhole)
    (x0 : Vec F S1024x138 .f32) (x1 : Vec F S138x128 .f32) (x2 : Vec F S128 .f32) (x3 : Vec F S128x64 .f32) (x4 : Vec F S64 .f32)
    (x5 : Vec F S64x1 .f32) (x6 : Vec F S1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out8_7 x0 x1 x2 x3 x4 x5 x6)) -∗ K ⟨⟩))
      ⊢ wp frame (wpE (defs₀ (F := F)) Variants.none c none) E
          (cc8__final_mlp_kernel i arg1 harg1 arg2 harg2 arg3 harg3 arg4 harg4 arg5 harg5 arg6 harg6 arg7 harg7 arg8 harg8) K := by
  simp only [cc8__final_mlp_kernel_eq_skeleton]; unfold cc8__final_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover8_7 _)

/-! ## The pipeline's proof data -/

/-- The proof data on core `c`: the arrays as the region finds them; after the body each input's buffer still at its
    block and the output's at `out8_7` of the input blocks; the class's invariant; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t
    = out8_7 (iblk8 V c 0 t) (iblk8 V c 1 t) (iblk8 V c 2 t) (iblk8 V c 3 t) (iblk8 V c 4 t) (iblk8 V c 5 t) (iblk8 V c 6 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

/-- The body at the one point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ (grid8.coords t) _ _ _ _ _ _ _ _ _ _ _ _ _ _ _ _
    (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at the one point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Bounds.lean ====
/-
  The contents of a core's buffers at the nineteen boundaries of the program: at launch (0); after each of the nine
  stretches of host operations (1, 3, ..., 17: the operations applied to the contents before); after each of the nine
  pallas_calls (2, 4, ..., 18: the call's arrays at what its pipeline leaves in them — its inputs as they were, its
  one output at the write-backs of all grid points — and every other buffer as it was). Per call: the four facts the
  launch needs (its arrays at exit, the rest unchanged) and that every buffer other than its output is kept. Then:
  every pipeline's proof data at its call's entry contents, and a buffer no stretch and no call writes still holds
  at the end what it held at launch.
-/
import proofs.«167438_j18270790877246_1_alg».proof.Proof.KI.Conv1A
import proofs.«167438_j18270790877246_1_alg».proof.Proof.KI.Norm1A
import proofs.«167438_j18270790877246_1_alg».proof.Proof.KI.Conv2A
import proofs.«167438_j18270790877246_1_alg».proof.Proof.KI.Norm2A
import proofs.«167438_j18270790877246_1_alg».proof.Proof.KI.Conv1B
import proofs.«167438_j18270790877246_1_alg».proof.Proof.KI.Norm1B
import proofs.«167438_j18270790877246_1_alg».proof.Proof.KI.Conv2B
import proofs.«167438_j18270790877246_1_alg».proof.Proof.KI.Norm2B
import proofs.«167438_j18270790877246_1_alg».proof.Proof.KI.Head
import proofs.«167438_j18270790877246_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Launch, first stretch, first call (graph A, convolution 1; output `main_v14`) -/

abbrev bnd0 : Dev nD → Valuation τ sig (Elt F) := fun c b => m (c, b)
abbrev bnd1 : Dev nD → Valuation τ sig (Elt F) := fun c => StableHlo.after hostOps0 (bnd0 m c)
abbrev ent0 : (c : Dev nD) → (b : Ref sig .tc) → Buf (Elt F) ((c : Thread nD τ).loc b) := fun c b => bnd1 m c b
def bnd2 (c : Dev nD) : Valuation τ sig (Elt F) :=
  Pipeline.withArrays spec0 c (bnd1 m c) fun w => (dat0 (ent0 m) c).arrAt w cfg0.N
theorem bnd2_arr (c : Dev nD) (w : Fin cfg0.W) :
    bnd2 m c (Proc.devRef .tc (Pipeline.arrRef spec0 w)) = (dat0 (ent0 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
abbrev ext0 : (c : Dev nD) → (b : Ref sig .tc) → Buf (Elt F) ((c : Thread nD τ).loc b) := fun c b => bnd2 m c b
theorem hF0 (c : Dev nD) (w : Fin cfg0.W) : (dat0 (ent0 m) c).arrAt w cfg0.N = ext0 m c (Pipeline.arrRef spec0 w) :=
  (bnd2_arr m c w).symm
theorem hrest0 (c : Dev nD) : ∀ b, b ∉ Finset.univ.image (Pipeline.arrRef spec0) → ext0 m c b = ent0 m c b :=
  fun b hb => bnd2_of_ne m c b fun w e => hb (Finset.mem_image.mpr ⟨w, Finset.mem_univ _, e⟩)
/-- The call changes no buffer but its output: an input array ends as it was, any other buffer is not touched. -/
theorem bnd2_keep (c : Dev nD) (b : Ref sig .tc) (hb : b ≠ main_v14) :
    bnd2 m c (Proc.devRef .tc b) = bnd1 m c (Proc.devRef .tc b) := by
  by_cases h : ∃ w, Pipeline.arrRef spec0 w = b
  · obtain ⟨w, rfl⟩ := h
    rw [bnd2_arr]
    match w, hb with
    | ⟨0, _⟩, _ => exact ((dat0 (ent0 m) c).arrAt_in 0 rfl _).trans (A_eq0 (ent0 m) c 0)
    | ⟨1, _⟩, _ => exact ((dat0 (ent0 m) c).arrAt_in 1 rfl _).trans (A_eq0 (ent0 m) c 1)
    | ⟨2, _⟩, _ => exact ((dat0 (ent0 m) c).arrAt_in 2 rfl _).trans (A_eq0 (ent0 m) c 2)
    | ⟨3, _⟩, _ => exact ((dat0 (ent0 m) c).arrAt_in 3 rfl _).trans (A_eq0 (ent0 m) c 3)
    | ⟨4, _⟩, _ => exact ((dat0 (ent0 m) c).arrAt_in 4 rfl _).trans (A_eq0 (ent0 m) c 4)
    | ⟨5, _⟩, _ => exact ((dat0 (ent0 m) c).arrAt_in 5 rfl _).trans (A_eq0 (ent0 m) c 5)
    | ⟨6, _⟩, hb => exact absurd rfl hb
  · exact bnd2_of_ne m c b fun w e => h ⟨w, e⟩

/-! ## Second stretch, second call (graph A, normalization 1; output `main_v53`) -/

abbrev bnd3 : Dev nD → Valuation τ sig (Elt F) := fun c => StableHlo.after hostOps1 (bnd2 m c)
abbrev ent1 : (c : Dev nD) → (b : Ref sig .tc) → Buf (Elt F) ((c : Thread nD τ).loc b) := fun c b => bnd3 m c b
def bnd4 (c : Dev nD) : Valuation τ sig (Elt F) :=
  Pipeline.withArrays spec1 c (bnd3 m c) fun w => (dat1 (ent1 m) c).arrAt w cfg1.N
theorem bnd4_arr (c : Dev nD) (w : Fin cfg1.W) :
    bnd4 m c (Proc.devRef .tc (Pipeline.arrRef spec1 w)) = (dat1 (ent1 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb
abbrev ext1 : (c : Dev nD) → (b : Ref sig .tc) → Buf (Elt F) ((c : Thread nD τ).loc b) := fun c b => bnd4 m c b
theorem hF1 (c : Dev nD) (w : Fin cfg1.W) : (dat1 (ent1 m) c).arrAt w cfg1.N = ext1 m c (Pipeline.arrRef spec1 w) :=
  (bnd4_arr m c w).symm
theorem hrest1 (c : Dev nD) : ∀ b, b ∉ Finset.univ.image (Pipeline.arrRef spec1) → ext1 m c b = ent1 m c b :=
  fun b hb => bnd4_of_ne m c b fun w e => hb (Finset.mem_image.mpr ⟨w, Finset.mem_univ _, e⟩)
theorem bnd4_keep (c : Dev nD) (b : Ref sig .tc) (hb : b ≠ main_v53) :
    bnd4 m c (Proc.devRef .tc b) = bnd3 m c (Proc.devRef .tc b) := by
  by_cases h : ∃ w, Pipeline.arrRef spec1 w = b
  · obtain ⟨w, rfl⟩ := h
    rw [bnd4_arr]
    match w, hb with
    | ⟨0, _⟩, _ => exact ((dat1 (ent1 m) c).arrAt_in 0 rfl _).trans (A_eq1 (ent1 m) c 0)
    | ⟨1, _⟩, _ => exact ((dat1 (ent1 m) c).arrAt_in 1 rfl _).trans (A_eq1 (ent1 m) c 1)
    | ⟨2, _⟩, _ => exact ((dat1 (ent1 m) c).arrAt_in 2 rfl _).trans (A_eq1 (ent1 m) c 2)
    | ⟨3, _⟩, _ => exact ((dat1 (ent1 m) c).arrAt_in 3 rfl _).trans (A_eq1 (ent1 m) c 3)
    | ⟨4, _⟩, _ => exact ((dat1 (ent1 m) c).arrAt_in 4 rfl _).trans (A_eq1 (ent1 m) c 4)
    | ⟨5, _⟩, hb => exact absurd rfl hb
  · exact bnd4_of_ne m c b fun w e => h ⟨w, e⟩

/-! ## Third stretch, third call (graph A, convolution 2; output `main_v64`) -/

abbrev bnd5 : Dev nD → Valuation τ sig (Elt F) := fun c => StableHlo.after hostOps2 (bnd4 m c)
abbrev ent2 : (c : Dev nD) → (b : Ref sig .tc) → Buf (Elt F) ((c : Thread nD τ).loc b) := fun c b => bnd5 m c b
def bnd6 (c : Dev nD) : Valuation τ sig (Elt F) :=
  Pipeline.withArrays spec2 c (bnd5 m c) fun w => (dat2 (ent2 m) c).arrAt w cfg2.N
theorem bnd6_arr (c : Dev nD) (w : Fin cfg2.W) :
    bnd6 m c (Proc.devRef .tc (Pipeline.arrRef spec2 w)) = (dat2 (ent2 m) c).arrAt w cfg2.N := by
  unfold bnd6; exact Pipeline.withArrays_arr spec2 launch2.win.arr_inj c _ _ w
theorem bnd6_of_ne (c : Dev nD) (b : Ref sig .tc) (hb : ∀ w, Pipeline.arrRef spec2 w ≠ b) :
    bnd6 m c (Proc.devRef .tc b) = bnd5 m c (Proc.devRef .tc b) := by
  unfold bnd6; exact Pipeline.withArrays_of_ne spec2 c _ _ b hb
abbrev ext2 : (c : Dev nD) → (b : Ref sig .tc) → Buf (Elt F) ((c : Thread nD τ).loc b) := fun c b => bnd6 m c b
theorem hF2 (c : Dev nD) (w : Fin cfg2.W) : (dat2 (ent2 m) c).arrAt w cfg2.N = ext2 m c (Pipeline.arrRef spec2 w) :=
  (bnd6_arr m c w).symm
theorem hrest2 (c : Dev nD) : ∀ b, b ∉ Finset.univ.image (Pipeline.arrRef spec2) → ext2 m c b = ent2 m c b :=
  fun b hb => bnd6_of_ne m c b fun w e => hb (Finset.mem_image.mpr ⟨w, Finset.mem_univ _, e⟩)
theorem bnd6_keep (c : Dev nD) (b : Ref sig .tc) (hb : b ≠ main_v64) :
    bnd6 m c (Proc.devRef .tc b) = bnd5 m c (Proc.devRef .tc b) := by
  by_cases h : ∃ w, Pipeline.arrRef spec2 w = b
  · obtain ⟨w, rfl⟩ := h
    rw [bnd6_arr]
    match w, hb with
    | ⟨0, _⟩, _ => exact ((dat2 (ent2 m) c).arrAt_in 0 rfl _).trans (A_eq2 (ent2 m) c 0)
    | ⟨1, _⟩, _ => exact ((dat2 (ent2 m) c).arrAt_in 1 rfl _).trans (A_eq2 (ent2 m) c 1)
    | ⟨2, _⟩, _ => exact ((dat2 (ent2 m) c).arrAt_in 2 rfl _).trans (A_eq2 (ent2 m) c 2)
    | ⟨3, _⟩, _ => exact ((dat2 (ent2 m) c).arrAt_in 3 rfl _).trans (A_eq2 (ent2 m) c 3)
    | ⟨4, _⟩, _ => exact ((dat2 (ent2 m) c).arrAt_in 4 rfl _).trans (A_eq2 (ent2 m) c 4)
    | ⟨5, _⟩, _ => exact ((dat2 (ent2 m) c).arrAt_in 5 rfl _).trans (A_eq2 (ent2 m) c 5)
    | ⟨6, _⟩, hb => exact absurd rfl hb
  · exact bnd6_of_ne m c b fun w e => h ⟨w, e⟩

/-! ## Fourth stretch, fourth call (graph A, normalization 2; output `main_v103`) -/

abbrev bnd7 : Dev nD → Valuation τ sig (Elt F) := fun c => StableHlo.after hostOps3 (bnd6 m c)
abbrev ent3 : (c : Dev nD) → (b : Ref sig .tc) → Buf (Elt F) ((c : Thread nD τ).loc b) := fun c b => bnd7 m c b
def bnd8 (c : Dev nD) : Valuation τ sig (Elt F) :=
  Pipeline.withArrays spec3 c (bnd7 m c) fun w => (dat3 (ent3 m) c).arrAt w cfg3.N
theorem bnd8_arr (c : Dev nD) (w : Fin cfg3.W) :
    bnd8 m c (Proc.devRef .tc (Pipeline.arrRef spec3 w)) = (dat3 (ent3 m) c).arrAt w cfg3.N := by
  unfold bnd8; exact Pipeline.withArrays_arr spec3 launch3.win.arr_inj c _ _ w
theorem bnd8_of_ne (c : Dev nD) (b : Ref sig .tc) (hb : ∀ w, Pipeline.arrRef spec3 w ≠ b) :
    bnd8 m c (Proc.devRef .tc b) = bnd7 m c (Proc.devRef .tc b) := by
  unfold bnd8; exact Pipeline.withArrays_of_ne spec3 c _ _ b hb
abbrev ext3 : (c : Dev nD) → (b : Ref sig .tc) → Buf (Elt F) ((c : Thread nD τ).loc b) := fun c b => bnd8 m c b
theorem hF3 (c : Dev nD) (w : Fin cfg3.W) : (dat3 (ent3 m) c).arrAt w cfg3.N = ext3 m c (Pipeline.arrRef spec3 w) :=
  (bnd8_arr m c w).symm
theorem hrest3 (c : Dev nD) : ∀ b, b ∉ Finset.univ.image (Pipeline.arrRef spec3) → ext3 m c b = ent3 m c b :=
  fun b hb => bnd8_of_ne m c b fun w e => hb (Finset.mem_image.mpr ⟨w, Finset.mem_univ _, e⟩)
theorem bnd8_keep (c : Dev nD) (b : Ref sig .tc) (hb : b ≠ main_v103) :
    bnd8 m c (Proc.devRef .tc b) = bnd7 m c (Proc.devRef .tc b) := by
  by_cases h : ∃ w, Pipeline.arrRef spec3 w = b
  · obtain ⟨w, rfl⟩ := h
    rw [bnd8_arr]
    match w, hb with
    | ⟨0, _⟩, _ => exact ((dat3 (ent3 m) c).arrAt_in 0 rfl _).trans (A_eq3 (ent3 m) c 0)
    | ⟨1, _⟩, _ => exact ((dat3 (ent3 m) c).arrAt_in 1 rfl _).trans (A_eq3 (ent3 m) c 1)
    | ⟨2, _⟩, _ => exact ((dat3 (ent3 m) c).arrAt_in 2 rfl _).trans (A_eq3 (ent3 m) c 2)
    | ⟨3, _⟩, _ => exact ((dat3 (ent3 m) c).arrAt_in 3 rfl _).trans (A_eq3 (ent3 m) c 3)
    | ⟨4, _⟩, _ => exact ((dat3 (ent3 m) c).arrAt_in 4 rfl _).trans (A_eq3 (ent3 m) c 4)
    | ⟨5, _⟩, hb => exact absurd rfl hb
  · exact bnd8_of_ne m c b fun w e => h ⟨w, e⟩

/-! ## Fifth stretch, fifth call (graph B, convolution 1; output `main_v131`) -/

abbrev bnd9 : Dev nD → Valuation τ sig (Elt F) := fun c => StableHlo.after hostOps4 (bnd8 m c)
abbrev ent4 : (c : Dev nD) → (b : Ref sig .tc) → Buf (Elt F) ((c : Thread nD τ).loc b) := fun c b => bnd9 m c b
def bnd10 (c : Dev nD) : Valuation τ sig (Elt F) :=
  Pipeline.withArrays spec4 c (bnd9 m c) fun w => (dat4 (ent4 m) c).arrAt w cfg4.N
theorem bnd10_arr (c : Dev nD) (w : Fin cfg4.W) :
    bnd10 m c (Proc.devRef .tc (Pipeline.arrRef spec4 w)) = (dat4 (ent4 m) c).arrAt w cfg4.N := by
  unfold bnd10; exact Pipeline.withArrays_arr spec4 launch4.win.arr_inj c _ _ w
theorem bnd10_of_ne (c : Dev nD) (b : Ref sig .tc) (hb : ∀ w, Pipeline.arrRef spec4 w ≠ b) :
    bnd10 m c (Proc.devRef .tc b) = bnd9 m c (Proc.devRef .tc b) := by
  unfold bnd10; exact Pipeline.withArrays_of_ne spec4 c _ _ b hb
abbrev ext4 : (c : Dev nD) → (b : Ref sig .tc) → Buf (Elt F) ((c : Thread nD τ).loc b) := fun c b => bnd10 m c b
theorem hF4 (c : Dev nD) (w : Fin cfg4.W) : (dat4 (ent4 m) c).arrAt w cfg4.N = ext4 m c (Pipeline.arrRef spec4 w) :=
  (bnd10_arr m c w).symm
theorem hrest4 (c : Dev nD) : ∀ b, b ∉ Finset.univ.image (Pipeline.arrRef spec4) → ext4 m c b = ent4 m c b :=
  fun b hb => bnd10_of_ne m c b fun w e => hb (Finset.mem_image.mpr ⟨w, Finset.mem_univ _, e⟩)
theorem bnd10_keep (c : Dev nD) (b : Ref sig .tc) (hb : b ≠ main_v131) :
    bnd10 m c (Proc.devRef .tc b) = bnd9 m c (Proc.devRef .tc b) := by
  by_cases h : ∃ w, Pipeline.arrRef spec4 w = b
  · obtain ⟨w, rfl⟩ := h
    rw [bnd10_arr]
    match w, hb with
    | ⟨0, _⟩, _ => exact ((dat4 (ent4 m) c).arrAt_in 0 rfl _).trans (A_eq4 (ent4 m) c 0)
    | ⟨1, _⟩, _ => exact ((dat4 (ent4 m) c).arrAt_in 1 rfl _).trans (A_eq4 (ent4 m) c 1)
    | ⟨2, _⟩, _ => exact ((dat4 (ent4 m) c).arrAt_in 2 rfl _).trans (A_eq4 (ent4 m) c 2)
    | ⟨3, _⟩, _ => exact ((dat4 (ent4 m) c).arrAt_in 3 rfl _).trans (A_eq4 (ent4 m) c 3)
    | ⟨4, _⟩, _ => exact ((dat4 (ent4 m) c).arrAt_in 4 rfl _).trans (A_eq4 (ent4 m) c 4)
    | ⟨5, _⟩, _ => exact ((dat4 (ent4 m) c).arrAt_in 5 rfl _).trans (A_eq4 (ent4 m) c 5)
    | ⟨6, _⟩, hb => exact absurd rfl hb
  · exact bnd10_of_ne m c b fun w e => h ⟨w, e⟩

/-! ## Sixth stretch, sixth call (graph B, normalization 1; output `main_v170`) -/

abbrev bnd11 : Dev nD → Valuation τ sig (Elt F) := fun c => StableHlo.after hostOps5 (bnd10 m c)
abbrev ent5 : (c : Dev nD) → (b : Ref sig .tc) → Buf (Elt F) ((c : Thread nD τ).loc b) := fun c b => bnd11 m c b
def bnd12 (c : Dev nD) : Valuation τ sig (Elt F) :=
  Pipeline.withArrays spec5 c (bnd11 m c) fun w => (dat5 (ent5 m) c).arrAt w cfg5.N
theorem bnd12_arr (c : Dev nD) (w : Fin cfg5.W) :
    bnd12 m c (Proc.devRef .tc (Pipeline.arrRef spec5 w)) = (dat5 (ent5 m) c).arrAt w cfg5.N := by
  unfold bnd12; exact Pipeline.withArrays_arr spec5 launch5.win.arr_inj c _ _ w
theorem bnd12_of_ne (c : Dev nD) (b : Ref sig .tc) (hb : ∀ w, Pipeline.arrRef spec5 w ≠ b) :
    bnd12 m c (Proc.devRef .tc b) = bnd11 m c (Proc.devRef .tc b) := by
  unfold bnd12; exact Pipeline.withArrays_of_ne spec5 c _ _ b hb
abbrev ext5 : (c : Dev nD) → (b : Ref sig .tc) → Buf (Elt F) ((c : Thread nD τ).loc b) := fun c b => bnd12 m c b
theorem hF5 (c : Dev nD) (w : Fin cfg5.W) : (dat5 (ent5 m) c).arrAt w cfg5.N = ext5 m c (Pipeline.arrRef spec5 w) :=
  (bnd12_arr m c w).symm
theorem hrest5 (c : Dev nD) : ∀ b, b ∉ Finset.univ.image (Pipeline.arrRef spec5) → ext5 m c b = ent5 m c b :=
  fun b hb => bnd12_of_ne m c b fun w e => hb (Finset.mem_image.mpr ⟨w, Finset.mem_univ _, e⟩)
theorem bnd12_keep (c : Dev nD) (b : Ref sig .tc) (hb : b ≠ main_v170) :
    bnd12 m c (Proc.devRef .tc b) = bnd11 m c (Proc.devRef .tc b) := by
  by_cases h : ∃ w, Pipeline.arrRef spec5 w = b
  · obtain ⟨w, rfl⟩ := h
    rw [bnd12_arr]
    match w, hb with
    | ⟨0, _⟩, _ => exact ((dat5 (ent5 m) c).arrAt_in 0 rfl _).trans (A_eq5 (ent5 m) c 0)
    | ⟨1, _⟩, _ => exact ((dat5 (ent5 m) c).arrAt_in 1 rfl _).trans (A_eq5 (ent5 m) c 1)
    | ⟨2, _⟩, _ => exact ((dat5 (ent5 m) c).arrAt_in 2 rfl _).trans (A_eq5 (ent5 m) c 2)
    | ⟨3, _⟩, _ => exact ((dat5 (ent5 m) c).arrAt_in 3 rfl _).trans (A_eq5 (ent5 m) c 3)
    | ⟨4, _⟩, _ => exact ((dat5 (ent5 m) c).arrAt_in 4 rfl _).trans (A_eq5 (ent5 m) c 4)
    | ⟨5, _⟩, hb => exact absurd rfl hb
  · exact bnd12_of_ne m c b fun w e => h ⟨w, e⟩

/-! ## Seventh stretch, seventh call (graph B, convolution 2; output `main_v181`) -/

abbrev bnd13 : Dev nD → Valuation τ sig (Elt F) := fun c => StableHlo.after hostOps6 (bnd12 m c)
abbrev ent6 : (c : Dev nD) → (b : Ref sig .tc) → Buf (Elt F) ((c : Thread nD τ).loc b) := fun c b => bnd13 m c b
def bnd14 (c : Dev nD) : Valuation τ sig (Elt F) :=
  Pipeline.withArrays spec6 c (bnd13 m c) fun w => (dat6 (ent6 m) c).arrAt w cfg6.N
theorem bnd14_arr (c : Dev nD) (w : Fin cfg6.W) :
    bnd14 m c (Proc.devRef .tc (Pipeline.arrRef spec6 w)) = (dat6 (ent6 m) c).arrAt w cfg6.N := by
  unfold bnd14; exact Pipeline.withArrays_arr spec6 launch6.win.arr_inj c _ _ w
theorem bnd14_of_ne (c : Dev nD) (b : Ref sig .tc) (hb : ∀ w, Pipeline.arrRef spec6 w ≠ b) :
    bnd14 m c (Proc.devRef .tc b) = bnd13 m c (Proc.devRef .tc b) := by
  unfold bnd14; exact Pipeline.withArrays_of_ne spec6 c _ _ b hb
abbrev ext6 : (c : Dev nD) → (b : Ref sig .tc) → Buf (Elt F) ((c : Thread nD τ).loc b) := fun c b => bnd14 m c b
theorem hF6 (c : Dev nD) (w : Fin cfg6.W) : (dat6 (ent6 m) c).arrAt w cfg6.N = ext6 m c (Pipeline.arrRef spec6 w) :=
  (bnd14_arr m c w).symm
theorem hrest6 (c : Dev nD) : ∀ b, b ∉ Finset.univ.image (Pipeline.arrRef spec6) → ext6 m c b = ent6 m c b :=
  fun b hb => bnd14_of_ne m c b fun w e => hb (Finset.mem_image.mpr ⟨w, Finset.mem_univ _, e⟩)
theorem bnd14_keep (c : Dev nD) (b : Ref sig .tc) (hb : b ≠ main_v181) :
    bnd14 m c (Proc.devRef .tc b) = bnd13 m c (Proc.devRef .tc b) := by
  by_cases h : ∃ w, Pipeline.arrRef spec6 w = b
  · obtain ⟨w, rfl⟩ := h
    rw [bnd14_arr]
    match w, hb with
    | ⟨0, _⟩, _ => exact ((dat6 (ent6 m) c).arrAt_in 0 rfl _).trans (A_eq6 (ent6 m) c 0)
    | ⟨1, _⟩, _ => exact ((dat6 (ent6 m) c).arrAt_in 1 rfl _).trans (A_eq6 (ent6 m) c 1)
    | ⟨2, _⟩, _ => exact ((dat6 (ent6 m) c).arrAt_in 2 rfl _).trans (A_eq6 (ent6 m) c 2)
    | ⟨3, _⟩, _ => exact ((dat6 (ent6 m) c).arrAt_in 3 rfl _).trans (A_eq6 (ent6 m) c 3)
    | ⟨4, _⟩, _ => exact ((dat6 (ent6 m) c).arrAt_in 4 rfl _).trans (A_eq6 (ent6 m) c 4)
    | ⟨5, _⟩, _ => exact ((dat6 (ent6 m) c).arrAt_in 5 rfl _).trans (A_eq6 (ent6 m) c 5)
    | ⟨6, _⟩, hb => exact absurd rfl hb
  · exact bnd14_of_ne m c b fun w e => h ⟨w, e⟩

/-! ## Eighth stretch, eighth call (graph B, normalization 2; output `main_v220`) -/

abbrev bnd15 : Dev nD → Valuation τ sig (Elt F) := fun c => StableHlo.after hostOps7 (bnd14 m c)
abbrev ent7 : (c : Dev nD) → (b : Ref sig .tc) → Buf (Elt F) ((c : Thread nD τ).loc b) := fun c b => bnd15 m c b
def bnd16 (c : Dev nD) : Valuation τ sig (Elt F) :=
  Pipeline.withArrays spec7 c (bnd15 m c) fun w => (dat7 (ent7 m) c).arrAt w cfg7.N
theorem bnd16_arr (c : Dev nD) (w : Fin cfg7.W) :
    bnd16 m c (Proc.devRef .tc (Pipeline.arrRef spec7 w)) = (dat7 (ent7 m) c).arrAt w cfg7.N := by
  unfold bnd16; exact Pipeline.withArrays_arr spec7 launch7.win.arr_inj c _ _ w
theorem bnd16_of_ne (c : Dev nD) (b : Ref sig .tc) (hb : ∀ w, Pipeline.arrRef spec7 w ≠ b) :
    bnd16 m c (Proc.devRef .tc b) = bnd15 m c (Proc.devRef .tc b) := by
  unfold bnd16; exact Pipeline.withArrays_of_ne spec7 c _ _ b hb
abbrev ext7 : (c : Dev nD) → (b : Ref sig .tc) → Buf (Elt F) ((c : Thread nD τ).loc b) := fun c b => bnd16 m c b
theorem hF7 (c : Dev nD) (w : Fin cfg7.W) : (dat7 (ent7 m) c).arrAt w cfg7.N = ext7 m c (Pipeline.arrRef spec7 w) :=
  (bnd16_arr m c w).symm
theorem hrest7 (c : Dev nD) : ∀ b, b ∉ Finset.univ.image (Pipeline.arrRef spec7) → ext7 m c b = ent7 m c b :=
  fun b hb => bnd16_of_ne m c b fun w e => hb (Finset.mem_image.mpr ⟨w, Finset.mem_univ _, e⟩)
theorem bnd16_keep (c : Dev nD) (b : Ref sig .tc) (hb : b ≠ main_v220) :
    bnd16 m c (Proc.devRef .tc b) = bnd15 m c (Proc.devRef .tc b) := by
  by_cases h : ∃ w, Pipeline.arrRef spec7 w = b
  · obtain ⟨w, rfl⟩ := h
    rw [bnd16_arr]
    match w, hb with
    | ⟨0, _⟩, _ => exact ((dat7 (ent7 m) c).arrAt_in 0 rfl _).trans (A_eq7 (ent7 m) c 0)
    | ⟨1, _⟩, _ => exact ((dat7 (ent7 m) c).arrAt_in 1 rfl _).trans (A_eq7 (ent7 m) c 1)
    | ⟨2, _⟩, _ => exact ((dat7 (ent7 m) c).arrAt_in 2 rfl _).trans (A_eq7 (ent7 m) c 2)
    | ⟨3, _⟩, _ => exact ((dat7 (ent7 m) c).arrAt_in 3 rfl _).trans (A_eq7 (ent7 m) c 3)
    | ⟨4, _⟩, _ => exact ((dat7 (ent7 m) c).arrAt_in 4 rfl _).trans (A_eq7 (ent7 m) c 4)
    | ⟨5, _⟩, hb => exact absurd rfl hb
  · exact bnd16_of_ne m c b fun w e => h ⟨w, e⟩

/-! ## Ninth stretch, ninth call (the head; output `main_v235`, the program's result) -/

abbrev bnd17 : Dev nD → Valuation τ sig (Elt F) := fun c => StableHlo.after hostOps8 (bnd16 m c)
abbrev ent8 : (c : Dev nD) → (b : Ref sig .tc) → Buf (Elt F) ((c : Thread nD τ).loc b) := fun c b => bnd17 m c b
def bnd18 (c : Dev nD) : Valuation τ sig (Elt F) :=
  Pipeline.withArrays spec8 c (bnd17 m c) fun w => (dat8 (ent8 m) c).arrAt w cfg8.N
theorem bnd18_arr (c : Dev nD) (w : Fin cfg8.W) :
    bnd18 m c (Proc.devRef .tc (Pipeline.arrRef spec8 w)) = (dat8 (ent8 m) c).arrAt w cfg8.N := by
  unfold bnd18; exact Pipeline.withArrays_arr spec8 launch8.win.arr_inj c _ _ w
theorem bnd18_of_ne (c : Dev nD) (b : Ref sig .tc) (hb : ∀ w, Pipeline.arrRef spec8 w ≠ b) :
    bnd18 m c (Proc.devRef .tc b) = bnd17 m c (Proc.devRef .tc b) := by
  unfold bnd18; exact Pipeline.withArrays_of_ne spec8 c _ _ b hb
abbrev ext8 : (c : Dev nD) → (b : Ref sig .tc) → Buf (Elt F) ((c : Thread nD τ).loc b) := fun c b => bnd18 m c b
theorem hF8 (c : Dev nD) (w : Fin cfg8.W) : (dat8 (ent8 m) c).arrAt w cfg8.N = ext8 m c (Pipeline.arrRef spec8 w) :=
  (bnd18_arr m c w).symm
theorem hrest8 (c : Dev nD) : ∀ b, b ∉ Finset.univ.image (Pipeline.arrRef spec8) → ext8 m c b = ent8 m c b :=
  fun b hb => bnd18_of_ne m c b fun w e => hb (Finset.mem_image.mpr ⟨w, Finset.mem_univ _, e⟩)
theorem bnd18_keep (c : Dev nD) (b : Ref sig .tc) (hb : b ≠ main_v235) :
    bnd18 m c (Proc.devRef .tc b) = bnd17 m c (Proc.devRef .tc b) := by
  by_cases h : ∃ w, Pipeline.arrRef spec8 w = b
  · obtain ⟨w, rfl⟩ := h
    rw [bnd18_arr]
    match w, hb with
    | ⟨0, _⟩, _ => exact ((dat8 (ent8 m) c).arrAt_in 0 rfl _).trans (A_eq8 (ent8 m) c 0)
    | ⟨1, _⟩, _ => exact ((dat8 (ent8 m) c).arrAt_in 1 rfl _).trans (A_eq8 (ent8 m) c 1)
    | ⟨2, _⟩, _ => exact ((dat8 (ent8 m) c).arrAt_in 2 rfl _).trans (A_eq8 (ent8 m) c 2)
    | ⟨3, _⟩, _ => exact ((dat8 (ent8 m) c).arrAt_in 3 rfl _).trans (A_eq8 (ent8 m) c 3)
    | ⟨4, _⟩, _ => exact ((dat8 (ent8 m) c).arrAt_in 4 rfl _).trans (A_eq8 (ent8 m) c 4)
    | ⟨5, _⟩, _ => exact ((dat8 (ent8 m) c).arrAt_in 5 rfl _).trans (A_eq8 (ent8 m) c 5)
    | ⟨6, _⟩, _ => exact ((dat8 (ent8 m) c).arrAt_in 6 rfl _).trans (A_eq8 (ent8 m) c 6)
    | ⟨7, _⟩, hb => exact absurd rfl hb
  · exact bnd18_of_ne m c b fun w e => h ⟨w, e⟩

/-! ## Every pipeline's proof data, each at its call's entry contents -/

def pdats : (p : Fin 9) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
  | ⟨7, _⟩ => fun c => dat7 (ent7 m) c
  | ⟨8, _⟩ => fun c => dat8 (ent8 m) c

/-! ## A buffer nothing writes -/

/-- A buffer that no stretch of host operations writes and that is no call's output holds at the end what it held at
    launch: eighteen steps back, a stretch by its list of written buffers, a call by `bndJ_keep`. -/
theorem bnd18_unwritten (c : Dev nD) (r : Ref sig .tc)
    (h0 : r ∉ hostOps0_W) (k0 : r ≠ main_v14) (h1 : r ∉ hostOps1_W) (k1 : r ≠ main_v53)
    (h2 : r ∉ hostOps2_W) (k2 : r ≠ main_v64) (h3 : r ∉ hostOps3_W) (k3 : r ≠ main_v103)
    (h4 : r ∉ hostOps4_W) (k4 : r ≠ main_v131) (h5 : r ∉ hostOps5_W) (k5 : r ≠ main_v170)
    (h6 : r ∉ hostOps6_W) (k6 : r ≠ main_v181) (h7 : r ∉ hostOps7_W) (k7 : r ≠ main_v220)
    (h8 : r ∉ hostOps8_W) (k8 : r ≠ main_v235) :
    bnd18 m c (Proc.devRef .tc r) = m ((c : Thread nD τ).loc r) :=
  (bnd18_keep m c r k8).trans <| (StableHlo.after_of_writes_sub hostOps8 _ hostOps8_writes h8).trans <|
  (bnd16_keep m c r k7).trans <| (StableHlo.after_of_writes_sub hostOps7 _ hostOps7_writes h7).trans <|
  (bnd14_keep m c r k6).trans <| (StableHlo.after_of_writes_sub hostOps6 _ hostOps6_writes h6).trans <|
  (bnd12_keep m c r k5).trans <| (StableHlo.after_of_writes_sub hostOps5 _ hostOps5_writes h5).trans <|
  (bnd10_keep m c r k4).trans <| (StableHlo.after_of_writes_sub hostOps4 _ hostOps4_writes h4).trans <|
  (bnd8_keep m c r k3).trans <| (StableHlo.after_of_writes_sub hostOps3 _ hostOps3_writes h3).trans <|
  (bnd6_keep m c r k2).trans <| (StableHlo.after_of_writes_sub hostOps2 _ hostOps2_writes h2).trans <|
  (bnd4_keep m c r k1).trans <| (StableHlo.after_of_writes_sub hostOps1 _ hostOps1_writes h1).trans <|
  (bnd2_keep m c r k0).trans <| (StableHlo.after_of_writes_sub hostOps0 _ hostOps0_writes h0).trans rfl

end Cert.KernelIdeal.Hand

end
-- ==== Proof.KI.Thread.lean ====
/-
  What rides beside a core's buffers from one item of the program to the next: its generator register at some state
  and the core owing nothing. A stretch of host operations as a segment from given buffer contents; the last thread
  state; membership of an unscoped buffer among those a thread state holds.
-/
import proofs.«167438_j18270790877246_1_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev vars0 : Variants := Variants.none
/-- No core owes another anything: no level is assigned. -/
abbrev pairs0 : GSem nD τ sig → Finset Unit := fun _ => ∅
abbrev lvl0 : GSem nD τ sig → Unit → ℕ := fun _ _ => 0

/-- The generator register at some state and nothing owed. -/
abbrev rest (c : Dev nD) : sProp 𝕄 :=
  iprop((∃ r, prngReg c r) ∗ ∃ W, owes (c : Thread nD τ) (0 : CellTallies nD τ sig Unit) W)

/-- A stretch of host operations as a segment: from every unscoped buffer at `W c` to every unscoped buffer at the
    operations' result over `W c`, `rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars0 pairs0 lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

omit [FloatOps F] in
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the dues: every unscoped buffer at the last boundary's contents, the generator
    register at some state. -/
abbrev lastState (c : Dev nD) : sProp 𝕄 :=
  iprop(StableHlo.held (c : Thread nD τ) (Pipeline.ucRefs τ sig) (bnd18 m c) ∗ ∃ r, prngReg c r)

end Cert.KernelIdeal.Hand

end
-- ==== Proof.KI.SegsA.lean ====
/-
  Graph A's four pallas_calls as segments of the program: each is entered from every unscoped buffer at the contents
  before it and left with every unscoped buffer at the contents after it. At entry the call's arrays are split out of
  the unscoped buffers (the rest bypasses the call); the generator register goes into the class's invariant and comes
  back; nothing is owed; the call has no semaphore of its own. At exit the arrays, at what the pipeline leaves, are
  put back beside the rest.
-/
import proofs.«167438_j18270790877246_1_alg».proof.Proof.KI.Thread

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The first call (graph A, convolution 1): from `bnd1` to `bnd2`. -/
def reg0 : Pipeline.RegionSeg (pcfgs (F := F)) adm (pdats m) () defs₀ vars0 pairs0 lvl0 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ pairs0 lvl0 0 fun _ _ => rfl
  pre c := iprop(StableHlo.held (c : Thread nD τ) (Pipeline.ucRefs τ sig) (bnd1 m c) ∗ rest c)
  post c := iprop(StableHlo.held (c : Thread nD τ) (Pipeline.ucRefs τ sig) (bnd2 m c) ∗ rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call (graph A, normalization 1): from `bnd3` to `bnd4`. -/
def reg1 : Pipeline.RegionSeg (pcfgs (F := F)) adm (pdats m) () defs₀ vars0 pairs0 lvl0 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ pairs0 lvl0 1 fun _ _ => rfl
  pre c := iprop(StableHlo.held (c : Thread nD τ) (Pipeline.ucRefs τ sig) (bnd3 m c) ∗ rest c)
  post c := iprop(StableHlo.held (c : Thread nD τ) (Pipeline.ucRefs τ sig) (bnd4 m c) ∗ rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call (graph A, convolution 2): from `bnd5` to `bnd6`. -/
def reg2 : Pipeline.RegionSeg (pcfgs (F := F)) adm (pdats m) () defs₀ vars0 pairs0 lvl0 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ pairs0 lvl0 2 fun _ _ => rfl
  pre c := iprop(StableHlo.held (c : Thread nD τ) (Pipeline.ucRefs τ sig) (bnd5 m c) ∗ rest c)
  post c := iprop(StableHlo.held (c : Thread nD τ) (Pipeline.ucRefs τ sig) (bnd6 m c) ∗ rest c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (ext2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fourth call (graph A, normalization 2): from `bnd7` to `bnd8`. -/
def reg3 : Pipeline.RegionSeg (pcfgs (F := F)) adm (pdats m) () defs₀ vars0 pairs0 lvl0 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ pairs0 lvl0 3 fun _ _ => rfl
  pre c := iprop(StableHlo.held (c : Thread nD τ) (Pipeline.ucRefs τ sig) (bnd7 m c) ∗ rest c)
  post c := iprop(StableHlo.held (c : Thread nD τ) (Pipeline.ucRefs τ sig) (bnd8 m c) ∗ rest c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (ent3 m c) (ext3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.SegsB.lean ====
/-
  Graph B's four pallas_calls as segments of the program: each is entered from every unscoped buffer at the contents
  before it and left with every unscoped buffer at the contents after it. At entry the call's arrays are split out of
  the unscoped buffers (the rest bypasses the call); the generator register goes into the class's invariant and comes
  back; nothing is owed; the call has no semaphore of its own. At exit the arrays, at what the pipeline leaves, are
  put back beside the rest.
-/
import proofs.«167438_j18270790877246_1_alg».proof.Proof.KI.Thread

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The fifth call (graph B, convolution 1): from `bnd9` to `bnd10`. -/
def reg4 : Pipeline.RegionSeg (pcfgs (F := F)) adm (pdats m) () defs₀ vars0 pairs0 lvl0 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ pairs0 lvl0 4 fun _ _ => rfl
  pre c := iprop(StableHlo.held (c : Thread nD τ) (Pipeline.ucRefs τ sig) (bnd9 m c) ∗ rest c)
  post c := iprop(StableHlo.held (c : Thread nD τ) (Pipeline.ucRefs τ sig) (bnd10 m c) ∗ rest c)
  X c := iprop(∃ r, prngReg c r)
  Y c := iprop(∃ r, prngReg c r)
  Z c := Pipeline.unscopedRest (Ix := Unit) (Name := ℕ) (U := UR sig nD τ) (Lvl := ℕ) spec4 c (ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (ent4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (ent4 m c) (ext4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The sixth call (graph B, normalization 1): from `bnd11` to `bnd12`. -/
def reg5 : Pipeline.RegionSeg (pcfgs (F := F)) adm (pdats m) () defs₀ vars0 pairs0 lvl0 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ pairs0 lvl0 5 fun _ _ => rfl
  pre c := iprop(StableHlo.held (c : Thread nD τ) (Pipeline.ucRefs τ sig) (bnd11 m c) ∗ rest c)
  post c := iprop(StableHlo.held (c : Thread nD τ) (Pipeline.ucRefs τ sig) (bnd12 m c) ∗ rest c)
  X c := iprop(∃ r, prngReg c r)
  Y c := iprop(∃ r, prngReg c r)
  Z c := Pipeline.unscopedRest (Ix := Unit) (Name := ℕ) (U := UR sig nD τ) (Lvl := ℕ) spec5 c (ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (ent5 m c) (ext5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The seventh call (graph B, convolution 2): from `bnd13` to `bnd14`. -/
def reg6 : Pipeline.RegionSeg (pcfgs (F := F)) adm (pdats m) () defs₀ vars0 pairs0 lvl0 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ pairs0 lvl0 6 fun _ _ => rfl
  pre c := iprop(StableHlo.held (c : Thread nD τ) (Pipeline.ucRefs τ sig) (bnd13 m c) ∗ rest c)
  post c := iprop(StableHlo.held (c : Thread nD τ) (Pipeline.ucRefs τ sig) (bnd14 m c) ∗ rest c)
  X c := iprop(∃ r, prngReg c r)
  Y c := iprop(∃ r, prngReg c r)
  Z c := Pipeline.unscopedRest (Ix := Unit) (Name := ℕ) (U := UR sig nD τ) (Lvl := ℕ) spec6 c (ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (ent6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (ent6 m c) (ext6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The eighth call (graph B, normalization 2): from `bnd15` to `bnd16`. -/
def reg7 : Pipeline.RegionSeg (pcfgs (F := F)) adm (pdats m) () defs₀ vars0 pairs0 lvl0 7 where
  win := launch7.win.to₀
  block_pos := launch7.block_pos
  stage_whole := launch7.stage_whole
  K := PEmpty
  osem k := k.elim
  ho := Pipeline.OwnSemFacts.none _
  hbody c := (body_obligation7 (ent7 m) c).loose
  hwaits := Pipeline.hwaits_of_owed_zero _ _ _ _ pairs0 lvl0 7 fun _ _ => rfl
  pre c := iprop(StableHlo.held (c : Thread nD τ) (Pipeline.ucRefs τ sig) (bnd15 m c) ∗ rest c)
  post c := iprop(StableHlo.held (c : Thread nD τ) (Pipeline.ucRefs τ sig) (bnd16 m c) ∗ rest c)
  X c := iprop(∃ r, prngReg c r)
  Y c := iprop(∃ r, prngReg c r)
  Z c := Pipeline.unscopedRest (Ix := Unit) (Name := ℕ) (U := UR sig nD τ) (Lvl := ℕ) spec7 c (ent7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (ent7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (ent7 m c) (ext7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.SegHead.lean ====
/-
  The head's pallas_call as the last segment of the program: entered from every unscoped buffer at the contents after
  the last stretch of host operations, left at the last thread state — every unscoped buffer at the final contents
  (the call's output holding the program's result), the generator register at some state — beside the core owing
  nothing.
-/
import proofs.«167438_j18270790877246_1_alg».proof.Proof.KI.Thread

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The ninth call (the head): from `bnd17` to `bnd18`. -/
def reg8 : Pipeline.RegionSeg (pcfgs (F := F)) adm (pdats m) () defs₀ vars0 pairs0 lvl0 8 where
  win := launch8.win.to₀
  block_pos := launch8.block_pos
  stage_whole := launch8.stage_whole
  K := PEmpty
  osem k := k.elim
  ho := Pipeline.OwnSemFacts.none _
  hbody c := (body_obligation8 (ent8 m) c).loose
  hwaits := Pipeline.hwaits_of_owed_zero _ _ _ _ pairs0 lvl0 8 fun _ _ => rfl
  pre c := iprop(StableHlo.held (c : Thread nD τ) (Pipeline.ucRefs τ sig) (bnd17 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (ent8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (ent8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (ent8 m c) (ext8 m c) ((pdats m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
/-
  The program's run. @main is eighteen items in a row: nine stretches of host operations alternating with the nine
  pallas_calls. Launched on any memory with zero counters, every weakly fair execution terminates, and in every final
  state each unscoped buffer of a core holds the last boundary's contents `bnd18`: the launch makes the first thread
  state on every core, each item's exit state is the next item's entry state, and the last thread state is read
  against the final memory. A buffer nothing writes is then read back at its launch contents (`unwritten_end`): the frame.
-/
import proofs.«167438_j18270790877246_1_alg».proof.Proof.KI.SegsA
import proofs.«167438_j18270790877246_1_alg».proof.Proof.KI.SegsB
import proofs.«167438_j18270790877246_1_alg».proof.Proof.KI.SegHead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- @main's eighteen items in order. -/
abbrev items : List (Pipeline.Seg (pcfgs (F := F)) adm (pdats m) () defs₀ vars0 pairs0 lvl0) :=
  [ .host (hseg hostOps0 hostOps0_sub hostOps0_fresh (bnd0 m)), .region (reg0 m),
    .host (hseg hostOps1 hostOps1_sub hostOps1_fresh (bnd2 m)), .region (reg1 m),
    .host (hseg hostOps2 hostOps2_sub hostOps2_fresh (bnd4 m)), .region (reg2 m),
    .host (hseg hostOps3 hostOps3_sub hostOps3_fresh (bnd6 m)), .region (reg3 m),
    .host (hseg hostOps4 hostOps4_sub hostOps4_fresh (bnd8 m)), .region (reg4 m),
    .host (hseg hostOps5 hostOps5_sub hostOps5_fresh (bnd10 m)), .region (reg5 m),
    .host (hseg hostOps6 hostOps6_sub hostOps6_fresh (bnd12 m)), .region (reg6 m),
    .host (hseg hostOps7 hostOps7_sub hostOps7_fresh (bnd14 m)), .region (reg7 m),
    .host (hseg hostOps8 hostOps8_sub hostOps8_fresh (bnd16 m)), .region (reg8 m) ]

set_option backward.isDefEq.respectTransparency.types false in
/-- Every weakly fair execution of @main from memory `m` with zero counters terminates, and every final memory holds,
    on every core, each unscoped buffer at `bnd18`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = bnd18 m c b) :=
  Pipeline.θ_run_regions_kit_dev (pcfgs (F := F)) adm (pdats m) () cellOf_inj emb₁ defs₀ vars0 pairs0 lvl0 m ρ main
    (fun _ => items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ rest c)) (Tₙ := lastState m)
    (hch := fun c => ⟨.rfl, .rfl, .rfl, .rfl, .rfl, .rfl, .rfl, .rfl, .rfl, .rfl, .rfl, .rfl, .rfl, .rfl, .rfl, .rfl, .rfl, .rfl, .rfl⟩)
    (hinit := by
      refine Pipeline.initEach pairs0 lvl0 fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd18 m c b)
    (hfin := fun c s' => by
      iintro ⟨⟨Hh, -⟩, HSI⟩
      unfold StableHlo.held
      imodintro
      iapply (pointsTo_read_all (Pipeline.ucRefs τ sig) (fun b => (((c : Thread nD τ)).1, b)) (bnd18 m c) s')
      isplitl [Hh] <;> iassumption)
    (hQ := fun s h c => h c)

/-- A final memory that holds every unscoped buffer at `bnd18` holds a never-written buffer at its launch contents. -/
theorem unwritten_end (c : Dev nD) (s : MemSt nD τ sig (Elt F))
    (h : ∀ b ∈ Pipeline.ucRefs τ sig, s.mem (((c : Thread nD τ)).1, b) = bnd18 m c b) (r : Ref sig .tc)
    (hu : ¬ (Proc.devRef .tc r : DevRef τ sig).isScoped)
    (h0 : r ∉ hostOps0_W) (k0 : r ≠ main_v14) (h1 : r ∉ hostOps1_W) (k1 : r ≠ main_v53)
    (h2 : r ∉ hostOps2_W) (k2 : r ≠ main_v64) (h3 : r ∉ hostOps3_W) (k3 : r ≠ main_v103)
    (h4 : r ∉ hostOps4_W) (k4 : r ≠ main_v131) (h5 : r ∉ hostOps5_W) (k5 : r ≠ main_v170)
    (h6 : r ∉ hostOps6_W) (k6 : r ≠ main_v181) (h7 : r ∉ hostOps7_W) (k7 : r ≠ main_v220)
    (h8 : r ∉ hostOps8_W) (k8 : r ≠ main_v235) :
    s.mem ((c.tc : Thread nD τ).loc r) = m ((c.tc : Thread nD τ).loc r) :=
  (h _ (mem_uc r hu)).trans (bnd18_unwritten m c r h0 k0 h1 k1 h2 k2 h3 k3 h4 k4 h5 k5 h6 k6 h7 k7 h8 k8)

end Cert.KernelIdeal.Hand

end
-- ==== Proof.Frames.lean ====
/-
  The two kernel programs' frames. Each program's run ends with every unscoped buffer at the last boundary's contents;
  an argument array is written by no stretch of host operations and is no pallas_call's output, so it is read back at
  its launch contents. The same statement and proof at the word-level instance and at the extended reals.
-/
import proofs.«167438_j18270790877246_1_alg».proof.Defs
import proofs.«167438_j18270790877246_1_alg».proof.Proof.Gen.Kernel
import proofs.«167438_j18270790877246_1_alg».proof.Proof.Gen.KernelIdeal
import proofs.«167438_j18270790877246_1_alg».proof.Proof.Gen.Pre_finite_inputs
import proofs.«167438_j18270790877246_1_alg».proof.Proof.K.Run
import proofs.«167438_j18270790877246_1_alg».proof.Proof.KI.Run

set_option maxRecDepth 16384

noncomputable section

namespace Cert.Proof.Frames

open Idealize.ShloMosaic Idealize.ShloMosaic.TcCoe Idealize.SL.Sem

/-- The word-level program terminates from any memory with zero counters and leaves its 26 argument arrays as launched. -/
theorem frame_k : Cert.frame_Kernel := fun m ρ _ =>
  (θ_run Cert.Kernel.defs _ _).mono (fun r h c => by
    repeat' apply And.intro
    all_goals exact Cert.Kernel.Hand.unwritten_end m c r.2 (h c) _ (by decide) (by decide) (by decide) (by decide) (by decide) (by decide) (by decide) (by decide) (by decide) (by decide) (by decide) (by decide) (by decide) (by decide) (by decide) (by decide) (by decide) (by decide) (by decide))
    (Cert.Kernel.Hand.run_all m ρ)

/-- The idealized program terminates from any memory with zero counters and leaves its 26 argument arrays as launched. -/
theorem frame_ki : Cert.frame_KernelIdeal := fun m ρ _ =>
  (θ_run Cert.KernelIdeal.defs _ _).mono (fun r h c => by
    repeat' apply And.intro
    all_goals exact Cert.KernelIdeal.Hand.unwritten_end m c r.2 (h c) _ (by decide) (by decide) (by decide) (by decide) (by decide) (by decide) (by decide) (by decide) (by decide) (by decide) (by decide) (by decide) (by decide) (by decide) (by decide) (by decide) (by decide) (by decide) (by decide))
    (Cert.KernelIdeal.Hand.run_all m ρ)

/-- The idealization pass rewrote nothing: there is nothing to preserve. -/
theorem preserves : Cert.preserves_Kernel_KernelIdeal := trivial

end Cert.Proof.Frames

end
-- ==== Proof.RefFrame.lean ====
/-
  The reference's frame: its run, read back operation by operation, terminates from any memory and leaves the argument
  arrays as launched; the frame is that run with the result's value dropped.
-/
import proofs.«167438_j18270790877246_1_alg».proof.Defs
import proofs.«167438_j18270790877246_1_alg».proof.Proof.Gen.ReferenceIdeal
import proofs.«167438_j18270790877246_1_alg».proof.Proof.Gen.Pre_finite_inputs
import proofs.«167438_j18270790877246_1_alg».proof.Proof.Gen.ReferenceIdeal.Run

noncomputable section

namespace Cert.Proof.RefFrame

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.KI.Walk.lean ====
/-
  A buffer that nothing has written so far still holds its launch contents: at each of the boundaries 1 ... 17, from the
  stretches' lists of written buffers and the calls' outputs passed so far. (Boundary 18 is in the boundaries' module.)
-/
import proofs.«167438_j18270790877246_1_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) (r : Ref sig .tc)

theorem bnd1_unw (h0 : r ∉ hostOps0_W) : bnd1 m c (Proc.devRef .tc r) = m ((c : Thread nD τ).loc r) :=
  (StableHlo.after_of_writes_sub hostOps0 _ hostOps0_writes h0).trans rfl
theorem bnd2_unw (h0 : r ∉ hostOps0_W) (k0 : r ≠ main_v14) : bnd2 m c (Proc.devRef .tc r) = m ((c : Thread nD τ).loc r) :=
  (bnd2_keep m c r k0).trans (bnd1_unw m c r h0)
theorem bnd3_unw (h0 : r ∉ hostOps0_W) (k0 : r ≠ main_v14) (h1 : r ∉ hostOps1_W) :
    bnd3 m c (Proc.devRef .tc r) = m ((c : Thread nD τ).loc r) :=
  (StableHlo.after_of_writes_sub hostOps1 _ hostOps1_writes h1).trans (bnd2_unw m c r h0 k0)
theorem bnd4_unw (h0 : r ∉ hostOps0_W) (k0 : r ≠ main_v14) (h1 : r ∉ hostOps1_W) (k1 : r ≠ main_v53) :
    bnd4 m c (Proc.devRef .tc r) = m ((c : Thread nD τ).loc r) :=
  (bnd4_keep m c r k1).trans (bnd3_unw m c r h0 k0 h1)
theorem bnd5_unw (h0 : r ∉ hostOps0_W) (k0 : r ≠ main_v14) (h1 : r ∉ hostOps1_W) (k1 : r ≠ main_v53) (h2 : r ∉ hostOps2_W) :
    bnd5 m c (Proc.devRef .tc r) = m ((c : Thread nD τ).loc r) :=
  (StableHlo.after_of_writes_sub hostOps2 _ hostOps2_writes h2).trans (bnd4_unw m c r h0 k0 h1 k1)
theorem bnd6_unw (h0 : r ∉ hostOps0_W) (k0 : r ≠ main_v14) (h1 : r ∉ hostOps1_W) (k1 : r ≠ main_v53) (h2 : r ∉ hostOps2_W)
    (k2 : r ≠ main_v64) : bnd6 m c (Proc.devRef .tc r) = m ((c : Thread nD τ).loc r) :=
  (bnd6_keep m c r k2).trans (bnd5_unw m c r h0 k0 h1 k1 h2)
theorem bnd7_unw (h0 : r ∉ hostOps0_W) (k0 : r ≠ main_v14) (h1 : r ∉ hostOps1_W) (k1 : r ≠ main_v53) (h2 : r ∉ hostOps2_W)
    (k2 : r ≠ main_v64) (h3 : r ∉ hostOps3_W) : bnd7 m c (Proc.devRef .tc r) = m ((c : Thread nD τ).loc r) :=
  (StableHlo.after_of_writes_sub hostOps3 _ hostOps3_writes h3).trans (bnd6_unw m c r h0 k0 h1 k1 h2 k2)
theorem bnd8_unw (h0 : r ∉ hostOps0_W) (k0 : r ≠ main_v14) (h1 : r ∉ hostOps1_W) (k1 : r ≠ main_v53) (h2 : r ∉ hostOps2_W)
    (k2 : r ≠ main_v64) (h3 : r ∉ hostOps3_W) (k3 : r ≠ main_v103) : bnd8 m c (Proc.devRef .tc r) = m ((c : Thread nD τ).loc r) :=
  (bnd8_keep m c r k3).trans (bnd7_unw m c r h0 k0 h1 k1 h2 k2 h3)
theorem bnd9_unw (h0 : r ∉ hostOps0_W) (k0 : r ≠ main_v14) (h1 : r ∉ hostOps1_W) (k1 : r ≠ main_v53) (h2 : r ∉ hostOps2_W)
    (k2 : r ≠ main_v64) (h3 : r ∉ hostOps3_W) (k3 : r ≠ main_v103) (h4 : r ∉ hostOps4_W) :
    bnd9 m c (Proc.devRef .tc r) = m ((c : Thread nD τ).loc r) :=
  (StableHlo.after_of_writes_sub hostOps4 _ hostOps4_writes h4).trans (bnd8_unw m c r h0 k0 h1 k1 h2 k2 h3 k3)
theorem bnd10_unw (h0 : r ∉ hostOps0_W) (k0 : r ≠ main_v14) (h1 : r ∉ hostOps1_W) (k1 : r ≠ main_v53) (h2 : r ∉ hostOps2_W)
    (k2 : r ≠ main_v64) (h3 : r ∉ hostOps3_W) (k3 : r ≠ main_v103) (h4 : r ∉ hostOps4_W) (k4 : r ≠ main_v131) :
    bnd10 m c (Proc.devRef .tc r) = m ((c : Thread nD τ).loc r) :=
  (bnd10_keep m c r k4).trans (bnd9_unw m c r h0 k0 h1 k1 h2 k2 h3 k3 h4)
theorem bnd11_unw (h0 : r ∉ hostOps0_W) (k0 : r ≠ main_v14) (h1 : r ∉ hostOps1_W) (k1 : r ≠ main_v53) (h2 : r ∉ hostOps2_W)
    (k2 : r ≠ main_v64) (h3 : r ∉ hostOps3_W) (k3 : r ≠ main_v103) (h4 : r ∉ hostOps4_W) (k4 : r ≠ main_v131)
    (h5 : r ∉ hostOps5_W) : bnd11 m c (Proc.devRef .tc r) = m ((c : Thread nD τ).loc r) :=
  (StableHlo.after_of_writes_sub hostOps5 _ hostOps5_writes h5).trans (bnd10_unw m c r h0 k0 h1 k1 h2 k2 h3 k3 h4 k4)
theorem bnd12_unw (h0 : r ∉ hostOps0_W) (k0 : r ≠ main_v14) (h1 : r ∉ hostOps1_W) (k1 : r ≠ main_v53) (h2 : r ∉ hostOps2_W)
    (k2 : r ≠ main_v64) (h3 : r ∉ hostOps3_W) (k3 : r ≠ main_v103) (h4 : r ∉ hostOps4_W) (k4 : r ≠ main_v131)
    (h5 : r ∉ hostOps5_W) (k5 : r ≠ main_v170) : bnd12 m c (Proc.devRef .tc r) = m ((c : Thread nD τ).loc r) :=
  (bnd12_keep m c r k5).trans (bnd11_unw m c r h0 k0 h1 k1 h2 k2 h3 k3 h4 k4 h5)
theorem bnd13_unw (h0 : r ∉ hostOps0_W) (k0 : r ≠ main_v14) (h1 : r ∉ hostOps1_W) (k1 : r ≠ main_v53) (h2 : r ∉ hostOps2_W)
    (k2 : r ≠ main_v64) (h3 : r ∉ hostOps3_W) (k3 : r ≠ main_v103) (h4 : r ∉ hostOps4_W) (k4 : r ≠ main_v131)
    (h5 : r ∉ hostOps5_W) (k5 : r ≠ main_v170) (h6 : r ∉ hostOps6_W) :
    bnd13 m c (Proc.devRef .tc r) = m ((c : Thread nD τ).loc r) :=
  (StableHlo.after_of_writes_sub hostOps6 _ hostOps6_writes h6).trans (bnd12_unw m c r h0 k0 h1 k1 h2 k2 h3 k3 h4 k4 h5 k5)
theorem bnd14_unw (h0 : r ∉ hostOps0_W) (k0 : r ≠ main_v14) (h1 : r ∉ hostOps1_W) (k1 : r ≠ main_v53) (h2 : r ∉ hostOps2_W)
    (k2 : r ≠ main_v64) (h3 : r ∉ hostOps3_W) (k3 : r ≠ main_v103) (h4 : r ∉ hostOps4_W) (k4 : r ≠ main_v131)
    (h5 : r ∉ hostOps5_W) (k5 : r ≠ main_v170) (h6 : r ∉ hostOps6_W) (k6 : r ≠ main_v181) :
    bnd14 m c (Proc.devRef .tc r) = m ((c : Thread nD τ).loc r) :=
  (bnd14_keep m c r k6).trans (bnd13_unw m c r h0 k0 h1 k1 h2 k2 h3 k3 h4 k4 h5 k5 h6)
theorem bnd15_unw (h0 : r ∉ hostOps0_W) (k0 : r ≠ main_v14) (h1 : r ∉ hostOps1_W) (k1 : r ≠ main_v53) (h2 : r ∉ hostOps2_W)
    (k2 : r ≠ main_v64) (h3 : r ∉ hostOps3_W) (k3 : r ≠ main_v103) (h4 : r ∉ hostOps4_W) (k4 : r ≠ main_v131)
    (h5 : r ∉ hostOps5_W) (k5 : r ≠ main_v170) (h6 : r ∉ hostOps6_W) (k6 : r ≠ main_v181) (h7 : r ∉ hostOps7_W) :
    bnd15 m c (Proc.devRef .tc r) = m ((c : Thread nD τ).loc r) :=
  (StableHlo.after_of_writes_sub hostOps7 _ hostOps7_writes h7).trans (bnd14_unw m c r h0 k0 h1 k1 h2 k2 h3 k3 h4 k4 h5 k5 h6 k6)
theorem bnd16_unw (h0 : r ∉ hostOps0_W) (k0 : r ≠ main_v14) (h1 : r ∉ hostOps1_W) (k1 : r ≠ main_v53) (h2 : r ∉ hostOps2_W)
    (k2 : r ≠ main_v64) (h3 : r ∉ hostOps3_W) (k3 : r ≠ main_v103) (h4 : r ∉ hostOps4_W) (k4 : r ≠ main_v131)
    (h5 : r ∉ hostOps5_W) (k5 : r ≠ main_v170) (h6 : r ∉ hostOps6_W) (k6 : r ≠ main_v181) (h7 : r ∉ hostOps7_W)
    (k7 : r ≠ main_v220) : bnd16 m c (Proc.devRef .tc r) = m ((c : Thread nD τ).loc r) :=
  (bnd16_keep m c r k7).trans (bnd15_unw m c r h0 k0 h1 k1 h2 k2 h3 k3 h4 k4 h5 k5 h6 k6 h7)
theorem bnd17_unw (h0 : r ∉ hostOps0_W) (k0 : r ≠ main_v14) (h1 : r ∉ hostOps1_W) (k1 : r ≠ main_v53) (h2 : r ∉ hostOps2_W)
    (k2 : r ≠ main_v64) (h3 : r ∉ hostOps3_W) (k3 : r ≠ main_v103) (h4 : r ∉ hostOps4_W) (k4 : r ≠ main_v131)
    (h5 : r ∉ hostOps5_W) (k5 : r ≠ main_v170) (h6 : r ∉ hostOps6_W) (k6 : r ≠ main_v181) (h7 : r ∉ hostOps7_W)
    (k7 : r ≠ main_v220) (h8 : r ∉ hostOps8_W) : bnd17 m c (Proc.devRef .tc r) = m ((c : Thread nD τ).loc r) :=
  (StableHlo.after_of_writes_sub hostOps8 _ hostOps8_writes h8).trans (bnd16_unw m c r h0 k0 h1 k1 h2 k2 h3 k3 h4 k4 h5 k5 h6 k6 h7 k7)

end Cert.KernelIdeal.Hand

end
-- ==== Proof.Spec.lean ====
/-
  One output entry of each layer of the network, as a formula on the extended reals (the two programs' arithmetic read
  exactly: sums, products, max, the reciprocal square root).

  * A convolution layer's perceptron, at node row r and output channel q, from the row x_r + agg_r of width K:
        ( sum_k  max( (sum_j (x_r j + agg_r j) * W_a(j,k)) + b_a k , 0 ) * W_b(k,q) ) + b_b q.
  * A normalization layer followed by the rectifier, at one entry h with the node's graph mean and variance:
        max( (((h - mean) * rsqrt(var + eps)) * scale) + shift , 0 ).
  * The head's three dense layers, at graph row g (its one output channel), from the row c_g of width 138.
  The zero and eps are the programs' f32 literals, kept as literals (the same word on both sides is never evaluated).
-/
import Idealize.ShloMosaic.PureOps.Ideal.Laws
import Idealize.ShloMosaic.Lib.ValueIdx

noncomputable section

open scoped BigOperators

namespace Cert.Spec

open Idealize.ShloMosaic Idealize.ShloMosaic.ValueIdx

/-- The f32 zero word at the extended reals. -/
abbrev zero32 : Ideal .f32 := Ideal.ofBits .f32 0x00000000#32
/-- The normalization's eps, the f32 literal nearest 1e-5, at the extended reals. -/
abbrev eps32 : Ideal .f32 := Ideal.ofBits .f32 0x3727C5AC#32

/-- One entry of a convolution layer's two-layer perceptron. -/
def convEntry {K : Nat} (xr ar : Fin K → Ideal .f32) (wa : FVec Ideal ⟨2, ![K, 64]⟩ .f32) (ba : FVec Ideal ⟨1, ![64]⟩ .f32)
    (wb : FVec Ideal ⟨2, ![64, 64]⟩ .f32) (bb : FVec Ideal ⟨1, ![64]⟩ .f32) (q : Fin 64) : Ideal .f32 :=
  (∑ k : Fin 64, max ((∑ j : Fin K, (xr j + ar j) * wa (ix2 j k)) + ba (ix1 k)) zero32 * wb (ix2 k q)) + bb (ix1 q)

/-- One entry of a normalization layer followed by the rectifier. -/
def normEntry (h mean var scale shift : Ideal .f32) : Ideal .f32 :=
  max ((((h - mean) * Ideal.rsqrt (var + eps32)) * scale) + shift) zero32

/-- One entry of the head: three dense layers on a row of width 138. -/
def headEntry (cr : Fin 138 → Ideal .f32) (w1 : FVec Ideal ⟨2, ![138, 128]⟩ .f32) (b1 : FVec Ideal ⟨1, ![128]⟩ .f32)
    (w2 : FVec Ideal ⟨2, ![128, 64]⟩ .f32) (b2 : FVec Ideal ⟨1, ![64]⟩ .f32)
    (w3 : FVec Ideal ⟨2, ![64, 1]⟩ .f32) (b3 : FVec Ideal ⟨1, ![1]⟩ .f32) (q : Fin 1) : Ideal .f32 :=
  (∑ k2 : Fin 64, max ((∑ k1 : Fin 128, max ((∑ j : Fin 138, cr j * w1 (ix2 j k1)) + b1 (ix1 k1)) zero32 * w2 (ix2 k1 k2)) + b2 (ix1 k2)) zero32
      * w3 (ix2 k2 q)) + b3 (ix1 q)

/-! ## The layers on whole arrays -/

/-- A two-dimensional array from its entries. -/
def ofEntries {n0 n1 : Nat} (g : Fin n0 → Fin n1 → Ideal .f32) : FVec Ideal ⟨2, ![n0, n1]⟩ .f32 :=
  fun i => g ⟨(i 0).val, idx2_lt0 i⟩ ⟨(i 1).val, idx2_lt1 i⟩

theorem ofEntries_ix2 {n0 n1 : Nat} (g : Fin n0 → Fin n1 → Ideal .f32) (a : Fin n0) (b : Fin n1) :
    ofEntries g (ix2 a b) = g a b := rfl

/-- A convolution layer's perceptron on all N node rows: entry (P, q) from row P of the features and of the neighbour sums. -/
def convArr {N K : Nat} (X A : FVec Ideal ⟨2, ![N, K]⟩ .f32) (wa : FVec Ideal ⟨2, ![K, 64]⟩ .f32) (ba : FVec Ideal ⟨1, ![64]⟩ .f32)
    (wb : FVec Ideal ⟨2, ![64, 64]⟩ .f32) (bb : FVec Ideal ⟨1, ![64]⟩ .f32) : FVec Ideal ⟨2, ![N, 64]⟩ .f32 :=
  ofEntries fun P q => convEntry (fun j => X (ix2 P j)) (fun j => A (ix2 P j)) wa ba wb bb q

/-- A normalization layer and the rectifier on all N node rows, from the per-node mean and variance columns. -/
def normArr {N : Nat} (H : FVec Ideal ⟨2, ![N, 64]⟩ .f32) (M Vr : FVec Ideal ⟨2, ![N, 1]⟩ .f32)
    (scale shift : FVec Ideal ⟨1, ![64]⟩ .f32) : FVec Ideal ⟨2, ![N, 64]⟩ .f32 :=
  ofEntries fun P q => normEntry (H (ix2 P q)) (M (ix2 P (0 : Fin 1))) (Vr (ix2 P (0 : Fin 1))) (scale (ix1 q)) (shift (ix1 q))

/-- The head on all 1024 graph rows. -/
def headArr (C : FVec Ideal ⟨2, ![1024, 138]⟩ .f32) (w1 : FVec Ideal ⟨2, ![138, 128]⟩ .f32) (b1 : FVec Ideal ⟨1, ![128]⟩ .f32)
    (w2 : FVec Ideal ⟨2, ![128, 64]⟩ .f32) (b2 : FVec Ideal ⟨1, ![64]⟩ .f32)
    (w3 : FVec Ideal ⟨2, ![64, 1]⟩ .f32) (b3 : FVec Ideal ⟨1, ![1]⟩ .f32) : FVec Ideal ⟨2, ![1024, 1]⟩ .f32 :=
  ofEntries fun g q => headEntry (fun j => C (ix2 g j)) w1 b1 w2 b2 w3 b3 q

end Cert.Spec

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.RefLayers.lean ====
/-
  The reference's layers as functions of arrays, in its own host operations, and what each is, entry by entry.

  * Shared chains, applied by both programs to the same inputs and never opened: the neighbour sums of a feature array over
    an edge list (a gather of the source rows scattered and added onto the target rows), the per-graph node count and the
    normalization's divisor, the per-graph mean of an array's entries, a per-graph vector read back at every node.
  * A convolution layer's perceptron on all rows: two host matrix products, each a sum over the contracted axis; the
    biases repeated over the rows; the rectifier. Entry by entry it is the perceptron's entry formula.
  * A normalization layer: the centred features times the per-node reciprocal square root of (variance + eps), scaled,
    shifted, rectified. The reference takes the reciprocal square root per GRAPH and then reads it back per node; reading
    a per-graph vector back per node commutes with any entrywise function, so per node it is the reciprocal square root
    of (the node's variance + eps), and entry by entry the layer is the normalization's entry formula on the per-node
    mean and variance columns.
  * The head's three dense layers on all graph rows, entry by entry the head's entry formula.
  * The whole network as one function of the 26 argument arrays.
-/
import proofs.«167438_j18270790877246_1_alg».proof.ReferenceIdeal
import proofs.«167438_j18270790877246_1_alg».proof.Proof.Gen.ReferenceIdeal
import proofs.«167438_j18270790877246_1_alg».proof.Proof.Spec
import proofs.«167438_j18270790877246_1_alg».proof.Proof.LibRowOps
import proofs.«167438_j18270790877246_1_alg».proof.Proof.LibBcast
import proofs.«167438_j18270790877246_1_alg».proof.Proof.LibGraphOps

set_option maxRecDepth 16384

noncomputable section

open scoped BigOperators

namespace Cert.ReferenceIdeal.Layers

open Cert.ReferenceIdeal Cert.ReferenceIdeal.Facts₀ Cert.ReferenceIdeal.Facts Cert.Spec
open Idealize.ShloMosaic Idealize.ShloMosaic.ValueIdx

abbrev FB (s : Shape) := FVec Ideal s .f32
abbrev IB (s : Shape) := IVec s 32

/-! ## Shared chains -/

/-- The source-node column of an edge list, wrapped into range as the host indexes. -/
def srcRaw (ei : IB S2x3200000) : IB S3200000 :=
  shapeCast _ (extractStridedSlice S1x3200000 ![0, 0] ei slices_S2x3200000_S1x3200000_0_0) shapeCasts_S1x3200000_S3200000
def dstRaw (ei : IB S2x3200000) : IB S3200000 :=
  shapeCast _ (extractStridedSlice S1x3200000 ![1, 0] ei slices_S2x3200000_S1x3200000_1_0) shapeCasts_S1x3200000_S3200000
/-- A source-node column as the column of start indices the host gathers at (wrapped into range). -/
def idxOf (s : IB S3200000) : IB S3200000x1 :=
  broadcastInDim S3200000x1 ![0] bcast_S3200000_S3200000x1_0 (select (cmpi .slt s (broadcastInDim S3200000 ![] bcast_S_S3200000 (constantI S_ 32 0#32))) (addi s (broadcastInDim S3200000 ![] bcast_S_S3200000 (constantI S_ 32 100000#32))) s)
/-- A target-node column as the column of indices the host scatters at. -/
def colOf (d : IB S3200000) : IB S3200000x1 :=
  broadcastInDim S3200000x1 ![0] bcast_S3200000_S3200000x1_0 d

/-- The neighbour sums of a 6-wide feature array, from the edge list's two columns. -/
def agg6r (x : FB S100000x6) (s d : IB S3200000) : FB S100000x6 :=
  Host.scatterAdd scatter_S100000x6_S3200000x1_S3200000x6_1_0_0_1 (broadcastInDim S100000x6 ![] bcast_S_S100000x6 (constant S_ .f32 0x00000000#32)) (colOf d) (Host.gather gather_S100000x6_S3200000x1_S3200000x6_1_0_n_n_0_1_16 x (idxOf s))
/-- The neighbour sums of a 64-wide feature array, from the edge list's two columns. -/
def agg64r (x : FB S100000x64) (s d : IB S3200000) : FB S100000x64 :=
  Host.scatterAdd scatter_S100000x64_S3200000x1_S3200000x64_1_0_0_1 (broadcastInDim S100000x64 ![] bcast_S_S100000x64 (constant S_ .f32 0x00000000#32)) (colOf d) (Host.gather gather_S100000x64_S3200000x1_S3200000x64_1_0_n_n_0_1_164 x (idxOf s))
def agg6 (x : FB S100000x6) (ei : IB S2x3200000) : FB S100000x6 := agg6r x (srcRaw ei) (dstRaw ei)
def agg64 (x : FB S100000x64) (ei : IB S2x3200000) : FB S100000x64 := agg64r x (srcRaw ei) (dstRaw ei)

def batchCol (b : IB S100000) : IB S100000x1 := broadcastInDim S100000x1 ![0] bcast_S100000_S100000x1_0 b
def batchIdx (b : IB S100000) : IB S100000x1 :=
  broadcastInDim S100000x1 ![0] bcast_S100000_S100000x1_0 (select (cmpi .slt b (broadcastInDim S100000 ![] bcast_S_S100000 (constantI S_ 32 0#32))) (addi b (broadcastInDim S100000 ![] bcast_S_S100000 (constantI S_ 32 1024#32))) b)
/-- The node count of each graph, at least one. -/
def cnt (b : IB S100000) : FB S1024 :=
  maximumf (Host.scatterAdd scatter_S1024_S100000x1_S100000_n_0_0_1 (broadcastInDim S1024 ![] bcast_S_S1024 (constant S_ .f32 0x00000000#32)) (batchCol b) (broadcastInDim S100000 ![] bcast_S_S100000 (constant S_ .f32 0x3F800000#32))) (broadcastInDim S1024 ![] bcast_S_S1024 (constant S_ .f32 0x3F800000#32))
/-- The normalization's divisor: the node count times the 64 channels. -/
def normDiv (b : IB S100000) : FB S1024 := mulf (cnt b) (broadcastInDim S1024 ![] bcast_S_S1024 (constant S_ .f32 0x42800000#32))
/-- The per-graph mean of an array's entries. -/
def segMean (y : FB S100000x64) (b : IB S100000) : FB S1024 :=
  Host.divf (Host.reduceAdd (Host.scatterAdd scatter_S1024x64_S100000x1_S100000x64_1_0_0_1 (broadcastInDim S1024x64 ![] bcast_S_S1024x64 (constant S_ .f32 0x00000000#32)) (batchCol b) y) (constant S_ .f32 0x00000000#32) reducesTo_S1024x64_S1024_d1 h_S_) (normDiv b)
/-- A per-graph vector read back at every node. -/
def nodeOf (g : FB S1024) (b : IB S100000) : FB S100000 := Host.gather gather_S1024_S100000x1_S100000_n_0_n_n_0_1_1 g (batchIdx b)
/-- A per-node vector repeated over the 64 channels. -/
def colChans (v : FB S100000) : FB S100000x64 :=
  broadcastInDim S100000x64 ![0, 1] bcast_S100000x1_S100000x64_0_1 (broadcastInDim S100000x1 ![0] bcast_S100000_S100000x1_0 v)
/-- A per-channel vector repeated over the node rows. -/
def chanRows (v : FB S64) : FB S100000x64 :=
  broadcastInDim S100000x64 ![0, 1] bcast_S1x64_S100000x64_0_1 (broadcastInDim S1x64 ![1] bcast_S64_S1x64_1 v)
def zeros64 : FB S100000x64 := broadcastInDim S100000x64 ![] bcast_S_S100000x64 (constant S_ .f32 0x00000000#32)
/-- The features less their graph's mean. -/
def centered (h : FB S100000x64) (b : IB S100000) : FB S100000x64 := subf h (colChans (nodeOf (segMean h b) b))
/-- The per-graph variance. -/
def segVar (h : FB S100000x64) (b : IB S100000) : FB S1024 := segMean (mulf (centered h b) (centered h b)) b

/-! ## The layers -/

def hostConv6 (x a : FB S100000x6) (wa : FB S6x64) (ba : FB S64) (wb : FB S64x64) (bb : FB S64) : FB S100000x64 :=
  addf (Host.dotGeneral dot_S100000x64_S64x64_S100000x64_1_0_0_1_n_n none (maximumf (addf (Host.dotGeneral dot_S100000x6_S6x64_S100000x64_1_0_0_1_n_n none (addf x a) wa) (chanRows ba)) zeros64) wb) (chanRows bb)
def hostConv64 (x a : FB S100000x64) (wa : FB S64x64) (ba : FB S64) (wb : FB S64x64) (bb : FB S64) : FB S100000x64 :=
  addf (Host.dotGeneral dot_S100000x64_S64x64_S100000x64_1_0_0_1_n_n none (maximumf (addf (Host.dotGeneral dot_S100000x64_S64x64_S100000x64_1_0_0_1_n_n none (addf x a) wa) (chanRows ba)) zeros64) wb) (chanRows bb)
def hostNorm (h : FB S100000x64) (b : IB S100000) (w s : FB S64) : FB S100000x64 :=
  maximumf (addf (mulf (mulf (centered h b) (colChans (nodeOf (Host.rsqrt (addf (segVar h b) (broadcastInDim S1024 ![] bcast_S_S1024 (constant S_ .f32 0x3727C5AC#32)))) b))) (chanRows w)) (chanRows s)) zeros64
/-- A graph's pooled embedding: the sum of its nodes' features plus their mean. -/
def pooled (x : FB S100000x64) (b : IB S100000) : FB S1024x64 :=
  Host.scatterAdd scatter_S1024x64_S100000x1_S100000x64_1_0_0_1 (broadcastInDim S1024x64 ![] bcast_S_S1024x64 (constant S_ .f32 0x00000000#32)) (batchCol b) x
def embOf (x : FB S100000x64) (b : IB S100000) : FB S1024x64 :=
  addf (pooled x b) (Host.divf (pooled x b) (broadcastInDim S1024x64 ![0, 1] bcast_S1024x1_S1024x64_0_1 (broadcastInDim S1024x1 ![0] bcast_S1024_S1024x1_0 (cnt b))))
def combined (e1 e2 : FB S1024x64) (d1 d2 : FB S1024x5) : FB S1024x138 :=
  concatenate S1024x138 1 [⟨S1024x64, e1⟩, ⟨S1024x64, e2⟩, ⟨S1024x5, d1⟩, ⟨S1024x5, d2⟩] concatenates_S1024x64_S1024x64_S1024x5_S1024x5_S1024x138_d1
def hostHead (cmb : FB S1024x138) (w1 : FB S138x128) (b1 : FB S128) (w2 : FB S128x64) (b2 : FB S64) (w3 : FB S64x1) (b3 : FB S1) : FB S1024x1 :=
  addf (Host.dotGeneral dot_S1024x64_S64x1_S1024x1_1_0_0_1_n_n none (maximumf (addf (Host.dotGeneral dot_S1024x128_S128x64_S1024x64_1_0_0_1_n_n none (maximumf (addf (Host.dotGeneral dot_S1024x138_S138x128_S1024x128_1_0_0_1_n_n none cmb w1) (broadcastInDim S1024x128 ![0, 1] bcast_S1x128_S1024x128_0_1 (broadcastInDim S1x128 ![1] bcast_S128_S1x128_1 b1))) (broadcastInDim S1024x128 ![] bcast_S_S1024x128 (constant S_ .f32 0x00000000#32))) w2) (broadcastInDim S1024x64 ![0, 1] bcast_S1x64_S1024x64_0_1 (broadcastInDim S1x64 ![1] bcast_S64_S1x64_1 b2))) (broadcastInDim S1024x64 ![] bcast_S_S1024x64 (constant S_ .f32 0x00000000#32))) w3) (broadcastInDim S1024x1 ![0, 1] bcast_S1x1_S1024x1_0_1 (broadcastInDim S1x1 ![1] bcast_S1_S1x1_1 b3))

/-- One graph's backbone: two convolution + normalization layers, then the pooling. -/
def backbone (x : FB S100000x6) (ei : IB S2x3200000) (b : IB S100000) (w11 : FB S6x64) (b11 : FB S64) (w12 : FB S64x64) (b12 g1 s1 : FB S64)
    (w21 : FB S64x64) (b21 : FB S64) (w22 : FB S64x64) (b22 g2 s2 : FB S64) : FB S1024x64 :=
  embOf (hostNorm (hostConv64 (hostNorm (hostConv6 x (agg6 x ei) w11 b11 w12 b12) b g1 s1)
    (agg64 (hostNorm (hostConv6 x (agg6 x ei) w11 b11 w12 b12) b g1 s1) ei) w21 b21 w22 b22) b g2 s2) b

/-- The whole network, of the 26 argument arrays. -/
def netOf (x1 : FB S100000x6) (ei1 : IB S2x3200000) (b1 : IB S100000) (x2 : FB S100000x6) (ei2 : IB S2x3200000) (b2 : IB S100000)
    (d1 d2 : FB S1024x5) (w11 : FB S6x64) (b11 : FB S64) (w12 : FB S64x64) (b12 g1 s1 : FB S64)
    (w21 : FB S64x64) (b21 : FB S64) (w22 : FB S64x64) (b22 g2 s2 : FB S64)
    (f1w : FB S138x128) (f1b : FB S128) (f2w : FB S128x64) (f2b : FB S64) (ow : FB S64x1) (ob : FB S1) : FB S1024x1 :=
  hostHead (combined (backbone x1 ei1 b1 w11 b11 w12 b12 g1 s1 w21 b21 w22 b22 g2 s2)
    (backbone x2 ei2 b2 w11 b11 w12 b12 g1 s1 w21 b21 w22 b22 g2 s2) d1 d2) f1w f1b f2w f2b ow ob

/-! ## Entry by entry -/

theorem chanRows_apply (v : FB S64) (P : Fin 100000) (k : Fin 64) : chanRows v (ix2 P k) = v (ix1 k) :=
  (Cert.LibBcast.bcastRow_apply _ bcast_S1x64_S100000x64_0_1 P k).trans (Cert.LibBcast.bcastVecRow_apply v bcast_S64_S1x64_1 0 k)

theorem colChans_apply (v : FB S100000) (P : Fin 100000) (q : Fin 64) : colChans v (ix2 P q) = v (ix1 P) :=
  (Cert.LibBcast.bcastCol_apply _ bcast_S100000x1_S100000x64_0_1 P q).trans (Cert.LibBcast.bcastVecCol_apply v bcast_S100000_S100000x1_0 P 0)

theorem zeros64_apply (i : S100000x64.Idx) : zeros64 i = zero32 :=
  Cert.LibBcast.bcastScalar_apply _ bcast_S_S100000x64 i

theorem dg6_apply (l : FB S100000x6) (r : FB S6x64) (P : Fin 100000) (k : Fin 64) :
    Host.dotGeneral (F := Ideal) dot_S100000x6_S6x64_S100000x64_1_0_0_1_n_n none l r (ix2 P k) = ∑ j : Fin 6, l (ix2 P j) * r (ix2 j k) :=
  Cert.LibRowOps.dotGeneral_ix2 dot_S100000x6_S6x64_S100000x64_1_0_0_1_n_n rfl rfl rfl rfl
    (fun i c => by
      unfold DotDims.lhsIdx
      rw [dif_neg (show ¬(0 : Fin _) ∈ dot_S100000x6_S6x64_S100000x64_1_0_0_1_n_n.lhsBatch by decide),
        dif_pos (show (0 : Fin _) ∈ dot_S100000x6_S6x64_S100000x64_1_0_0_1_n_n.lhsNonContracting by decide)]
      rfl)
    (fun i c => by
      unfold DotDims.rhsIdx
      rw [dif_neg (show ¬(1 : Fin _) ∈ dot_S100000x6_S6x64_S100000x64_1_0_0_1_n_n.rhsBatch by decide),
        dif_pos (show (1 : Fin _) ∈ dot_S100000x6_S6x64_S100000x64_1_0_0_1_n_n.rhsNonContracting by decide)]
      rfl)
    none l r P k

theorem dg64_apply (l : FB S100000x64) (r : FB S64x64) (P : Fin 100000) (q : Fin 64) :
    Host.dotGeneral (F := Ideal) dot_S100000x64_S64x64_S100000x64_1_0_0_1_n_n none l r (ix2 P q) = ∑ k : Fin 64, l (ix2 P k) * r (ix2 k q) :=
  Cert.LibRowOps.dotGeneral_ix2 dot_S100000x64_S64x64_S100000x64_1_0_0_1_n_n rfl rfl rfl rfl
    (fun i c => by
      unfold DotDims.lhsIdx
      rw [dif_neg (show ¬(0 : Fin _) ∈ dot_S100000x64_S64x64_S100000x64_1_0_0_1_n_n.lhsBatch by decide),
        dif_pos (show (0 : Fin _) ∈ dot_S100000x64_S64x64_S100000x64_1_0_0_1_n_n.lhsNonContracting by decide)]
      rfl)
    (fun i c => by
      unfold DotDims.rhsIdx
      rw [dif_neg (show ¬(1 : Fin _) ∈ dot_S100000x64_S64x64_S100000x64_1_0_0_1_n_n.rhsBatch by decide),
        dif_pos (show (1 : Fin _) ∈ dot_S100000x64_S64x64_S100000x64_1_0_0_1_n_n.rhsNonContracting by decide)]
      rfl)
    none l r P q

/-- The 6-wide convolution layer is, entry by entry, the perceptron's entry formula. -/
theorem hostConv6_eq (x a : FB S100000x6) (wa : FB S6x64) (ba : FB S64) (wb : FB S64x64) (bb : FB S64) :
    hostConv6 x a wa ba wb bb = convArr (N := 100000) (K := 6) x a wa ba wb bb := by
  funext i
  obtain ⟨P, q, rfl⟩ : ∃ (P : Fin 100000) (q : Fin 64), i = ix2 P q := ⟨i 0, i 1, eq_ix2 i⟩
  unfold hostConv6 convArr
  rw [ofEntries_ix2]
  unfold convEntry
  rw [addf_apply, dg64_apply, chanRows_apply]
  refine congrArg (· + bb (ix1 q)) (Finset.sum_congr rfl fun k _ => ?_)
  rw [maximumf_apply, addf_apply, dg6_apply, chanRows_apply, zeros64_apply]
  refine congrArg (fun z => max (z + ba (ix1 k)) _ * wb (ix2 k q)) (Finset.sum_congr rfl fun j _ => ?_)
  rw [addf_apply]

/-- The 64-wide convolution layer is, entry by entry, the perceptron's entry formula. -/
theorem hostConv64_eq (x a : FB S100000x64) (wa : FB S64x64) (ba : FB S64) (wb : FB S64x64) (bb : FB S64) :
    hostConv64 x a wa ba wb bb = convArr (N := 100000) (K := 64) x a wa ba wb bb := by
  funext i
  obtain ⟨P, q, rfl⟩ : ∃ (P : Fin 100000) (q : Fin 64), i = ix2 P q := ⟨i 0, i 1, eq_ix2 i⟩
  unfold hostConv64 convArr
  rw [ofEntries_ix2]
  unfold convEntry
  rw [addf_apply, dg64_apply, chanRows_apply]
  refine congrArg (· + bb (ix1 q)) (Finset.sum_congr rfl fun k _ => ?_)
  rw [maximumf_apply, addf_apply, dg64_apply, chanRows_apply, zeros64_apply]
  refine congrArg (fun z => max (z + ba (ix1 k)) _ * wb (ix2 k q)) (Finset.sum_congr rfl fun j _ => ?_)
  rw [addf_apply]

/-- A per-graph vector read back at node P is the vector at the node's graph index read in range. -/
theorem nodeOf_apply (g : FB S1024) (b : IB S100000) (P : Fin 100000) :
    nodeOf g b (ix1 P) = g (ix1 (Cert.LibGraph.clampIdx 1024 (by decide) (batchIdx b (ix2 P (0 : Fin 1))))) :=
  Cert.LibGraph.gatherVec_apply (by decide) gather_S1024_S100000x1_S100000_n_0_n_n_0_1_1_wf g (batchIdx b) P

/-- The host's reciprocal square root of (a per-graph vector + eps), at one graph. -/
theorem rsqrtEps_apply (G : FB S1024) (k : S1024.Idx) :
    Host.rsqrt (F := Ideal) (addf G (broadcastInDim S1024 ![] bcast_S_S1024 (constant S_ .f32 0x3727C5AC#32))) k
      = Ideal.rsqrt (G k + eps32) := by
  unfold Host.rsqrt
  simp only [addf_apply, Ideal.hostUnary_rsqrt_def]
  rw [Cert.LibBcast.bcastScalar_apply (constant (F := Ideal) S_ .f32 0x3727C5AC#32) bcast_S_S1024 k]
  rfl

/-- The normalization layer, entry by entry, on the per-node mean and variance as columns: reading a per-graph vector back
    per node commutes with the reciprocal square root of (· + eps). -/
theorem hostNorm_eq (h : FB S100000x64) (b : IB S100000) (w s : FB S64)
    (hsc : (⟨1, ![100000]⟩ : Shape).ShapeCasts ⟨2, ![100000, 1]⟩) :
    normArr (N := 100000) h (shapeCast ⟨2, ![100000, 1]⟩ (nodeOf (segMean h b) b) hsc)
        (shapeCast ⟨2, ![100000, 1]⟩ (nodeOf (segVar h b) b) hsc) w s
      = hostNorm h b w s := by
  funext i
  obtain ⟨P, q, rfl⟩ : ∃ (P : Fin 100000) (q : Fin 64), i = ix2 P q := ⟨i 0, i 1, eq_ix2 i⟩
  unfold normArr hostNorm
  rw [ofEntries_ix2]
  unfold normEntry centered
  rw [Cert.LibRowOps.shapeCast_a_a1_apply, Cert.LibRowOps.shapeCast_a_a1_apply,
    maximumf_apply, addf_apply, mulf_apply, mulf_apply, subf_apply, colChans_apply, colChans_apply, chanRows_apply, chanRows_apply,
    zeros64_apply, nodeOf_apply (Host.rsqrt _) b P, nodeOf_apply (segVar h b) b P]
  rw [rsqrtEps_apply]

/-! ## The head -/

theorem dgH1_apply (l : FB S1024x138) (r : FB S138x128) (g : Fin 1024) (k : Fin 128) :
    Host.dotGeneral (F := Ideal) dot_S1024x138_S138x128_S1024x128_1_0_0_1_n_n none l r (ix2 g k) = ∑ j : Fin 138, l (ix2 g j) * r (ix2 j k) :=
  Cert.LibRowOps.dotGeneral_ix2 dot_S1024x138_S138x128_S1024x128_1_0_0_1_n_n rfl rfl rfl rfl
    (fun i c => by
      unfold DotDims.lhsIdx
      rw [dif_neg (show ¬(0 : Fin _) ∈ dot_S1024x138_S138x128_S1024x128_1_0_0_1_n_n.lhsBatch by decide),
        dif_pos (show (0 : Fin _) ∈ dot_S1024x138_S138x128_S1024x128_1_0_0_1_n_n.lhsNonContracting by decide)]
      rfl)
    (fun i c => by
      unfold DotDims.rhsIdx
      rw [dif_neg (show ¬(1 : Fin _) ∈ dot_S1024x138_S138x128_S1024x128_1_0_0_1_n_n.rhsBatch by decide),
        dif_pos (show (1 : Fin _) ∈ dot_S1024x138_S138x128_S1024x128_1_0_0_1_n_n.rhsNonContracting by decide)]
      rfl)
    none l r g k

theorem dgH2_apply (l : FB S1024x128) (r : FB S128x64) (g : Fin 1024) (k : Fin 64) :
    Host.dotGeneral (F := Ideal) dot_S1024x128_S128x64_S1024x64_1_0_0_1_n_n none l r (ix2 g k) = ∑ j : Fin 128, l (ix2 g j) * r (ix2 j k) :=
  Cert.LibRowOps.dotGeneral_ix2 dot_S1024x128_S128x64_S1024x64_1_0_0_1_n_n rfl rfl rfl rfl
    (fun i c => by
      unfold DotDims.lhsIdx
      rw [dif_neg (show ¬(0 : Fin _) ∈ dot_S1024x128_S128x64_S1024x64_1_0_0_1_n_n.lhsBatch by decide),
        dif_pos (show (0 : Fin _) ∈ dot_S1024x128_S128x64_S1024x64_1_0_0_1_n_n.lhsNonContracting by decide)]
      rfl)
    (fun i c => by
      unfold DotDims.rhsIdx
      rw [dif_neg (show ¬(1 : Fin _) ∈ dot_S1024x128_S128x64_S1024x64_1_0_0_1_n_n.rhsBatch by decide),
        dif_pos (show (1 : Fin _) ∈ dot_S1024x128_S128x64_S1024x64_1_0_0_1_n_n.rhsNonContracting by decide)]
      rfl)
    none l r g k

theorem dgH3_apply (l : FB S1024x64) (r : FB S64x1) (g : Fin 1024) (q : Fin 1) :
    Host.dotGeneral (F := Ideal) dot_S1024x64_S64x1_S1024x1_1_0_0_1_n_n none l r (ix2 g q) = ∑ j : Fin 64, l (ix2 g j) * r (ix2 j q) :=
  Cert.LibRowOps.dotGeneral_ix2 dot_S1024x64_S64x1_S1024x1_1_0_0_1_n_n rfl rfl rfl rfl
    (fun i c => by
      unfold DotDims.lhsIdx
      rw [dif_neg (show ¬(0 : Fin _) ∈ dot_S1024x64_S64x1_S1024x1_1_0_0_1_n_n.lhsBatch by decide),
        dif_pos (show (0 : Fin _) ∈ dot_S1024x64_S64x1_S1024x1_1_0_0_1_n_n.lhsNonContracting by decide)]
      rfl)
    (fun i c => by
      unfold DotDims.rhsIdx
      rw [dif_neg (show ¬(1 : Fin _) ∈ dot_S1024x64_S64x1_S1024x1_1_0_0_1_n_n.rhsBatch by decide),
        dif_pos (show (1 : Fin _) ∈ dot_S1024x64_S64x1_S1024x1_1_0_0_1_n_n.rhsNonContracting by decide)]
      rfl)
    none l r g q

/-- The head is, entry by entry, the three dense layers' entry formula. -/
theorem hostHead_eq (cmb : FB S1024x138) (w1 : FB S138x128) (b1 : FB S128) (w2 : FB S128x64) (b2 : FB S64) (w3 : FB S64x1) (b3 : FB S1) :
    hostHead cmb w1 b1 w2 b2 w3 b3 = headArr cmb w1 b1 w2 b2 w3 b3 := by
  funext i
  obtain ⟨g, q, rfl⟩ : ∃ (g : Fin 1024) (q : Fin 1), i = ix2 g q := ⟨i 0, i 1, eq_ix2 i⟩
  unfold hostHead headArr
  rw [ofEntries_ix2]
  unfold headEntry
  rw [addf_apply, dgH3_apply, Cert.LibBcast.bcastRow_apply, Cert.LibBcast.bcastVecRow_apply]
  refine congrArg (· + b3 (ix1 q)) (Finset.sum_congr rfl fun k2 _ => ?_)
  rw [maximumf_apply, addf_apply, dgH2_apply, Cert.LibBcast.bcastRow_apply, Cert.LibBcast.bcastVecRow_apply, Cert.LibBcast.bcastScalar_apply]
  refine congrArg (fun z => max (z + b2 (ix1 k2)) _ * w3 (ix2 k2 q)) (Finset.sum_congr rfl fun k1 _ => ?_)
  rw [maximumf_apply, addf_apply, dgH1_apply, Cert.LibBcast.bcastRow_apply, Cert.LibBcast.bcastVecRow_apply, Cert.LibBcast.bcastScalar_apply]
  rfl

end Cert.ReferenceIdeal.Layers

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.ConvPay.lean ====
/-
  The convolution kernels' payload read at one entry: the value a grid point stores at row p, channel q of its block is
  the perceptron's entry formula on row p of its two loaded feature blocks and the loaded weights. The two matrix
  products into the zero accumulator are sums over the contracted axis; a bias vector cast to one row and repeated
  over the rows reads at its channel; the rectifier is a max with the zero word.
-/
import proofs.«167438_j18270790877246_1_alg».proof.Proof.Gen.KernelIdeal.Skeleton
import proofs.«167438_j18270790877246_1_alg».proof.Proof.Spec
import proofs.«167438_j18270790877246_1_alg».proof.Proof.LibMatmulZero
import Idealize.ShloMosaic.Lib.ValueLayout

set_option maxRecDepth 16384

noncomputable section

open scoped BigOperators

namespace Cert.Proof.ConvPay

open Cert.KernelIdeal Cert.KernelIdeal.Gen Cert.Spec
open Idealize.ShloMosaic Idealize.ShloMosaic.ValueIdx

/-- A bias vector [64] cast to [1, 64] and repeated over 2000 rows reads, at (p, k), the vector at k. -/
theorem biasRows_apply (v : Vec Ideal S64 .f32) (p : Fin 2000) (k : Fin 64) :
    broadcastTo S2000x64 (shapeCast S1x64 v shapeCasts_S64_S1x64) broadcasts_S1x64_S2000x64 (ix2 p k) = v (ix1 k) :=
  (broadcastTo_1b_ab_apply _ broadcasts_S1x64_S2000x64 p k).trans (shapeCast_a_1a_apply v shapeCasts_S64_S1x64 0 k)

/-- The first matrix product of the width-6 layer, at (p, k). -/
theorem mm6_apply (l : FVec Ideal S2000x6 .f32) (r : FVec Ideal S6x64 .f32) (p : Fin 2000) (k : Fin 64) :
    matmul dot_S2000x6_S6x64_S2000x64_1_0_0_1_n_n none l r (constant S2000x64 .f32 0x00000000#32) (ix2 p k)
      = ∑ j : Fin 6, l (ix2 p j) * r (ix2 j k) :=
  Cert.LibMatmulZero.matmul_zero_ix2 dot_S2000x6_S6x64_S2000x64_1_0_0_1_n_n rfl rfl rfl rfl
    (fun i c => by
      unfold DotDims.lhsIdx
      rw [dif_neg (show ¬(0 : Fin _) ∈ dot_S2000x6_S6x64_S2000x64_1_0_0_1_n_n.lhsBatch by decide),
        dif_pos (show (0 : Fin _) ∈ dot_S2000x6_S6x64_S2000x64_1_0_0_1_n_n.lhsNonContracting by decide)]
      rfl)
    (fun i c => by
      unfold DotDims.rhsIdx
      rw [dif_neg (show ¬(1 : Fin _) ∈ dot_S2000x6_S6x64_S2000x64_1_0_0_1_n_n.rhsBatch by decide),
        dif_pos (show (1 : Fin _) ∈ dot_S2000x6_S6x64_S2000x64_1_0_0_1_n_n.rhsNonContracting by decide)]
      rfl)
    none l r p k

/-- A 64-by-64 matrix product of a 2000-row block, at (p, q). -/
theorem mm64_apply (l : FVec Ideal S2000x64 .f32) (r : FVec Ideal S64x64 .f32) (p : Fin 2000) (q : Fin 64) :
    matmul dot_S2000x64_S64x64_S2000x64_1_0_0_1_n_n none l r (constant S2000x64 .f32 0x00000000#32) (ix2 p q)
      = ∑ k : Fin 64, l (ix2 p k) * r (ix2 k q) :=
  Cert.LibMatmulZero.matmul_zero_ix2 dot_S2000x64_S64x64_S2000x64_1_0_0_1_n_n rfl rfl rfl rfl
    (fun i c => by
      unfold DotDims.lhsIdx
      rw [dif_neg (show ¬(0 : Fin _) ∈ dot_S2000x64_S64x64_S2000x64_1_0_0_1_n_n.lhsBatch by decide),
        dif_pos (show (0 : Fin _) ∈ dot_S2000x64_S64x64_S2000x64_1_0_0_1_n_n.lhsNonContracting by decide)]
      rfl)
    (fun i c => by
      unfold DotDims.rhsIdx
      rw [dif_neg (show ¬(1 : Fin _) ∈ dot_S2000x64_S64x64_S2000x64_1_0_0_1_n_n.rhsBatch by decide),
        dif_pos (show (1 : Fin _) ∈ dot_S2000x64_S64x64_S2000x64_1_0_0_1_n_n.rhsNonContracting by decide)]
      rfl)
    none l r p q

/-- The width-6 convolution kernel's stored value at (p, q). -/
theorem k0_pay1_apply (x0 x1 : Vec Ideal S2000x6 .f32) (wa : Vec Ideal S6x64 .f32) (ba : Vec Ideal S64 .f32)
    (wb : Vec Ideal S64x64 .f32) (bb : Vec Ideal S64 .f32) (p : Fin 2000) (q : Fin 64) :
    k0_pay1 x0 x1 wa ba wb bb (ix2 p q)
      = convEntry (fun j => x0 (ix2 p j)) (fun j => x1 (ix2 p j)) wa ba wb bb q := by
  unfold k0_pay1 convEntry
  dsimp only
  rw [addf_apply, mm64_apply, biasRows_apply]
  refine congrArg (· + bb (ix1 q)) (Finset.sum_congr rfl fun k _ => ?_)
  rw [maximumf_apply, addf_apply, mm6_apply, biasRows_apply, broadcast_apply]
  refine congrArg (fun z => max (z + ba (ix1 k)) _ * wb (ix2 k q)) (Finset.sum_congr rfl fun j _ => ?_)
  rw [addf_apply, shapeCast_self]

/-- The width-64 convolution kernel's stored value at (p, q). -/
theorem k2_pay1_apply (x0 x1 : Vec Ideal S2000x64 .f32) (wa : Vec Ideal S64x64 .f32) (ba : Vec Ideal S64 .f32)
    (wb : Vec Ideal S64x64 .f32) (bb : Vec Ideal S64 .f32) (p : Fin 2000) (q : Fin 64) :
    k2_pay1 x0 x1 wa ba wb bb (ix2 p q)
      = convEntry (fun j => x0 (ix2 p j)) (fun j => x1 (ix2 p j)) wa ba wb bb q := by
  unfold k2_pay1 convEntry
  dsimp only
  rw [addf_apply, mm64_apply, biasRows_apply]
  refine congrArg (· + bb (ix1 q)) (Finset.sum_congr rfl fun k _ => ?_)
  rw [maximumf_apply, addf_apply, mm64_apply, biasRows_apply, broadcast_apply]
  refine congrArg (fun z => max (z + ba (ix1 k)) _ * wb (ix2 k q)) (Finset.sum_congr rfl fun j _ => ?_)
  rw [addf_apply, shapeCast_self, shapeCast_self]

/-- Graph B's convolution kernels store the same functions of their loaded blocks as graph A's. -/
theorem k4_pay1_eq : @k4_pay1 Ideal _ = @k0_pay1 Ideal _ := rfl
theorem k6_pay1_eq : @k6_pay1 Ideal _ = @k2_pay1 Ideal _ := rfl

end Cert.Proof.ConvPay

end
-- ==== Proof.TileConv1A.lean ====
/-
  Graph A's first convolution as ONE array. The fifty grid points each write back a block of 2000 rows; block t of a
  feature window is rows 2000 t ... 2000 t + 1999 of its array, every weight window's one block is its whole array.
  So what point t writes back is block t of the layer's whole-array function of the arrays as the region finds them,
  the fifty blocks cover the output array, and the output array ends at that function.
-/
import proofs.«167438_j18270790877246_1_alg».proof.Proof.KI.Conv1A
import proofs.«167438_j18270790877246_1_alg».proof.Proof.ConvPay
import proofs.«167438_j18270790877246_1_alg».proof.Proof.Spec
import Idealize.ShloMosaic.Lib.Pipeline.Value
import Idealize.ShloMosaic.Lib.Tactic

set_option maxRecDepth 16384

noncomputable section

open scoped BigOperators

namespace Cert.KernelIdeal.Tiles

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the two feature windows and the output move with the point along the
    rows; the four weight windows stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem lt50_0 (t : Fin cfg0.N) : t.val < 50 := lt_of_lt_of_eq t.isLt N_0

/-! ## The windows' blocks as parts of their arrays -/

theorem blk0_0 (c : Dev nD) (t : Fin cfg0.N) (p : Fin 2000) (j : Fin 6) (P : Fin 100000) (hP : P.val = t.val * 2000 + p.val) :
    (iblk0 V c 0 t : Vec Ideal S2000x6 .f32) (ix2 p j) = (V c main_arg0 : S100000x6.Idx → Ideal .f32) (ix2 P j) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 2000 + 1 * p.val = P.val; rw [e0, hP]; omega
  | ⟨1, _⟩ => show win0_0.index t 1 * 6 + 1 * j.val = j.val; rw [e1]; omega

theorem blk0_1 (c : Dev nD) (t : Fin cfg0.N) (p : Fin 2000) (j : Fin 6) (P : Fin 100000) (hP : P.val = t.val * 2000 + p.val) :
    (iblk0 V c 1 t : Vec Ideal S2000x6 .f32) (ix2 p j) = (V c main_v13 : S100000x6.Idx → Ideal .f32) (ix2 P j) := by
  obtain ⟨-, -, e0, e1, -⟩ := idx0 t
  unfold iblk0
  rw [View.read_apply]
  show V c main_v13 _ = V c main_v13 _
  congr 1
  funext a
  apply Fin.ext
  match a with
  | ⟨0, _⟩ => show win0_1.index t 0 * 2000 + 1 * p.val = P.val; rw [e0, hP]; omega
  | ⟨1, _⟩ => show win0_1.index t 1 * 6 + 1 * j.val = j.val; rw [e1]; omega

theorem blk0_2 (c : Dev nD) (t : Fin cfg0.N) :
    (iblk0 V c 2 t : Vec Ideal S6x64 .f32) = (V c main_arg8 : S6x64.Idx → Ideal .f32) := by
  obtain ⟨-, -, -, -, e0, e1, -⟩ := idx0 t
  funext y
  unfold iblk0
  rw [View.read_apply]
  show V c main_arg8 _ = V c main_arg8 y
  congr 1
  funext a
  apply Fin.ext
  match a with
  | ⟨0, _⟩ => show win0_2.index t 0 * 6 + 1 * (y 0).val = (y 0).val; rw [e0]; omega
  | ⟨1, _⟩ => show win0_2.index t 1 * 64 + 1 * (y 1).val = (y 1).val; rw [e1]; omega

theorem blk0_3 (c : Dev nD) (t : Fin cfg0.N) :
    (iblk0 V c 3 t : Vec Ideal S64 .f32) = (V c main_arg9 : S64.Idx → Ideal .f32) := by
  obtain ⟨-, -, -, -, -, -, e0, -⟩ := idx0 t
  funext y
  unfold iblk0
  rw [View.read_apply]
  show V c main_arg9 _ = V c main_arg9 y
  congr 1
  funext a
  apply Fin.ext
  match a with
  | ⟨0, _⟩ => show win0_3.index t 0 * 64 + 1 * (y 0).val = (y 0).val; rw [e0]; omega

theorem blk0_4 (c : Dev nD) (t : Fin cfg0.N) :
    (iblk0 V c 4 t : Vec Ideal S64x64 .f32) = (V c main_arg10 : S64x64.Idx → Ideal .f32) := by
  obtain ⟨-, -, -, -, -, -, -, e0, e1, -⟩ := idx0 t
  funext y
  unfold iblk0
  rw [View.read_apply]
  show V c main_arg10 _ = V c main_arg10 y
  congr 1
  funext a
  apply Fin.ext
  match a with
  | ⟨0, _⟩ => show win0_4.index t 0 * 64 + 1 * (y 0).val = (y 0).val; rw [e0]; omega
  | ⟨1, _⟩ => show win0_4.index t 1 * 64 + 1 * (y 1).val = (y 1).val; rw [e1]; omega

theorem blk0_5 (c : Dev nD) (t : Fin cfg0.N) :
    (iblk0 V c 5 t : Vec Ideal S64 .f32) = (V c main_arg11 : S64.Idx → Ideal .f32) := by
  obtain ⟨-, -, -, -, -, -, -, -, -, e0, -⟩ := idx0 t
  funext y
  unfold iblk0
  rw [View.read_apply]
  show V c main_arg11 _ = V c main_arg11 y
  congr 1
  funext a
  apply Fin.ext
  match a with
  | ⟨0, _⟩ => show win0_5.index t 0 * 64 + 1 * (y 0).val = (y 0).val; rw [e0]; omega

/-! ## What a point writes back, the cover, the array -/

/-- The layer's whole-array function of the arrays as the region finds them. -/
abbrev whole0 (c : Dev nD) : FVec Ideal S100000x64 .f32 :=
  convArr (N := 100000) (K := 6) (V c main_arg0) (V c main_v13) (V c main_arg8) (V c main_arg9) (V c main_arg10) (V c main_arg11)

/-- WHAT POINT t WRITES BACK is block t of `whole0`. -/
theorem flushed0 (c : Dev nD) (t : Fin cfg0.N) :
    (dat0 V c).flushed 6 t = ((cfg0.win 6).blk t).view.read (Elt Ideal) (whole0 V c) := by
  show (cfg0.win 6).cut (grid0.coords t) ((dat0 V c).after 6 t) = _
  rw [after0_6]
  unfold out0_6
  rw [View.canon_unit_zero hz2]
  simp only [View.ld_unit_zero (S := S2000x6) hz2, View.ld_unit_zero (S := S6x64) hz2, View.ld_unit_zero (S := S64) hz1,
    View.ld_unit_zero (S := S64x64) hz2]
  obtain ⟨-, -, -, -, -, -, -, -, -, -, e0, e1⟩ := idx0 t
  have h50 := lt50_0 t
  funext y
  obtain ⟨p, q, rfl⟩ : ∃ (p : Fin 2000) (q : Fin 64), y = ix2 p q := ⟨y 0, y 1, eq_ix2 y⟩
  have hP : t.val * 2000 + p.val < 100000 := by have := p.isLt; omega
  show k0_pay1 (iblk0 V c 0 t) (iblk0 V c 1 t) (iblk0 V c 2 t) (iblk0 V c 3 t) (iblk0 V c 4 t) (iblk0 V c 5 t) (ix2 p q)
    = whole0 V c (((cfg0.win 6).blk t).view.emb (ix2 p q))
  have hemb : ((cfg0.win 6).blk t).view.emb (ix2 p q) = (ix2 (⟨t.val * 2000 + p.val, hP⟩ : Fin 100000) q : S100000x64.Idx) := by
    funext a
    apply Fin.ext
    match a with
    | ⟨0, _⟩ => show win0_6.index t 0 * 2000 + 1 * p.val = t.val * 2000 + p.val; rw [e0]; omega
    | ⟨1, _⟩ => show win0_6.index t 1 * 64 + 1 * q.val = q.val; rw [e1]; omega
  rw [hemb]
  refine (Cert.Proof.ConvPay.k0_pay1_apply _ _ _ _ _ _ p q).trans ?_
  rw [blk0_2 V c t, blk0_3 V c t, blk0_4 V c t, blk0_5 V c t]
  show convEntry _ _ _ _ _ _ q = convEntry _ _ _ _ _ _ q
  congr 1 <;> funext j
  · exact blk0_0 V c t p j _ rfl
  · exact blk0_1 V c t p j _ rfl

/-- An index of the output array is in point t's block iff each coordinate is in the block's range on its axis. -/
theorem mem_blk0 (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v14).slice (win0_6.rect t)).set ↔ _
  rw [View.set_slice_whole, Rect.mem_set_unit]
  exact Iff.rfl

/-- Every index of the output array is in the block of the point its row falls in. -/
theorem cover0 (i : S100000x64.Idx) :
    ∃ t : Fin cfg0.N, (cfg0.win 6).flush t = true ∧ i ∈ ((cfg0.win 6).blk t).view.set := by
  have hi0 : (i 0).val < 100000 := idx2_lt0 i
  have hi1 : (i 1).val < 64 := idx2_lt1 i
  have ht : (i 0).val / 2000 < cfg0.N := by rw [show cfg0.N = 50 from N_0]; omega
  obtain ⟨-, -, -, -, -, -, -, -, -, -, e0, e1⟩ := idx0 ⟨(i 0).val / 2000, ht⟩
  refine ⟨⟨(i 0).val / 2000, ht⟩, flush0_6 _, ?_⟩
  rw [mem_blk0]
  intro a
  match a with
  | ⟨0, _⟩ =>
    show win0_6.index ⟨(i 0).val / 2000, ht⟩ 0 * 2000 ≤ (i 0).val ∧ (i 0).val < win0_6.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ 1 * 64 ≤ (i 1).val ∧ (i 1).val < win0_6.index ⟨(i 0).val / 2000, ht⟩ 1 * 64 + 64
    rw [e1]; omega

/-- THE OUTPUT ARRAY after the call: the layer's whole-array function of the arrays as the region finds them. -/
theorem array0 (c : Dev nD) : (dat0 V c).arrAt 6 cfg0.N = whole0 V c :=
  (dat0 V c).arrAt_eq_of_cover 6 (whole0 V c) (fun t _ => flushed0 V c t) (cover0)

end Cert.KernelIdeal.Tiles

end
-- ==== Proof.NormPay.lean ====
/-
  The normalization kernels' payload read at one entry: the value a grid point stores at row p, channel q of its block
  is the normalization entry formula on the loaded feature at (p, q), the loaded mean and variance columns at row p,
  and the scale and shift at channel q. A column repeated over the channels reads at its row; the scale and shift,
  cast to one row and repeated over the rows, read at their channel.
-/
import proofs.«167438_j18270790877246_1_alg».proof.Proof.Gen.KernelIdeal.Skeleton
import proofs.«167438_j18270790877246_1_alg».proof.Proof.Spec
import proofs.«167438_j18270790877246_1_alg».proof.Proof.LibRowOps
import Idealize.ShloMosaic.Lib.ValueLayout

set_option maxRecDepth 16384

noncomputable section

open scoped BigOperators

namespace Cert.Proof.NormPay

open Cert.KernelIdeal Cert.KernelIdeal.Gen Cert.Spec
open Idealize.ShloMosaic Idealize.ShloMosaic.ValueIdx

/-- A vector [64] cast to [1, 64] and repeated over 2000 rows reads, at (p, k), the vector at k. -/
theorem chanRows_apply (v : Vec Ideal S64 .f32) (p : Fin 2000) (k : Fin 64) :
    broadcastTo S2000x64 (shapeCast S1x64 v shapeCasts_S64_S1x64) broadcasts_S1x64_S2000x64 (ix2 p k) = v (ix1 k) :=
  (broadcastTo_1b_ab_apply _ broadcasts_S1x64_S2000x64 p k).trans (shapeCast_a_1a_apply v shapeCasts_S64_S1x64 0 k)

/-- A column [2000, 1] repeated over 64 channels reads, at (p, q), the column at row p. -/
theorem colChans_apply (v : FVec Ideal S2000x1 .f32) (p : Fin 2000) (q : Fin 64) :
    broadcastTo S2000x64 v broadcasts_S2000x1_S2000x64 (ix2 p q) = v (ix2 p (0 : Fin 1)) :=
  Cert.LibRowOps.broadcastTo_a1_ab_apply v broadcasts_S2000x1_S2000x64 p q

/-- The normalization kernel's stored value at (p, q). -/
theorem k1_pay1_apply (x0 : Vec Ideal S2000x64 .f32) (x1 x2 : Vec Ideal S2000x1 .f32) (x3 x4 : Vec Ideal S64 .f32)
    (p : Fin 2000) (q : Fin 64) :
    k1_pay1 x0 x1 x2 x3 x4 (ix2 p q)
      = normEntry (x0 (ix2 p q)) (x1 (ix2 p (0 : Fin 1))) (x2 (ix2 p (0 : Fin 1))) (x3 (ix1 q)) (x4 (ix1 q)) := by
  unfold k1_pay1 normEntry
  rw [maximumf_apply, addf_apply, mulf_apply, mulf_apply, subf_apply, chanRows_apply, chanRows_apply,
    colChans_apply, colChans_apply, broadcast_apply, shapeCast_self, shapeCast_self]
  simp only [shapeCast_self]
  rfl

/-- The other three normalization kernels store the same function of their loaded blocks. -/
theorem k3_pay1_eq : @k3_pay1 Ideal _ = @k1_pay1 Ideal _ := rfl
theorem k5_pay1_eq : @k5_pay1 Ideal _ = @k1_pay1 Ideal _ := rfl
theorem k7_pay1_eq : @k7_pay1 Ideal _ = @k1_pay1 Ideal _ := rfl

end Cert.Proof.NormPay

end
-- ==== Proof.TileNorm1A.lean ====
/-
  Graph A's first normalization as ONE array. The fifty grid points each write back a block of 2000 rows; block t of the
  feature window and of the mean and variance column windows is rows 2000 t ... 2000 t + 1999 of its array, the scale's
  and the shift's one block is the whole vector. So what point t writes back is block t of the layer's whole-array
  function of the arrays as the region finds them, the fifty blocks cover the output array, and the output array ends
  at that function.
-/
import proofs.«167438_j18270790877246_1_alg».proof.Proof.KI.Norm1A
import proofs.«167438_j18270790877246_1_alg».proof.Proof.NormPay
import proofs.«167438_j18270790877246_1_alg».proof.Proof.Spec
import Idealize.ShloMosaic.Lib.Pipeline.Value
import Idealize.ShloMosaic.Lib.Tactic

set_option maxRecDepth 16384

noncomputable section

open scoped BigOperators

namespace Cert.KernelIdeal.Tiles

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a <;> rfl

/-- The printed index maps, decided over the grid: the feature window, the two column windows and the output move with the
    point along the rows; the scale and shift windows stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 1) = 0
    ∧ win1_5.index t (0 : Fin 2) = t.val ∧ win1_5.index t (1 : Fin 2) = 0 :=
  (by decide +kernel : ∀ t : Fin grid1.N, _)

theorem lt50_1 (t : Fin cfg1.N) : t.val < 50 := lt_of_lt_of_eq t.isLt N_1

/-! ## The windows' blocks as parts of their arrays -/

theorem blk1_0 (c : Dev nD) (t : Fin cfg1.N) (p : Fin 2000) (j : Fin 64) (P : Fin 100000) (hP : P.val = t.val * 2000 + p.val) :
    (iblk1 V c 0 t : Vec Ideal S2000x64 .f32) (ix2 p j) = (V c main_v14 : S100000x64.Idx → Ideal .f32) (ix2 P j) := by
  obtain ⟨e0, e1, -⟩ := idx1 t
  unfold iblk1
  rw [View.read_apply]
  show V c main_v14 _ = V c main_v14 _
  congr 1
  funext a
  apply Fin.ext
  match a with
  | ⟨0, _⟩ => show win1_0.index t 0 * 2000 + 1 * p.val = P.val; rw [e0, hP]; omega
  | ⟨1, _⟩ => show win1_0.index t 1 * 64 + 1 * j.val = j.val; rw [e1]; omega

theorem blk1_1 (c : Dev nD) (t : Fin cfg1.N) (p : Fin 2000) (P : Fin 100000) (hP : P.val = t.val * 2000 + p.val) :
    (iblk1 V c 1 t : Vec Ideal S2000x1 .f32) (ix2 p (0 : Fin 1)) = (V c main_v51 : S100000x1.Idx → Ideal .f32) (ix2 P (0 : Fin 1)) := by
  obtain ⟨-, -, e0, e1, -⟩ := idx1 t
  unfold iblk1
  rw [View.read_apply]
  show V c main_v51 _ = V c main_v51 _
  congr 1
  funext a
  apply Fin.ext
  match a with
  | ⟨0, _⟩ => show win1_1.index t 0 * 2000 + 1 * p.val = P.val; rw [e0, hP]; omega
  | ⟨1, _⟩ => show win1_1.index t 1 * 1 + 1 * 0 = 0; rw [e1]

theorem blk1_2 (c : Dev nD) (t : Fin cfg1.N) (p : Fin 2000) (P : Fin 100000) (hP : P.val = t.val * 2000 + p.val) :
    (iblk1 V c 2 t : Vec Ideal S2000x1 .f32) (ix2 p (0 : Fin 1)) = (V c main_v52 : S100000x1.Idx → Ideal .f32) (ix2 P (0 : Fin 1)) := by
  obtain ⟨-, -, -, -, e0, e1, -⟩ := idx1 t
  unfold iblk1
  rw [View.read_apply]
  show V c main_v52 _ = V c main_v52 _
  congr 1
  funext a
  apply Fin.ext
  match a with
  | ⟨0, _⟩ => show win1_2.index t 0 * 2000 + 1 * p.val = P.val; rw [e0, hP]; omega
  | ⟨1, _⟩ => show win1_2.index t 1 * 1 + 1 * 0 = 0; rw [e1]

theorem blk1_3 (c : Dev nD) (t : Fin cfg1.N) :
    (iblk1 V c 3 t : Vec Ideal S64 .f32) = (V c main_arg12 : S64.Idx → Ideal .f32) := by
  obtain ⟨-, -, -, -, -, -, e0, -⟩ := idx1 t
  funext y
  unfold iblk1
  rw [View.read_apply]
  show V c main_arg12 _ = V c main_arg12 y
  congr 1
  funext a
  apply Fin.ext
  match a with
  | ⟨0, _⟩ => show win1_3.index t 0 * 64 + 1 * (y 0).val = (y 0).val; rw [e0]; omega

theorem blk1_4 (c : Dev nD) (t : Fin cfg1.N) :
    (iblk1 V c 4 t : Vec Ideal S64 .f32) = (V c main_arg13 : S64.Idx → Ideal .f32) := by
  obtain ⟨-, -, -, -, -, -, -, e0, -⟩ := idx1 t
  funext y
  unfold iblk1
  rw [View.read_apply]
  show V c main_arg13 _ = V c main_arg13 y
  congr 1
  funext a
  apply Fin.ext
  match a with
  | ⟨0, _⟩ => show win1_4.index t 0 * 64 + 1 * (y 0).val = (y 0).val; rw [e0]; omega

/-! ## What a point writes back, the cover, the array -/

/-- The layer's whole-array function of the arrays as the region finds them. -/
abbrev whole1 (c : Dev nD) : FVec Ideal S100000x64 .f32 :=
  normArr (N := 100000) (V c main_v14) (V c main_v51) (V c main_v52) (V c main_arg12) (V c main_arg13)

/-- WHAT POINT t WRITES BACK is block t of `whole1`. -/
theorem flushed1 (c : Dev nD) (t : Fin cfg1.N) :
    (dat1 V c).flushed 5 t = ((cfg1.win 5).blk t).view.read (Elt Ideal) (whole1 V c) := by
  show (cfg1.win 5).cut (grid1.coords t) ((dat1 V c).after 5 t) = _
  rw [after1_5]
  unfold out1_5
  rw [View.canon_unit_zero hz2_1]
  simp only [View.ld_unit_zero (S := S2000x64) hz2_1, View.ld_unit_zero (S := S2000x1) hz2_1, View.ld_unit_zero (S := S64) hz1_1]
  obtain ⟨-, -, -, -, -, -, -, -, e0, e1⟩ := idx1 t
  have h50 := lt50_1 t
  funext y
  obtain ⟨p, q, rfl⟩ : ∃ (p : Fin 2000) (q : Fin 64), y = ix2 p q := ⟨y 0, y 1, eq_ix2 y⟩
  have hP : t.val * 2000 + p.val < 100000 := by have := p.isLt; omega
  show k1_pay1 (iblk1 V c 0 t) (iblk1 V c 1 t) (iblk1 V c 2 t) (iblk1 V c 3 t) (iblk1 V c 4 t) (ix2 p q)
    = whole1 V c (((cfg1.win 5).blk t).view.emb (ix2 p q))
  have hemb : ((cfg1.win 5).blk t).view.emb (ix2 p q) = (ix2 (⟨t.val * 2000 + p.val, hP⟩ : Fin 100000) q : S100000x64.Idx) := by
    funext a
    apply Fin.ext
    match a with
    | ⟨0, _⟩ => show win1_5.index t 0 * 2000 + 1 * p.val = t.val * 2000 + p.val; rw [e0]; omega
    | ⟨1, _⟩ => show win1_5.index t 1 * 64 + 1 * q.val = q.val; rw [e1]; omega
  rw [hemb]
  refine (Cert.Proof.NormPay.k1_pay1_apply _ _ _ _ _ p q).trans ?_
  rw [blk1_3 V c t, blk1_4 V c t, blk1_0 V c t p q ⟨t.val * 2000 + p.val, hP⟩ rfl,
    blk1_1 V c t p ⟨t.val * 2000 + p.val, hP⟩ rfl, blk1_2 V c t p ⟨t.val * 2000 + p.val, hP⟩ rfl]
  rfl

/-- An index of the output array is in point t's block iff each coordinate is in the block's range on its axis. -/
theorem mem_blk1 (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v53).slice (win1_5.rect t)).set ↔ _
  rw [View.set_slice_whole, Rect.mem_set_unit]
  exact Iff.rfl

/-- Every index of the output array is in the block of the point its row falls in. -/
theorem cover1 (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  have ht : (i 0).val / 2000 < cfg1.N := by rw [show cfg1.N = 50 from N_1]; omega
  obtain ⟨-, -, -, -, -, -, -, -, e0, e1⟩ := idx1 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ 0 * 2000 ≤ (i 0).val ∧ (i 0).val < win1_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ 1 * 64 ≤ (i 1).val ∧ (i 1).val < win1_5.index ⟨(i 0).val / 2000, ht⟩ 1 * 64 + 64
    rw [e1]; omega

/-- THE OUTPUT ARRAY after the call: the layer's whole-array function of the arrays as the region finds them. -/
theorem array1 (c : Dev nD) : (dat1 V c).arrAt 5 cfg1.N = whole1 V c :=
  (dat1 V c).arrAt_eq_of_cover 5 (whole1 V c) (fun t _ => flushed1 V c t) (cover1)

end Cert.KernelIdeal.Tiles

end
-- ==== Proof.TileConv2A.lean ====
/-
  Graph A's second convolution as ONE array. The fifty grid points each write back a block of 2000 rows; block t of a
  feature window is rows 2000 t ... 2000 t + 1999 of its array, every weight window's one block is its whole array.
  So what point t writes back is block t of the layer's whole-array function of the arrays as the region finds them,
  the fifty blocks cover the output array, and the output array ends at that function.
-/
import proofs.«167438_j18270790877246_1_alg».proof.Proof.KI.Conv2A
import proofs.«167438_j18270790877246_1_alg».proof.Proof.ConvPay
import proofs.«167438_j18270790877246_1_alg».proof.Proof.Spec
import Idealize.ShloMosaic.Lib.Pipeline.Value
import Idealize.ShloMosaic.Lib.Tactic

set_option maxRecDepth 16384

noncomputable section

open scoped BigOperators

namespace Cert.KernelIdeal.Tiles

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz2_2 : (![0, 0] : Fin 2 → Nat) = fun _ => 0 := funext fun a => by fin_cases a <;> rfl
theorem hz1_2 : (![0] : Fin 1 → Nat) = fun _ => 0 := funext fun a => by fin_cases a <;> rfl

/-- The printed index maps, decided over the grid: the two feature windows and the output move with the point along the
    rows; the four weight windows stay. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

theorem lt50_2 (t : Fin cfg2.N) : t.val < 50 := lt_of_lt_of_eq t.isLt N_2

/-! ## The windows' blocks as parts of their arrays -/

theorem blk2_0 (c : Dev nD) (t : Fin cfg2.N) (p : Fin 2000) (j : Fin 64) (P : Fin 100000) (hP : P.val = t.val * 2000 + p.val) :
    (iblk2 V c 0 t : Vec Ideal S2000x64 .f32) (ix2 p j) = (V c main_v53 : S100000x64.Idx → Ideal .f32) (ix2 P j) := by
  obtain ⟨e0, e1, -⟩ := idx2 t
  unfold iblk2
  rw [View.read_apply]
  show V c main_v53 _ = V c main_v53 _
  congr 1
  funext a
  apply Fin.ext
  match a with
  | ⟨0, _⟩ => show win2_0.index t 0 * 2000 + 1 * p.val = P.val; rw [e0, hP]; omega
  | ⟨1, _⟩ => show win2_0.index t 1 * 64 + 1 * j.val = j.val; rw [e1]; omega

theorem blk2_1 (c : Dev nD) (t : Fin cfg2.N) (p : Fin 2000) (j : Fin 64) (P : Fin 100000) (hP : P.val = t.val * 2000 + p.val) :
    (iblk2 V c 1 t : Vec Ideal S2000x64 .f32) (ix2 p j) = (V c main_v63 : S100000x64.Idx → Ideal .f32) (ix2 P j) := by
  obtain ⟨-, -, e0, e1, -⟩ := idx2 t
  unfold iblk2
  rw [View.read_apply]
  show V c main_v63 _ = V c main_v63 _
  congr 1
  funext a
  apply Fin.ext
  match a with
  | ⟨0, _⟩ => show win2_1.index t 0 * 2000 + 1 * p.val = P.val; rw [e0, hP]; omega
  | ⟨1, _⟩ => show win2_1.index t 1 * 64 + 1 * j.val = j.val; rw [e1]; omega

theorem blk2_2 (c : Dev nD) (t : Fin cfg2.N) :
    (iblk2 V c 2 t : Vec Ideal S64x64 .f32) = (V c main_arg14 : S64x64.Idx → Ideal .f32) := by
  obtain ⟨-, -, -, -, e0, e1, -⟩ := idx2 t
  funext y
  unfold iblk2
  rw [View.read_apply]
  show V c main_arg14 _ = V c main_arg14 y
  congr 1
  funext a
  apply Fin.ext
  match a with
  | ⟨0, _⟩ => show win2_2.index t 0 * 64 + 1 * (y 0).val = (y 0).val; rw [e0]; omega
  | ⟨1, _⟩ => show win2_2.index t 1 * 64 + 1 * (y 1).val = (y 1).val; rw [e1]; omega

theorem blk2_3 (c : Dev nD) (t : Fin cfg2.N) :
    (iblk2 V c 3 t : Vec Ideal S64 .f32) = (V c main_arg15 : S64.Idx → Ideal .f32) := by
  obtain ⟨-, -, -, -, -, -, e0, -⟩ := idx2 t
  funext y
  unfold iblk2
  rw [View.read_apply]
  show V c main_arg15 _ = V c main_arg15 y
  congr 1
  funext a
  apply Fin.ext
  match a with
  | ⟨0, _⟩ => show win2_3.index t 0 * 64 + 1 * (y 0).val = (y 0).val; rw [e0]; omega

theorem blk2_4 (c : Dev nD) (t : Fin cfg2.N) :
    (iblk2 V c 4 t : Vec Ideal S64x64 .f32) = (V c main_arg16 : S64x64.Idx → Ideal .f32) := by
  obtain ⟨-, -, -, -, -, -, -, e0, e1, -⟩ := idx2 t
  funext y
  unfold iblk2
  rw [View.read_apply]
  show V c main_arg16 _ = V c main_arg16 y
  congr 1
  funext a
  apply Fin.ext
  match a with
  | ⟨0, _⟩ => show win2_4.index t 0 * 64 + 1 * (y 0).val = (y 0).val; rw [e0]; omega
  | ⟨1, _⟩ => show win2_4.index t 1 * 64 + 1 * (y 1).val = (y 1).val; rw [e1]; omega

theorem blk2_5 (c : Dev nD) (t : Fin cfg2.N) :
    (iblk2 V c 5 t : Vec Ideal S64 .f32) = (V c main_arg17 : S64.Idx → Ideal .f32) := by
  obtain ⟨-, -, -, -, -, -, -, -, -, e0, -⟩ := idx2 t
  funext y
  unfold iblk2
  rw [View.read_apply]
  show V c main_arg17 _ = V c main_arg17 y
  congr 1
  funext a
  apply Fin.ext
  match a with
  | ⟨0, _⟩ => show win2_5.index t 0 * 64 + 1 * (y 0).val = (y 0).val; rw [e0]; omega

/-! ## What a point writes back, the cover, the array -/

/-- The layer's whole-array function of the arrays as the region finds them. -/
abbrev whole2 (c : Dev nD) : FVec Ideal S100000x64 .f32 :=
  convArr (N := 100000) (K := 64) (V c main_v53) (V c main_v63) (V c main_arg14) (V c main_arg15) (V c main_arg16) (V c main_arg17)

/-- WHAT POINT t WRITES BACK is block t of `whole2`. -/
theorem flushed2 (c : Dev nD) (t : Fin cfg2.N) :
    (dat2 V c).flushed 6 t = ((cfg2.win 6).blk t).view.read (Elt Ideal) (whole2 V c) := by
  show (cfg2.win 6).cut (grid2.coords t) ((dat2 V c).after 6 t) = _
  rw [after2_6]
  unfold out2_6
  rw [View.canon_unit_zero hz2_2]
  simp only [View.ld_unit_zero (S := S2000x64) hz2_2, View.ld_unit_zero (S := S64) hz1_2, View.ld_unit_zero (S := S64x64) hz2_2]
  obtain ⟨-, -, -, -, -, -, -, -, -, -, e0, e1⟩ := idx2 t
  have h50 := lt50_2 t
  funext y
  obtain ⟨p, q, rfl⟩ : ∃ (p : Fin 2000) (q : Fin 64), y = ix2 p q := ⟨y 0, y 1, eq_ix2 y⟩
  have hP : t.val * 2000 + p.val < 100000 := by have := p.isLt; omega
  show k2_pay1 (iblk2 V c 0 t) (iblk2 V c 1 t) (iblk2 V c 2 t) (iblk2 V c 3 t) (iblk2 V c 4 t) (iblk2 V c 5 t) (ix2 p q)
    = whole2 V c (((cfg2.win 6).blk t).view.emb (ix2 p q))
  have hemb : ((cfg2.win 6).blk t).view.emb (ix2 p q) = (ix2 (⟨t.val * 2000 + p.val, hP⟩ : Fin 100000) q : S100000x64.Idx) := by
    funext a
    apply Fin.ext
    match a with
    | ⟨0, _⟩ => show win2_6.index t 0 * 2000 + 1 * p.val = t.val * 2000 + p.val; rw [e0]; omega
    | ⟨1, _⟩ => show win2_6.index t 1 * 64 + 1 * q.val = q.val; rw [e1]; omega
  rw [hemb]
  refine (Cert.Proof.ConvPay.k2_pay1_apply _ _ _ _ _ _ p q).trans ?_
  rw [blk2_2 V c t, blk2_3 V c t, blk2_4 V c t, blk2_5 V c t]
  show convEntry _ _ _ _ _ _ q = convEntry _ _ _ _ _ _ q
  congr 1 <;> funext j
  · exact blk2_0 V c t p j _ rfl
  · exact blk2_1 V c t p j _ rfl

/-- An index of the output array is in point t's block iff each coordinate is in the block's range on its axis. -/
theorem mem_blk2 (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v64).slice (win2_6.rect t)).set ↔ _
  rw [View.set_slice_whole, Rect.mem_set_unit]
  exact Iff.rfl

/-- Every index of the output array is in the block of the point its row falls in. -/
theorem cover2 (i : S100000x64.Idx) :
    ∃ t : Fin cfg2.N, (cfg2.win 6).flush t = true ∧ i ∈ ((cfg2.win 6).blk t).view.set := by
  have hi0 : (i 0).val < 100000 := idx2_lt0 i
  have hi1 : (i 1).val < 64 := idx2_lt1 i
  have ht : (i 0).val / 2000 < cfg2.N := by rw [show cfg2.N = 50 from N_2]; omega
  obtain ⟨-, -, -, -, -, -, -, -, -, -, e0, e1⟩ := idx2 ⟨(i 0).val / 2000, ht⟩
  refine ⟨⟨(i 0).val / 2000, ht⟩, flush2_6 _, ?_⟩
  rw [mem_blk2]
  intro a
  match a with
  | ⟨0, _⟩ =>
    show win2_6.index ⟨(i 0).val / 2000, ht⟩ 0 * 2000 ≤ (i 0).val ∧ (i 0).val < win2_6.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ 1 * 64 ≤ (i 1).val ∧ (i 1).val < win2_6.index ⟨(i 0).val / 2000, ht⟩ 1 * 64 + 64
    rw [e1]; omega

/-- THE OUTPUT ARRAY after the call: the layer's whole-array function of the arrays as the region finds them. -/
theorem array2 (c : Dev nD) : (dat2 V c).arrAt 6 cfg2.N = whole2 V c :=
  (dat2 V c).arrAt_eq_of_cover 6 (whole2 V c) (fun t _ => flushed2 V c t) (cover2)

end Cert.KernelIdeal.Tiles

end
-- ==== Proof.TileNorm2A.lean ====
/-
  Graph A's second normalization as ONE array. The fifty grid points each write back a block of 2000 rows; block t of the
  feature window and of the mean and variance column windows is rows 2000 t ... 2000 t + 1999 of its array, the scale's
  and the shift's one block is the whole vector. So what point t writes back is block t of the layer's whole-array
  function of the arrays as the region finds them, the fifty blocks cover the output array, and the output array ends
  at that function.
-/
import proofs.«167438_j18270790877246_1_alg».proof.Proof.KI.Norm2A
import proofs.«167438_j18270790877246_1_alg».proof.Proof.NormPay
import proofs.«167438_j18270790877246_1_alg».proof.Proof.Spec
import Idealize.ShloMosaic.Lib.Pipeline.Value
import Idealize.ShloMosaic.Lib.Tactic

set_option maxRecDepth 16384

noncomputable section

open scoped BigOperators

namespace Cert.KernelIdeal.Tiles

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz2_3 : (![0, 0] : Fin 2 → Nat) = fun _ => 0 := funext fun a => by fin_cases a <;> rfl
theorem hz1_3 : (![0] : Fin 1 → Nat) = fun _ => 0 := funext fun a => by fin_cases a <;> rfl

/-- The printed index maps, decided over the grid: the feature window, the two column windows and the output move with the
    point along the rows; the scale and shift windows stay. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 1) = 0
    ∧ win3_5.index t (0 : Fin 2) = t.val ∧ win3_5.index t (1 : Fin 2) = 0 :=
  (by decide +kernel : ∀ t : Fin grid3.N, _)

theorem lt50_3 (t : Fin cfg3.N) : t.val < 50 := lt_of_lt_of_eq t.isLt N_3

/-! ## The windows' blocks as parts of their arrays -/

theorem blk3_0 (c : Dev nD) (t : Fin cfg3.N) (p : Fin 2000) (j : Fin 64) (P : Fin 100000) (hP : P.val = t.val * 2000 + p.val) :
    (iblk3 V c 0 t : Vec Ideal S2000x64 .f32) (ix2 p j) = (V c main_v64 : S100000x64.Idx → Ideal .f32) (ix2 P j) := by
  obtain ⟨e0, e1, -⟩ := idx3 t
  unfold iblk3
  rw [View.read_apply]
  show V c main_v64 _ = V c main_v64 _
  congr 1
  funext a
  apply Fin.ext
  match a with
  | ⟨0, _⟩ => show win3_0.index t 0 * 2000 + 1 * p.val = P.val; rw [e0, hP]; omega
  | ⟨1, _⟩ => show win3_0.index t 1 * 64 + 1 * j.val = j.val; rw [e1]; omega

theorem blk3_1 (c : Dev nD) (t : Fin cfg3.N) (p : Fin 2000) (P : Fin 100000) (hP : P.val = t.val * 2000 + p.val) :
    (iblk3 V c 1 t : Vec Ideal S2000x1 .f32) (ix2 p (0 : Fin 1)) = (V c main_v101 : S100000x1.Idx → Ideal .f32) (ix2 P (0 : Fin 1)) := by
  obtain ⟨-, -, e0, e1, -⟩ := idx3 t
  unfold iblk3
  rw [View.read_apply]
  show V c main_v101 _ = V c main_v101 _
  congr 1
  funext a
  apply Fin.ext
  match a with
  | ⟨0, _⟩ => show win3_1.index t 0 * 2000 + 1 * p.val = P.val; rw [e0, hP]; omega
  | ⟨1, _⟩ => show win3_1.index t 1 * 1 + 1 * 0 = 0; rw [e1]

theorem blk3_2 (c : Dev nD) (t : Fin cfg3.N) (p : Fin 2000) (P : Fin 100000) (hP : P.val = t.val * 2000 + p.val) :
    (iblk3 V c 2 t : Vec Ideal S2000x1 .f32) (ix2 p (0 : Fin 1)) = (V c main_v102 : S100000x1.Idx → Ideal .f32) (ix2 P (0 : Fin 1)) := by
  obtain ⟨-, -, -, -, e0, e1, -⟩ := idx3 t
  unfold iblk3
  rw [View.read_apply]
  show V c main_v102 _ = V c main_v102 _
  congr 1
  funext a
  apply Fin.ext
  match a with
  | ⟨0, _⟩ => show win3_2.index t 0 * 2000 + 1 * p.val = P.val; rw [e0, hP]; omega
  | ⟨1, _⟩ => show win3_2.index t 1 * 1 + 1 * 0 = 0; rw [e1]

theorem blk3_3 (c : Dev nD) (t : Fin cfg3.N) :
    (iblk3 V c 3 t : Vec Ideal S64 .f32) = (V c main_arg18 : S64.Idx → Ideal .f32) := by
  obtain ⟨-, -, -, -, -, -, e0, -⟩ := idx3 t
  funext y
  unfold iblk3
  rw [View.read_apply]
  show V c main_arg18 _ = V c main_arg18 y
  congr 1
  funext a
  apply Fin.ext
  match a with
  | ⟨0, _⟩ => show win3_3.index t 0 * 64 + 1 * (y 0).val = (y 0).val; rw [e0]; omega

theorem blk3_4 (c : Dev nD) (t : Fin cfg3.N) :
    (iblk3 V c 4 t : Vec Ideal S64 .f32) = (V c main_arg19 : S64.Idx → Ideal .f32) := by
  obtain ⟨-, -, -, -, -, -, -, e0, -⟩ := idx3 t
  funext y
  unfold iblk3
  rw [View.read_apply]
  show V c main_arg19 _ = V c main_arg19 y
  congr 1
  funext a
  apply Fin.ext
  match a with
  | ⟨0, _⟩ => show win3_4.index t 0 * 64 + 1 * (y 0).val = (y 0).val; rw [e0]; omega

/-! ## What a point writes back, the cover, the array -/

/-- The layer's whole-array function of the arrays as the region finds them. -/
abbrev whole3 (c : Dev nD) : FVec Ideal S100000x64 .f32 :=
  normArr (N := 100000) (V c main_v64) (V c main_v101) (V c main_v102) (V c main_arg18) (V c main_arg19)

/-- WHAT POINT t WRITES BACK is block t of `whole3`. -/
theorem flushed3 (c : Dev nD) (t : Fin cfg3.N) :
    (dat3 V c).flushed 5 t = ((cfg3.win 5).blk t).view.read (Elt Ideal) (whole3 V c) := by
  show (cfg3.win 5).cut (grid3.coords t) ((dat3 V c).after 5 t) = _
  rw [after3_5]
  unfold out3_5
  rw [View.canon_unit_zero hz2_3]
  simp only [View.ld_unit_zero (S := S2000x64) hz2_3, View.ld_unit_zero (S := S2000x1) hz2_3, View.ld_unit_zero (S := S64) hz1_3]
  obtain ⟨-, -, -, -, -, -, -, -, e0, e1⟩ := idx3 t
  have h50 := lt50_3 t
  funext y
  obtain ⟨p, q, rfl⟩ : ∃ (p : Fin 2000) (q : Fin 64), y = ix2 p q := ⟨y 0, y 1, eq_ix2 y⟩
  have hP : t.val * 2000 + p.val < 100000 := by have := p.isLt; omega
  show k3_pay1 (iblk3 V c 0 t) (iblk3 V c 1 t) (iblk3 V c 2 t) (iblk3 V c 3 t) (iblk3 V c 4 t) (ix2 p q)
    = whole3 V c (((cfg3.win 5).blk t).view.emb (ix2 p q))
  have hemb : ((cfg3.win 5).blk t).view.emb (ix2 p q) = (ix2 (⟨t.val * 2000 + p.val, hP⟩ : Fin 100000) q : S100000x64.Idx) := by
    funext a
    apply Fin.ext
    match a with
    | ⟨0, _⟩ => show win3_5.index t 0 * 2000 + 1 * p.val = t.val * 2000 + p.val; rw [e0]; omega
    | ⟨1, _⟩ => show win3_5.index t 1 * 64 + 1 * q.val = q.val; rw [e1]; omega
  rw [hemb, Cert.Proof.NormPay.k3_pay1_eq]
  refine (Cert.Proof.NormPay.k1_pay1_apply _ _ _ _ _ p q).trans ?_
  rw [blk3_3 V c t, blk3_4 V c t, blk3_0 V c t p q ⟨t.val * 2000 + p.val, hP⟩ rfl,
    blk3_1 V c t p ⟨t.val * 2000 + p.val, hP⟩ rfl, blk3_2 V c t p ⟨t.val * 2000 + p.val, hP⟩ rfl]
  rfl

/-- An index of the output array is in point t's block iff each coordinate is in the block's range on its axis. -/
theorem mem_blk3 (t : Fin cfg3.N) (i : S100000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole main_v103).slice (win3_5.rect t)).set ↔ _
  rw [View.set_slice_whole, Rect.mem_set_unit]
  exact Iff.rfl

/-- Every index of the output array is in the block of the point its row falls in. -/
theorem cover3 (i : S100000x64.Idx) :
    ∃ t : Fin cfg3.N, (cfg3.win 5).flush t = true ∧ i ∈ ((cfg3.win 5).blk t).view.set := by
  have hi0 : (i 0).val < 100000 := idx2_lt0 i
  have hi1 : (i 1).val < 64 := idx2_lt1 i
  have ht : (i 0).val / 2000 < cfg3.N := by rw [show cfg3.N = 50 from N_3]; omega
  obtain ⟨-, -, -, -, -, -, -, -, e0, e1⟩ := idx3 ⟨(i 0).val / 2000, ht⟩
  refine ⟨⟨(i 0).val / 2000, ht⟩, flush3_5 _, ?_⟩
  rw [mem_blk3]
  intro a
  match a with
  | ⟨0, _⟩ =>
    show win3_5.index ⟨(i 0).val / 2000, ht⟩ 0 * 2000 ≤ (i 0).val ∧ (i 0).val < win3_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win3_5.index ⟨(i 0).val / 2000, ht⟩ 1 * 64 ≤ (i 1).val ∧ (i 1).val < win3_5.index ⟨(i 0).val / 2000, ht⟩ 1 * 64 + 64
    rw [e1]; omega

/-- THE OUTPUT ARRAY after the call: the layer's whole-array function of the arrays as the region finds them. -/
theorem array3 (c : Dev nD) : (dat3 V c).arrAt 5 cfg3.N = whole3 V c :=
  (dat3 V c).arrAt_eq_of_cover 5 (whole3 V c) (fun t _ => flushed3 V c t) (cover3)

end Cert.KernelIdeal.Tiles

end
-- ==== Proof.ChainA.lean ====
/-
  The kernel program's first graph, boundary by boundary, as the reference's layers of the argument arrays. A stretch of
  host operations is the reference's own operations on the same inputs (read off the stretch, one term); a pallas_call's
  output array is its layer's whole-array formula of the arrays it finds, which is the reference's layer entry by entry.
  So after the four calls the first graph's features are the reference's, and its pooled embedding too.
-/
import proofs.«167438_j18270790877246_1_alg».proof.Proof.KI.Walk
import proofs.«167438_j18270790877246_1_alg».proof.Proof.RefLayers
import proofs.«167438_j18270790877246_1_alg».proof.Proof.TileConv1A
import proofs.«167438_j18270790877246_1_alg».proof.Proof.TileNorm1A
import proofs.«167438_j18270790877246_1_alg».proof.Proof.TileConv2A
import proofs.«167438_j18270790877246_1_alg».proof.Proof.TileNorm2A
import Idealize.ShloMosaic.Lib.StableHlo.Run
import Idealize.ShloMosaic.Lib.Pipeline.Value

set_option maxRecDepth 16384

noncomputable section

namespace Cert.Proof.Chain

open Cert.KernelIdeal Cert.KernelIdeal.Gen Cert.KernelIdeal.Hand Cert.KernelIdeal.Tiles
open Cert.ReferenceIdeal.Layers Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- An argument array at launch. -/
abbrev A (r : Ref sig .tc) := m ((c : Thread nD τ).loc r)

/-! ## The first graph's stages, of the argument arrays -/

def h1A : FB Cert.ReferenceIdeal.S100000x64 :=
  hostConv6 (A m c main_arg0) (agg6 (A m c main_arg0) (A m c main_arg1)) (A m c main_arg8) (A m c main_arg9) (A m c main_arg10) (A m c main_arg11)
def x1A : FB Cert.ReferenceIdeal.S100000x64 := hostNorm (h1A m c) (A m c main_arg2) (A m c main_arg12) (A m c main_arg13)
def h2A : FB Cert.ReferenceIdeal.S100000x64 :=
  hostConv64 (x1A m c) (agg64 (x1A m c) (A m c main_arg1)) (A m c main_arg14) (A m c main_arg15) (A m c main_arg16) (A m c main_arg17)
def x2A : FB Cert.ReferenceIdeal.S100000x64 := hostNorm (h2A m c) (A m c main_arg2) (A m c main_arg18) (A m c main_arg19)
def e1 : FB Cert.ReferenceIdeal.S1024x64 := embOf (x2A m c) (A m c main_arg2)

/-! ## Reading the stretches -/

set_option maxRecDepth 8192 in
set_option maxHeartbeats 2000000 in
theorem rd0_agg : bnd1 m c (no_index (Proc.devRef .tc main_v13)) = agg6 (A m c main_arg0) (A m c main_arg1) := by
  show StableHlo.after hostOps0 (fun b => m (c, b)) (no_index (Proc.devRef .tc main_v13)) = _
  simp only [hostOps0]
  after_results_simp
  rfl

set_option maxRecDepth 8192 in
set_option maxHeartbeats 2000000 in
theorem rd0_src : bnd1 m c (no_index (Proc.devRef .tc main_v1)) = srcRaw (A m c main_arg1) := by
  show StableHlo.after hostOps0 (fun b => m (c, b)) (no_index (Proc.devRef .tc main_v1)) = _
  simp only [hostOps0]
  after_results_simp
  rfl

set_option maxRecDepth 8192 in
set_option maxHeartbeats 2000000 in
theorem rd0_dst : bnd1 m c (no_index (Proc.devRef .tc main_v3)) = dstRaw (A m c main_arg1) := by
  show StableHlo.after hostOps0 (fun b => m (c, b)) (no_index (Proc.devRef .tc main_v3)) = _
  simp only [hostOps0]
  after_results_simp
  rfl

set_option maxRecDepth 8192 in
set_option maxHeartbeats 2000000 in
theorem rd1_mean : bnd3 m c (no_index (Proc.devRef .tc main_v51))
    = shapeCast S100000x1 (nodeOf (segMean (bnd2 m c (Proc.devRef .tc main_v14)) (bnd2 m c (Proc.devRef .tc main_arg2))) (bnd2 m c (Proc.devRef .tc main_arg2))) shapeCasts_S100000_S100000x1 := by
  show StableHlo.after hostOps1 (bnd2 m c) (no_index (Proc.devRef .tc main_v51)) = _
  simp only [hostOps1]
  after_results_simp
  rfl

set_option maxRecDepth 8192 in
set_option maxHeartbeats 2000000 in
theorem rd1_var : bnd3 m c (no_index (Proc.devRef .tc main_v52))
    = shapeCast S100000x1 (nodeOf (segVar (bnd2 m c (Proc.devRef .tc main_v14)) (bnd2 m c (Proc.devRef .tc main_arg2))) (bnd2 m c (Proc.devRef .tc main_arg2))) shapeCasts_S100000_S100000x1 := by
  show StableHlo.after hostOps1 (bnd2 m c) (no_index (Proc.devRef .tc main_v52)) = _
  simp only [hostOps1]
  after_results_simp
  rfl

set_option maxRecDepth 8192 in
set_option maxHeartbeats 2000000 in
theorem rd2_agg : bnd5 m c (no_index (Proc.devRef .tc main_v63))
    = agg64r (bnd4 m c (Proc.devRef .tc main_v53)) (bnd4 m c (Proc.devRef .tc main_v1)) (bnd4 m c (Proc.devRef .tc main_v3)) := by
  show StableHlo.after hostOps2 (bnd4 m c) (no_index (Proc.devRef .tc main_v63)) = _
  simp only [hostOps2]
  after_results_simp
  rfl

set_option maxRecDepth 8192 in
set_option maxHeartbeats 2000000 in
theorem rd3_mean : bnd7 m c (no_index (Proc.devRef .tc main_v101))
    = shapeCast S100000x1 (nodeOf (segMean (bnd6 m c (Proc.devRef .tc main_v64)) (bnd6 m c (Proc.devRef .tc main_arg2))) (bnd6 m c (Proc.devRef .tc main_arg2))) shapeCasts_S100000_S100000x1 := by
  show StableHlo.after hostOps3 (bnd6 m c) (no_index (Proc.devRef .tc main_v101)) = _
  simp only [hostOps3]
  after_results_simp
  rfl

set_option maxRecDepth 8192 in
set_option maxHeartbeats 2000000 in
theorem rd3_var : bnd7 m c (no_index (Proc.devRef .tc main_v102))
    = shapeCast S100000x1 (nodeOf (segVar (bnd6 m c (Proc.devRef .tc main_v64)) (bnd6 m c (Proc.devRef .tc main_arg2))) (bnd6 m c (Proc.devRef .tc main_arg2))) shapeCasts_S100000_S100000x1 := by
  show StableHlo.after hostOps3 (bnd6 m c) (no_index (Proc.devRef .tc main_v102)) = _
  simp only [hostOps3]
  after_results_simp
  rfl

set_option maxRecDepth 8192 in
set_option maxHeartbeats 2000000 in
theorem rd4_emb : bnd9 m c (no_index (Proc.devRef .tc main_v116))
    = embOf (bnd8 m c (Proc.devRef .tc main_v103)) (bnd8 m c (Proc.devRef .tc main_arg2)) := by
  show StableHlo.after hostOps4 (bnd8 m c) (no_index (Proc.devRef .tc main_v116)) = _
  simp only [hostOps4]
  after_results_simp
  rfl

/-! ## The stages -/

/-- After the first call: the first convolution layer's output. -/
theorem st0 : bnd2 m c (Proc.devRef .tc main_v14) = h1A m c := by
  refine (bnd2_arr m c 6).trans ((array0 (ent0 m) c).trans ?_)
  show convArr (N := 100000) (K := 6) (bnd1 m c (Proc.devRef .tc main_arg0)) (bnd1 m c (Proc.devRef .tc main_v13))
    (bnd1 m c (Proc.devRef .tc main_arg8)) (bnd1 m c (Proc.devRef .tc main_arg9)) (bnd1 m c (Proc.devRef .tc main_arg10))
    (bnd1 m c (Proc.devRef .tc main_arg11)) = _
  rw [rd0_agg m c, bnd1_unw m c main_arg0 (by decide), bnd1_unw m c main_arg8 (by decide), bnd1_unw m c main_arg9 (by decide),
    bnd1_unw m c main_arg10 (by decide), bnd1_unw m c main_arg11 (by decide)]
  exact (hostConv6_eq _ _ _ _ _ _).symm

/-- After the second call: the first normalization layer's output. -/
theorem st1 : bnd4 m c (Proc.devRef .tc main_v53) = x1A m c := by
  refine (bnd4_arr m c 5).trans ((array1 (ent1 m) c).trans ?_)
  show normArr (N := 100000) (bnd3 m c (Proc.devRef .tc main_v14)) (bnd3 m c (Proc.devRef .tc main_v51)) (bnd3 m c (Proc.devRef .tc main_v52))
    (bnd3 m c (Proc.devRef .tc main_arg12)) (bnd3 m c (Proc.devRef .tc main_arg13)) = _
  rw [rd1_mean m c, rd1_var m c,
    show bnd3 m c (Proc.devRef .tc main_v14) = bnd2 m c (Proc.devRef .tc main_v14) from
      StableHlo.after_of_writes_sub hostOps1 _ hostOps1_writes (by decide),
    bnd3_unw m c main_arg12 (by decide) (by decide) (by decide), bnd3_unw m c main_arg13 (by decide) (by decide) (by decide),
    bnd2_unw m c main_arg2 (by decide) (by decide), st0 m c]
  exact hostNorm_eq _ _ _ _ _

/-- The edge list's two columns, sliced by the first stretch, still hold at the third stretch. -/
theorem src_at4 : bnd4 m c (Proc.devRef .tc main_v1) = srcRaw (A m c main_arg1) :=
  (bnd4_keep m c main_v1 (by decide)).trans <|
  (StableHlo.after_of_writes_sub hostOps1 _ hostOps1_writes (by decide)).trans <|
  (bnd2_keep m c main_v1 (by decide)).trans (rd0_src m c)
theorem dst_at4 : bnd4 m c (Proc.devRef .tc main_v3) = dstRaw (A m c main_arg1) :=
  (bnd4_keep m c main_v3 (by decide)).trans <|
  (StableHlo.after_of_writes_sub hostOps1 _ hostOps1_writes (by decide)).trans <|
  (bnd2_keep m c main_v3 (by decide)).trans (rd0_dst m c)

/-- After the third call: the second convolution layer's output. -/
theorem st2 : bnd6 m c (Proc.devRef .tc main_v64) = h2A m c := by
  refine (bnd6_arr m c 6).trans ((array2 (ent2 m) c).trans ?_)
  show convArr (N := 100000) (K := 64) (bnd5 m c (Proc.devRef .tc main_v53)) (bnd5 m c (Proc.devRef .tc main_v63))
    (bnd5 m c (Proc.devRef .tc main_arg14)) (bnd5 m c (Proc.devRef .tc main_arg15)) (bnd5 m c (Proc.devRef .tc main_arg16))
    (bnd5 m c (Proc.devRef .tc main_arg17)) = _
  rw [rd2_agg m c,
    show bnd5 m c (Proc.devRef .tc main_v53) = bnd4 m c (Proc.devRef .tc main_v53) from
      StableHlo.after_of_writes_sub hostOps2 _ hostOps2_writes (by decide),
    bnd5_unw m c main_arg14 (by decide) (by decide) (by decide) (by decide) (by decide),
    bnd5_unw m c main_arg15 (by decide) (by decide) (by decide) (by decide) (by decide),
    bnd5_unw m c main_arg16 (by decide) (by decide) (by decide) (by decide) (by decide),
    bnd5_unw m c main_arg17 (by decide) (by decide) (by decide) (by decide) (by decide),
    src_at4 m c, dst_at4 m c, st1 m c]
  exact (hostConv64_eq _ _ _ _ _ _).symm

/-- After the fourth call: the second normalization layer's output. -/
theorem st3 : bnd8 m c (Proc.devRef .tc main_v103) = x2A m c := by
  refine (bnd8_arr m c 5).trans ((array3 (ent3 m) c).trans ?_)
  show normArr (N := 100000) (bnd7 m c (Proc.devRef .tc main_v64)) (bnd7 m c (Proc.devRef .tc main_v101)) (bnd7 m c (Proc.devRef .tc main_v102))
    (bnd7 m c (Proc.devRef .tc main_arg18)) (bnd7 m c (Proc.devRef .tc main_arg19)) = _
  rw [rd3_mean m c, rd3_var m c,
    show bnd7 m c (Proc.devRef .tc main_v64) = bnd6 m c (Proc.devRef .tc main_v64) from
      StableHlo.after_of_writes_sub hostOps3 _ hostOps3_writes (by decide),
    bnd7_unw m c main_arg18 (by decide) (by decide) (by decide) (by decide) (by decide) (by decide) (by decide),
    bnd7_unw m c main_arg19 (by decide) (by decide) (by decide) (by decide) (by decide) (by decide) (by decide),
    bnd6_unw m c main_arg2 (by decide) (by decide) (by decide) (by decide) (by decide) (by decide), st2 m c]
  exact hostNorm_eq _ _ _ _ _

/-- After the fifth stretch: the first graph's pooled embedding. -/
theorem st4_emb : bnd9 m c (Proc.devRef .tc main_v116) = e1 m c := by
  rw [rd4_emb m c, st3 m c,
    bnd8_unw m c main_arg2 (by decide) (by decide) (by decide) (by decide) (by decide) (by decide) (by decide) (by decide)]
  rfl

end Cert.Proof.Chain

end
-- ==== Proof.TileConv1B.lean ====
/-
  Graph B's first convolution as ONE array. The fifty grid points each write back a block of 2000 rows; block t of a
  feature window is rows 2000 t ... 2000 t + 1999 of its array, every weight window's one block is its whole array.
  So what point t writes back is block t of the layer's whole-array function of the arrays as the region finds them,
  the fifty blocks cover the output array, and the output array ends at that function.
-/
import proofs.«167438_j18270790877246_1_alg».proof.Proof.KI.Conv1B
import proofs.«167438_j18270790877246_1_alg».proof.Proof.ConvPay
import proofs.«167438_j18270790877246_1_alg».proof.Proof.Spec
import Idealize.ShloMosaic.Lib.Pipeline.Value
import Idealize.ShloMosaic.Lib.Tactic

set_option maxRecDepth 16384

noncomputable section

open scoped BigOperators

namespace Cert.KernelIdeal.Tiles

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz2_4 : (![0, 0] : Fin 2 → Nat) = fun _ => 0 := funext fun a => by fin_cases a <;> rfl
theorem hz1_4 : (![0] : Fin 1 → Nat) = fun _ => 0 := funext fun a => by fin_cases a <;> rfl

/-- The printed index maps, decided over the grid: the two feature windows and the output move with the point along the
    rows; the four weight windows stay. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

theorem lt50_4 (t : Fin cfg4.N) : t.val < 50 := lt_of_lt_of_eq t.isLt N_4

/-! ## The windows' blocks as parts of their arrays -/

theorem blk4_0 (c : Dev nD) (t : Fin cfg4.N) (p : Fin 2000) (j : Fin 6) (P : Fin 100000) (hP : P.val = t.val * 2000 + p.val) :
    (iblk4 V c 0 t : Vec Ideal S2000x6 .f32) (ix2 p j) = (V c main_arg3 : S100000x6.Idx → Ideal .f32) (ix2 P j) := by
  obtain ⟨e0, e1, -⟩ := idx4 t
  unfold iblk4
  rw [View.read_apply]
  show V c main_arg3 _ = V c main_arg3 _
  congr 1
  funext a
  apply Fin.ext
  match a with
  | ⟨0, _⟩ => show win4_0.index t 0 * 2000 + 1 * p.val = P.val; rw [e0, hP]; omega
  | ⟨1, _⟩ => show win4_0.index t 1 * 6 + 1 * j.val = j.val; rw [e1]; omega

theorem blk4_1 (c : Dev nD) (t : Fin cfg4.N) (p : Fin 2000) (j : Fin 6) (P : Fin 100000) (hP : P.val = t.val * 2000 + p.val) :
    (iblk4 V c 1 t : Vec Ideal S2000x6 .f32) (ix2 p j) = (V c main_v130 : S100000x6.Idx → Ideal .f32) (ix2 P j) := by
  obtain ⟨-, -, e0, e1, -⟩ := idx4 t
  unfold iblk4
  rw [View.read_apply]
  show V c main_v130 _ = V c main_v130 _
  congr 1
  funext a
  apply Fin.ext
  match a with
  | ⟨0, _⟩ => show win4_1.index t 0 * 2000 + 1 * p.val = P.val; rw [e0, hP]; omega
  | ⟨1, _⟩ => show win4_1.index t 1 * 6 + 1 * j.val = j.val; rw [e1]; omega

theorem blk4_2 (c : Dev nD) (t : Fin cfg4.N) :
    (iblk4 V c 2 t : Vec Ideal S6x64 .f32) = (V c main_arg8 : S6x64.Idx → Ideal .f32) := by
  obtain ⟨-, -, -, -, e0, e1, -⟩ := idx4 t
  funext y
  unfold iblk4
  rw [View.read_apply]
  show V c main_arg8 _ = V c main_arg8 y
  congr 1
  funext a
  apply Fin.ext
  match a with
  | ⟨0, _⟩ => show win4_2.index t 0 * 6 + 1 * (y 0).val = (y 0).val; rw [e0]; omega
  | ⟨1, _⟩ => show win4_2.index t 1 * 64 + 1 * (y 1).val = (y 1).val; rw [e1]; omega

theorem blk4_3 (c : Dev nD) (t : Fin cfg4.N) :
    (iblk4 V c 3 t : Vec Ideal S64 .f32) = (V c main_arg9 : S64.Idx → Ideal .f32) := by
  obtain ⟨-, -, -, -, -, -, e0, -⟩ := idx4 t
  funext y
  unfold iblk4
  rw [View.read_apply]
  show V c main_arg9 _ = V c main_arg9 y
  congr 1
  funext a
  apply Fin.ext
  match a with
  | ⟨0, _⟩ => show win4_3.index t 0 * 64 + 1 * (y 0).val = (y 0).val; rw [e0]; omega

theorem blk4_4 (c : Dev nD) (t : Fin cfg4.N) :
    (iblk4 V c 4 t : Vec Ideal S64x64 .f32) = (V c main_arg10 : S64x64.Idx → Ideal .f32) := by
  obtain ⟨-, -, -, -, -, -, -, e0, e1, -⟩ := idx4 t
  funext y
  unfold iblk4
  rw [View.read_apply]
  show V c main_arg10 _ = V c main_arg10 y
  congr 1
  funext a
  apply Fin.ext
  match a with
  | ⟨0, _⟩ => show win4_4.index t 0 * 64 + 1 * (y 0).val = (y 0).val; rw [e0]; omega
  | ⟨1, _⟩ => show win4_4.index t 1 * 64 + 1 * (y 1).val = (y 1).val; rw [e1]; omega

theorem blk4_5 (c : Dev nD) (t : Fin cfg4.N) :
    (iblk4 V c 5 t : Vec Ideal S64 .f32) = (V c main_arg11 : S64.Idx → Ideal .f32) := by
  obtain ⟨-, -, -, -, -, -, -, -, -, e0, -⟩ := idx4 t
  funext y
  unfold iblk4
  rw [View.read_apply]
  show V c main_arg11 _ = V c main_arg11 y
  congr 1
  funext a
  apply Fin.ext
  match a with
  | ⟨0, _⟩ => show win4_5.index t 0 * 64 + 1 * (y 0).val = (y 0).val; rw [e0]; omega

/-! ## What a point writes back, the cover, the array -/

/-- The layer's whole-array function of the arrays as the region finds them. -/
abbrev whole4 (c : Dev nD) : FVec Ideal S100000x64 .f32 :=
  convArr (N := 100000) (K := 6) (V c main_arg3) (V c main_v130) (V c main_arg8) (V c main_arg9) (V c main_arg10) (V c main_arg11)

/-- WHAT POINT t WRITES BACK is block t of `whole4`. -/
theorem flushed4 (c : Dev nD) (t : Fin cfg4.N) :
    (dat4 V c).flushed 6 t = ((cfg4.win 6).blk t).view.read (Elt Ideal) (whole4 V c) := by
  show (cfg4.win 6).cut (grid4.coords t) ((dat4 V c).after 6 t) = _
  rw [after4_6]
  unfold out4_6
  rw [View.canon_unit_zero hz2_4]
  simp only [View.ld_unit_zero (S := S2000x6) hz2_4, View.ld_unit_zero (S := S6x64) hz2_4, View.ld_unit_zero (S := S64) hz1_4,
    View.ld_unit_zero (S := S64x64) hz2_4]
  obtain ⟨-, -, -, -, -, -, -, -, -, -, e0, e1⟩ := idx4 t
  have h50 := lt50_4 t
  funext y
  obtain ⟨p, q, rfl⟩ : ∃ (p : Fin 2000) (q : Fin 64), y = ix2 p q := ⟨y 0, y 1, eq_ix2 y⟩
  have hP : t.val * 2000 + p.val < 100000 := by have := p.isLt; omega
  show k4_pay1 (iblk4 V c 0 t) (iblk4 V c 1 t) (iblk4 V c 2 t) (iblk4 V c 3 t) (iblk4 V c 4 t) (iblk4 V c 5 t) (ix2 p q)
    = whole4 V c (((cfg4.win 6).blk t).view.emb (ix2 p q))
  have hemb : ((cfg4.win 6).blk t).view.emb (ix2 p q) = (ix2 (⟨t.val * 2000 + p.val, hP⟩ : Fin 100000) q : S100000x64.Idx) := by
    funext a
    apply Fin.ext
    match a with
    | ⟨0, _⟩ => show win4_6.index t 0 * 2000 + 1 * p.val = t.val * 2000 + p.val; rw [e0]; omega
    | ⟨1, _⟩ => show win4_6.index t 1 * 64 + 1 * q.val = q.val; rw [e1]; omega
  rw [hemb, Cert.Proof.ConvPay.k4_pay1_eq]
  refine (Cert.Proof.ConvPay.k0_pay1_apply _ _ _ _ _ _ p q).trans ?_
  rw [blk4_2 V c t, blk4_3 V c t, blk4_4 V c t, blk4_5 V c t]
  show convEntry _ _ _ _ _ _ q = convEntry _ _ _ _ _ _ q
  congr 1 <;> funext j
  · exact blk4_0 V c t p j _ rfl
  · exact blk4_1 V c t p j _ rfl

/-- An index of the output array is in point t's block iff each coordinate is in the block's range on its axis. -/
theorem mem_blk4 (t : Fin cfg4.N) (i : S100000x64.Idx) :
    i ∈ ((cfg4.win 6).blk t).view.set ↔ ∀ a : Fin 2, win4_6.index t a * S2000x64.size a ≤ (i a).val ∧ (i a).val < win4_6.index t a * S2000x64.size a + S2000x64.size a := by
  show i ∈ ((View.whole main_v131).slice (win4_6.rect t)).set ↔ _
  rw [View.set_slice_whole, Rect.mem_set_unit]
  exact Iff.rfl

/-- Every index of the output array is in the block of the point its row falls in. -/
theorem cover4 (i : S100000x64.Idx) :
    ∃ t : Fin cfg4.N, (cfg4.win 6).flush t = true ∧ i ∈ ((cfg4.win 6).blk t).view.set := by
  have hi0 : (i 0).val < 100000 := idx2_lt0 i
  have hi1 : (i 1).val < 64 := idx2_lt1 i
  have ht : (i 0).val / 2000 < cfg4.N := by rw [show cfg4.N = 50 from N_4]; omega
  obtain ⟨-, -, -, -, -, -, -, -, -, -, e0, e1⟩ := idx4 ⟨(i 0).val / 2000, ht⟩
  refine ⟨⟨(i 0).val / 2000, ht⟩, flush4_6 _, ?_⟩
  rw [mem_blk4]
  intro a
  match a with
  | ⟨0, _⟩ =>
    show win4_6.index ⟨(i 0).val / 2000, ht⟩ 0 * 2000 ≤ (i 0).val ∧ (i 0).val < win4_6.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win4_6.index ⟨(i 0).val / 2000, ht⟩ 1 * 64 ≤ (i 1).val ∧ (i 1).val < win4_6.index ⟨(i 0).val / 2000, ht⟩ 1 * 64 + 64
    rw [e1]; omega

/-- THE OUTPUT ARRAY after the call: the layer's whole-array function of the arrays as the region finds them. -/
theorem array4 (c : Dev nD) : (dat4 V c).arrAt 6 cfg4.N = whole4 V c :=
  (dat4 V c).arrAt_eq_of_cover 6 (whole4 V c) (fun t _ => flushed4 V c t) (cover4)

end Cert.KernelIdeal.Tiles

end
-- ==== Proof.TileNorm1B.lean ====
/-
  Graph B's first normalization as ONE array. The fifty grid points each write back a block of 2000 rows; block t of the
  feature window and of the mean and variance column windows is rows 2000 t ... 2000 t + 1999 of its array, the scale's
  and the shift's one block is the whole vector. So what point t writes back is block t of the layer's whole-array
  function of the arrays as the region finds them, the fifty blocks cover the output array, and the output array ends
  at that function.
-/
import proofs.«167438_j18270790877246_1_alg».proof.Proof.KI.Norm1B
import proofs.«167438_j18270790877246_1_alg».proof.Proof.NormPay
import proofs.«167438_j18270790877246_1_alg».proof.Proof.Spec
import Idealize.ShloMosaic.Lib.Pipeline.Value
import Idealize.ShloMosaic.Lib.Tactic

set_option maxRecDepth 16384

noncomputable section

open scoped BigOperators

namespace Cert.KernelIdeal.Tiles

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz2_5 : (![0, 0] : Fin 2 → Nat) = fun _ => 0 := funext fun a => by fin_cases a <;> rfl
theorem hz1_5 : (![0] : Fin 1 → Nat) = fun _ => 0 := funext fun a => by fin_cases a <;> rfl

/-- The printed index maps, decided over the grid: the feature window, the two column windows and the output move with the
    point along the rows; the scale and shift windows stay. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 1) = 0
    ∧ win5_5.index t (0 : Fin 2) = t.val ∧ win5_5.index t (1 : Fin 2) = 0 :=
  (by decide +kernel : ∀ t : Fin grid5.N, _)

theorem lt50_5 (t : Fin cfg5.N) : t.val < 50 := lt_of_lt_of_eq t.isLt N_5

/-! ## The windows' blocks as parts of their arrays -/

theorem blk5_0 (c : Dev nD) (t : Fin cfg5.N) (p : Fin 2000) (j : Fin 64) (P : Fin 100000) (hP : P.val = t.val * 2000 + p.val) :
    (iblk5 V c 0 t : Vec Ideal S2000x64 .f32) (ix2 p j) = (V c main_v131 : S100000x64.Idx → Ideal .f32) (ix2 P j) := by
  obtain ⟨e0, e1, -⟩ := idx5 t
  unfold iblk5
  rw [View.read_apply]
  show V c main_v131 _ = V c main_v131 _
  congr 1
  funext a
  apply Fin.ext
  match a with
  | ⟨0, _⟩ => show win5_0.index t 0 * 2000 + 1 * p.val = P.val; rw [e0, hP]; omega
  | ⟨1, _⟩ => show win5_0.index t 1 * 64 + 1 * j.val = j.val; rw [e1]; omega

theorem blk5_1 (c : Dev nD) (t : Fin cfg5.N) (p : Fin 2000) (P : Fin 100000) (hP : P.val = t.val * 2000 + p.val) :
    (iblk5 V c 1 t : Vec Ideal S2000x1 .f32) (ix2 p (0 : Fin 1)) = (V c main_v168 : S100000x1.Idx → Ideal .f32) (ix2 P (0 : Fin 1)) := by
  obtain ⟨-, -, e0, e1, -⟩ := idx5 t
  unfold iblk5
  rw [View.read_apply]
  show V c main_v168 _ = V c main_v168 _
  congr 1
  funext a
  apply Fin.ext
  match a with
  | ⟨0, _⟩ => show win5_1.index t 0 * 2000 + 1 * p.val = P.val; rw [e0, hP]; omega
  | ⟨1, _⟩ => show win5_1.index t 1 * 1 + 1 * 0 = 0; rw [e1]

theorem blk5_2 (c : Dev nD) (t : Fin cfg5.N) (p : Fin 2000) (P : Fin 100000) (hP : P.val = t.val * 2000 + p.val) :
    (iblk5 V c 2 t : Vec Ideal S2000x1 .f32) (ix2 p (0 : Fin 1)) = (V c main_v169 : S100000x1.Idx → Ideal .f32) (ix2 P (0 : Fin 1)) := by
  obtain ⟨-, -, -, -, e0, e1, -⟩ := idx5 t
  unfold iblk5
  rw [View.read_apply]
  show V c main_v169 _ = V c main_v169 _
  congr 1
  funext a
  apply Fin.ext
  match a with
  | ⟨0, _⟩ => show win5_2.index t 0 * 2000 + 1 * p.val = P.val; rw [e0, hP]; omega
  | ⟨1, _⟩ => show win5_2.index t 1 * 1 + 1 * 0 = 0; rw [e1]

theorem blk5_3 (c : Dev nD) (t : Fin cfg5.N) :
    (iblk5 V c 3 t : Vec Ideal S64 .f32) = (V c main_arg12 : S64.Idx → Ideal .f32) := by
  obtain ⟨-, -, -, -, -, -, e0, -⟩ := idx5 t
  funext y
  unfold iblk5
  rw [View.read_apply]
  show V c main_arg12 _ = V c main_arg12 y
  congr 1
  funext a
  apply Fin.ext
  match a with
  | ⟨0, _⟩ => show win5_3.index t 0 * 64 + 1 * (y 0).val = (y 0).val; rw [e0]; omega

theorem blk5_4 (c : Dev nD) (t : Fin cfg5.N) :
    (iblk5 V c 4 t : Vec Ideal S64 .f32) = (V c main_arg13 : S64.Idx → Ideal .f32) := by
  obtain ⟨-, -, -, -, -, -, -, e0, -⟩ := idx5 t
  funext y
  unfold iblk5
  rw [View.read_apply]
  show V c main_arg13 _ = V c main_arg13 y
  congr 1
  funext a
  apply Fin.ext
  match a with
  | ⟨0, _⟩ => show win5_4.index t 0 * 64 + 1 * (y 0).val = (y 0).val; rw [e0]; omega

/-! ## What a point writes back, the cover, the array -/

/-- The layer's whole-array function of the arrays as the region finds them. -/
abbrev whole5 (c : Dev nD) : FVec Ideal S100000x64 .f32 :=
  normArr (N := 100000) (V c main_v131) (V c main_v168) (V c main_v169) (V c main_arg12) (V c main_arg13)

/-- WHAT POINT t WRITES BACK is block t of `whole5`. -/
theorem flushed5 (c : Dev nD) (t : Fin cfg5.N) :
    (dat5 V c).flushed 5 t = ((cfg5.win 5).blk t).view.read (Elt Ideal) (whole5 V c) := by
  show (cfg5.win 5).cut (grid5.coords t) ((dat5 V c).after 5 t) = _
  rw [after5_5]
  unfold out5_5
  rw [View.canon_unit_zero hz2_5]
  simp only [View.ld_unit_zero (S := S2000x64) hz2_5, View.ld_unit_zero (S := S2000x1) hz2_5, View.ld_unit_zero (S := S64) hz1_5]
  obtain ⟨-, -, -, -, -, -, -, -, e0, e1⟩ := idx5 t
  have h50 := lt50_5 t
  funext y
  obtain ⟨p, q, rfl⟩ : ∃ (p : Fin 2000) (q : Fin 64), y = ix2 p q := ⟨y 0, y 1, eq_ix2 y⟩
  have hP : t.val * 2000 + p.val < 100000 := by have := p.isLt; omega
  show k5_pay1 (iblk5 V c 0 t) (iblk5 V c 1 t) (iblk5 V c 2 t) (iblk5 V c 3 t) (iblk5 V c 4 t) (ix2 p q)
    = whole5 V c (((cfg5.win 5).blk t).view.emb (ix2 p q))
  have hemb : ((cfg5.win 5).blk t).view.emb (ix2 p q) = (ix2 (⟨t.val * 2000 + p.val, hP⟩ : Fin 100000) q : S100000x64.Idx) := by
    funext a
    apply Fin.ext
    match a with
    | ⟨0, _⟩ => show win5_5.index t 0 * 2000 + 1 * p.val = t.val * 2000 + p.val; rw [e0]; omega
    | ⟨1, _⟩ => show win5_5.index t 1 * 64 + 1 * q.val = q.val; rw [e1]; omega
  rw [hemb, Cert.Proof.NormPay.k5_pay1_eq]
  refine (Cert.Proof.NormPay.k1_pay1_apply _ _ _ _ _ p q).trans ?_
  rw [blk5_3 V c t, blk5_4 V c t, blk5_0 V c t p q ⟨t.val * 2000 + p.val, hP⟩ rfl,
    blk5_1 V c t p ⟨t.val * 2000 + p.val, hP⟩ rfl, blk5_2 V c t p ⟨t.val * 2000 + p.val, hP⟩ rfl]
  rfl

/-- An index of the output array is in point t's block iff each coordinate is in the block's range on its axis. -/
theorem mem_blk5 (t : Fin cfg5.N) (i : S100000x64.Idx) :
    i ∈ ((cfg5.win 5).blk t).view.set ↔ ∀ a : Fin 2, win5_5.index t a * S2000x64.size a ≤ (i a).val ∧ (i a).val < win5_5.index t a * S2000x64.size a + S2000x64.size a := by
  show i ∈ ((View.whole main_v170).slice (win5_5.rect t)).set ↔ _
  rw [View.set_slice_whole, Rect.mem_set_unit]
  exact Iff.rfl

/-- Every index of the output array is in the block of the point its row falls in. -/
theorem cover5 (i : S100000x64.Idx) :
    ∃ t : Fin cfg5.N, (cfg5.win 5).flush t = true ∧ i ∈ ((cfg5.win 5).blk t).view.set := by
  have hi0 : (i 0).val < 100000 := idx2_lt0 i
  have hi1 : (i 1).val < 64 := idx2_lt1 i
  have ht : (i 0).val / 2000 < cfg5.N := by rw [show cfg5.N = 50 from N_5]; omega
  obtain ⟨-, -, -, -, -, -, -, -, e0, e1⟩ := idx5 ⟨(i 0).val / 2000, ht⟩
  refine ⟨⟨(i 0).val / 2000, ht⟩, flush5_5 _, ?_⟩
  rw [mem_blk5]
  intro a
  match a with
  | ⟨0, _⟩ =>
    show win5_5.index ⟨(i 0).val / 2000, ht⟩ 0 * 2000 ≤ (i 0).val ∧ (i 0).val < win5_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win5_5.index ⟨(i 0).val / 2000, ht⟩ 1 * 64 ≤ (i 1).val ∧ (i 1).val < win5_5.index ⟨(i 0).val / 2000, ht⟩ 1 * 64 + 64
    rw [e1]; omega

/-- THE OUTPUT ARRAY after the call: the layer's whole-array function of the arrays as the region finds them. -/
theorem array5 (c : Dev nD) : (dat5 V c).arrAt 5 cfg5.N = whole5 V c :=
  (dat5 V c).arrAt_eq_of_cover 5 (whole5 V c) (fun t _ => flushed5 V c t) (cover5)

end Cert.KernelIdeal.Tiles

end
-- ==== Proof.TileConv2B.lean ====
/-
  Graph B's second convolution as ONE array. The fifty grid points each write back a block of 2000 rows; block t of a
  feature window is rows 2000 t ... 2000 t + 1999 of its array, every weight window's one block is its whole array.
  So what point t writes back is block t of the layer's whole-array function of the arrays as the region finds them,
  the fifty blocks cover the output array, and the output array ends at that function.
-/
import proofs.«167438_j18270790877246_1_alg».proof.Proof.KI.Conv2B
import proofs.«167438_j18270790877246_1_alg».proof.Proof.ConvPay
import proofs.«167438_j18270790877246_1_alg».proof.Proof.Spec
import Idealize.ShloMosaic.Lib.Pipeline.Value
import Idealize.ShloMosaic.Lib.Tactic

set_option maxRecDepth 16384

noncomputable section

open scoped BigOperators

namespace Cert.KernelIdeal.Tiles

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz2_6 : (![0, 0] : Fin 2 → Nat) = fun _ => 0 := funext fun a => by fin_cases a <;> rfl
theorem hz1_6 : (![0] : Fin 1 → Nat) = fun _ => 0 := funext fun a => by fin_cases a <;> rfl

/-- The printed index maps, decided over the grid: the two feature windows and the output move with the point along the
    rows; the four weight windows stay. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 1) = 0
    ∧ win6_4.index t (0 : Fin 2) = 0 ∧ win6_4.index t (1 : Fin 2) = 0
    ∧ win6_5.index t (0 : Fin 1) = 0
    ∧ win6_6.index t (0 : Fin 2) = t.val ∧ win6_6.index t (1 : Fin 2) = 0 :=
  (by decide +kernel : ∀ t : Fin grid6.N, _)

theorem lt50_6 (t : Fin cfg6.N) : t.val < 50 := lt_of_lt_of_eq t.isLt N_6

/-! ## The windows' blocks as parts of their arrays -/

theorem blk6_0 (c : Dev nD) (t : Fin cfg6.N) (p : Fin 2000) (j : Fin 64) (P : Fin 100000) (hP : P.val = t.val * 2000 + p.val) :
    (iblk6 V c 0 t : Vec Ideal S2000x64 .f32) (ix2 p j) = (V c main_v170 : S100000x64.Idx → Ideal .f32) (ix2 P j) := by
  obtain ⟨e0, e1, -⟩ := idx6 t
  unfold iblk6
  rw [View.read_apply]
  show V c main_v170 _ = V c main_v170 _
  congr 1
  funext a
  apply Fin.ext
  match a with
  | ⟨0, _⟩ => show win6_0.index t 0 * 2000 + 1 * p.val = P.val; rw [e0, hP]; omega
  | ⟨1, _⟩ => show win6_0.index t 1 * 64 + 1 * j.val = j.val; rw [e1]; omega

theorem blk6_1 (c : Dev nD) (t : Fin cfg6.N) (p : Fin 2000) (j : Fin 64) (P : Fin 100000) (hP : P.val = t.val * 2000 + p.val) :
    (iblk6 V c 1 t : Vec Ideal S2000x64 .f32) (ix2 p j) = (V c main_v180 : S100000x64.Idx → Ideal .f32) (ix2 P j) := by
  obtain ⟨-, -, e0, e1, -⟩ := idx6 t
  unfold iblk6
  rw [View.read_apply]
  show V c main_v180 _ = V c main_v180 _
  congr 1
  funext a
  apply Fin.ext
  match a with
  | ⟨0, _⟩ => show win6_1.index t 0 * 2000 + 1 * p.val = P.val; rw [e0, hP]; omega
  | ⟨1, _⟩ => show win6_1.index t 1 * 64 + 1 * j.val = j.val; rw [e1]; omega

theorem blk6_2 (c : Dev nD) (t : Fin cfg6.N) :
    (iblk6 V c 2 t : Vec Ideal S64x64 .f32) = (V c main_arg14 : S64x64.Idx → Ideal .f32) := by
  obtain ⟨-, -, -, -, e0, e1, -⟩ := idx6 t
  funext y
  unfold iblk6
  rw [View.read_apply]
  show V c main_arg14 _ = V c main_arg14 y
  congr 1
  funext a
  apply Fin.ext
  match a with
  | ⟨0, _⟩ => show win6_2.index t 0 * 64 + 1 * (y 0).val = (y 0).val; rw [e0]; omega
  | ⟨1, _⟩ => show win6_2.index t 1 * 64 + 1 * (y 1).val = (y 1).val; rw [e1]; omega

theorem blk6_3 (c : Dev nD) (t : Fin cfg6.N) :
    (iblk6 V c 3 t : Vec Ideal S64 .f32) = (V c main_arg15 : S64.Idx → Ideal .f32) := by
  obtain ⟨-, -, -, -, -, -, e0, -⟩ := idx6 t
  funext y
  unfold iblk6
  rw [View.read_apply]
  show V c main_arg15 _ = V c main_arg15 y
  congr 1
  funext a
  apply Fin.ext
  match a with
  | ⟨0, _⟩ => show win6_3.index t 0 * 64 + 1 * (y 0).val = (y 0).val; rw [e0]; omega

theorem blk6_4 (c : Dev nD) (t : Fin cfg6.N) :
    (iblk6 V c 4 t : Vec Ideal S64x64 .f32) = (V c main_arg16 : S64x64.Idx → Ideal .f32) := by
  obtain ⟨-, -, -, -, -, -, -, e0, e1, -⟩ := idx6 t
  funext y
  unfold iblk6
  rw [View.read_apply]
  show V c main_arg16 _ = V c main_arg16 y
  congr 1
  funext a
  apply Fin.ext
  match a with
  | ⟨0, _⟩ => show win6_4.index t 0 * 64 + 1 * (y 0).val = (y 0).val; rw [e0]; omega
  | ⟨1, _⟩ => show win6_4.index t 1 * 64 + 1 * (y 1).val = (y 1).val; rw [e1]; omega

theorem blk6_5 (c : Dev nD) (t : Fin cfg6.N) :
    (iblk6 V c 5 t : Vec Ideal S64 .f32) = (V c main_arg17 : S64.Idx → Ideal .f32) := by
  obtain ⟨-, -, -, -, -, -, -, -, -, e0, -⟩ := idx6 t
  funext y
  unfold iblk6
  rw [View.read_apply]
  show V c main_arg17 _ = V c main_arg17 y
  congr 1
  funext a
  apply Fin.ext
  match a with
  | ⟨0, _⟩ => show win6_5.index t 0 * 64 + 1 * (y 0).val = (y 0).val; rw [e0]; omega

/-! ## What a point writes back, the cover, the array -/

/-- The layer's whole-array function of the arrays as the region finds them. -/
abbrev whole6 (c : Dev nD) : FVec Ideal S100000x64 .f32 :=
  convArr (N := 100000) (K := 64) (V c main_v170) (V c main_v180) (V c main_arg14) (V c main_arg15) (V c main_arg16) (V c main_arg17)

/-- WHAT POINT t WRITES BACK is block t of `whole6`. -/
theorem flushed6 (c : Dev nD) (t : Fin cfg6.N) :
    (dat6 V c).flushed 6 t = ((cfg6.win 6).blk t).view.read (Elt Ideal) (whole6 V c) := by
  show (cfg6.win 6).cut (grid6.coords t) ((dat6 V c).after 6 t) = _
  rw [after6_6]
  unfold out6_6
  rw [View.canon_unit_zero hz2_6]
  simp only [View.ld_unit_zero (S := S2000x64) hz2_6, View.ld_unit_zero (S := S64) hz1_6, View.ld_unit_zero (S := S64x64) hz2_6]
  obtain ⟨-, -, -, -, -, -, -, -, -, -, e0, e1⟩ := idx6 t
  have h50 := lt50_6 t
  funext y
  obtain ⟨p, q, rfl⟩ : ∃ (p : Fin 2000) (q : Fin 64), y = ix2 p q := ⟨y 0, y 1, eq_ix2 y⟩
  have hP : t.val * 2000 + p.val < 100000 := by have := p.isLt; omega
  show k6_pay1 (iblk6 V c 0 t) (iblk6 V c 1 t) (iblk6 V c 2 t) (iblk6 V c 3 t) (iblk6 V c 4 t) (iblk6 V c 5 t) (ix2 p q)
    = whole6 V c (((cfg6.win 6).blk t).view.emb (ix2 p q))
  have hemb : ((cfg6.win 6).blk t).view.emb (ix2 p q) = (ix2 (⟨t.val * 2000 + p.val, hP⟩ : Fin 100000) q : S100000x64.Idx) := by
    funext a
    apply Fin.ext
    match a with
    | ⟨0, _⟩ => show win6_6.index t 0 * 2000 + 1 * p.val = t.val * 2000 + p.val; rw [e0]; omega
    | ⟨1, _⟩ => show win6_6.index t 1 * 64 + 1 * q.val = q.val; rw [e1]; omega
  rw [hemb, Cert.Proof.ConvPay.k6_pay1_eq]
  refine (Cert.Proof.ConvPay.k2_pay1_apply _ _ _ _ _ _ p q).trans ?_
  rw [blk6_2 V c t, blk6_3 V c t, blk6_4 V c t, blk6_5 V c t]
  show convEntry _ _ _ _ _ _ q = convEntry _ _ _ _ _ _ q
  congr 1 <;> funext j
  · exact blk6_0 V c t p j _ rfl
  · exact blk6_1 V c t p j _ rfl

/-- An index of the output array is in point t's block iff each coordinate is in the block's range on its axis. -/
theorem mem_blk6 (t : Fin cfg6.N) (i : S100000x64.Idx) :
    i ∈ ((cfg6.win 6).blk t).view.set ↔ ∀ a : Fin 2, win6_6.index t a * S2000x64.size a ≤ (i a).val ∧ (i a).val < win6_6.index t a * S2000x64.size a + S2000x64.size a := by
  show i ∈ ((View.whole main_v181).slice (win6_6.rect t)).set ↔ _
  rw [View.set_slice_whole, Rect.mem_set_unit]
  exact Iff.rfl

/-- Every index of the output array is in the block of the point its row falls in. -/
theorem cover6 (i : S100000x64.Idx) :
    ∃ t : Fin cfg6.N, (cfg6.win 6).flush t = true ∧ i ∈ ((cfg6.win 6).blk t).view.set := by
  have hi0 : (i 0).val < 100000 := idx2_lt0 i
  have hi1 : (i 1).val < 64 := idx2_lt1 i
  have ht : (i 0).val / 2000 < cfg6.N := by rw [show cfg6.N = 50 from N_6]; omega
  obtain ⟨-, -, -, -, -, -, -, -, -, -, e0, e1⟩ := idx6 ⟨(i 0).val / 2000, ht⟩
  refine ⟨⟨(i 0).val / 2000, ht⟩, flush6_6 _, ?_⟩
  rw [mem_blk6]
  intro a
  match a with
  | ⟨0, _⟩ =>
    show win6_6.index ⟨(i 0).val / 2000, ht⟩ 0 * 2000 ≤ (i 0).val ∧ (i 0).val < win6_6.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win6_6.index ⟨(i 0).val / 2000, ht⟩ 1 * 64 ≤ (i 1).val ∧ (i 1).val < win6_6.index ⟨(i 0).val / 2000, ht⟩ 1 * 64 + 64
    rw [e1]; omega

/-- THE OUTPUT ARRAY after the call: the layer's whole-array function of the arrays as the region finds them. -/
theorem array6 (c : Dev nD) : (dat6 V c).arrAt 6 cfg6.N = whole6 V c :=
  (dat6 V c).arrAt_eq_of_cover 6 (whole6 V c) (fun t _ => flushed6 V c t) (cover6)

end Cert.KernelIdeal.Tiles

end
-- ==== Proof.TileNorm2B.lean ====
/-
  Graph B's second normalization as ONE array. The fifty grid points each write back a block of 2000 rows; block t of the
  feature window and of the mean and variance column windows is rows 2000 t ... 2000 t + 1999 of its array, the scale's
  and the shift's one block is the whole vector. So what point t writes back is block t of the layer's whole-array
  function of the arrays as the region finds them, the fifty blocks cover the output array, and the output array ends
  at that function.
-/
import proofs.«167438_j18270790877246_1_alg».proof.Proof.KI.Norm2B
import proofs.«167438_j18270790877246_1_alg».proof.Proof.NormPay
import proofs.«167438_j18270790877246_1_alg».proof.Proof.Spec
import Idealize.ShloMosaic.Lib.Pipeline.Value
import Idealize.ShloMosaic.Lib.Tactic

set_option maxRecDepth 16384

noncomputable section

open scoped BigOperators

namespace Cert.KernelIdeal.Tiles

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz2_7 : (![0, 0] : Fin 2 → Nat) = fun _ => 0 := funext fun a => by fin_cases a <;> rfl
theorem hz1_7 : (![0] : Fin 1 → Nat) = fun _ => 0 := funext fun a => by fin_cases a <;> rfl

/-- The printed index maps, decided over the grid: the feature window, the two column windows and the output move with the
    point along the rows; the scale and shift windows stay. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 1) = 0
    ∧ win7_4.index t (0 : Fin 1) = 0
    ∧ win7_5.index t (0 : Fin 2) = t.val ∧ win7_5.index t (1 : Fin 2) = 0 :=
  (by decide +kernel : ∀ t : Fin grid7.N, _)

theorem lt50_7 (t : Fin cfg7.N) : t.val < 50 := lt_of_lt_of_eq t.isLt N_7

/-! ## The windows' blocks as parts of their arrays -/

theorem blk7_0 (c : Dev nD) (t : Fin cfg7.N) (p : Fin 2000) (j : Fin 64) (P : Fin 100000) (hP : P.val = t.val * 2000 + p.val) :
    (iblk7 V c 0 t : Vec Ideal S2000x64 .f32) (ix2 p j) = (V c main_v181 : S100000x64.Idx → Ideal .f32) (ix2 P j) := by
  obtain ⟨e0, e1, -⟩ := idx7 t
  unfold iblk7
  rw [View.read_apply]
  show V c main_v181 _ = V c main_v181 _
  congr 1
  funext a
  apply Fin.ext
  match a with
  | ⟨0, _⟩ => show win7_0.index t 0 * 2000 + 1 * p.val = P.val; rw [e0, hP]; omega
  | ⟨1, _⟩ => show win7_0.index t 1 * 64 + 1 * j.val = j.val; rw [e1]; omega

theorem blk7_1 (c : Dev nD) (t : Fin cfg7.N) (p : Fin 2000) (P : Fin 100000) (hP : P.val = t.val * 2000 + p.val) :
    (iblk7 V c 1 t : Vec Ideal S2000x1 .f32) (ix2 p (0 : Fin 1)) = (V c main_v218 : S100000x1.Idx → Ideal .f32) (ix2 P (0 : Fin 1)) := by
  obtain ⟨-, -, e0, e1, -⟩ := idx7 t
  unfold iblk7
  rw [View.read_apply]
  show V c main_v218 _ = V c main_v218 _
  congr 1
  funext a
  apply Fin.ext
  match a with
  | ⟨0, _⟩ => show win7_1.index t 0 * 2000 + 1 * p.val = P.val; rw [e0, hP]; omega
  | ⟨1, _⟩ => show win7_1.index t 1 * 1 + 1 * 0 = 0; rw [e1]

theorem blk7_2 (c : Dev nD) (t : Fin cfg7.N) (p : Fin 2000) (P : Fin 100000) (hP : P.val = t.val * 2000 + p.val) :
    (iblk7 V c 2 t : Vec Ideal S2000x1 .f32) (ix2 p (0 : Fin 1)) = (V c main_v219 : S100000x1.Idx → Ideal .f32) (ix2 P (0 : Fin 1)) := by
  obtain ⟨-, -, -, -, e0, e1, -⟩ := idx7 t
  unfold iblk7
  rw [View.read_apply]
  show V c main_v219 _ = V c main_v219 _
  congr 1
  funext a
  apply Fin.ext
  match a with
  | ⟨0, _⟩ => show win7_2.index t 0 * 2000 + 1 * p.val = P.val; rw [e0, hP]; omega
  | ⟨1, _⟩ => show win7_2.index t 1 * 1 + 1 * 0 = 0; rw [e1]

theorem blk7_3 (c : Dev nD) (t : Fin cfg7.N) :
    (iblk7 V c 3 t : Vec Ideal S64 .f32) = (V c main_arg18 : S64.Idx → Ideal .f32) := by
  obtain ⟨-, -, -, -, -, -, e0, -⟩ := idx7 t
  funext y
  unfold iblk7
  rw [View.read_apply]
  show V c main_arg18 _ = V c main_arg18 y
  congr 1
  funext a
  apply Fin.ext
  match a with
  | ⟨0, _⟩ => show win7_3.index t 0 * 64 + 1 * (y 0).val = (y 0).val; rw [e0]; omega

theorem blk7_4 (c : Dev nD) (t : Fin cfg7.N) :
    (iblk7 V c 4 t : Vec Ideal S64 .f32) = (V c main_arg19 : S64.Idx → Ideal .f32) := by
  obtain ⟨-, -, -, -, -, -, -, e0, -⟩ := idx7 t
  funext y
  unfold iblk7
  rw [View.read_apply]
  show V c main_arg19 _ = V c main_arg19 y
  congr 1
  funext a
  apply Fin.ext
  match a with
  | ⟨0, _⟩ => show win7_4.index t 0 * 64 + 1 * (y 0).val = (y 0).val; rw [e0]; omega

/-! ## What a point writes back, the cover, the array -/

/-- The layer's whole-array function of the arrays as the region finds them. -/
abbrev whole7 (c : Dev nD) : FVec Ideal S100000x64 .f32 :=
  normArr (N := 100000) (V c main_v181) (V c main_v218) (V c main_v219) (V c main_arg18) (V c main_arg19)

/-- WHAT POINT t WRITES BACK is block t of `whole7`. -/
theorem flushed7 (c : Dev nD) (t : Fin cfg7.N) :
    (dat7 V c).flushed 5 t = ((cfg7.win 5).blk t).view.read (Elt Ideal) (whole7 V c) := by
  show (cfg7.win 5).cut (grid7.coords t) ((dat7 V c).after 5 t) = _
  rw [after7_5]
  unfold out7_5
  rw [View.canon_unit_zero hz2_7]
  simp only [View.ld_unit_zero (S := S2000x64) hz2_7, View.ld_unit_zero (S := S2000x1) hz2_7, View.ld_unit_zero (S := S64) hz1_7]
  obtain ⟨-, -, -, -, -, -, -, -, e0, e1⟩ := idx7 t
  have h50 := lt50_7 t
  funext y
  obtain ⟨p, q, rfl⟩ : ∃ (p : Fin 2000) (q : Fin 64), y = ix2 p q := ⟨y 0, y 1, eq_ix2 y⟩
  have hP : t.val * 2000 + p.val < 100000 := by have := p.isLt; omega
  show k7_pay1 (iblk7 V c 0 t) (iblk7 V c 1 t) (iblk7 V c 2 t) (iblk7 V c 3 t) (iblk7 V c 4 t) (ix2 p q)
    = whole7 V c (((cfg7.win 5).blk t).view.emb (ix2 p q))
  have hemb : ((cfg7.win 5).blk t).view.emb (ix2 p q) = (ix2 (⟨t.val * 2000 + p.val, hP⟩ : Fin 100000) q : S100000x64.Idx) := by
    funext a
    apply Fin.ext
    match a with
    | ⟨0, _⟩ => show win7_5.index t 0 * 2000 + 1 * p.val = t.val * 2000 + p.val; rw [e0]; omega
    | ⟨1, _⟩ => show win7_5.index t 1 * 64 + 1 * q.val = q.val; rw [e1]; omega
  rw [hemb, Cert.Proof.NormPay.k7_pay1_eq]
  refine (Cert.Proof.NormPay.k1_pay1_apply _ _ _ _ _ p q).trans ?_
  rw [blk7_3 V c t, blk7_4 V c t, blk7_0 V c t p q ⟨t.val * 2000 + p.val, hP⟩ rfl,
    blk7_1 V c t p ⟨t.val * 2000 + p.val, hP⟩ rfl, blk7_2 V c t p ⟨t.val * 2000 + p.val, hP⟩ rfl]
  rfl

/-- An index of the output array is in point t's block iff each coordinate is in the block's range on its axis. -/
theorem mem_blk7 (t : Fin cfg7.N) (i : S100000x64.Idx) :
    i ∈ ((cfg7.win 5).blk t).view.set ↔ ∀ a : Fin 2, win7_5.index t a * S2000x64.size a ≤ (i a).val ∧ (i a).val < win7_5.index t a * S2000x64.size a + S2000x64.size a := by
  show i ∈ ((View.whole main_v220).slice (win7_5.rect t)).set ↔ _
  rw [View.set_slice_whole, Rect.mem_set_unit]
  exact Iff.rfl

/-- Every index of the output array is in the block of the point its row falls in. -/
theorem cover7 (i : S100000x64.Idx) :
    ∃ t : Fin cfg7.N, (cfg7.win 5).flush t = true ∧ i ∈ ((cfg7.win 5).blk t).view.set := by
  have hi0 : (i 0).val < 100000 := idx2_lt0 i
  have hi1 : (i 1).val < 64 := idx2_lt1 i
  have ht : (i 0).val / 2000 < cfg7.N := by rw [show cfg7.N = 50 from N_7]; omega
  obtain ⟨-, -, -, -, -, -, -, -, e0, e1⟩ := idx7 ⟨(i 0).val / 2000, ht⟩
  refine ⟨⟨(i 0).val / 2000, ht⟩, flush7_5 _, ?_⟩
  rw [mem_blk7]
  intro a
  match a with
  | ⟨0, _⟩ =>
    show win7_5.index ⟨(i 0).val / 2000, ht⟩ 0 * 2000 ≤ (i 0).val ∧ (i 0).val < win7_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win7_5.index ⟨(i 0).val / 2000, ht⟩ 1 * 64 ≤ (i 1).val ∧ (i 1).val < win7_5.index ⟨(i 0).val / 2000, ht⟩ 1 * 64 + 64
    rw [e1]; omega

/-- THE OUTPUT ARRAY after the call: the layer's whole-array function of the arrays as the region finds them. -/
theorem array7 (c : Dev nD) : (dat7 V c).arrAt 5 cfg7.N = whole7 V c :=
  (dat7 V c).arrAt_eq_of_cover 5 (whole7 V c) (fun t _ => flushed7 V c t) (cover7)

end Cert.KernelIdeal.Tiles

end
-- ==== Proof.HeadPay.lean ====
/-
  The head kernel's payload read at one entry: the value its one grid point stores at graph row g (its one channel) is
  the three dense layers' entry formula on row g of the loaded 1024 x 138 feature matrix and the loaded weights.
-/
import proofs.«167438_j18270790877246_1_alg».proof.Proof.Gen.KernelIdeal.Skeleton
import proofs.«167438_j18270790877246_1_alg».proof.Proof.Spec
import proofs.«167438_j18270790877246_1_alg».proof.Proof.LibMatmulZero
import Idealize.ShloMosaic.Lib.ValueLayout

set_option maxRecDepth 16384

noncomputable section

open scoped BigOperators

namespace Cert.Proof.HeadPay

open Cert.KernelIdeal Cert.KernelIdeal.Gen Cert.Spec
open Idealize.ShloMosaic Idealize.ShloMosaic.ValueIdx

/-- The first dense layer's product, at (g, k). -/
theorem mm1_apply (l : FVec Ideal S1024x138 .f32) (r : FVec Ideal S138x128 .f32) (g : Fin 1024) (k : Fin 128) :
    matmul dot_S1024x138_S138x128_S1024x128_1_0_0_1_n_n none l r (constant S1024x128 .f32 0x00000000#32) (ix2 g k)
      = ∑ j : Fin 138, l (ix2 g j) * r (ix2 j k) :=
  Cert.LibMatmulZero.matmul_zero_ix2 dot_S1024x138_S138x128_S1024x128_1_0_0_1_n_n rfl rfl rfl rfl
    (fun i c => by
      unfold DotDims.lhsIdx
      rw [dif_neg (show ¬(0 : Fin _) ∈ dot_S1024x138_S138x128_S1024x128_1_0_0_1_n_n.lhsBatch by decide),
        dif_pos (show (0 : Fin _) ∈ dot_S1024x138_S138x128_S1024x128_1_0_0_1_n_n.lhsNonContracting by decide)]
      rfl)
    (fun i c => by
      unfold DotDims.rhsIdx
      rw [dif_neg (show ¬(1 : Fin _) ∈ dot_S1024x138_S138x128_S1024x128_1_0_0_1_n_n.rhsBatch by decide),
        dif_pos (show (1 : Fin _) ∈ dot_S1024x138_S138x128_S1024x128_1_0_0_1_n_n.rhsNonContracting by decide)]
      rfl)
    none l r g k

/-- The second dense layer's product, at (g, k). -/
theorem mm2_apply (l : FVec Ideal S1024x128 .f32) (r : FVec Ideal S128x64 .f32) (g : Fin 1024) (k : Fin 64) :
    matmul dot_S1024x128_S128x64_S1024x64_1_0_0_1_n_n none l r (constant S1024x64 .f32 0x00000000#32) (ix2 g k)
      = ∑ j : Fin 128, l (ix2 g j) * r (ix2 j k) :=
  Cert.LibMatmulZero.matmul_zero_ix2 dot_S1024x128_S128x64_S1024x64_1_0_0_1_n_n rfl rfl rfl rfl
    (fun i c => by
      unfold DotDims.lhsIdx
      rw [dif_neg (show ¬(0 : Fin _) ∈ dot_S1024x128_S128x64_S1024x64_1_0_0_1_n_n.lhsBatch by decide),
        dif_pos (show (0 : Fin _) ∈ dot_S1024x128_S128x64_S1024x64_1_0_0_1_n_n.lhsNonContracting by decide)]
      rfl)
    (fun i c => by
      unfold DotDims.rhsIdx
      rw [dif_neg (show ¬(1 : Fin _) ∈ dot_S1024x128_S128x64_S1024x64_1_0_0_1_n_n.rhsBatch by decide),
        dif_pos (show (1 : Fin _) ∈ dot_S1024x128_S128x64_S1024x64_1_0_0_1_n_n.rhsNonContracting by decide)]
      rfl)
    none l r g k

/-- The third dense layer's product, at (g, q). -/
theorem mm3_apply (l : FVec Ideal S1024x64 .f32) (r : FVec Ideal S64x1 .f32) (g : Fin 1024) (q : Fin 1) :
    matmul dot_S1024x64_S64x1_S1024x1_1_0_0_1_n_n none l r (constant S1024x1 .f32 0x00000000#32) (ix2 g q)
      = ∑ j : Fin 64, l (ix2 g j) * r (ix2 j q) :=
  Cert.LibMatmulZero.matmul_zero_ix2 dot_S1024x64_S64x1_S1024x1_1_0_0_1_n_n rfl rfl rfl rfl
    (fun i c => by
      unfold DotDims.lhsIdx
      rw [dif_neg (show ¬(0 : Fin _) ∈ dot_S1024x64_S64x1_S1024x1_1_0_0_1_n_n.lhsBatch by decide),
        dif_pos (show (0 : Fin _) ∈ dot_S1024x64_S64x1_S1024x1_1_0_0_1_n_n.lhsNonContracting by decide)]
      rfl)
    (fun i c => by
      unfold DotDims.rhsIdx
      rw [dif_neg (show ¬(1 : Fin _) ∈ dot_S1024x64_S64x1_S1024x1_1_0_0_1_n_n.rhsBatch by decide),
        dif_pos (show (1 : Fin _) ∈ dot_S1024x64_S64x1_S1024x1_1_0_0_1_n_n.rhsNonContracting by decide)]
      rfl)
    none l r g q

/-- The three biases, each cast to one row and repeated over the 1024 graph rows, read at their channel. -/
theorem bias1_apply (v : Vec Ideal S128 .f32) (g : Fin 1024) (k : Fin 128) :
    broadcastTo S1024x128 (shapeCast S1x128 v shapeCasts_S128_S1x128) broadcasts_S1x128_S1024x128 (ix2 g k) = v (ix1 k) :=
  (broadcastTo_1b_ab_apply _ broadcasts_S1x128_S1024x128 g k).trans (shapeCast_a_1a_apply v shapeCasts_S128_S1x128 0 k)
theorem bias2_apply (v : Vec Ideal S64 .f32) (g : Fin 1024) (k : Fin 64) :
    broadcastTo S1024x64 (shapeCast S1x64 v shapeCasts_S64_S1x64) broadcasts_S1x64_S1024x64 (ix2 g k) = v (ix1 k) :=
  (broadcastTo_1b_ab_apply _ broadcasts_S1x64_S1024x64 g k).trans (shapeCast_a_1a_apply v shapeCasts_S64_S1x64 0 k)
theorem bias3_apply (v : Vec Ideal S1 .f32) (g : Fin 1024) (q : Fin 1) :
    broadcastTo S1024x1 (shapeCast S1x1 v shapeCasts_S1_S1x1) broadcasts_S1x1_S1024x1 (ix2 g q) = v (ix1 q) :=
  (broadcastTo_1b_ab_apply _ broadcasts_S1x1_S1024x1 g q).trans (shapeCast_a_1a_apply v shapeCasts_S1_S1x1 0 q)

/-- The head kernel's stored value at (g, q). -/
theorem k8_pay1_apply (x0 : Vec Ideal S1024x138 .f32) (w1 : Vec Ideal S138x128 .f32) (b1 : Vec Ideal S128 .f32)
    (w2 : Vec Ideal S128x64 .f32) (b2 : Vec Ideal S64 .f32) (w3 : Vec Ideal S64x1 .f32) (b3 : Vec Ideal S1 .f32)
    (g : Fin 1024) (q : Fin 1) :
    k8_pay1 x0 w1 b1 w2 b2 w3 b3 (ix2 g q) = headEntry (fun j => x0 (ix2 g j)) w1 b1 w2 b2 w3 b3 q := by
  unfold k8_pay1 headEntry
  dsimp only
  rw [addf_apply, mm3_apply, bias3_apply]
  refine congrArg (· + b3 (ix1 q)) (Finset.sum_congr rfl fun k2 _ => ?_)
  rw [maximumf_apply, addf_apply, mm2_apply, bias2_apply, broadcast_apply]
  refine congrArg (fun z => max (z + b2 (ix1 k2)) _ * w3 (ix2 k2 q)) (Finset.sum_congr rfl fun k1 _ => ?_)
  rw [maximumf_apply, addf_apply, mm1_apply, bias1_apply, broadcast_apply]
  refine congrArg (fun z => max (z + b1 (ix1 k1)) _ * w2 (ix2 k1 k2)) (Finset.sum_congr rfl fun j _ => ?_)
  rw [shapeCast_self]

end Cert.Proof.HeadPay

end
-- ==== Proof.TileHead.lean ====
/-
  The head as ONE array. Its one grid point takes every window's one block, which is the window's whole array, and writes
  back the whole 1024 x 1 output: the output array ends at the three dense layers' whole-array function of the arrays
  as the region finds them.
-/
import proofs.«167438_j18270790877246_1_alg».proof.Proof.KI.Head
import proofs.«167438_j18270790877246_1_alg».proof.Proof.HeadPay
import proofs.«167438_j18270790877246_1_alg».proof.Proof.Spec
import Idealize.ShloMosaic.Lib.Pipeline.Value
import Idealize.ShloMosaic.Lib.Tactic

set_option maxRecDepth 16384

noncomputable section

open scoped BigOperators

namespace Cert.KernelIdeal.Tiles

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz2_8 : (![0, 0] : Fin 2 → Nat) = fun _ => 0 := funext fun a => by fin_cases a <;> rfl
theorem hz1_8 : (![0] : Fin 1 → Nat) = fun _ => 0 := funext fun a => by fin_cases a <;> rfl

/-- The printed index maps at the one grid point: every window's block index is zero on every axis. -/
theorem idx8 : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = 0 ∧ win8_3.index t (1 : Fin 2) = 0
    ∧ win8_4.index t (0 : Fin 1) = 0
    ∧ win8_5.index t (0 : Fin 2) = 0 ∧ win8_5.index t (1 : Fin 2) = 0
    ∧ win8_6.index t (0 : Fin 1) = 0
    ∧ win8_7.index t (0 : Fin 2) = 0 ∧ win8_7.index t (1 : Fin 2) = 0 :=
  (by decide +kernel : ∀ t : Fin grid8.N, _)

/-! ## Every window's block is its whole array -/

theorem blk8_0 (c : Dev nD) (t : Fin cfg8.N) :
    (iblk8 V c 0 t : Vec Ideal S1024x138 .f32) = (V c main_v234 : S1024x138.Idx → Ideal .f32) := by
  obtain ⟨e0, e1, -⟩ := idx8 t
  funext y
  unfold iblk8
  rw [View.read_apply]
  show V c main_v234 _ = V c main_v234 y
  congr 1
  funext a
  apply Fin.ext
  match a with
  | ⟨0, _⟩ => show win8_0.index t 0 * 1024 + 1 * (y 0).val = (y 0).val; rw [e0]; omega
  | ⟨1, _⟩ => show win8_0.index t 1 * 138 + 1 * (y 1).val = (y 1).val; rw [e1]; omega

theorem blk8_1 (c : Dev nD) (t : Fin cfg8.N) :
    (iblk8 V c 1 t : Vec Ideal S138x128 .f32) = (V c main_arg20 : S138x128.Idx → Ideal .f32) := by
  obtain ⟨-, -, e0, e1, -⟩ := idx8 t
  funext y
  unfold iblk8
  rw [View.read_apply]
  show V c main_arg20 _ = V c main_arg20 y
  congr 1
  funext a
  apply Fin.ext
  match a with
  | ⟨0, _⟩ => show win8_1.index t 0 * 138 + 1 * (y 0).val = (y 0).val; rw [e0]; omega
  | ⟨1, _⟩ => show win8_1.index t 1 * 128 + 1 * (y 1).val = (y 1).val; rw [e1]; omega

theorem blk8_2 (c : Dev nD) (t : Fin cfg8.N) :
    (iblk8 V c 2 t : Vec Ideal S128 .f32) = (V c main_arg21 : S128.Idx → Ideal .f32) := by
  obtain ⟨-, -, -, -, e0, -⟩ := idx8 t
  funext y
  unfold iblk8
  rw [View.read_apply]
  show V c main_arg21 _ = V c main_arg21 y
  congr 1
  funext a
  apply Fin.ext
  match a with
  | ⟨0, _⟩ => show win8_2.index t 0 * 128 + 1 * (y 0).val = (y 0).val; rw [e0]; omega

theorem blk8_3 (c : Dev nD) (t : Fin cfg8.N) :
    (iblk8 V c 3 t : Vec Ideal S128x64 .f32) = (V c main_arg22 : S128x64.Idx → Ideal .f32) := by
  obtain ⟨-, -, -, -, -, e0, e1, -⟩ := idx8 t
  funext y
  unfold iblk8
  rw [View.read_apply]
  show V c main_arg22 _ = V c main_arg22 y
  congr 1
  funext a
  apply Fin.ext
  match a with
  | ⟨0, _⟩ => show win8_3.index t 0 * 128 + 1 * (y 0).val = (y 0).val; rw [e0]; omega
  | ⟨1, _⟩ => show win8_3.index t 1 * 64 + 1 * (y 1).val = (y 1).val; rw [e1]; omega

theorem blk8_4 (c : Dev nD) (t : Fin cfg8.N) :
    (iblk8 V c 4 t : Vec Ideal S64 .f32) = (V c main_arg23 : S64.Idx → Ideal .f32) := by
  obtain ⟨-, -, -, -, -, -, -, e0, -⟩ := idx8 t
  funext y
  unfold iblk8
  rw [View.read_apply]
  show V c main_arg23 _ = V c main_arg23 y
  congr 1
  funext a
  apply Fin.ext
  match a with
  | ⟨0, _⟩ => show win8_4.index t 0 * 64 + 1 * (y 0).val = (y 0).val; rw [e0]; omega

theorem blk8_5 (c : Dev nD) (t : Fin cfg8.N) :
    (iblk8 V c 5 t : Vec Ideal S64x1 .f32) = (V c main_arg24 : S64x1.Idx → Ideal .f32) := by
  obtain ⟨-, -, -, -, -, -, -, -, e0, e1, -⟩ := idx8 t
  funext y
  unfold iblk8
  rw [View.read_apply]
  show V c main_arg24 _ = V c main_arg24 y
  congr 1
  funext a
  apply Fin.ext
  match a with
  | ⟨0, _⟩ => show win8_5.index t 0 * 64 + 1 * (y 0).val = (y 0).val; rw [e0]; omega
  | ⟨1, _⟩ => show win8_5.index t 1 * 1 + 1 * (y 1).val = (y 1).val; rw [e1]; omega

theorem blk8_6 (c : Dev nD) (t : Fin cfg8.N) :
    (iblk8 V c 6 t : Vec Ideal S1 .f32) = (V c main_arg25 : S1.Idx → Ideal .f32) := by
  obtain ⟨-, -, -, -, -, -, -, -, -, -, e0, -⟩ := idx8 t
  funext y
  unfold iblk8
  rw [View.read_apply]
  show V c main_arg25 _ = V c main_arg25 y
  congr 1
  funext a
  apply Fin.ext
  match a with
  | ⟨0, _⟩ => show win8_6.index t 0 * 1 + 1 * (y 0).val = (y 0).val; rw [e0]; omega

/-! ## What the point writes back, the cover, the array -/

/-- The head's whole-array function of the arrays as the region finds them. -/
abbrev whole8 (c : Dev nD) : FVec Ideal S1024x1 .f32 :=
  headArr (V c main_v234) (V c main_arg20) (V c main_arg21) (V c main_arg22) (V c main_arg23) (V c main_arg24) (V c main_arg25)

/-- WHAT THE POINT WRITES BACK is the one block of `whole8`, which is all of it. -/
theorem flushed8 (c : Dev nD) (t : Fin cfg8.N) :
    (dat8 V c).flushed 7 t = ((cfg8.win 7).blk t).view.read (Elt Ideal) (whole8 V c) := by
  show (cfg8.win 7).cut (grid8.coords t) ((dat8 V c).after 7 t) = _
  rw [after8_7]
  unfold out8_7
  rw [View.canon_unit_zero hz2_8]
  simp only [View.ld_unit_zero (S := S1024x138) hz2_8, View.ld_unit_zero (S := S138x128) hz2_8, View.ld_unit_zero (S := S128) hz1_8,
    View.ld_unit_zero (S := S128x64) hz2_8, View.ld_unit_zero (S := S64) hz1_8, View.ld_unit_zero (S := S64x1) hz2_8,
    View.ld_unit_zero (S := S1) hz1_8]
  obtain ⟨-, -, -, -, -, -, -, -, -, -, -, e0, e1⟩ := idx8 t
  funext y
  obtain ⟨g, q, rfl⟩ : ∃ (g : Fin 1024) (q : Fin 1), y = ix2 g q := ⟨y 0, y 1, eq_ix2 y⟩
  show k8_pay1 (iblk8 V c 0 t) (iblk8 V c 1 t) (iblk8 V c 2 t) (iblk8 V c 3 t) (iblk8 V c 4 t) (iblk8 V c 5 t) (iblk8 V c 6 t) (ix2 g q)
    = whole8 V c (((cfg8.win 7).blk t).view.emb (ix2 g q))
  have hemb : ((cfg8.win 7).blk t).view.emb (ix2 g q) = (ix2 g q : S1024x1.Idx) := by
    funext a
    apply Fin.ext
    match a with
    | ⟨0, _⟩ => show win8_7.index t 0 * 1024 + 1 * g.val = g.val; rw [e0]; omega
    | ⟨1, _⟩ => show win8_7.index t 1 * 1 + 1 * q.val = q.val; rw [e1]; omega
  rw [hemb]
  refine (Cert.Proof.HeadPay.k8_pay1_apply _ _ _ _ _ _ _ g q).trans ?_
  rw [blk8_0 V c t, blk8_1 V c t, blk8_2 V c t, blk8_3 V c t, blk8_4 V c t, blk8_5 V c t, blk8_6 V c t]
  rfl

/-- An index of the output array is in the point's block iff each coordinate is in the block's range on its axis. -/
theorem mem_blk8 (t : Fin cfg8.N) (i : S1024x1.Idx) :
    i ∈ ((cfg8.win 7).blk t).view.set ↔ ∀ a : Fin 2, win8_7.index t a * S1024x1.size a ≤ (i a).val ∧ (i a).val < win8_7.index t a * S1024x1.size a + S1024x1.size a := by
  show i ∈ ((View.whole main_v235).slice (win8_7.rect t)).set ↔ _
  rw [View.set_slice_whole, Rect.mem_set_unit]
  exact Iff.rfl

/-- The one block covers the output array. -/
theorem cover8 (i : S1024x1.Idx) :
    ∃ t : Fin cfg8.N, (cfg8.win 7).flush t = true ∧ i ∈ ((cfg8.win 7).blk t).view.set := by
  have hi0 : (i 0).val < 1024 := idx2_lt0 i
  have hi1 : (i 1).val < 1 := idx2_lt1 i
  obtain ⟨-, -, -, -, -, -, -, -, -, -, -, e0, e1⟩ := idx8 t8_0
  refine ⟨t8_0, flush8_7 _, ?_⟩
  rw [mem_blk8]
  intro a
  match a with
  | ⟨0, _⟩ =>
    show win8_7.index t8_0 0 * 1024 ≤ (i 0).val ∧ (i 0).val < win8_7.index t8_0 0 * 1024 + 1024
    rw [e0]; omega
  | ⟨1, _⟩ =>
    show win8_7.index t8_0 1 * 1 ≤ (i 1).val ∧ (i 1).val < win8_7.index t8_0 1 * 1 + 1
    rw [e1]; omega

/-- THE OUTPUT ARRAY after the call — the program's result: the head's whole-array function of the arrays as the region
    finds them. -/
theorem array8 (c : Dev nD) : (dat8 V c).arrAt 7 cfg8.N = whole8 V c :=
  (dat8 V c).arrAt_eq_of_cover 7 (whole8 V c) (fun t _ => flushed8 V c t) (cover8)

end Cert.KernelIdeal.Tiles

end
-- ==== Proof.ChainB.lean ====
/-
  The kernel program's second graph and the head, boundary by boundary, as the reference's layers of the argument arrays:
  the second graph's four calls as the first's; its pooled embedding; the first graph's embedding, written by the fifth
  stretch, still there at the ninth (no later stretch or call writes it); the two embeddings and the two descriptor
  arrays side by side; the head. The program's result array is the whole network of the 26 argument arrays.
-/
import proofs.«167438_j18270790877246_1_alg».proof.Proof.ChainA
import proofs.«167438_j18270790877246_1_alg».proof.Proof.TileConv1B
import proofs.«167438_j18270790877246_1_alg».proof.Proof.TileNorm1B
import proofs.«167438_j18270790877246_1_alg».proof.Proof.TileConv2B
import proofs.«167438_j18270790877246_1_alg».proof.Proof.TileNorm2B
import proofs.«167438_j18270790877246_1_alg».proof.Proof.TileHead
import Idealize.ShloMosaic.Lib.StableHlo.Run
import Idealize.ShloMosaic.Lib.Pipeline.Value

set_option maxRecDepth 16384

noncomputable section

namespace Cert.Proof.Chain

open Cert.KernelIdeal Cert.KernelIdeal.Gen Cert.KernelIdeal.Hand Cert.KernelIdeal.Tiles
open Cert.ReferenceIdeal.Layers Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-! ## The second graph's stages and the result, of the argument arrays -/

def h1B : FB Cert.ReferenceIdeal.S100000x64 :=
  hostConv6 (A m c main_arg3) (agg6 (A m c main_arg3) (A m c main_arg4)) (A m c main_arg8) (A m c main_arg9) (A m c main_arg10) (A m c main_arg11)
def x1B : FB Cert.ReferenceIdeal.S100000x64 := hostNorm (h1B m c) (A m c main_arg5) (A m c main_arg12) (A m c main_arg13)
def h2B : FB Cert.ReferenceIdeal.S100000x64 :=
  hostConv64 (x1B m c) (agg64 (x1B m c) (A m c main_arg4)) (A m c main_arg14) (A m c main_arg15) (A m c main_arg16) (A m c main_arg17)
def x2B : FB Cert.ReferenceIdeal.S100000x64 := hostNorm (h2B m c) (A m c main_arg5) (A m c main_arg18) (A m c main_arg19)
def e2 : FB Cert.ReferenceIdeal.S1024x64 := embOf (x2B m c) (A m c main_arg5)
def result : FB Cert.ReferenceIdeal.S1024x1 :=
  hostHead (combined (e1 m c) (e2 m c) (A m c main_arg6) (A m c main_arg7)) (A m c main_arg20) (A m c main_arg21) (A m c main_arg22)
    (A m c main_arg23) (A m c main_arg24) (A m c main_arg25)

/-! ## Reading the stretches -/

set_option maxRecDepth 8192 in
set_option maxHeartbeats 2000000 in
theorem rd4_agg : bnd9 m c (no_index (Proc.devRef .tc main_v130))
    = agg6 (bnd8 m c (Proc.devRef .tc main_arg3)) (bnd8 m c (Proc.devRef .tc main_arg4)) := by
  show StableHlo.after hostOps4 (bnd8 m c) (no_index (Proc.devRef .tc main_v130)) = _
  simp only [hostOps4]
  after_results_simp
  rfl

set_option maxRecDepth 8192 in
set_option maxHeartbeats 2000000 in
theorem rd4_src : bnd9 m c (no_index (Proc.devRef .tc main_v118)) = srcRaw (bnd8 m c (Proc.devRef .tc main_arg4)) := by
  show StableHlo.after hostOps4 (bnd8 m c) (no_index (Proc.devRef .tc main_v118)) = _
  simp only [hostOps4]
  after_results_simp
  rfl

set_option maxRecDepth 8192 in
set_option maxHeartbeats 2000000 in
theorem rd4_dst : bnd9 m c (no_index (Proc.devRef .tc main_v120)) = dstRaw (bnd8 m c (Proc.devRef .tc main_arg4)) := by
  show StableHlo.after hostOps4 (bnd8 m c) (no_index (Proc.devRef .tc main_v120)) = _
  simp only [hostOps4]
  after_results_simp
  rfl

set_option maxRecDepth 8192 in
set_option maxHeartbeats 2000000 in
theorem rd5_mean : bnd11 m c (no_index (Proc.devRef .tc main_v168))
    = shapeCast S100000x1 (nodeOf (segMean (bnd10 m c (Proc.devRef .tc main_v131)) (bnd10 m c (Proc.devRef .tc main_arg5))) (bnd10 m c (Proc.devRef .tc main_arg5))) shapeCasts_S100000_S100000x1 := by
  show StableHlo.after hostOps5 (bnd10 m c) (no_index (Proc.devRef .tc main_v168)) = _
  simp only [hostOps5]
  after_results_simp
  rfl

set_option maxRecDepth 8192 in
set_option maxHeartbeats 2000000 in
theorem rd5_var : bnd11 m c (no_index (Proc.devRef .tc main_v169))
    = shapeCast S100000x1 (nodeOf (segVar (bnd10 m c (Proc.devRef .tc main_v131)) (bnd10 m c (Proc.devRef .tc main_arg5))) (bnd10 m c (Proc.devRef .tc main_arg5))) shapeCasts_S100000_S100000x1 := by
  show StableHlo.after hostOps5 (bnd10 m c) (no_index (Proc.devRef .tc main_v169)) = _
  simp only [hostOps5]
  after_results_simp
  rfl

set_option maxRecDepth 8192 in
set_option maxHeartbeats 2000000 in
theorem rd6_agg : bnd13 m c (no_index (Proc.devRef .tc main_v180))
    = agg64r (bnd12 m c (Proc.devRef .tc main_v170)) (bnd12 m c (Proc.devRef .tc main_v118)) (bnd12 m c (Proc.devRef .tc main_v120)) := by
  show StableHlo.after hostOps6 (bnd12 m c) (no_index (Proc.devRef .tc main_v180)) = _
  simp only [hostOps6]
  after_results_simp
  rfl

set_option maxRecDepth 8192 in
set_option maxHeartbeats 2000000 in
theorem rd7_mean : bnd15 m c (no_index (Proc.devRef .tc main_v218))
    = shapeCast S100000x1 (nodeOf (segMean (bnd14 m c (Proc.devRef .tc main_v181)) (bnd14 m c (Proc.devRef .tc main_arg5))) (bnd14 m c (Proc.devRef .tc main_arg5))) shapeCasts_S100000_S100000x1 := by
  show StableHlo.after hostOps7 (bnd14 m c) (no_index (Proc.devRef .tc main_v218)) = _
  simp only [hostOps7]
  after_results_simp
  rfl

set_option maxRecDepth 8192 in
set_option maxHeartbeats 2000000 in
theorem rd7_var : bnd15 m c (no_index (Proc.devRef .tc main_v219))
    = shapeCast S100000x1 (nodeOf (segVar (bnd14 m c (Proc.devRef .tc main_v181)) (bnd14 m c (Proc.devRef .tc main_arg5))) (bnd14 m c (Proc.devRef .tc main_arg5))) shapeCasts_S100000_S100000x1 := by
  show StableHlo.after hostOps7 (bnd14 m c) (no_index (Proc.devRef .tc main_v219)) = _
  simp only [hostOps7]
  after_results_simp
  rfl

set_option maxRecDepth 8192 in
set_option maxHeartbeats 2000000 in
theorem rd8_cmb : bnd17 m c (no_index (Proc.devRef .tc main_v234))
    = combined (bnd16 m c (Proc.devRef .tc main_v116)) (embOf (bnd16 m c (Proc.devRef .tc main_v220)) (bnd16 m c (Proc.devRef .tc main_arg5)))
        (bnd16 m c (Proc.devRef .tc main_arg6)) (bnd16 m c (Proc.devRef .tc main_arg7)) := by
  show StableHlo.after hostOps8 (bnd16 m c) (no_index (Proc.devRef .tc main_v234)) = _
  simp only [hostOps8]
  after_results_simp
  rfl

/-! ## The stages -/

/-- After the fifth call: the second graph's first convolution layer. -/
theorem st4 : bnd10 m c (Proc.devRef .tc main_v131) = h1B m c := by
  refine (bnd10_arr m c 6).trans ((array4 (ent4 m) c).trans ?_)
  show convArr (N := 100000) (K := 6) (bnd9 m c (Proc.devRef .tc main_arg3)) (bnd9 m c (Proc.devRef .tc main_v130))
    (bnd9 m c (Proc.devRef .tc main_arg8)) (bnd9 m c (Proc.devRef .tc main_arg9)) (bnd9 m c (Proc.devRef .tc main_arg10))
    (bnd9 m c (Proc.devRef .tc main_arg11)) = _
  rw [rd4_agg m c, bnd9_unw m c main_arg3 (by decide) (by decide) (by decide) (by decide) (by decide) (by decide) (by decide) (by decide) (by decide), bnd9_unw m c main_arg8 (by decide) (by decide) (by decide) (by decide) (by decide) (by decide) (by decide) (by decide) (by decide), bnd9_unw m c main_arg9 (by decide) (by decide) (by decide) (by decide) (by decide) (by decide) (by decide) (by decide) (by decide),
    bnd9_unw m c main_arg10 (by decide) (by decide) (by decide) (by decide) (by decide) (by decide) (by decide) (by decide) (by decide), bnd9_unw m c main_arg11 (by decide) (by decide) (by decide) (by decide) (by decide) (by decide) (by decide) (by decide) (by decide),
    bnd8_unw m c main_arg3 (by decide) (by decide) (by decide) (by decide) (by decide) (by decide) (by decide) (by decide), bnd8_unw m c main_arg4 (by decide) (by decide) (by decide) (by decide) (by decide) (by decide) (by decide) (by decide)]
  exact (hostConv6_eq _ _ _ _ _ _).symm

/-- After the sixth call: the second graph's first normalization layer. -/
theorem st5 : bnd12 m c (Proc.devRef .tc main_v170) = x1B m c := by
  refine (bnd12_arr m c 5).trans ((array5 (ent5 m) c).trans ?_)
  show normArr (N := 100000) (bnd11 m c (Proc.devRef .tc main_v131)) (bnd11 m c (Proc.devRef .tc main_v168)) (bnd11 m c (Proc.devRef .tc main_v169))
    (bnd11 m c (Proc.devRef .tc main_arg12)) (bnd11 m c (Proc.devRef .tc main_arg13)) = _
  rw [rd5_mean m c, rd5_var m c,
    show bnd11 m c (Proc.devRef .tc main_v131) = bnd10 m c (Proc.devRef .tc main_v131) from
      StableHlo.after_of_writes_sub hostOps5 _ hostOps5_writes (by decide),
    bnd11_unw m c main_arg12 (by decide) (by decide) (by decide) (by decide) (by decide) (by decide) (by decide) (by decide) (by decide) (by decide) (by decide), bnd11_unw m c main_arg13 (by decide) (by decide) (by decide) (by decide) (by decide) (by decide) (by decide) (by decide) (by decide) (by decide) (by decide),
    bnd10_unw m c main_arg5 (by decide) (by decide) (by decide) (by decide) (by decide) (by decide) (by decide) (by decide) (by decide) (by decide), st4 m c]
  exact hostNorm_eq _ _ _ _ _

/-- The second edge list's two columns, sliced by the fifth stretch, still hold at the seventh. -/
theorem src_at12 : bnd12 m c (Proc.devRef .tc main_v118) = srcRaw (A m c main_arg4) :=
  (bnd12_keep m c main_v118 (by decide)).trans <|
  (StableHlo.after_of_writes_sub hostOps5 _ hostOps5_writes (by decide)).trans <|
  (bnd10_keep m c main_v118 (by decide)).trans <|
  (rd4_src m c).trans (congrArg srcRaw (bnd8_unw m c main_arg4 (by decide) (by decide) (by decide) (by decide) (by decide) (by decide) (by decide) (by decide)))
theorem dst_at12 : bnd12 m c (Proc.devRef .tc main_v120) = dstRaw (A m c main_arg4) :=
  (bnd12_keep m c main_v120 (by decide)).trans <|
  (StableHlo.after_of_writes_sub hostOps5 _ hostOps5_writes (by decide)).trans <|
  (bnd10_keep m c main_v120 (by decide)).trans <|
  (rd4_dst m c).trans (congrArg dstRaw (bnd8_unw m c main_arg4 (by decide) (by decide) (by decide) (by decide) (by decide) (by decide) (by decide) (by decide)))

/-- After the seventh call: the second graph's second convolution layer. -/
theorem st6 : bnd14 m c (Proc.devRef .tc main_v181) = h2B m c := by
  refine (bnd14_arr m c 6).trans ((array6 (ent6 m) c).trans ?_)
  show convArr (N := 100000) (K := 64) (bnd13 m c (Proc.devRef .tc main_v170)) (bnd13 m c (Proc.devRef .tc main_v180))
    (bnd13 m c (Proc.devRef .tc main_arg14)) (bnd13 m c (Proc.devRef .tc main_arg15)) (bnd13 m c (Proc.devRef .tc main_arg16))
    (bnd13 m c (Proc.devRef .tc main_arg17)) = _
  rw [rd6_agg m c,
    show bnd13 m c (Proc.devRef .tc main_v170) = bnd12 m c (Proc.devRef .tc main_v170) from
      StableHlo.after_of_writes_sub hostOps6 _ hostOps6_writes (by decide),
    bnd13_unw m c main_arg14 (by decide) (by decide) (by decide) (by decide) (by decide) (by decide) (by decide) (by decide) (by decide) (by decide) (by decide) (by decide) (by decide), bnd13_unw m c main_arg15 (by decide) (by decide) (by decide) (by decide) (by decide) (by decide) (by decide) (by decide) (by decide) (by decide) (by decide) (by decide) (by decide),
    bnd13_unw m c main_arg16 (by decide) (by decide) (by decide) (by decide) (by decide) (by decide) (by decide) (by decide) (by decide) (by decide) (by decide) (by decide) (by decide), bnd13_unw m c main_arg17 (by decide) (by decide) (by decide) (by decide) (by decide) (by decide) (by decide) (by decide) (by decide) (by decide) (by decide) (by decide) (by decide),
    src_at12 m c, dst_at12 m c, st5 m c]
  exact (hostConv64_eq _ _ _ _ _ _).symm

/-- After the eighth call: the second graph's second normalization layer. -/
theorem st7 : bnd16 m c (Proc.devRef .tc main_v220) = x2B m c := by
  refine (bnd16_arr m c 5).trans ((array7 (ent7 m) c).trans ?_)
  show normArr (N := 100000) (bnd15 m c (Proc.devRef .tc main_v181)) (bnd15 m c (Proc.devRef .tc main_v218)) (bnd15 m c (Proc.devRef .tc main_v219))
    (bnd15 m c (Proc.devRef .tc main_arg18)) (bnd15 m c (Proc.devRef .tc main_arg19)) = _
  rw [rd7_mean m c, rd7_var m c,
    show bnd15 m c (Proc.devRef .tc main_v181) = bnd14 m c (Proc.devRef .tc main_v181) from
      StableHlo.after_of_writes_sub hostOps7 _ hostOps7_writes (by decide),
    bnd15_unw m c main_arg18 (by decide) (by decide) (by decide) (by decide) (by decide) (by decide) (by decide) (by decide) (by decide) (by decide) (by decide) (by decide) (by decide) (by decide) (by decide), bnd15_unw m c main_arg19 (by decide) (by decide) (by decide) (by decide) (by decide) (by decide) (by decide) (by decide) (by decide) (by decide) (by decide) (by decide) (by decide) (by decide) (by decide),
    bnd14_unw m c main_arg5 (by decide) (by decide) (by decide) (by decide) (by decide) (by decide) (by decide) (by decide) (by decide) (by decide) (by decide) (by decide) (by decide) (by decide), st6 m c]
  exact hostNorm_eq _ _ _ _ _

/-- The first graph's embedding, written by the fifth stretch, still holds at the ninth. -/
theorem emb1_at16 : bnd16 m c (Proc.devRef .tc main_v116) = e1 m c :=
  (bnd16_keep m c main_v116 (by decide)).trans <|
  (StableHlo.after_of_writes_sub hostOps7 _ hostOps7_writes (by decide)).trans <|
  (bnd14_keep m c main_v116 (by decide)).trans <|
  (StableHlo.after_of_writes_sub hostOps6 _ hostOps6_writes (by decide)).trans <|
  (bnd12_keep m c main_v116 (by decide)).trans <|
  (StableHlo.after_of_writes_sub hostOps5 _ hostOps5_writes (by decide)).trans <|
  (bnd10_keep m c main_v116 (by decide)).trans (st4_emb m c)

/-- After the ninth call — THE PROGRAM'S RESULT: the head on the two embeddings and the two descriptor arrays. -/
theorem st8 : bnd18 m c (Proc.devRef .tc main_v235) = result m c := by
  refine (bnd18_arr m c 7).trans ((array8 (ent8 m) c).trans ?_)
  show headArr (bnd17 m c (Proc.devRef .tc main_v234)) (bnd17 m c (Proc.devRef .tc main_arg20)) (bnd17 m c (Proc.devRef .tc main_arg21))
    (bnd17 m c (Proc.devRef .tc main_arg22)) (bnd17 m c (Proc.devRef .tc main_arg23)) (bnd17 m c (Proc.devRef .tc main_arg24))
    (bnd17 m c (Proc.devRef .tc main_arg25)) = _
  rw [rd8_cmb m c, emb1_at16 m c, st7 m c,
    bnd16_unw m c main_arg5 (by decide) (by decide) (by decide) (by decide) (by decide) (by decide) (by decide) (by decide) (by decide) (by decide) (by decide) (by decide) (by decide) (by decide) (by decide) (by decide), bnd16_unw m c main_arg6 (by decide) (by decide) (by decide) (by decide) (by decide) (by decide) (by decide) (by decide) (by decide) (by decide) (by decide) (by decide) (by decide) (by decide) (by decide) (by decide), bnd16_unw m c main_arg7 (by decide) (by decide) (by decide) (by decide) (by decide) (by decide) (by decide) (by decide) (by decide) (by decide) (by decide) (by decide) (by decide) (by decide) (by decide) (by decide),
    bnd17_unw m c main_arg20 (by decide) (by decide) (by decide) (by decide) (by decide) (by decide) (by decide) (by decide) (by decide) (by decide) (by decide) (by decide) (by decide) (by decide) (by decide) (by decide) (by decide), bnd17_unw m c main_arg21 (by decide) (by decide) (by decide) (by decide) (by decide) (by decide) (by decide) (by decide) (by decide) (by decide) (by decide) (by decide) (by decide) (by decide) (by decide) (by decide) (by decide), bnd17_unw m c main_arg22 (by decide) (by decide) (by decide) (by decide) (by decide) (by decide) (by decide) (by decide) (by decide) (by decide) (by decide) (by decide) (by decide) (by decide) (by decide) (by decide) (by decide),
    bnd17_unw m c main_arg23 (by decide) (by decide) (by decide) (by decide) (by decide) (by decide) (by decide) (by decide) (by decide) (by decide) (by decide) (by decide) (by decide) (by decide) (by decide) (by decide) (by decide), bnd17_unw m c main_arg24 (by decide) (by decide) (by decide) (by decide) (by decide) (by decide) (by decide) (by decide) (by decide) (by decide) (by decide) (by decide) (by decide) (by decide) (by decide) (by decide) (by decide), bnd17_unw m c main_arg25 (by decide) (by decide) (by decide) (by decide) (by decide) (by decide) (by decide) (by decide) (by decide) (by decide) (by decide) (by decide) (by decide) (by decide) (by decide) (by decide) (by decide)]
  exact (hostHead_eq _ _ _ _ _ _ _).symm

/-- The result is the whole network of the 26 argument arrays. -/
theorem result_eq : result m c = netOf (A m c main_arg0) (A m c main_arg1) (A m c main_arg2) (A m c main_arg3) (A m c main_arg4)
    (A m c main_arg5) (A m c main_arg6) (A m c main_arg7) (A m c main_arg8) (A m c main_arg9) (A m c main_arg10) (A m c main_arg11)
    (A m c main_arg12) (A m c main_arg13) (A m c main_arg14) (A m c main_arg15) (A m c main_arg16) (A m c main_arg17)
    (A m c main_arg18) (A m c main_arg19) (A m c main_arg20) (A m c main_arg21) (A m c main_arg22) (A m c main_arg23)
    (A m c main_arg24) (A m c main_arg25) := rfl

end Cert.Proof.Chain

end
-- ==== Proof.RefNet.lean ====
/-
  The reference's result, as its run reads it back, is the whole network of its 26 argument arrays: the run's composed
  term is the layers' terms nested in the reference's own order, so the two are one term.
-/
import proofs.«167438_j18270790877246_1_alg».proof.Proof.Gen.ReferenceIdeal.Run
import proofs.«167438_j18270790877246_1_alg».proof.Proof.RefLayers

set_option maxRecDepth 16384

noncomputable section

namespace Cert.ReferenceIdeal.Layers

open Cert.ReferenceIdeal Cert.ReferenceIdeal.Gen Cert.ReferenceIdeal.Value
open Idealize.ShloMosaic Idealize.ShloMosaic.TcCoe Idealize.SL.Sem Idealize.ShloMosaic.StableHlo

set_option maxHeartbeats 4000000 in
theorem ref_net (V0 : Valuation τ sig (Elt Ideal)) :
    val7 V0 (no_index (Proc.devRef .tc main_v334))
      = netOf (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11))
          (V0 (Proc.devRef .tc main_arg12)) (V0 (Proc.devRef .tc main_arg13)) (V0 (Proc.devRef .tc main_arg14))
          (V0 (Proc.devRef .tc main_arg15)) (V0 (Proc.devRef .tc main_arg16)) (V0 (Proc.devRef .tc main_arg17))
          (V0 (Proc.devRef .tc main_arg18)) (V0 (Proc.devRef .tc main_arg19)) (V0 (Proc.devRef .tc main_arg20))
          (V0 (Proc.devRef .tc main_arg21)) (V0 (Proc.devRef .tc main_arg22)) (V0 (Proc.devRef .tc main_arg23))
          (V0 (Proc.devRef .tc main_arg24)) (V0 (Proc.devRef .tc main_arg25)) :=
  (val7_main_v334 V0).trans rfl

end Cert.ReferenceIdeal.Layers

end
-- ==== Proof.Algebraic.lean ====
/-
  The two idealized programs end with equal results. The kernel program's run ends with every unscoped buffer at the last
  boundary's contents, and its result array there is the whole network of its 26 argument arrays (the chain of
  boundaries: each stretch the reference's own operations, each pallas_call its layer entry by entry). The reference's
  run ends with its result at its composed term, which is the same network of ITS argument arrays. The two memories
  agree on the arguments.
-/
import proofs.«167438_j18270790877246_1_alg».proof.Defs
import proofs.«167438_j18270790877246_1_alg».proof.Proof.Gen.KernelIdeal
import proofs.«167438_j18270790877246_1_alg».proof.Proof.Gen.ReferenceIdeal
import proofs.«167438_j18270790877246_1_alg».proof.Proof.Gen.Pre_finite_inputs
import proofs.«167438_j18270790877246_1_alg».proof.Proof.KI.Run
import proofs.«167438_j18270790877246_1_alg».proof.Proof.ChainB
import proofs.«167438_j18270790877246_1_alg».proof.Proof.RefNet

set_option maxRecDepth 16384

noncomputable section

namespace Cert.Proof.Alg

open Idealize.ShloMosaic Idealize.ShloMosaic.TcCoe Idealize.SL.Sem Idealize.ShloMosaic.StableHlo

set_option maxHeartbeats 1000000 in
theorem algebraic : Cert.algebraic_KernelIdeal_ReferenceIdeal := by
  intro m ρ m' ρ' _ hagree
  refine ⟨fun c => Cert.KernelIdeal.Hand.bnd18 m c (Proc.devRef .tc Cert.KernelIdeal.main_v235), ?_, ?_⟩
  · -- the kernel program: its result array at the last boundary's contents, its arguments unwritten
    refine (θ_run Cert.KernelIdeal.defs _ _).mono (fun r h c => ?_) (Cert.KernelIdeal.Hand.run_all m ρ)
    refine ⟨h c _ (Cert.KernelIdeal.Hand.mem_uc Cert.KernelIdeal.main_v235 (by decide)), ?_⟩
    repeat' apply And.intro
    all_goals exact Cert.KernelIdeal.Hand.unwritten_end m c r.2 (h c) _ (by decide) (by decide) (by decide) (by decide) (by decide) (by decide) (by decide) (by decide) (by decide) (by decide) (by decide) (by decide) (by decide) (by decide) (by decide) (by decide) (by decide) (by decide) (by decide)
  · -- the reference: its result at the network of its own arguments, which are the kernel program's
    refine (θ_run Cert.ReferenceIdeal.defs _ _).mono (fun r h c => ⟨(h c).1.trans ?_, (h c).2⟩)
      (Cert.ReferenceIdeal.Value.run (F := Ideal) m' ρ')
    refine ((Cert.ReferenceIdeal.Value.val7_main_v334 (launchContents m' c)).symm.trans
      (Cert.ReferenceIdeal.Layers.ref_net (launchContents m' c))).trans ?_
    show _ = Cert.KernelIdeal.Hand.bnd18 m c (Proc.devRef .tc Cert.KernelIdeal.main_v235)
    rw [Cert.Proof.Chain.st8 m c, Cert.Proof.Chain.result_eq m c]
    obtain ⟨a0, a1, a2, a3, a4, a5, a6, a7, a8, a9, a10, a11, a12, a13, a14, a15, a16, a17, a18, a19, a20, a21, a22, a23, a24, a25⟩ := hagree c
    have e0 : launchContents m' c (Proc.devRef .tc Cert.ReferenceIdeal.main_arg0) = Cert.Proof.Chain.A m c Cert.KernelIdeal.main_arg0 := a0
    have e1 : launchContents m' c (Proc.devRef .tc Cert.ReferenceIdeal.main_arg1) = Cert.Proof.Chain.A m c Cert.KernelIdeal.main_arg1 := a1
    have e2 : launchContents m' c (Proc.devRef .tc Cert.ReferenceIdeal.main_arg2) = Cert.Proof.Chain.A m c Cert.KernelIdeal.main_arg2 := a2
    have e3 : launchContents m' c (Proc.devRef .tc Cert.ReferenceIdeal.main_arg3) = Cert.Proof.Chain.A m c Cert.KernelIdeal.main_arg3 := a3
    have e4 : launchContents m' c (Proc.devRef .tc Cert.ReferenceIdeal.main_arg4) = Cert.Proof.Chain.A m c Cert.KernelIdeal.main_arg4 := a4
    have e5 : launchContents m' c (Proc.devRef .tc Cert.ReferenceIdeal.main_arg5) = Cert.Proof.Chain.A m c Cert.KernelIdeal.main_arg5 := a5
    have e6 : launchContents m' c (Proc.devRef .tc Cert.ReferenceIdeal.main_arg6) = Cert.Proof.Chain.A m c Cert.KernelIdeal.main_arg6 := a6
    have e7 : launchContents m' c (Proc.devRef .tc Cert.ReferenceIdeal.main_arg7) = Cert.Proof.Chain.A m c Cert.KernelIdeal.main_arg7 := a7
    have e8 : launchContents m' c (Proc.devRef .tc Cert.ReferenceIdeal.main_arg8) = Cert.Proof.Chain.A m c Cert.KernelIdeal.main_arg8 := a8
    have e9 : launchContents m' c (Proc.devRef .tc Cert.ReferenceIdeal.main_arg9) = Cert.Proof.Chain.A m c Cert.KernelIdeal.main_arg9 := a9
    have e10 : launchContents m' c (Proc.devRef .tc Cert.ReferenceIdeal.main_arg10) = Cert.Proof.Chain.A m c Cert.KernelIdeal.main_arg10 := a10
    have e11 : launchContents m' c (Proc.devRef .tc Cert.ReferenceIdeal.main_arg11) = Cert.Proof.Chain.A m c Cert.KernelIdeal.main_arg11 := a11
    have e12 : launchContents m' c (Proc.devRef .tc Cert.ReferenceIdeal.main_arg12) = Cert.Proof.Chain.A m c Cert.KernelIdeal.main_arg12 := a12
    have e13 : launchContents m' c (Proc.devRef .tc Cert.ReferenceIdeal.main_arg13) = Cert.Proof.Chain.A m c Cert.KernelIdeal.main_arg13 := a13
    have e14 : launchContents m' c (Proc.devRef .tc Cert.ReferenceIdeal.main_arg14) = Cert.Proof.Chain.A m c Cert.KernelIdeal.main_arg14 := a14
    have e15 : launchContents m' c (Proc.devRef .tc Cert.ReferenceIdeal.main_arg15) = Cert.Proof.Chain.A m c Cert.KernelIdeal.main_arg15 := a15
    have e16 : launchContents m' c (Proc.devRef .tc Cert.ReferenceIdeal.main_arg16) = Cert.Proof.Chain.A m c Cert.KernelIdeal.main_arg16 := a16
    have e17 : launchContents m' c (Proc.devRef .tc Cert.ReferenceIdeal.main_arg17) = Cert.Proof.Chain.A m c Cert.KernelIdeal.main_arg17 := a17
    have e18 : launchContents m' c (Proc.devRef .tc Cert.ReferenceIdeal.main_arg18) = Cert.Proof.Chain.A m c Cert.KernelIdeal.main_arg18 := a18
    have e19 : launchContents m' c (Proc.devRef .tc Cert.ReferenceIdeal.main_arg19) = Cert.Proof.Chain.A m c Cert.KernelIdeal.main_arg19 := a19
    have e20 : launchContents m' c (Proc.devRef .tc Cert.ReferenceIdeal.main_arg20) = Cert.Proof.Chain.A m c Cert.KernelIdeal.main_arg20 := a20
    have e21 : launchContents m' c (Proc.devRef .tc Cert.ReferenceIdeal.main_arg21) = Cert.Proof.Chain.A m c Cert.KernelIdeal.main_arg21 := a21
    have e22 : launchContents m' c (Proc.devRef .tc Cert.ReferenceIdeal.main_arg22) = Cert.Proof.Chain.A m c Cert.KernelIdeal.main_arg22 := a22
    have e23 : launchContents m' c (Proc.devRef .tc Cert.ReferenceIdeal.main_arg23) = Cert.Proof.Chain.A m c Cert.KernelIdeal.main_arg23 := a23
    have e24 : launchContents m' c (Proc.devRef .tc Cert.ReferenceIdeal.main_arg24) = Cert.Proof.Chain.A m c Cert.KernelIdeal.main_arg24 := a24
    have e25 : launchContents m' c (Proc.devRef .tc Cert.ReferenceIdeal.main_arg25) = Cert.Proof.Chain.A m c Cert.KernelIdeal.main_arg25 := a25
    rw [e0, e1, e2, e3, e4, e5, e6, e7, e8, e9, e10, e11, e12, e13, e14, e15, e16, e17, e18, e19, e20, e21, e22, e23, e24, e25]

end Cert.Proof.Alg

end
-- ==== Proof.lean ====
/-
  The proof of `Cert.Claim`: a two-graph message-passing network — two convolution + graph-normalization layers per graph,
  pooling, a three-layer head — as a program of nine tiled pallas_calls among host operations, against the same network in
  plain host operations.

  The three frames. Each kernel program is eighteen items in a row, nine stretches of host operations alternating with the
  nine pallas_calls; a call's body loads whole staging blocks, computes, stores one block; its pipeline fetches and writes
  back blocks of 2000 node rows. Every run terminates and ends with each buffer at the last of nineteen boundary contents,
  and an argument array, which nothing writes, is read back at its launch contents (Proof/KI/*, and Proof/K/* for the
  word-level program: the same text in the other namespace). The reference's frame is its run read back.

  Nothing was rewritten by the idealization, so there is nothing to preserve.

  Equal results on the extended reals (Proof/Algebraic.lean): each call's output array is ONE whole-array formula of the
  arrays it finds (Proof/Tile*.lean: the fifty blocks are restrictions of one function and cover the array), which is the
  reference's layer entry by entry — a tiled matrix product into a zero accumulator and the host's product are the same
  sum; the kernel's reciprocal square root of (a node's variance + eps) is the reference's per-graph reciprocal square
  root read back at the node (Proof/RefLayers.lean); every stretch of host operations is the reference's own operations
  on the same inputs (Proof/ChainA.lean, Proof/ChainB.lean). No law used needs the inputs finite.
-/
import proofs.«167438_j18270790877246_1_alg».proof.Defs
import proofs.«167438_j18270790877246_1_alg».proof.Proof.Gen.Kernel
import proofs.«167438_j18270790877246_1_alg».proof.Proof.Gen.KernelIdeal
import proofs.«167438_j18270790877246_1_alg».proof.Proof.Gen.ReferenceIdeal
import proofs.«167438_j18270790877246_1_alg».proof.Proof.Gen.Pre_finite_inputs
import proofs.«167438_j18270790877246_1_alg».proof.Proof.Frames
import proofs.«167438_j18270790877246_1_alg».proof.Proof.RefFrame
import proofs.«167438_j18270790877246_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, RefFrame.frame_ri, Frames.preserves, Alg.algebraic⟩

end Cert.Proof

end
